-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x131072x128 : Shape := ⟨4, ![1, 2, 131072, 128]⟩
abbrev S_ : Shape := ⟨0, ![]⟩

class Facts : Prop where
  bcast_S_S1x2x131072x128 : S_.BroadcastsInDim S1x2x131072x128 (![] : Fin 0 → Fin S1x2x131072x128.rank)
  reducesTo_S1x2x131072x128_S_d0_1_2_3 : S1x2x131072x128.ReducesTo [0, 1, 2, 3] S_
  h_S_ : 0 < S_.numel

variable [Facts]

def fn {F : FTy → Type} [FloatOps F] (main_arg0 : FVec F S1x2x131072x128 .f32) : IVec S_ 1 :=
  let main_v0 : FVec F S1x2x131072x128 .f32 := Host.absf main_arg0
  let main_cst : FVec F S_ .f32 := constant S_ .f32 0x7F800000#32
  let main_v1 : FVec F S1x2x131072x128 .f32 := broadcastInDim S1x2x131072x128 ![] bcast_S_S1x2x131072x128 main_cst
  let main_v2 : IVec S1x2x131072x128 1 := cmpf .olt main_v0 main_v1
  let main_c : IVec S_ 1 := constantI S_ 1 1#1
  let main_v3 : IVec S_ 1 := (fun x v => Host.reduce IntOp.andi x v reducesTo_S1x2x131072x128_S_d0_1_2_3 h_S_) main_v2 main_c
  main_v3
-- ==== Kernel.lean ====
abbrev S1x2x131072x128 : Shape := ⟨4, ![1, 2, 131072, 128]⟩
abbrev S262144x128 : Shape := ⟨2, ![262144, 128]⟩
abbrev S33554432 : Shape := ⟨1, ![33554432]⟩
abbrev S14680064 : Shape := ⟨1, ![14680064]⟩
abbrev S32768 : Shape := ⟨1, ![32768]⟩
abbrev S_ : Shape := ⟨0, ![]⟩
abbrev S16 : Shape := ⟨1, ![16]⟩
abbrev S147456x128 : Shape := ⟨2, ![147456, 128]⟩
abbrev S16384x128 : Shape := ⟨2, ![16384, 128]⟩
abbrev S1x128 : Shape := ⟨2, ![1, 128]⟩
abbrev S114688x128 : Shape := ⟨2, ![114688, 128]⟩

abbrev nBuf : Table → Nat
  | .hbm => 8
  | .local .tc .vmem => 4
  | .local .scVector .vmem => 2
  | _ => 0

abbrev bufTy : (tb : Table) → Fin (nBuf tb) → BufTy
  | .hbm, ⟨0, _⟩ => ⟨S1x2x131072x128, .f32⟩
  | .hbm, ⟨1, _⟩ => ⟨S262144x128, .f32⟩
  | .hbm, ⟨2, _⟩ => ⟨S33554432, .f32⟩
  | .hbm, ⟨3, _⟩ => ⟨S14680064, .f32⟩
  | .hbm, ⟨4, _⟩ => ⟨S147456x128, .f32⟩
  | .hbm, ⟨5, _⟩ => ⟨S114688x128, .f32⟩
  | .hbm, ⟨6, _⟩ => ⟨S262144x128, .f32⟩
  | .hbm, ⟨7, _⟩ => ⟨S1x2x131072x128, .f32⟩
  | .local .tc .vmem, ⟨0, _⟩ => ⟨S16384x128, .f32⟩
  | .local .tc .vmem, ⟨1, _⟩ => ⟨S16384x128, .f32⟩
  | .local .tc .vmem, ⟨2, _⟩ => ⟨S16384x128, .f32⟩
  | .local .tc .vmem, ⟨3, _⟩ => ⟨S16384x128, .f32⟩
  | .local .scVector .vmem, ⟨0, _⟩ => ⟨S32768, .f32⟩
  | .local .scVector .vmem, ⟨1, _⟩ => ⟨S32768, .f32⟩
  | _, _ => ⟨S1x2x131072x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v1_scv : Ref sig .scVector := ⟨.hbm, 2, rfl⟩
abbrev main_v2_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem1_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let c18874368_i32 : BitVec 32 := 18874368#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c458752_i32 : BitVec 32 := 458752#32
  let v2 : BitVec 32 := Scalar.muli v1 c458752_i32
  let v19 : BitVec 32 := Scalar.addi c18874368_i32 v2
  let v20 : BitVec 32 := Scalar.addi v19 c0_i32
  ![v20.toNat]
@[reducible] def k0_t1_loop : Scf.Loop 32 :=
  let c0_i32_9 : BitVec 32 := 0#32
  let c32_i32 : BitVec 32 := 32#32
  let v31 : BitVec 32 := Scalar.addi c0_i32_9 c32_i32
  let c1_i32_10 : BitVec 32 := 1#32
  ⟨c0_i32_9, v31, c1_i32_10⟩
def k0_off2 (k0_t1 : Fin k0_t1_loop.trips) (c0_i32_143 : BitVec 32) (c0_i32_144 : BitVec 32) : Fin 1 → Nat :=
  let c0_i32_9 : BitVec 32 := 0#32
  let c1_i32_10 : BitVec 32 := 1#32
  let arg10 : BitVec 32 := Scf.iv c0_i32_9 c1_i32_10 k0_t1
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
def k0_off3 (i : grid0.Coords) (c0_i32_12 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c458752_i32 : BitVec 32 := 458752#32
  let v2 : BitVec 32 := Scalar.muli v1 c458752_i32
  let v32 : BitVec 32 := Scalar.addi v2 c0_i32_12
  ![v32.toNat]
@[reducible] def k0_t2_loop : Scf.Loop 32 :=
  let c0_i32_18 : BitVec 32 := 0#32
  let c32_i32_19 : BitVec 32 := 32#32
  let v46 : BitVec 32 := Scalar.addi c0_i32_18 c32_i32_19
  let c1_i32_20 : BitVec 32 := 1#32
  ⟨c0_i32_18, v46, c1_i32_20⟩
def k0_off4 (k0_t2 : Fin k0_t2_loop.trips) (c0_i32_143 : BitVec 32) (c0_i32_144 : BitVec 32) : Fin 1 → Nat :=
  let c0_i32_18 : BitVec 32 := 0#32
  let c1_i32_20 : BitVec 32 := 1#32
  let arg10 : BitVec 32 := Scf.iv c0_i32_18 c1_i32_20 k0_t2
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t3_loop : Scf.Loop 32 :=
  let c0_i32_28 : BitVec 32 := 0#32
  let c32_i32_29 : BitVec 32 := 32#32
  let v61 : BitVec 32 := Scalar.addi c0_i32_28 c32_i32_29
  let c1_i32_30 : BitVec 32 := 1#32
  ⟨c0_i32_28, v61, c1_i32_30⟩
def k0_off5 (k0_t3 : Fin k0_t3_loop.trips) (c0_i32_143 : BitVec 32) (c0_i32_144 : BitVec 32) : Fin 1 → Nat :=
  let c0_i32_28 : BitVec 32 := 0#32
  let c1_i32_30 : BitVec 32 := 1#32
  let arg10 : BitVec 32 := Scf.iv c0_i32_28 c1_i32_30 k0_t3
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t4_loop : Scf.Loop 32 :=
  let c0_i32_38 : BitVec 32 := 0#32
  let c32_i32_39 : BitVec 32 := 32#32
  let v76 : BitVec 32 := Scalar.addi c0_i32_38 c32_i32_39
  let c1_i32_40 : BitVec 32 := 1#32
  ⟨c0_i32_38, v76, c1_i32_40⟩
def k0_off6 (k0_t4 : Fin k0_t4_loop.trips) (c0_i32_143 : BitVec 32) (c0_i32_144 : BitVec 32) : Fin 1 → Nat :=
  let c0_i32_38 : BitVec 32 := 0#32
  let c1_i32_40 : BitVec 32 := 1#32
  let arg10 : BitVec 32 := Scf.iv c0_i32_38 c1_i32_40 k0_t4
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t5_loop : Scf.Loop 32 :=
  let c0_i32_48 : BitVec 32 := 0#32
  let c32_i32_49 : BitVec 32 := 32#32
  let v91 : BitVec 32 := Scalar.addi c0_i32_48 c32_i32_49
  let c1_i32_50 : BitVec 32 := 1#32
  ⟨c0_i32_48, v91, c1_i32_50⟩
def k0_off7 (k0_t5 : Fin k0_t5_loop.trips) (c0_i32_143 : BitVec 32) (c0_i32_144 : BitVec 32) : Fin 1 → Nat :=
  let c0_i32_48 : BitVec 32 := 0#32
  let c1_i32_50 : BitVec 32 := 1#32
  let arg10 : BitVec 32 := Scf.iv c0_i32_48 c1_i32_50 k0_t5
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t6_loop : Scf.Loop 32 :=
  let c0_i32_58 : BitVec 32 := 0#32
  let c32_i32_59 : BitVec 32 := 32#32
  let v106 : BitVec 32 := Scalar.addi c0_i32_58 c32_i32_59
  let c1_i32_60 : BitVec 32 := 1#32
  ⟨c0_i32_58, v106, c1_i32_60⟩
def k0_off8 (k0_t6 : Fin k0_t6_loop.trips) (c0_i32_143 : BitVec 32) (c0_i32_144 : BitVec 32) : Fin 1 → Nat :=
  let c0_i32_58 : BitVec 32 := 0#32
  let c1_i32_60 : BitVec 32 := 1#32
  let arg10 : BitVec 32 := Scf.iv c0_i32_58 c1_i32_60 k0_t6
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t7_loop : Scf.Loop 32 :=
  let c0_i32_68 : BitVec 32 := 0#32
  let c32_i32_69 : BitVec 32 := 32#32
  let v121 : BitVec 32 := Scalar.addi c0_i32_68 c32_i32_69
  let c1_i32_70 : BitVec 32 := 1#32
  ⟨c0_i32_68, v121, c1_i32_70⟩
def k0_off9 (k0_t7 : Fin k0_t7_loop.trips) (c0_i32_143 : BitVec 32) (c0_i32_144 : BitVec 32) : Fin 1 → Nat :=
  let c0_i32_68 : BitVec 32 := 0#32
  let c1_i32_70 : BitVec 32 := 1#32
  let arg10 : BitVec 32 := Scf.iv c0_i32_68 c1_i32_70 k0_t7
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t8_loop : Scf.Loop 32 :=
  let c0_i32_78 : BitVec 32 := 0#32
  let c32_i32_79 : BitVec 32 := 32#32
  let v136 : BitVec 32 := Scalar.addi c0_i32_78 c32_i32_79
  let c1_i32_80 : BitVec 32 := 1#32
  ⟨c0_i32_78, v136, c1_i32_80⟩
def k0_off10 (k0_t8 : Fin k0_t8_loop.trips) (c0_i32_143 : BitVec 32) (c0_i32_144 : BitVec 32) : Fin 1 → Nat :=
  let c0_i32_78 : BitVec 32 := 0#32
  let c1_i32_80 : BitVec 32 := 1#32
  let arg10 : BitVec 32 := Scf.iv c0_i32_78 c1_i32_80 k0_t8
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t9_loop : Scf.Loop 32 :=
  let c0_i32_88 : BitVec 32 := 0#32
  let c32_i32_89 : BitVec 32 := 32#32
  let v151 : BitVec 32 := Scalar.addi c0_i32_88 c32_i32_89
  let c1_i32_90 : BitVec 32 := 1#32
  ⟨c0_i32_88, v151, c1_i32_90⟩
def k0_off11 (k0_t9 : Fin k0_t9_loop.trips) (c0_i32_143 : BitVec 32) (c0_i32_144 : BitVec 32) : Fin 1 → Nat :=
  let c0_i32_88 : BitVec 32 := 0#32
  let c1_i32_90 : BitVec 32 := 1#32
  let arg10 : BitVec 32 := Scf.iv c0_i32_88 c1_i32_90 k0_t9
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t10_loop : Scf.Loop 32 :=
  let c0_i32_98 : BitVec 32 := 0#32
  let c32_i32_99 : BitVec 32 := 32#32
  let v166 : BitVec 32 := Scalar.addi c0_i32_98 c32_i32_99
  let c1_i32_100 : BitVec 32 := 1#32
  ⟨c0_i32_98, v166, c1_i32_100⟩
def k0_off12 (k0_t10 : Fin k0_t10_loop.trips) (c0_i32_143 : BitVec 32) (c0_i32_144 : BitVec 32) : Fin 1 → Nat :=
  let c0_i32_98 : BitVec 32 := 0#32
  let c1_i32_100 : BitVec 32 := 1#32
  let arg10 : BitVec 32 := Scf.iv c0_i32_98 c1_i32_100 k0_t10
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t11_loop : Scf.Loop 32 :=
  let c0_i32_108 : BitVec 32 := 0#32
  let c32_i32_109 : BitVec 32 := 32#32
  let v181 : BitVec 32 := Scalar.addi c0_i32_108 c32_i32_109
  let c1_i32_110 : BitVec 32 := 1#32
  ⟨c0_i32_108, v181, c1_i32_110⟩
def k0_off13 (k0_t11 : Fin k0_t11_loop.trips) (c0_i32_143 : BitVec 32) (c0_i32_144 : BitVec 32) : Fin 1 → Nat :=
  let c0_i32_108 : BitVec 32 := 0#32
  let c1_i32_110 : BitVec 32 := 1#32
  let arg10 : BitVec 32 := Scf.iv c0_i32_108 c1_i32_110 k0_t11
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t12_loop : Scf.Loop 32 :=
  let c0_i32_118 : BitVec 32 := 0#32
  let c32_i32_119 : BitVec 32 := 32#32
  let v196 : BitVec 32 := Scalar.addi c0_i32_118 c32_i32_119
  let c1_i32_120 : BitVec 32 := 1#32
  ⟨c0_i32_118, v196, c1_i32_120⟩
def k0_off14 (k0_t12 : Fin k0_t12_loop.trips) (c0_i32_143 : BitVec 32) (c0_i32_144 : BitVec 32) : Fin 1 → Nat :=
  let c0_i32_118 : BitVec 32 := 0#32
  let c1_i32_120 : BitVec 32 := 1#32
  let arg10 : BitVec 32 := Scf.iv c0_i32_118 c1_i32_120 k0_t12
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t13_loop : Scf.Loop 32 :=
  let c0_i32_128 : BitVec 32 := 0#32
  let c32_i32_129 : BitVec 32 := 32#32
  let v211 : BitVec 32 := Scalar.addi c0_i32_128 c32_i32_129
  let c1_i32_130 : BitVec 32 := 1#32
  ⟨c0_i32_128, v211, c1_i32_130⟩
def k0_off15 (k0_t13 : Fin k0_t13_loop.trips) (c0_i32_143 : BitVec 32) (c0_i32_144 : BitVec 32) : Fin 1 → Nat :=
  let c0_i32_128 : BitVec 32 := 0#32
  let c1_i32_130 : BitVec 32 := 1#32
  let arg10 : BitVec 32 := Scf.iv c0_i32_128 c1_i32_130 k0_t13
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
@[reducible] def k0_t14_loop : Scf.Loop 32 :=
  let c0_i32_136 : BitVec 32 := 0#32
  let c32_i32_137 : BitVec 32 := 32#32
  let v219 : BitVec 32 := Scalar.addi c0_i32_136 c32_i32_137
  let c1_i32_138 : BitVec 32 := 1#32
  ⟨c0_i32_136, v219, c1_i32_138⟩
def k0_off16 (k0_t14 : Fin k0_t14_loop.trips) (c0_i32_143 : BitVec 32) (c0_i32_144 : BitVec 32) : Fin 1 → Nat :=
  let c0_i32_136 : BitVec 32 := 0#32
  let c1_i32_138 : BitVec 32 := 1#32
  let arg10 : BitVec 32 := Scf.iv c0_i32_136 c1_i32_138 k0_t14
  let c1024_i32 : BitVec 32 := 1024#32
  let v229 : BitVec 32 := Scalar.muli arg10 c1024_i32
  let v230 : BitVec 32 := Scalar.addi v229 c0_i32_143
  let v231 : BitVec 32 := Scalar.addi v230 c0_i32_144
  let v232 : Index := Scalar.indexCast v231
  ![v232.toNat]
abbrev grid1 : Pipeline.Grid := ⟨1, ![9], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x2x131072x128_S262144x128 : S1x2x131072x128.ShapeCasts S262144x128
  shapeCasts_S262144x128_S33554432 : S262144x128.ShapeCasts S33554432
  iota_S16_d0_w32_scVector : S16.Iotas .scVector 32 [0]
  h_S16 : 0 < S16.numel
  shapeCasts_S16_S16 : S16.ShapeCasts S16
  iota_S1x128_d1_w32 : S1x128.Iotas .tc 32 [1]
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  broadcasts_S1x128_S16384x128 : S1x128.Broadcasts S16384x128
  shapeCasts_S14680064_S114688x128 : S14680064.ShapeCasts S114688x128
  concatenates_S147456x128_S114688x128_S262144x128_d0 : Shape.Concatenates [S147456x128, S114688x128] S262144x128 0
  shapeCasts_S262144x128_S1x2x131072x128 : S262144x128.ShapeCasts S1x2x131072x128
  hcc0_scratch2 : 0 + S_.numel ≤ 8
  hcc0_scratch3 : 1 + S_.numel ≤ 8
  hcc0_scratch4 : 2 + S_.numel ≤ 8
  hcc0_scratch5 : 3 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 14), ∀ a, (k0_off1 i (BitVec.ofNat 32 (32768 * r.val))) a + S32768.size a ≤ S33554432.size a
  k0_t1_ok : k0_t1_loop.OK
  k0_off2_inb : ∀ k0_t1 : Fin k0_t1_loop.trips, ∀ (r₁ : Fin 8) (r₂ : Fin 3), ∀ a, (k0_off2 k0_t1 (BitVec.ofNat 32 (128 * r₁.val)) (BitVec.ofNat 32 (16 * r₂.val))) a + S16.size a ≤ S32768.size a
  k0_off3_inb : ∀ i : grid0.Coords, ∀ (r : Fin 14), ∀ a, (k0_off3 i (BitVec.ofNat 32 (32768 * r.val))) a + S32768.size a ≤ S14680064.size a
  k0_t2_ok : k0_t2_loop.OK
  k0_off4_inb : ∀ k0_t2 : Fin k0_t2_loop.trips, ∀ (r₁ : Fin 8) (r₂ : Fin 3), ∀ a, (k0_off4 k0_t2 (BitVec.ofNat 32 (128 * r₁.val)) (BitVec.ofNat 32 (16 * r₂.val))) a + S16.size a ≤ S32768.size a
  k0_t3_ok : k0_t3_loop.OK
  k0_off5_inb : ∀ k0_t3 : Fin k0_t3_loop.trips, ∀ (r₁ : Fin 8) (r₂ : Fin 3), ∀ a, (k0_off5 k0_t3 (BitVec.ofNat 32 (128 * r₁.val)) (BitVec.ofNat 32 (16 * r₂.val))) a + S16.size a ≤ S32768.size a
  k0_t4_ok : k0_t4_loop.OK
  k0_off6_inb : ∀ k0_t4 : Fin k0_t4_loop.trips, ∀ (r₁ : Fin 8) (r₂ : Fin 3), ∀ a, (k0_off6 k0_t4 (BitVec.ofNat 32 (128 * r₁.val)) (BitVec.ofNat 32 (16 * r₂.val))) a + S16.size a ≤ S32768.size a
  k0_t5_ok : k0_t5_loop.OK
  k0_off7_inb : ∀ k0_t5 : Fin k0_t5_loop.trips, ∀ (r₁ : Fin 8) (r₂ : Fin 3), ∀ a, (k0_off7 k0_t5 (BitVec.ofNat 32 (128 * r₁.val)) (BitVec.ofNat 32 (16 * r₂.val))) a + S16.size a ≤ S32768.size a
  k0_t6_ok : k0_t6_loop.OK
  k0_off8_inb : ∀ k0_t6 : Fin k0_t6_loop.trips, ∀ (r₁ : Fin 8) (r₂ : Fin 3), ∀ a, (k0_off8 k0_t6 (BitVec.ofNat 32 (128 * r₁.val)) (BitVec.ofNat 32 (16 * r₂.val))) a + S16.size a ≤ S32768.size a
  k0_t7_ok : k0_t7_loop.OK
  k0_off9_inb : ∀ k0_t7 : Fin k0_t7_loop.trips, ∀ (r₁ : Fin 8) (r₂ : Fin 3), ∀ a, (k0_off9 k0_t7 (BitVec.ofNat 32 (128 * r₁.val)) (BitVec.ofNat 32 (16 * r₂.val))) a + S16.size a ≤ S32768.size a
  k0_t8_ok : k0_t8_loop.OK
  k0_off10_inb : ∀ k0_t8 : Fin k0_t8_loop.trips, ∀ (r₁ : Fin 8) (r₂ : Fin 3), ∀ a, (k0_off10 k0_t8 (BitVec.ofNat 32 (128 * r₁.val)) (BitVec.ofNat 32 (16 * r₂.val))) a + S16.size a ≤ S32768.size a
  k0_t9_ok : k0_t9_loop.OK
  k0_off11_inb : ∀ k0_t9 : Fin k0_t9_loop.trips, ∀ (r₁ : Fin 8) (r₂ : Fin 3), ∀ a, (k0_off11 k0_t9 (BitVec.ofNat 32 (128 * r₁.val)) (BitVec.ofNat 32 (16 * r₂.val))) a + S16.size a ≤ S32768.size a
  k0_t10_ok : k0_t10_loop.OK
  k0_off12_inb : ∀ k0_t10 : Fin k0_t10_loop.trips, ∀ (r₁ : Fin 8) (r₂ : Fin 3), ∀ a, (k0_off12 k0_t10 (BitVec.ofNat 32 (128 * r₁.val)) (BitVec.ofNat 32 (16 * r₂.val))) a + S16.size a ≤ S32768.size a
  k0_t11_ok : k0_t11_loop.OK
  k0_off13_inb : ∀ k0_t11 : Fin k0_t11_loop.trips, ∀ (r₁ : Fin 8) (r₂ : Fin 3), ∀ a, (k0_off13 k0_t11 (BitVec.ofNat 32 (128 * r₁.val)) (BitVec.ofNat 32 (16 * r₂.val))) a + S16.size a ≤ S32768.size a
  k0_t12_ok : k0_t12_loop.OK
  k0_off14_inb : ∀ k0_t12 : Fin k0_t12_loop.trips, ∀ (r₁ : Fin 8) (r₂ : Fin 3), ∀ a, (k0_off14 k0_t12 (BitVec.ofNat 32 (128 * r₁.val)) (BitVec.ofNat 32 (16 * r₂.val))) a + S16.size a ≤ S32768.size a
  k0_t13_ok : k0_t13_loop.OK
  k0_off15_inb : ∀ k0_t13 : Fin k0_t13_loop.trips, ∀ (r₁ : Fin 8) (r₂ : Fin 3), ∀ a, (k0_off15 k0_t13 (BitVec.ofNat 32 (128 * r₁.val)) (BitVec.ofNat 32 (16 * r₂.val))) a + S16.size a ≤ S32768.size a
  k0_t14_ok : k0_t14_loop.OK
  k0_off16_inb : ∀ k0_t14 : Fin k0_t14_loop.trips, ∀ (r₁ : Fin 8) (r₂ : Fin 3), ∀ a, (k0_off16 k0_t14 (BitVec.ofNat 32 (128 * r₁.val)) (BitVec.ofNat 32 (16 * r₂.val))) a + S16.size a ≤ S32768.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x128.size a ≤ S262144x128.size a
  hwx1_0 : ∀ i : grid1.Coords, EltTy.bits .f32 = 32 ∨ (Rect.block (s := S262144x128) S16384x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S147456x128.size a
  hwx1_1 : ∀ i : grid1.Coords, EltTy.bits .f32 = 32 ∨ (Rect.block (s := S147456x128) S16384x128.size (cc1_transform_1 i) (hinb1_1 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5

abbrev win1_0 : Pipeline.Window sig grid1 :=
  Pipeline.Window.ofSpec (Memref.whole main_v0) S16384x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S16384x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1x2x131072x128 : Shape := ⟨4, ![1, 2, 131072, 128]⟩
abbrev S3 : Shape := ⟨1, ![3]⟩
abbrev S_ : Shape := ⟨0, ![]⟩
abbrev S3x1 : Shape := ⟨2, ![3, 1]⟩
abbrev S1 : Shape := ⟨1, ![1]⟩
abbrev S1x1 : Shape := ⟨2, ![1, 1]⟩
abbrev S1x2x131072x3 : Shape := ⟨4, ![1, 2, 131072, 3]⟩
abbrev S1x1x1x3 : Shape := ⟨4, ![1, 1, 1, 3]⟩

abbrev nBuf : Space → Nat
  | .hbm => 44
  | .vmem => 0
  | .smem => 0
  | _ => 0

abbrev bufTy : (tb : Table) → Fin (tcTables nBuf tb) → BufTy
  | .hbm, ⟨0, _⟩ => ⟨S1x2x131072x128, .f32⟩
  | .hbm, ⟨1, _⟩ => ⟨S3, .i32⟩
  | .hbm, ⟨2, _⟩ => ⟨S3, .f32⟩
  | .hbm, ⟨3, _⟩ => ⟨S_, .i32⟩
  | .hbm, ⟨4, _⟩ => ⟨S3, .i32⟩
  | .hbm, ⟨5, _⟩ => ⟨S3, .i1⟩
  | .hbm, ⟨6, _⟩ => ⟨S_, .i32⟩
  | .hbm, ⟨7, _⟩ => ⟨S3, .i32⟩
  | .hbm, ⟨8, _⟩ => ⟨S3, .i32⟩
  | .hbm, ⟨9, _⟩ => ⟨S3, .i32⟩
  | .hbm, ⟨10, _⟩ => ⟨S3x1, .i32⟩
  | .hbm, ⟨11, _⟩ => ⟨S1, .i32⟩
  | .hbm, ⟨12, _⟩ => ⟨S_, .i32⟩
  | .hbm, ⟨13, _⟩ => ⟨S3x1, .i32⟩
  | .hbm, ⟨14, _⟩ => ⟨S3x1, .i1⟩
  | .hbm, ⟨15, _⟩ => ⟨S1x1, .i32⟩
  | .hbm, ⟨16, _⟩ => ⟨S3x1, .i32⟩
  | .hbm, ⟨17, _⟩ => ⟨S3x1, .i1⟩
  | .hbm, ⟨18, _⟩ => ⟨S3x1, .i1⟩
  | .hbm, ⟨19, _⟩ => ⟨S_, .i1⟩
  | .hbm, ⟨20, _⟩ => ⟨S3, .i1⟩
  | .hbm, ⟨21, _⟩ => ⟨S1x2x131072x3, .f32⟩
  | .hbm, ⟨22, _⟩ => ⟨S1x2x131072x3, .i1⟩
  | .hbm, ⟨23, _⟩ => ⟨S_, .f32⟩
  | .hbm, ⟨24, _⟩ => ⟨S1x2x131072x3, .f32⟩
  | .hbm, ⟨25, _⟩ => ⟨S1x2x131072x3, .f32⟩
  | .hbm, ⟨26, _⟩ => ⟨S1x1x1x3, .f32⟩
  | .hbm, ⟨27, _⟩ => ⟨S1x2x131072x3, .f32⟩
  | .hbm, ⟨28, _⟩ => ⟨S1x2x131072x3, .f32⟩
  | .hbm, ⟨29, _⟩ => ⟨S_, .f32⟩
  | .hbm, ⟨30, _⟩ => ⟨S1x2x131072x3, .f32⟩
  | .hbm, ⟨31, _⟩ => ⟨S1x2x131072x3, .f32⟩
  | .hbm, ⟨32, _⟩ => ⟨S1x1x1x3, .f32⟩
  | .hbm, ⟨33, _⟩ => ⟨S1x2x131072x3, .f32⟩
  | .hbm, ⟨34, _⟩ => ⟨S1x2x131072x3, .f32⟩
  | .hbm, ⟨35, _⟩ => ⟨S_, .i32⟩
  | .hbm, ⟨36, _⟩ => ⟨S3, .i32⟩
  | .hbm, ⟨37, _⟩ => ⟨S3, .i1⟩
  | .hbm, ⟨38, _⟩ => ⟨S_, .i32⟩
  | .hbm, ⟨39, _⟩ => ⟨S3, .i32⟩
  | .hbm, ⟨40, _⟩ => ⟨S3, .i32⟩
  | .hbm, ⟨41, _⟩ => ⟨S3, .i32⟩
  | .hbm, ⟨42, _⟩ => ⟨S3x1, .i32⟩
  | .hbm, ⟨43, _⟩ => ⟨S1x2x131072x128, .f32⟩
  | _, _ => ⟨S1x2x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_call1_cst : Ref sig .tc := ⟨.hbm, 29, rfl⟩
abbrev main_call1_v0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_0 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S3x1_0 : S3.BroadcastsInDim S3x1 (![0] : Fin 1 → Fin S3x1.rank)
  bcast_S_S3x1 : S_.BroadcastsInDim S3x1 (![] : Fin 0 → Fin S3x1.rank)
  bcast_S1_S1x1_1 : S1.BroadcastsInDim S1x1 (![1] : Fin 1 → Fin S1x1.rank)
  bcast_S1x1_S3x1_0_1 : S1x1.BroadcastsInDim S3x1 (![0, 1] : Fin 2 → Fin S3x1.rank)
  reducesTo_S3x1_S3_d1 : S3x1.ReducesTo [1] S3
  h_S_ : 0 < S_.numel
  bcast_S3_S1x2x131072x3_3 : S3.BroadcastsInDim S1x2x131072x3 (![3] : Fin 1 → Fin S1x2x131072x3.rank)
  bcast_S_S1x2x131072x3 : S_.BroadcastsInDim S1x2x131072x3 (![] : Fin 0 → Fin S1x2x131072x3.rank)
  bcast_S3_S1x1x1x3_3 : S3.BroadcastsInDim S1x1x1x3 (![3] : Fin 1 → Fin S1x1x1x3.rank)
  bcast_S1x1x1x3_S1x2x131072x3_0_1_2_3 : S1x1x1x3.BroadcastsInDim S1x2x131072x3 (![0, 1, 2, 3] : Fin 4 → Fin S1x2x131072x3.rank)
  gather_S1x2x131072x128_S3x1_S1x2x131072x3_012_3_n_n_3_1_121310721_wf : GatherDims.WF S1x2x131072x128 S3x1 S1x2x131072x3 [0, 1, 2] [3] [] [3] [] 1 ![1, 2, 131072, 1]
  scatter_S1x2x131072x128_S3x1_S1x2x131072x3_012_3_3_1_wf : ScatterDims.WF S1x2x131072x128 S3x1 S1x2x131072x3 [0, 1, 2] [3] [3] 1

variable [Facts₀]

def gather_S1x2x131072x128_S3x1_S1x2x131072x3_012_3_n_n_3_1_121310721 : GatherDims S1x2x131072x128 S3x1 S1x2x131072x3 where
  offsetDims := [0, 1, 2]
  collapsedSliceDims := [3]
  operandBatchingDims := []
  startIndicesBatchingDims := []
  startIndexMap := [3]
  indexVectorDim := 1
  sliceSizes := ![1, 2, 131072, 1]
  wf := gather_S1x2x131072x128_S3x1_S1x2x131072x3_012_3_n_n_3_1_121310721_wf
def scatter_S1x2x131072x128_S3x1_S1x2x131072x3_012_3_3_1 : ScatterDims S1x2x131072x128 S3x1 S1x2x131072x3 where
  updateWindowDims := [0, 1, 2]
  insertedWindowDims := [3]
  scatterDimsToOperandDims := [3]
  indexVectorDim := 1
  wf := scatter_S1x2x131072x128_S3x1_S1x2x131072x3_012_3_3_1_wf

class Facts : Prop extends Facts₀ where

variable [Facts]
-- ==== Proof.KI.Common.lean ====
/-
  The idealized kernel's program as the launch theorem reads it, and the ghost state every module of
  its proof shares: the handshakes between the TensorCore, the sequencers and the vector subcores; the
  TensorCore pipeline's staging cells; and the counters of the vector subcores' own copies.
-/
import proofs.«212535_g38190849196153_cont_8to1_b_1410_19_alg».proof.KernelIdeal
import proofs.«212535_g38190849196153_cont_8to1_b_1410_19_alg».proof.Proof.Gen.KernelIdeal
import Idealize.ShloMosaic.Lib.SparseCore.Launch
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, the pipeline's staging cells, the copies' counters -/

abbrev UH : Type := URounds (GSem nD τ sig) ℕ
abbrev UP : Type := UR sig nD τ
abbrev UU : Type := UH × (UP × Counters)

/-- The handshakes' rounds library: the left factor. -/
abbrev EH : Emb UH (MT nD τ sig (HIx 1) (Elt F) ℕ UU ℕ) := embL
/-- The pipeline's rounds library: the left of the right factor. The counters are found by instance in what is left. -/
def EP : Emb UP (MT nD τ sig (HIx 1) (Elt F) ℕ UU ℕ) :=
  (Emb.inl : Emb UP (UP × Counters)).trans embR

/-! ## The arrays, as locations of device `d` -/

/-- the argument; its two reshapes (rows of 128, then flat); the vector subcores' result (flat); the
    TensorCore kernel's result (rows); the subcores' result as rows; both joined; the result. -/
abbrev aLoc (d : Dev nD) : Loc nD τ sig := (SparseCore.T d).loc main_arg0
abbrev x0Loc (d : Dev nD) : Loc nD τ sig := (SparseCore.T d).loc main_v0
abbrev x1Loc (d : Dev nD) : Loc nD τ sig := (SparseCore.T d).loc main_v1
abbrev o2Loc (d : Dev nD) : Loc nD τ sig := (SparseCore.T d).loc main_v2
abbrev o3Loc (d : Dev nD) : Loc nD τ sig := (SparseCore.T d).loc main_v3
abbrev o4Loc (d : Dev nD) : Loc nD τ sig := (SparseCore.T d).loc main_v4
abbrev o5Loc (d : Dev nD) : Loc nD τ sig := (SparseCore.T d).loc main_v5
abbrev o6Loc (d : Dev nD) : Loc nD τ sig := (SparseCore.T d).loc main_v6

end Cert.Proof.KI

end
-- ==== Proof.KI.Chunks.lean ====
/-
  The chunks. The flat argument has 33554432 = 1024 · 32768 words and the vector subcores' result
  14680064 = 448 · 32768. Vector subcore number t = 2·s + c (subcore s of SparseCore c; 32 of them)
  works on 14 consecutive chunks: it reads chunks 576 + 14·t + g of the flat argument (576 chunks are
  the 147456 rows the TensorCore kernel handles) and writes chunks 14·t + g of the result, g < 14.
-/
import proofs.«212535_g38190849196153_cont_8to1_b_1410_19_alg».proof.Proof.KI.Common

noncomputable section

namespace Cert.Proof.KI

open Cert.KernelIdeal Cert.KernelIdeal.Gen
open Idealize.ShloMosaic

theorem hdivI : 1024 ∣ S33554432.size 0 := ⟨32768, rfl⟩
theorem hdivO : 448 ∣ S14680064.size 0 := ⟨32768, rfl⟩

/-- Chunk `n` of the flat argument, and of the subcores' result, as rectangles. -/
abbrev inRect (n : Fin 1024) : Rect S33554432 := Rect.part (s := S33554432) (a₀ := 0) hdivI n
abbrev outRect (n : Fin 448) : Rect S14680064 := Rect.part (s := S14680064) (a₀ := 0) hdivO n

/-- The same as sets of positions. -/
abbrev inChunk (n : Fin 1024) : Finset S33554432.Idx := (inRect n).set
abbrev outChunk (n : Fin 448) : Finset S14680064.Idx := (outRect n).set

theorem bound_zero : grid0.bound 0 = 2 := rfl
theorem bound_one : grid0.bound 1 = 16 := rfl

/-- A grid point's vector subcore number: subcore-major, two SparseCores. -/
def tileNo (L : grid0.Coords) : ℕ := 2 * (L 1).val + (L 0).val

theorem tileNo_lt (L : grid0.Coords) : tileNo L < 32 := by
  have h0 : (L 0).val < 2 := (L 0).isLt
  have h1 : (L 1).val < 16 := (L 1).isLt
  unfold tileNo; omega

/-- The chunks subcore `L` reads and writes at its step `g`. -/
def inIx (L : grid0.Coords) (g : Fin 14) : Fin 1024 := ⟨576 + 14 * tileNo L + g.val, by have := tileNo_lt L; have := g.isLt; omega⟩
def outIx (L : grid0.Coords) (g : Fin 14) : Fin 448 := ⟨14 * tileNo L + g.val, by have := tileNo_lt L; have := g.isLt; omega⟩

end Cert.Proof.KI

end
-- ==== Proof.KI.Split.lean ====
/-
  How the flat argument and the subcores' result split among the 2 · 16 subcores and their 14 steps.
  A triple (c, s, g) — SparseCore, subcore, step — names chunk 14·(2·s + c) + g of the result and chunk
  576 + 14·(2·s + c) + g of the flat argument. The map onto the 448 result chunks is a bijection, so the
  result array is the disjoint union of its triples' chunks; the argument's chunks of the triples are
  pairwise disjoint and the rest of the argument (the first 576 chunks) is set aside.
-/
import proofs.«212535_g38190849196153_cont_8to1_b_1410_19_alg».proof.Proof.KI.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- SparseCore, subcore, step. -/
abbrev TI : Type := Fin 2 × Fin 16 × Fin 14

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem tileNo_coordsV (c : Fin (grid0.bound 0)) (s : Fin (grid0.bound 1)) : tileNo (coordsV c s) = 2 * s.val + c.val := rfl

def coordsT (t : TI) : grid0.Coords := coordsV (Fin.cast bound_zero.symm t.1) (Fin.cast bound_one.symm t.2.1)
def inOf (t : TI) : Fin 1024 := inIx (coordsT t) t.2.2
def outOf (t : TI) : Fin 448 := outIx (coordsT t) t.2.2

theorem outOf_val (t : TI) : (outOf t).val = 14 * (2 * t.2.1.val + t.1.val) + t.2.2.val := rfl
theorem inOf_val (t : TI) : (inOf t).val = 576 + 14 * (2 * t.2.1.val + t.1.val) + t.2.2.val := rfl

theorem outOf_injective : Function.Injective outOf := by
  rintro ⟨c, s, g⟩ ⟨c', s', g'⟩ h
  have h' := congrArg Fin.val h
  simp only [outOf_val] at h'
  have := c.isLt; have := c'.isLt; have := s.isLt; have := s'.isLt; have := g.isLt; have := g'.isLt
  have hc : c.val = c'.val := by omega
  have hs : s.val = s'.val := by omega
  have hg : g.val = g'.val := by omega
  exact Prod.ext (Fin.ext hc) (Prod.ext (Fin.ext hs) (Fin.ext hg))

theorem inOf_injective : Function.Injective inOf := by
  rintro ⟨c, s, g⟩ ⟨c', s', g'⟩ h
  have h' := congrArg Fin.val h
  simp only [inOf_val] at h'
  have := c.isLt; have := c'.isLt; have := s.isLt; have := s'.isLt; have := g.isLt; have := g'.isLt
  have hc : c.val = c'.val := by omega
  have hs : s.val = s'.val := by omega
  have hg : g.val = g'.val := by omega
  exact Prod.ext (Fin.ext hc) (Prod.ext (Fin.ext hs) (Fin.ext hg))

theorem outOf_surjective : Function.Surjective outOf := fun n => by
  have hn := n.isLt
  refine ⟨(⟨(n.val / 14) % 2, by omega⟩, ⟨(n.val / 14) / 2, by omega⟩, ⟨n.val % 14, by omega⟩), Fin.ext ?_⟩
  rw [outOf_val]
  show 14 * (2 * ((n.val / 14) / 2) + (n.val / 14) % 2) + n.val % 14 = n.val
  omega

theorem out_disjoint : ∀ t ∈ (Finset.univ : Finset TI), ∀ t' ∈ (Finset.univ : Finset TI), t ≠ t' → Disjoint (outChunk (outOf t)) (outChunk (outOf t')) :=
  fun t _ t' _ h => Rect.part_disjoint hdivO fun e => h (outOf_injective e)

theorem in_disjoint : ∀ t ∈ (Finset.univ : Finset TI), ∀ t' ∈ (Finset.univ : Finset TI), t ≠ t' → Disjoint (inChunk (inOf t)) (inChunk (inOf t')) :=
  fun t _ t' _ h => Rect.part_disjoint hdivI fun e => h (inOf_injective e)

theorem out_cover : (Finset.univ : Finset TI).biUnion (fun t => outChunk (outOf t)) = Finset.univ :=
  calc (Finset.univ : Finset TI).biUnion (fun t => outChunk (outOf t))
      = ((Finset.univ : Finset TI).image outOf).biUnion outChunk := Finset.image_biUnion.symm
    _ = (Finset.univ : Finset (Fin 448)).biUnion outChunk := by rw [Finset.image_univ_of_surjective outOf_surjective]
    _ = Finset.univ := Rect.biUnion_part hdivO

/-- The argument's positions the subcores read. -/
def tailSet : Finset S33554432.Idx := (Finset.univ : Finset TI).biUnion fun t => inChunk (inOf t)

/-- The subcores' result whole is its triples' chunks. -/
theorem o2_split (d : Dev nD) (f : Buf (Elt F) (o2Loc d)) :
    (o2Loc d ↦{fullShare} f : sProp 𝕄) = bigSep Finset.univ fun t : TI => o2Loc d ↦[outChunk (outOf t)]{fullShare} f := by
  rw [← pointsTo_biUnion Finset.univ (ℓ := o2Loc d) (fun t : TI => outChunk (outOf t)) out_disjoint, out_cover]; try rfl

/-- The part of the flat argument the subcores read is its triples' chunks. -/
theorem x1_tail (d : Dev nD) (f : Buf (Elt F) (x1Loc d)) :
    (x1Loc d ↦[tailSet]{fullShare} f : sProp 𝕄) = bigSep Finset.univ fun t : TI => x1Loc d ↦[inChunk (inOf t)]{fullShare} f :=
  pointsTo_biUnion Finset.univ (ℓ := x1Loc d) (fun t : TI => inChunk (inOf t)) in_disjoint

/-- The flat argument whole is that part and the rest. -/
theorem x1_split (d : Dev nD) (f : Buf (Elt F) (x1Loc d)) :
    (x1Loc d ↦{fullShare} f : sProp 𝕄) ⊣⊢ iprop((x1Loc d ↦[tailSet]{fullShare} f) ∗ x1Loc d ↦[Finset.univ \ tailSet]{fullShare} f) :=
  pointsTo_split_subset (Finset.subset_univ _)

/-- A family over the triples, grouped by SparseCore, then subcore, then step. -/
theorem bigSep_triples (Φ : TI → sProp 𝕄) :
    (bigSep Finset.univ fun c : Fin 2 => bigSep Finset.univ fun s : Fin 16 => bigSep Finset.univ fun g : Fin 14 => Φ (c, s, g))
      = bigSep Finset.univ Φ := by
  refine Eq.symm ?_
  rw [BI.bigSep_univ_prod]
  refine bigSep_congr fun c _ => ?_
  rw [BI.bigSep_univ_prod]

end Cert.Proof.KI

end
-- ==== Proof.KI.ScOut.lean ====
/-
  What the vector subcores leave in their result, as one function of the flat argument.

  A subcore handles the flat array in rows of 128 words. In each row it replaces the words of columns
  0–15, 16–31 and 32–47 by their maximum with a vector of sixteen floors: the first vector carries the
  number whose f32 word is 0xBED55555 in lane 3, the second zero in lane 1 (column 17), the third zero in lane 10
  (column 42), and every other lane carries -∞. Columns 48–127 are not touched. The result position
  j holds the value so obtained from the flat argument's position j + 18874368 (the first 18874368
  words, 147456 rows, are the other kernel's).
-/
import proofs.«212535_g38190849196153_cont_8to1_b_1410_19_alg».proof.Proof.KI.Chunks
import Idealize.ShloMosaic.Lib.ValueIdx

noncomputable section

namespace Cert.Proof.KI

open Cert.KernelIdeal Cert.KernelIdeal.Gen
open Idealize.ShloMosaic
open Idealize.ShloMosaic.SparseCore (S V T)
open Idealize.ShloMosaic.ValueIdx (ix1)

variable {F : FTy → Type}

/-! ## The place a grid point runs at -/

abbrev cV (L : grid0.Coords) : Fin τ.nSC := (L 0).castLE Facts₀.hcore0
abbrev jV (L : grid0.Coords) : Fin τ.nSub := (L 1).castLE Facts₀.hsub0
abbrev VT (d : Dev nD) (L : grid0.Coords) : Thread nD τ := V d (cV L) (jV L)

/-! ## The three vectors of floors, as the body builds them -/

/-- The sixteen lane numbers. -/
def lanes : IVec S16 32 := iota .scVector S16 32 [0] Facts₀.iota_S16_d0_w32_scVector

/-- Columns 0–15: the number with word 0xBED55555 in lane 3, -∞ elsewhere. -/
def floorA [FloatOps F] : FVec F S16 .f32 :=
  select (cmpi .eq lanes (broadcast S16 3#32)) (broadcast S16 (Scalar.ofBits .f32 0xBED55555#32)) (broadcast S16 (Scalar.ofBits .f32 0xFF800000#32))
/-- Columns 16–31: zero in lane 1, -∞ elsewhere. -/
def floorB [FloatOps F] : FVec F S16 .f32 :=
  select (cmpi .eq lanes (broadcast S16 1#32)) (broadcast S16 (Scalar.ofBits .f32 0x00000000#32)) (broadcast S16 (Scalar.ofBits .f32 0xFF800000#32))
/-- Columns 32–47: zero in lane 10, -∞ elsewhere. -/
def floorC [FloatOps F] : FVec F S16 .f32 :=
  select (cmpi .eq lanes (broadcast S16 10#32)) (broadcast S16 (Scalar.ofBits .f32 0x00000000#32)) (broadcast S16 (Scalar.ofBits .f32 0xFF800000#32))

/-! ## The value left at a position -/

/-- What a subcore leaves at a flat position `p` (column `p % 128`) where it found `x`. -/
def fixAt [FloatOps F] (p : ℕ) (x : F .f32) : F .f32 :=
  if hA : p % 128 < 16 then FloatOps.maximumf x (floorA (ix1 ⟨p % 128, hA⟩))
  else if hB : p % 128 < 32 then FloatOps.maximumf x (floorB (ix1 ⟨p % 128 - 16, by omega⟩))
  else if hC : p % 128 < 48 then FloatOps.maximumf x (floorC (ix1 ⟨p % 128 - 32, by omega⟩))
  else x

/-- A chunk of 32768 words (256 rows) after a subcore has fixed it in place. -/
def fixChunk [FloatOps F] (f : FVec F S32768 .f32) : FVec F S32768 .f32 := fun q => fixAt (q 0).val (f q)

/-- The flat argument's position that the result's position `j` is computed from. -/
def srcIdx (j : S14680064.Idx) : S33554432.Idx := ix1 ⟨(j 0).val + 18874368, by have := (j 0).isLt; show _ < 33554432; simp at this; omega⟩

/-- The vector subcores' result: position `j` holds the fixed value of the flat argument at `j + 18874368`. -/
def scOut [FloatOps F] (x1 : FVec F S33554432 .f32) : FVec F S14680064 .f32 := fun j => fixAt (j 0).val (x1 (srcIdx j))

end Cert.Proof.KI

end
-- ==== Proof.KI.Assemble.lean ====
/-
  The result array as one function of the argument array, given the two kernels' results as functions
  of their operands: the argument is read as rows of 128 and flat; the first 147456 rows go through
  the row kernel, the flat tail through the subcores' kernel; the flat result is read as rows again,
  the two stacks of rows are joined along the row axis and the whole is read at the argument's shape.
-/
import proofs.«212535_g38190849196153_cont_8to1_b_1410_19_alg».proof.Proof.KI.Common

noncomputable section

namespace Cert.Proof.KI

open Cert.KernelIdeal Cert.KernelIdeal.Gen
open Idealize.ShloMosaic

variable {F : FTy → Type} [FloatOps F]

/-- The argument as rows of 128. -/
def rowsOf (x : FVec F S1x2x131072x128 .f32) : FVec F S262144x128 .f32 :=
  fun i => shapeCast S262144x128 x shapeCasts_S1x2x131072x128_S262144x128 i
/-- The rows, flat. -/
def flatOf (x0 : FVec F S262144x128 .f32) : FVec F S33554432 .f32 :=
  fun i => shapeCast S33554432 x0 shapeCasts_S262144x128_S33554432 i
/-- The subcores' flat result as rows. -/
def tailRows (o2 : FVec F S14680064 .f32) : FVec F S114688x128 .f32 :=
  fun i => shapeCast S114688x128 o2 shapeCasts_S14680064_S114688x128 i
/-- The two stacks of rows joined. -/
def joined (o3 : FVec F S147456x128 .f32) (o4 : FVec F S114688x128 .f32) : FVec F S262144x128 .f32 :=
  concatenate S262144x128 0 [⟨S147456x128, o3⟩, ⟨S114688x128, o4⟩] concatenates_S147456x128_S114688x128_S262144x128_d0
/-- Rows read at the argument's shape. -/
def unrows (o5 : FVec F S262144x128 .f32) : FVec F S1x2x131072x128 .f32 :=
  fun i => shapeCast S1x2x131072x128 o5 shapeCasts_S262144x128_S1x2x131072x128 i

/-- The whole result, over the two kernels' result functions. -/
def resultOf (tcf : FVec F S262144x128 .f32 → FVec F S147456x128 .f32) (scf : FVec F S33554432 .f32 → FVec F S14680064 .f32)
    (x : FVec F S1x2x131072x128 .f32) : FVec F S1x2x131072x128 .f32 :=
  unrows (joined (tcf (rowsOf x)) (tailRows (scf (flatOf (rowsOf x)))))

end Cert.Proof.KI

end
-- ==== Proof.KI.Pay.lean ====
/-
  What the handshakes of the one SparseCore call carry. The call takes, for each of its 2 · 16 subcores,
  the subcore's 14 chunks of the flat argument and its 14 chunks of the result array (at whatever the
  result array held), and brings them back with the result chunks at the subcores' result function of
  the flat argument. A SparseCore's share is its sixteen subcores' shares, so the split among the
  subcores is the identity.
-/
import proofs.«212535_g38190849196153_cont_8to1_b_1410_19_alg».proof.Proof.KI.Split
import proofs.«212535_g38190849196153_cont_8to1_b_1410_19_alg».proof.Proof.KI.ScOut
import proofs.«212535_g38190849196153_cont_8to1_b_1410_19_alg».proof.Proof.KI.Assemble

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-- The argument as rows, and flat, on device `d`: what the two reshapes leave. -/
def x0of (d : Dev nD) : Buf (Elt F) (x0Loc d) := rowsOf (m (aLoc d))
def x1of (d : Dev nD) : Buf (Elt F) (x1Loc d) := flatOf (x0of m d)

/-- A subcore's chunks: of the flat argument at `x1`, of the result array at `o`. -/
def chunksOf (d : Dev nD) (L : grid0.Coords) (x1 : Buf (Elt F) (x1Loc d)) (o : Buf (Elt F) (o2Loc d)) : sProp 𝕄 :=
  iprop((bigSep Finset.univ fun g : Fin 14 => (x1Loc d ↦[inChunk (inIx L g)]{fullShare} x1 : sProp 𝕄))
    ∗ (bigSep Finset.univ fun g : Fin 14 => (o2Loc d ↦[outChunk (outIx L g)]{fullShare} o : sProp 𝕄)))

/-- The grid point of the call's SparseCore `c`, subcore `i`. -/
def coordsP (c : Fin ((K (F := F)).nCore 0)) (i : Fin ((K (F := F)).nSub 0)) : grid0.Coords :=
  coordsV (Fin.cast rfl c) (Fin.cast rfl i)

def P : (K (F := F)).Pay (nD := nD) (Val := Elt F) (Name := ℕ) (U := UU) where
  st := fun q d c => match q with
    | 0 => bigSep Finset.univ fun i : Fin ((K (F := F)).nSub 0) => chunksOf d (coordsP c i) (x1of m d) (m (o2Loc d))
  dn := fun q d c => match q with
    | 0 => bigSep Finset.univ fun i : Fin ((K (F := F)).nSub 0) => chunksOf d (coordsP c i) (x1of m d) (scOut (x1of m d))
  go := fun q d c i => match q with
    | 0 => chunksOf d (coordsP c i) (x1of m d) (m (o2Loc d))
  td := fun q d c i => match q with
    | 0 => chunksOf d (coordsP c i) (x1of m d) (scOut (x1of m d))
  x := fun _ _ => iprop(emp)

instance chunksOf_storable (d : Dev nD) (L : grid0.Coords) (x1 : Buf (Elt F) (x1Loc d)) (o : Buf (Elt F) (o2Loc d)) :
    BI.Storable (upEmb : UEmb _ 𝕄) (chunksOf d L x1 o) := by
  unfold chunksOf; infer_instance

instance P_storable : (P (F := F) m).IsStorable where
  st q d c := match q with
    | 0 => (inferInstance : BI.Storable (upEmb : UEmb _ 𝕄)
        (bigSep Finset.univ fun i : Fin ((K (F := F)).nSub 0) => chunksOf d (coordsP c i) (x1of m d) (m (o2Loc d))))
  dn q d c := match q with
    | 0 => (inferInstance : BI.Storable (upEmb : UEmb _ 𝕄)
        (bigSep Finset.univ fun i : Fin ((K (F := F)).nSub 0) => chunksOf d (coordsP c i) (x1of m d) (scOut (x1of m d))))
  go q d c i := match q with
    | 0 => (inferInstance : BI.Storable (upEmb : UEmb _ 𝕄) (chunksOf d (coordsP c i) (x1of m d) (m (o2Loc d))))
  td q d c i := match q with
    | 0 => (inferInstance : BI.Storable (upEmb : UEmb _ 𝕄) (chunksOf d (coordsP c i) (x1of m d) (scOut (x1of m d))))

/-- A SparseCore's share is its subcores' shares: nothing to split. -/
theorem vecSplit : (K (F := F)).VecSplit' (P m) 0 := by
  intro d c
  show (bigSep Finset.univ fun i : Fin ((K (F := F)).nSub 0) => chunksOf d (coordsP c i) (x1of m d) (m (o2Loc d)))
    ⊢ |={Set.univ}=> iprop((bigSep Finset.univ fun i : Fin ((K (F := F)).nSub 0) => chunksOf d (coordsP c i) (x1of m d) (m (o2Loc d)))
      ∗ ((bigSep Finset.univ fun i : Fin ((K (F := F)).nSub 0) => chunksOf d (coordsP c i) (x1of m d) (scOut (x1of m d)))
          -∗ bigSep Finset.univ fun i : Fin ((K (F := F)).nSub 0) => chunksOf d (coordsP c i) (x1of m d) (scOut (x1of m d))))
  iintro H; imodintro
  isplitl [H]; · iexact H
  iintro H; iexact H

/-- All the subcores' chunks at once are the part of the flat argument they read and the result array whole. -/
theorem allChunks_eq (d : Dev nD) (x1 : Buf (Elt F) (x1Loc d)) (o : Buf (Elt F) (o2Loc d)) :
    (bigSep Finset.univ fun c : Fin ((K (F := F)).nCore 0) => bigSep Finset.univ fun i : Fin ((K (F := F)).nSub 0) => chunksOf d (coordsP c i) x1 o)
      = (iprop((x1Loc d ↦[tailSet]{fullShare} x1) ∗ (o2Loc d ↦{fullShare} o)) : sProp 𝕄) := by
  show (bigSep (Finset.univ : Finset (Fin 2)) fun c => bigSep (Finset.univ : Finset (Fin 16)) fun s =>
      iprop((bigSep Finset.univ fun g : Fin 14 => (x1Loc d ↦[inChunk (inOf (c, s, g))]{fullShare} x1 : sProp 𝕄))
        ∗ (bigSep Finset.univ fun g : Fin 14 => (o2Loc d ↦[outChunk (outOf (c, s, g))]{fullShare} o : sProp 𝕄)))) = _
  simp only [bigSep_sep']
  rw [bigSep_triples (fun t : TI => (x1Loc d ↦[inChunk (inOf t)]{fullShare} x1 : sProp 𝕄)),
    bigSep_triples (fun t : TI => (o2Loc d ↦[outChunk (outOf t)]{fullShare} o : sProp 𝕄)), ← x1_tail, ← o2_split]

theorem st0_eq (d : Dev nD) :
    (bigSep Finset.univ fun c : Fin ((K (F := F)).nCore 0) => (P m).st 0 d c)
      = (iprop((x1Loc d ↦[tailSet]{fullShare} x1of m d) ∗ (o2Loc d ↦{fullShare} m (o2Loc d))) : sProp 𝕄) :=
  allChunks_eq d (x1of m d) (m (o2Loc d))
theorem dn0_eq (d : Dev nD) :
    (bigSep Finset.univ fun c : Fin ((K (F := F)).nCore 0) => (P m).dn 0 d c)
      = (iprop((x1Loc d ↦[tailSet]{fullShare} x1of m d) ∗ (o2Loc d ↦{fullShare} scOut (x1of m d))) : sProp 𝕄) :=
  allChunks_eq d (x1of m d) (scOut (x1of m d))

end Cert.Proof.KI

end
-- ==== Proof.KI.TcOut.lean ====
/-
  The TensorCore kernel's result, as one function of its argument array.

  The kernel works on rows of 128 columns. It builds one row of lower bounds — column 3 is bounded below
  by the f32 number written 0xBED55555, columns 17 and 42 by zero, every other column by -∞ (the word
  0xFF800000), chosen by three selects on the column number — and replaces every entry of a block of
  16384 rows by the maximum of the entry and its column's bound. Nine blocks make the first 147456 rows
  of the argument; so the result at row r and column c is the maximum of the argument there and the
  bound of column c.
-/
import proofs.«212535_g38190849196153_cont_8to1_b_1410_19_alg».proof.Proof.Gen.KernelIdeal
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- The column numbers 0 … 127, as a row. -/
def colRow : IVec S1x128 32 := iota .tc S1x128 32 [1] Facts₀.iota_S1x128_d1_w32

/-- The row of lower bounds: -∞ everywhere, then the number written 0xBED55555 in column 3, then zero in
    columns 17 and 42, each put in by a select on the column number. -/
def floorRow : FVec F S1x128 .f32 :=
  select (cmpi .eq colRow (broadcast S1x128 (42#32 : BitVec 32))) (broadcast S1x128 (Scalar.ofBits (F := F) .f32 0x00000000#32))
    (select (cmpi .eq colRow (broadcast S1x128 (17#32 : BitVec 32))) (broadcast S1x128 (Scalar.ofBits (F := F) .f32 0x00000000#32))
      (select (cmpi .eq colRow (broadcast S1x128 (3#32 : BitVec 32))) (broadcast S1x128 (Scalar.ofBits (F := F) .f32 0xBED55555#32))
        (broadcast S1x128 (Scalar.ofBits (F := F) .f32 0xFF800000#32))))

/-- What the kernel makes of one block of 16384 rows: every entry bounded below by its column's bound. -/
def tcBlock (b : FVec F S16384x128 .f32) : FVec F S16384x128 .f32 :=
  maximumf (shapeCast S16384x128 b Facts₀.shapeCasts_S16384x128_S16384x128) (broadcastTo S16384x128 (floorRow (F := F)) Facts₀.broadcasts_S1x128_S16384x128)

/-- A row of the result is the same row of the argument: the result has the argument's first 147456 rows. -/
theorem row_lt (i : S147456x128.Idx) : (i 0).val < 262144 := by
  have h : (i 0).val < 147456 := idx2_lt0 i
  omega

/-- The result: at row r and column c, the maximum of the argument's entry there and column c's bound. -/
def tcOut (x0 : FVec F S262144x128 .f32) : FVec F S147456x128 .f32 :=
  fun i => FloatOps.maximumf (x0 (ix2 ⟨(i 0).val, row_lt i⟩ (i 1))) (floorRow (F := F) (ix2 0 (i 1)))

end Cert.Proof.KI

end
-- ==== Proof.KI.Host.lean ====
/-
  The TensorCore's arrays of @main as one held set, the five host operations of @main (two reshapes
  before the kernels; a reshape, the join along rows and a reshape after them), and the contents of
  the arrays after each stage as functions of the launch memory.
-/
import proofs.«212535_g38190849196153_cont_8to1_b_1410_19_alg».proof.Proof.KI.Pay
import proofs.«212535_g38190849196153_cont_8to1_b_1410_19_alg».proof.Proof.KI.TcOut
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)
open TcCoe

variable {F : FTy → Type}

local notation "𝕄" => MT nD τ sig (HIx 1) (Elt F) ℕ UU ℕ

/-! ## The arrays -/

abbrev a' : DevRef τ sig := Proc.devRef .tc (main_arg0 : Ref sig .tc)
abbrev x0' : DevRef τ sig := Proc.devRef .tc (main_v0 : Ref sig .tc)
abbrev x1' : DevRef τ sig := Proc.devRef .tc (main_v1 : Ref sig .tc)
abbrev o2' : DevRef τ sig := Proc.devRef .tc (main_v2 : Ref sig .tc)
abbrev o3' : DevRef τ sig := Proc.devRef .tc (main_v3 : Ref sig .tc)
abbrev o4' : DevRef τ sig := Proc.devRef .tc (main_v4 : Ref sig .tc)
abbrev o5' : DevRef τ sig := Proc.devRef .tc (main_v5 : Ref sig .tc)
abbrev o6' : DevRef τ sig := Proc.devRef .tc (main_v6 : Ref sig .tc)

/-- The TensorCore's unscoped arrays: the argument and the seven tensor values of @main. -/
abbrev S8 : Finset (DevRef τ sig) := {a', x0', x1', o2', o3', o4', o5', o6'}

theorem held_S8 (d : Dev nD) (W : Valuation τ sig (Elt F)) :
    (held (T d) S8 W : sProp 𝕄)
      = iprop((aLoc d ↦{fullShare} W a') ∗ (x0Loc d ↦{fullShare} W x0') ∗ (x1Loc d ↦{fullShare} W x1') ∗ (o2Loc d ↦{fullShare} W o2')
          ∗ (o3Loc d ↦{fullShare} W o3') ∗ (o4Loc d ↦{fullShare} W o4') ∗ (o5Loc d ↦{fullShare} W o5') ∗ (o6Loc d ↦{fullShare} W o6')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (x0Loc d ↦{fullShare} W main_v0) ∗ (x1Loc d ↦{fullShare} W main_v1) ∗ (o2Loc d ↦{fullShare} W main_v2)
          ∗ (o3Loc d ↦{fullShare} W main_v3) ∗ (o4Loc d ↦{fullShare} W main_v4) ∗ (o5Loc d ↦{fullShare} W main_v5) ∗ (o6Loc d ↦{fullShare} W main_v6)) := by
  unfold unscopedBufs
  rw [show (Finset.univ.filter fun b : Ref sig .tc => ¬ b.isScoped) = {main_arg0, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The host operations -/

variable [FloatOps F]

abbrev op0 : HloOp τ sig (Elt F) := StableHlo.reshape main_arg0 main_v0 rfl shapeCasts_S1x2x131072x128_S262144x128
abbrev op1 : HloOp τ sig (Elt F) := StableHlo.reshape main_v0 main_v1 rfl shapeCasts_S262144x128_S33554432
abbrev op4 : HloOp τ sig (Elt F) := StableHlo.reshape main_v2 main_v4 rfl shapeCasts_S14680064_S114688x128
abbrev op5 : HloOp τ sig (Elt F) :=
  StableHlo.binary main_v3 main_v4 main_v5 ((fun a b => concatenate S262144x128 0 [⟨S147456x128, a⟩, ⟨S114688x128, b⟩] concatenates_S147456x128_S114688x128_S262144x128_d0) : (⟨S147456x128, .f32⟩ : BufTy).Contents (Elt F) → (⟨S114688x128, .f32⟩ : BufTy).Contents (Elt F) → (⟨S262144x128, .f32⟩ : BufTy).Contents (Elt F))
abbrev op6 : HloOp τ sig (Elt F) := StableHlo.reshape main_v5 main_v6 rfl shapeCasts_S262144x128_S1x2x131072x128

theorem h0 : (op0 (F := F)).bufs ⊆ S8 := show ({a', x0'} : Finset (DevRef τ sig)) ⊆ S8 by decide
theorem h1 : (op1 (F := F)).bufs ⊆ S8 := show ({x0', x1'} : Finset (DevRef τ sig)) ⊆ S8 by decide
theorem h4 : (op4 (F := F)).bufs ⊆ S8 := show ({o2', o4'} : Finset (DevRef τ sig)) ⊆ S8 by decide
theorem h5 : (op5 (F := F)).bufs ⊆ S8 := show ({o3', o4', o5'} : Finset (DevRef τ sig)) ⊆ S8 by decide
theorem h6 : (op6 (F := F)).bufs ⊆ S8 := show ({o5', o6'} : Finset (DevRef τ sig)) ⊆ S8 by decide

/-! ## The contents, stage by stage -/

variable (m : (ℓ : Loc nD τ sig) → Buf (Elt F) ℓ)

/-- At launch; after the two reshapes; after the two kernels; after each of the last three operations. -/
abbrev V0 (d : Dev nD) : Valuation τ sig (Elt F) := fun b => m (d, b)
abbrev V1 (d : Dev nD) : Valuation τ sig (Elt F) := (op0 (F := F)).result (V0 m d)
abbrev V2 (d : Dev nD) : Valuation τ sig (Elt F) := (op1 (F := F)).result (V1 m d)
abbrev V3 (d : Dev nD) : Valuation τ sig (Elt F) :=
  Function.update (Function.update (V2 m d) o2' (scOut (x1of m d))) o3' (tcOut (x0of m d))
abbrev V4 (d : Dev nD) : Valuation τ sig (Elt F) := (op4 (F := F)).result (V3 m d)
abbrev V5 (d : Dev nD) : Valuation τ sig (Elt F) := (op5 (F := F)).result (V4 m d)
abbrev V6 (d : Dev nD) : Valuation τ sig (Elt F) := (op6 (F := F)).result (V5 m d)

theorem V1_x0 (d : Dev nD) : V1 m d x0' = x0of m d := by
  unfold V1 op0; rw [StableHlo.reshape_result]; rfl
theorem V1_a (d : Dev nD) : V1 m d a' = m (aLoc d) :=
  (op0 (F := F)).result_of_not_mem (V0 m d) (b := a') (show a' ∉ ({x0'} : Finset (DevRef τ sig)) by decide)

theorem V2_a (d : Dev nD) : V2 m d a' = m (aLoc d) :=
  ((op1 (F := F)).result_of_not_mem (V1 m d) (b := a') (show a' ∉ ({x1'} : Finset (DevRef τ sig)) by decide)).trans (V1_a m d)
theorem V2_x0 (d : Dev nD) : V2 m d x0' = x0of m d :=
  ((op1 (F := F)).result_of_not_mem (V1 m d) (b := x0') (show x0' ∉ ({x1'} : Finset (DevRef τ sig)) by decide)).trans (V1_x0 m d)
theorem V2_x1 (d : Dev nD) : V2 m d x1' = x1of m d := by
  unfold V2 op1; rw [StableHlo.reshape_result, V1_x0]; rfl

theorem V2_o2 (d : Dev nD) : V2 m d o2' = m (o2Loc d) :=
  ((op1 (F := F)).result_of_not_mem (V1 m d) (b := o2') (show o2' ∉ ({x1'} : Finset (DevRef τ sig)) by decide)).trans
    ((op0 (F := F)).result_of_not_mem (V0 m d) (b := o2') (show o2' ∉ ({x0'} : Finset (DevRef τ sig)) by decide))
theorem V2_o3 (d : Dev nD) : V2 m d o3' = m (o3Loc d) :=
  ((op1 (F := F)).result_of_not_mem (V1 m d) (b := o3') (show o3' ∉ ({x1'} : Finset (DevRef τ sig)) by decide)).trans
    ((op0 (F := F)).result_of_not_mem (V0 m d) (b := o3') (show o3' ∉ ({x0'} : Finset (DevRef τ sig)) by decide))

theorem V3_a (d : Dev nD) : V3 m d a' = m (aLoc d) := by
  unfold V3; rw [Function.update_of_ne (show a' ≠ o3' by decide), Function.update_of_ne (show a' ≠ o2' by decide), V2_a]
theorem V3_x0 (d : Dev nD) : V3 m d x0' = x0of m d := by
  unfold V3; rw [Function.update_of_ne (show x0' ≠ o3' by decide), Function.update_of_ne (show x0' ≠ o2' by decide), V2_x0]
theorem V3_x1 (d : Dev nD) : V3 m d x1' = x1of m d := by
  unfold V3; rw [Function.update_of_ne (show x1' ≠ o3' by decide), Function.update_of_ne (show x1' ≠ o2' by decide), V2_x1]
theorem V3_o2 (d : Dev nD) : V3 m d o2' = scOut (x1of m d) := by
  unfold V3; rw [Function.update_of_ne (show o2' ≠ o3' by decide), Function.update_self]
theorem V3_o3 (d : Dev nD) : V3 m d o3' = tcOut (x0of m d) := by
  unfold V3; rw [Function.update_self]
theorem V3_o4 (d : Dev nD) : V3 m d o4' = V2 m d o4' := by
  unfold V3; rw [Function.update_of_ne (show o4' ≠ o3' by decide), Function.update_of_ne (show o4' ≠ o2' by decide)]
theorem V3_o5 (d : Dev nD) : V3 m d o5' = V2 m d o5' := by
  unfold V3; rw [Function.update_of_ne (show o5' ≠ o3' by decide), Function.update_of_ne (show o5' ≠ o2' by decide)]
theorem V3_o6 (d : Dev nD) : V3 m d o6' = V2 m d o6' := by
  unfold V3; rw [Function.update_of_ne (show o6' ≠ o3' by decide), Function.update_of_ne (show o6' ≠ o2' by decide)]

theorem V4_o4 (d : Dev nD) : V4 m d o4' = tailRows (scOut (x1of m d)) := by
  unfold V4 op4; rw [StableHlo.reshape_result, V3_o2]; rfl
theorem V4_o3 (d : Dev nD) : V4 m d o3' = tcOut (x0of m d) :=
  ((op4 (F := F)).result_of_not_mem (V3 m d) (b := o3') (show o3' ∉ ({o4'} : Finset (DevRef τ sig)) by decide)).trans (V3_o3 m d)
theorem V4_a (d : Dev nD) : V4 m d a' = m (aLoc d) :=
  ((op4 (F := F)).result_of_not_mem (V3 m d) (b := a') (show a' ∉ ({o4'} : Finset (DevRef τ sig)) by decide)).trans (V3_a m d)

theorem V5_o5 (d : Dev nD) : V5 m d o5' = joined (tcOut (x0of m d)) (tailRows (scOut (x1of m d))) := by
  unfold V5 op5; rw [StableHlo.binary_result, V4_o3, V4_o4]; rfl
theorem V5_a (d : Dev nD) : V5 m d a' = m (aLoc d) :=
  ((op5 (F := F)).result_of_not_mem (V4 m d) (b := a') (show a' ∉ ({o5'} : Finset (DevRef τ sig)) by decide)).trans (V4_a m d)

/-- The argument is where it was, -/
theorem V6_a (d : Dev nD) : V6 m d a' = m (aLoc d) :=
  ((op6 (F := F)).result_of_not_mem (V5 m d) (b := a') (show a' ∉ ({o6'} : Finset (DevRef τ sig)) by decide)).trans (V5_a m d)
/-- and the result is the assembly of the two kernels' results. -/
theorem V6_o6 (d : Dev nD) : V6 m d o6' = resultOf tcOut scOut (m (aLoc d)) := by
  unfold V6 op6; rw [StableHlo.reshape_result, V5_o5]; rfl

end Cert.Proof.KI

end
-- ==== Proof.KI.RegionBody.lean ====
import proofs.«212535_g38190849196153_cont_8to1_b_1410_19_alg».proof.Proof.KI.Common
import proofs.«212535_g38190849196153_cont_8to1_b_1410_19_alg».proof.Proof.KI.TcOut
import proofs.«212535_g38190849196153_cont_8to1_b_1410_19_alg».proof.Proof.Gen.KernelIdeal.Launch
import proofs.«212535_g38190849196153_cont_8to1_b_1410_19_alg».proof.Proof.Gen.KernelIdeal.Points
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The blocks and the proof data

The region runs the kernel body at nine points. At point t the pipeline hands the body block t of the
argument rows (rows 16384·t … 16384·t + 16383) and takes back block t of the result. -/

section Data

variable (x0 : FVec F S262144x128 .f32) (f3 : FVec F S147456x128 .f32)
  (O : CellTallies nD τ sig (HIx 1)) (W : Waits sig (HIx 1))

/-- Block t of the argument rows, read off the array as the region finds it. -/
def iblk (c : Dev nD) (t : Fin cfg1.N) : ((cfg1.win 0).xblock (cfg1.grid.coords t)).Idx → Elt F (cfg1.win 0).elt :=
  ((cfg1.win 0).blk t).view.read (Elt F) (x0 : Buf (Elt F) ((cfg1.win 0).arr.view.loc (c.tc : Thread nD τ)))

/-- The proof data of the pipeline on core c: the argument rows at x0 and the result rows at f3 on entry;
    after the body at point t the input's buffer still at its block and the output's at the block bounded
    below; nothing kept between points; what the core owes (O) and the pairs its waits recorded (W)
    pass through untouched. -/
def dats (_ : Fin 1) (c : Dev nD) : Dat τ (Elt F) (HIx 1) ℕ UU ℕ cfg1 c where
  A w := match w with
    | ⟨0, _⟩ => x0
    | ⟨1, _⟩ => f3
  after w t := match w with
    | ⟨0, _⟩ => iblk x0 c t
    | ⟨1, _⟩ => tcBlock (iblk x0 c t)
  Φ _ := BI.emp
  q _ := fullShare
  owed _ := O
  recorded _ := (↑W : Set (SemLoc sig × HIx 1))

theorem A_0 (c : Dev nD) : (dats x0 f3 O W 0 c).A 0 = x0 := by dsimp only [dats]
theorem A_1 (c : Dev nD) : (dats x0 f3 O W 0 c).A 1 = f3 := by dsimp only [dats]
theorem after_0 (c : Dev nD) (t : Fin cfg1.N) : (dats x0 f3 O W 0 c).after 0 t = iblk x0 c t := by dsimp only [dats]
theorem after_1 (c : Dev nD) (t : Fin cfg1.N) : (dats x0 f3 O W 0 c).after 1 t = tcBlock (iblk x0 c t) := by dsimp only [dats]

/-- The input's current staging buffer holds its block at every point: it is fetched at every point. -/
theorem before_0 (c : Dev nD) (t : Fin cfg1.N) (d) : (dats x0 f3 O W 0 c).before 0 t d = iblk x0 c t :=
  ((dats x0 f3 O W 0 c).before_in_eq_fetched 0 rfl (fun _ => rfl) (fun _ _ _ => rfl)
      (fun t => by rw [after_0]; unfold Dat.blockOf iblk; rw [A_0]; try rfl) t d).trans
    (by unfold Dat.fetched Dat.blockOf iblk; rw [A_0]; try rfl)

end Data

/-! ## The body's triple -/

abbrev rAll : Rect S16384x128 := Rect.unit (s := S16384x128) ![0, 0] S16384x128.size Facts₀.inb_S16384x128_S16384x128_0_0

theorem hz : (![0, 0] : Fin 2 → Nat) = fun _ => 0 := funext fun a => by fin_cases a <;> rfl

/-- One store through the whole buffer covers it. -/
theorem cover_all (p0 : Vec F S16384x128 .f32) (y : S16384x128.Idx) :
    ∃ pc ∈ ([⟨rAll, p0⟩] : List (View.Piece (Elt F) S16384x128 .f32)), y ∈ pc.1.set :=
  View.cover_of_tiled [⟨rAll, p0⟩] S16384x128.size (by rfl) y

set_option maxHeartbeats 1000000 in
/-- The kernel body on whole staging buffers, the input's at contents x and the output's at anything, leaves
    the input's as it was and the output's at the block bounded below. -/
theorem sound_kernel (c : Dev nD) (E : Set ℕ) (i : grid1.Coords) (arg1 : Memref sig .tc .vmem S16384x128 .f32) (harg1 : arg1.IsWhole)
    (arg2 : Memref sig .tc .vmem S16384x128 .f32) (harg2 : arg2.IsWhole)
    (x : Vec F S16384x128 .f32) (Kp : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (tcBlock x)) -∗ Kp ⟨⟩))
      ⊢ wp frame (wpE (defs₀ (F := F)) Variants.none c none) E (cc1__bound_kernel i arg1 harg1 arg2 harg2) Kp := by
  unfold owns
  iintro ⟨⟨%f0, %hf0, H0⟩, ⟨%d2, %f2, -, H2⟩, Hk⟩
  subst hf0
  sl_unfold [cc1__bound_kernel]
  sl_exec
  sl_step
  iapply Hk
  isplitl [H0]
  · iexists f0; isplitr; · ipureintro; rfl
    iexact H0
  iexists _; isplitr
  swap; · iexact H2
  ipureintro
  rw [View.read_writes_eq_canon _ _ _ (cover_all _), View.canon_unit_zero hz]
  sl_unfold_words
  simp only [View.readAt_eq_ld, View.ld_unit_zero (S := S16384x128) hz]
  rfl

/-! ## The body obligation, at a generic point -/

section Obligation

variable (x0 : FVec F S262144x128 .f32) (f3 : FVec F S147456x128 .f32)
  (O : CellTallies nD τ sig (HIx 1)) (W : Waits sig (HIx 1))

/-- What the body is called with at point t: the invariant, what the core owes, and each window's current
    staging buffer at what it then holds, -/
def bodyPre (c : Dev nD) (t : Fin cfg1.N) : sProp 𝕄 :=
  iprop((dats x0 f3 O W 0 c).Φ t.castSucc ∗ (dats x0 f3 O W 0 c).owesAt none t.castSucc
    ∗ (∃ d, owns (c : Thread nD τ) (st1_0 t) fullShare ((dats x0 f3 O W 0 c).before 0 t d))
    ∗ (∃ d, owns (c : Thread nD τ) (st1_1 t) fullShare ((dats x0 f3 O W 0 c).before 1 t d)))

/-- and what it returns. -/
def bodyPost (c : Dev nD) (t : Fin cfg1.N) : sProp 𝕄 :=
  iprop((dats x0 f3 O W 0 c).Φ t.succ ∗ (dats x0 f3 O W 0 c).owesAt none t.succ
    ∗ owns (c : Thread nD τ) (st1_0 t) fullShare ((dats x0 f3 O W 0 c).after 0 t)
    ∗ owns (c : Thread nD τ) (st1_1 t) fullShare ((dats x0 f3 O W 0 c).after 1 t))

/-- The body at any point: the input's buffer holds its block, so the body's triple applies; the invariant
    and what the core owes pass through unread. -/
theorem sound_body (c : Dev nD) (t : Fin cfg1.N) :
    bodyPre x0 f3 O W c t ⊢ wp frame (wpE (defs₀ (F := F)) Variants.none c none) Set.univ (bodyAt1 t) (fun _ => bodyPost x0 f3 O W c t) := by
  unfold bodyPre bodyPost bodyAt1
  simp only [before_0]
  rw [show (dats x0 f3 O W 0 c).Φ t.succ = (dats x0 f3 O W 0 c).Φ t.castSucc from rfl,
    show (dats x0 f3 O W 0 c).owesAt none t.succ = (dats x0 f3 O W 0 c).owesAt none t.castSucc from rfl,
    after_0, after_1]
  iintro ⟨HΦ, Ho, ⟨%d0, H0⟩, ⟨%d1, H1⟩⟩
  iapply (sound_kernel c Set.univ (grid1.coords t) _ _ _ _ (iblk x0 c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dats x0 f3 O W 0 c) (defs₀ (F := F)) Variants.none none Set.univ := fun t => by
  rw [bigSep_W1, bigSep_W1]
  exact sound_body x0 f3 O W c t

end Obligation

end Cert.Proof.KI

end
-- ==== Proof.KI.RegionValue.lean ====
import proofs.«212535_g38190849196153_cont_8to1_b_1410_19_alg».proof.Proof.KI.Common
import proofs.«212535_g38190849196153_cont_8to1_b_1410_19_alg».proof.Proof.KI.TcOut
import proofs.«212535_g38190849196153_cont_8to1_b_1410_19_alg».proof.Proof.Gen.KernelIdeal.Launch
import proofs.«212535_g38190849196153_cont_8to1_b_1410_19_alg».proof.Proof.Gen.KernelIdeal.Points
import Idealize.ShloMosaic.Lib.Pipeline.Regions
import Idealize.ShloMosaic.Lib.Pipeline.FrameBody
import Idealize.ShloMosaic.Lib.Pipeline.Value
import Idealize.ShloMosaic.Lib.Tactic
import proofs.«212535_g38190849196153_cont_8to1_b_1410_19_alg».proof.Proof.KI.RegionBody

set_option maxRecDepth 16384

noncomputable section

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## From the blocks to the arrays

Point t writes back block t of the result; the nine blocks are the result's 147456 rows. So after the
region the result array is the one function tcOut of the argument rows, and the argument rows, which
are only read, are as they were. -/

section Value

variable (x0 : FVec F S262144x128 .f32) (f3 : FVec F S147456x128 .f32)
  (O : CellTallies nD τ sig (HIx 1)) (W : Waits sig (HIx 1))

/-- The index maps over the grid: at point t both windows sit at block (t, 0). -/
theorem idx_facts : ∀ t : Fin cfg1.N, win1_0.index t (0 : Fin 2) = win1_1.index t (0 : Fin 2)
    ∧ win1_0.index t (1 : Fin 2) = win1_1.index t (1 : Fin 2)
    ∧ win1_1.index t (0 : Fin 2) ≤ 8 ∧ win1_1.index t (1 : Fin 2) = 0 :=
  (by decide +kernel : ∀ t : Fin grid1.N, _)

/-- Every one of the nine row blocks is some point's. -/
theorem idx_onto : ∀ q : Fin 9, ∃ t : Fin cfg1.N, win1_1.index t = ![q.val, 0] :=
  (by decide +kernel : ∀ q : Fin 9, ∃ t : Fin grid1.N, win1_1.index t = ![q.val, 0])

/-- What point t writes back is block t of tcOut of the argument rows. -/
theorem flushed_eq (c : Dev nD) (t : Fin cfg1.N) :
    (dats x0 f3 O W 0 c).flushed 1 t
      = ((cfg1.win 1).blk t).view.read (Elt F) (tcOut x0 : Buf (Elt F) ((cfg1.win 1).arr.view.loc (c.tc : Thread nD τ))) := by
  show (cfg1.win 1).cut (grid1.coords t) ((dats x0 f3 O W 0 c).after 1 t) = _
  rw [after_1]
  obtain ⟨e0, e1, e2, e3⟩ := idx_facts t
  funext j
  have hj0 : (j 0).val < 16384 := (j 0).isLt
  have hj1 : (j 1).val < 128 := (j 1).isLt
  have hA : ((cfg1.win 0).blk t).view.emb j
      = (ix2 ⟨((((cfg1.win 1).blk t).view.emb j) 0).val, row_lt _⟩ ((((cfg1.win 1).blk t).view.emb j) 1) : S262144x128.Idx) := by
    funext a; apply Fin.ext
    match a with
    | ⟨0, _⟩ => show win1_0.index t (0 : Fin 2) * 16384 + 1 * (j 0).val = win1_1.index t (0 : Fin 2) * 16384 + 1 * (j 0).val; omega
    | ⟨1, _⟩ => show win1_0.index t (1 : Fin 2) * 128 + 1 * (j 1).val = win1_1.index t (1 : Fin 2) * 128 + 1 * (j 1).val; omega
  have hB : broadcastTo S16384x128 (floorRow (F := F)) Facts₀.broadcasts_S1x128_S16384x128 j
      = floorRow (F := F) (ix2 0 ((((cfg1.win 1).blk t).view.emb j) 1)) := by
    refine broadcastTo_apply _ _ j _ ?_
    intro a
    match a with
    | ⟨0, _⟩ => rfl
    | ⟨1, _⟩ => show win1_1.index t (1 : Fin 2) * 128 + 1 * (j 1).val = (j 1).val; omega
  have h1 : shapeCast S16384x128 (iblk x0 c t) Facts₀.shapeCasts_S16384x128_S16384x128 j
      = x0 (ix2 ⟨((((cfg1.win 1).blk t).view.emb j) 0).val, row_lt _⟩ ((((cfg1.win 1).blk t).view.emb j) 1)) :=
    (congrFun (shapeCast_self (iblk x0 c t) Facts₀.shapeCasts_S16384x128_S16384x128) j).trans (congrArg x0 hA)
  exact congrArg₂ FloatOps.maximumf h1 hB

/-- A row and column are in point t's block iff each is in the block's range. -/
theorem mem_blk (t : Fin cfg1.N) (i : S147456x128.Idx) :
    i ∈ ((cfg1.win 1).blk t).view.set ↔ ∀ a : Fin 2, win1_1.index t a * S16384x128.size a ≤ (i a).val ∧ (i a).val < win1_1.index t a * S16384x128.size a + S16384x128.size a := by
  show i ∈ ((View.whole main_v3).slice (win1_1.rect t)).set ↔ _
  rw [View.set_slice_whole, Rect.mem_set_unit]
  exact Iff.rfl

/-- The blocks cover the result: row r is in block r / 16384. -/
theorem cover (i : S147456x128.Idx) : ∃ t : Fin cfg1.N, (cfg1.win 1).flush t = true ∧ i ∈ ((cfg1.win 1).blk t).view.set := by
  have hi0 : (i 0).val < 147456 := idx2_lt0 i
  have hi1 : (i 1).val < 128 := idx2_lt1 i
  obtain ⟨t, ht⟩ := idx_onto ⟨(i 0).val / 16384, by omega⟩
  have q0 : win1_1.index t (0 : Fin 2) = (i 0).val / 16384 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 16384 ≤ (i 0).val ∧ (i 0).val < win1_1.index t (0 : Fin 2) * 16384 + 16384; omega
  | ⟨1, _⟩ => show win1_1.index t (1 : Fin 2) * 128 ≤ (i 1).val ∧ (i 1).val < win1_1.index t (1 : Fin 2) * 128 + 128; omega

/-- After the nine points the result array is tcOut of the argument rows, -/
theorem final_out (c : Dev nD) : (dats x0 f3 O W 0 c).arrAt 1 cfg1.N = tcOut x0 :=
  (dats x0 f3 O W 0 c).arrAt_eq_of_cover 1 (tcOut x0) (fun t _ => flushed_eq x0 f3 O W c t) cover

/-- and the argument rows are as the region found them. -/
theorem final_in (c : Dev nD) : (dats x0 f3 O W 0 c).arrAt 0 cfg1.N = x0 :=
  ((dats x0 f3 O W 0 c).arrAt_in 0 rfl _).trans (A_0 x0 f3 O W c)

end Value

end Cert.Proof.KI

end
-- ==== Proof.KI.Region.lean ====
import proofs.«212535_g38190849196153_cont_8to1_b_1410_19_alg».proof.Proof.KI.Common
import proofs.«212535_g38190849196153_cont_8to1_b_1410_19_alg».proof.Proof.KI.TcOut
import proofs.«212535_g38190849196153_cont_8to1_b_1410_19_alg».proof.Proof.Gen.KernelIdeal.Launch
import proofs.«212535_g38190849196153_cont_8to1_b_1410_19_alg».proof.Proof.Gen.KernelIdeal.Points
import Idealize.ShloMosaic.Lib.Pipeline.Regions
import Idealize.ShloMosaic.Lib.Pipeline.FrameBody
import Idealize.ShloMosaic.Lib.Pipeline.Value
import Idealize.ShloMosaic.Lib.Tactic
import proofs.«212535_g38190849196153_cont_8to1_b_1410_19_alg».proof.Proof.KI.RegionBody
import proofs.«212535_g38190849196153_cont_8to1_b_1410_19_alg».proof.Proof.KI.RegionValue

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline's ghost state at launch -/

instance EP_landsIn : (EP : Emb UP 𝕄).LandsIn (upEmb : UEmb _ 𝕄) := by unfold EP; infer_instance

/-- The one admissible contents of each pipeline: none prefetches a table. -/
abbrev adm : (p : Fin 1) → (pcfgs (F := F) p).Adm := fun p => (cfgs p).toPCfg_adm

/-- The launch element of the pipeline's staging cells: every cell at its launch state, every transfer's
    duty token. -/
def pipeU₀ : UP := initOf (Pipeline.cells (nD := nD) (τ := τ) cfgs cellOf_inj) (Pipeline.launchToks (nD := nD) (τ := τ) cfgs cellOf_inj)

/-- What the launch deals core d for the region: its staging cells' ghost state and duty tokens. -/
def pipeGhost (d : Dev nD) : sProp 𝕄 := iprop(Pipeline.cellsGhost cfgs EP 0 d ∗ Pipeline.toksInit cfgs EP 0 d)

/-- A conjunction over the one pipeline is its one summand. -/
theorem bigSep_one {M : Type} [URA M] (Φ : Fin 1 → sProp M) : bigSep Finset.univ Φ = Φ 0 := by
  rw [show (Finset.univ : Finset (Fin 1)) = {0} from by decide, bigSep_singleton]

/-- The launch element yields every core's share. -/
theorem pipe_fund : BI.own (EP (F := F) pipeU₀) ⊢ iprop(|==> bigSep Finset.univ fun d : Dev nD => pipeGhost (F := F) d) := by
  have h := Pipeline.fund_ghost (nD := nD) (τ := τ) (Ix := HIx 1) (Val := Elt F) (Name := ℕ) (U := UU) (Lvl := ℕ) cfgs (EP (F := F)) cellOf_inj
  unfold pipeU₀
  refine h.trans (bupd_mono ?_)
  unfold pipeGhost
  rw [bigSep_sep']
  refine sep_mono (bigSep_mono fun d _ => ?_) (bigSep_mono fun d _ => ?_)
  · exact Entails.of_eq (bigSep_one _)
  · exact Entails.of_eq (bigSep_one _)

/-! ## The region -/

section Region

variable (x0 : FVec F S262144x128 .f32) (f3 : FVec F S147456x128 .f32)
  (O : CellTallies nD τ sig (HIx 1)) (W : Waits sig (HIx 1))

/-- The staging cells are pairwise distinct, at the pipelines read at their one admissible contents. -/
theorem cellOf_inj' : Function.Injective (Pipeline.cellOf (nD := nD) (τ := τ) (Pipeline.pin (pcfgs (F := F)) adm)) := cellOf_inj

/-- The pipeline prefetches no table. -/
theorem prefHeld_emp (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld
  show bigSep (Finset.univ : Finset (Fin 0)) _ = _
  rw [Finset.univ_eq_empty, BI.bigSep_empty]

/-- The windows' arrays, whole at the full share, are the two arrays' points-tos. -/
theorem arrays_two (c : Dev nD) (Fa : (w : Fin cfg1.W) → Buf (Elt F) (((cfg1).spec w).arr.view.loc (c.tc : Thread nD τ))) :
    ((dats x0 f3 O W 0 c).arrays Fa : sProp 𝕄) = iprop((x0Loc c ↦{fullShare} Fa 0) ∗ (o3Loc c ↦{fullShare} Fa 1)) := by
  rw [Pipeline.arrays_eq cfgs (dats x0 f3 O W) 0 c arr_whole1 ((dats x0 f3 O W 0 c).share_full fun _ => rfl) Fa, bigSep_W1]

/-- The kernel region as the library's record: entered from the two arrays and what the core owes, left
    with the argument rows as they were, the result rows at tcOut of them, and the core owing the same,
    its recorded pairs grown only by the pipeline's own waits (at index none). -/
def reg (hO : ∀ g, O g none = 0) :
    Pipeline.RegionSeg (pcfgs (F := F)) adm (dats x0 f3 O W) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation x0 f3 O W c).loose
  hwaits c := Pipeline.cellsWaits_intro _ _ _ 0 c fun w s t => (K (F := F)).mayWait_none _ hO
  pre c := iprop((x0Loc c ↦{fullShare} x0) ∗ (o3Loc c ↦{fullShare} f3) ∗ owes (T c) O W)
  post c := iprop((x0Loc c ↦{fullShare} x0) ∗ (o3Loc c ↦{fullShare} tcOut x0)
    ∗ ∃ W', ⌜∀ p ∈ W', p ∈ W ∨ p.2 = none⌝ ∗ owes (T c) O W')
  X _ := BI.emp
  Y _ := BI.emp
  Z _ := BI.emp
  hentry c := by
    rw [arrays_two, prefHeld_emp]
    iintro ⟨⟨Hx, Hf, HO⟩, -, -⟩
    imodintro
    isplitl [Hx Hf]
    · isplitl [Hx]; · iexact Hx
      iexact Hf
    isplitr; · iempintro
    isplitl [HO]
    · unfold Pipeline.Dat.owesAt Pipeline.owesWithin
      iexists W; isplitr; · ipureintro; exact fun p hp => Or.inl hp
      iexact HO
    isplitr <;> iempintro
  hin c := by iintro -; iempintro
  hout c := by
    rw [Pipeline.ownSems0_none, scopedRest1_eq]
    iintro -
    isplitr; · iempintro
    isplitr <;> iempintro
  hexit c := by
    rw [arrays_two]
    iintro ⟨⟨Hx, Hf⟩, HO, -, -⟩
    imodintro
    isplitl [Hx]
    · rw [show (dats x0 f3 O W 0 c).arrAt 0 cfg1.N = x0 from final_in x0 f3 O W c]; iexact Hx
    isplitl [Hf]
    · rw [show (dats x0 f3 O W 0 c).arrAt 1 cfg1.N = tcOut x0 from final_out x0 f3 O W c]; iexact Hf
    unfold Pipeline.Dat.owesAt Pipeline.owesWithin
    icases HO with ⟨%W', %hW', HO⟩
    iexists W'; isplitr
    · ipureintro
      intro p hp
      rcases hW' hp with h | ⟨w, s, rfl⟩
      · exact Or.inl h
      · exact Or.inr rfl
    iexact HO

end Region

/-! ## The region's triple -/

set_option backward.isDefEq.respectTransparency.types false in
/-- The kernel region on core d: from the level facts, the pipeline's ghost state, the region boundary, the
    argument rows at x0, the result rows at anything and the core owing O (nothing at index none), the call
    runs to the boundary, the argument rows as they were, the result rows at tcOut x0, and the core owing
    O still, its recorded pairs grown only at index none. -/
theorem region_wp (d : Dev nD) (x0 : Buf (Elt F) (x0Loc d)) (f3 : Buf (Elt F) (o3Loc d))
    (O : CellTallies nD τ sig (HIx 1)) (W : Waits sig (HIx 1)) (hO : ∀ g, O g none = 0) :
    iprop(levAts (K (F := F)).L (K (F := F)).lev ∗ pipeGhost d ∗ boundary (T d)
        ∗ (x0Loc d ↦{fullShare} x0) ∗ (o3Loc d ↦{fullShare} f3) ∗ owes (T d) O W)
      ⊢ wp frame (wpE (D (F := F)) 𝒱 (T d) none) Set.univ (Prog.lift (.customCall (Pipeline.entry (0 : Fin 1)) ()))
          fun _ => (iprop(boundary (T d) ∗ (x0Loc d ↦{fullShare} x0) ∗ (o3Loc d ↦{fullShare} tcOut x0)
            ∗ ∃ W', ⌜∀ p ∈ W', p ∈ W ∨ p.2 = none⌝ ∗ owes (T d) O W') : sProp 𝕄) := by
  have h : iprop((iprop(boundary (T d) ∗ ((x0Loc d ↦{fullShare} x0) ∗ (o3Loc d ↦{fullShare} tcOut x0)
              ∗ ∃ W', ⌜∀ p ∈ W', p ∈ W ∨ p.2 = none⌝ ∗ owes (T d) O W'))
            -∗ wp frame (wpE (D (F := F)) 𝒱 (T d) none) Set.univ (Prog.ret PUnit.unit)
                fun _ => (iprop(boundary (T d) ∗ (x0Loc d ↦{fullShare} x0) ∗ (o3Loc d ↦{fullShare} tcOut x0)
                  ∗ ∃ W', ⌜∀ p ∈ W', p ∈ W ∨ p.2 = none⌝ ∗ owes (T d) O W') : sProp 𝕄))
          ∗ boundary (T d) ∗ ((x0Loc d ↦{fullShare} x0) ∗ (o3Loc d ↦{fullShare} f3) ∗ owes (T d) O W)
          ∗ levAts (K (F := F)).L (K (F := F)).lev
          ∗ Pipeline.cellsGhost cfgs (EP (F := F)) 0 d ∗ Pipeline.toksInit cfgs (EP (F := F)) 0 d)
      ⊢ wp frame (wpE (D (F := F)) 𝒱 (T d) none) Set.univ (Prog.lift (.customCall (Pipeline.entry (0 : Fin 1)) ()))
          fun _ => (iprop(boundary (T d) ∗ (x0Loc d ↦{fullShare} x0) ∗ (o3Loc d ↦{fullShare} tcOut x0)
            ∗ ∃ W', ⌜∀ p ∈ W', p ∈ W ∨ p.2 = none⌝ ∗ owes (T d) O W') : sProp 𝕄) :=
    Pipeline.RegionSeg.wp (pcfgs (F := F)) adm (dats x0 f3 O W) none cellOf_inj' (EP (F := F)) defs₀ 𝒱₀
      (K (F := F)).L (K (F := F)).lev (reg x0 f3 O W hO) d none (fun u hu => nomatch hu)
      (fun x => Prog.ret x) _
  unfold pipeGhost
  iintro ⟨Hla, ⟨Hg, Ht⟩, Hbd, Hx, Hf, HO⟩
  iapply h
  isplitr
  · iintro ⟨Hbd, Hpost⟩
    iapply (le_wp_ret _ _)
    isplitl [Hbd]; · iexact Hbd
    iexact Hpost
  isplitl [Hbd]; · iexact Hbd
  isplitl [Hx Hf HO]
  · isplitl [Hx]; · iexact Hx
    isplitl [Hf]; · iexact Hf
    iexact HO
  isplitl [Hla]; · iexact Hla
  isplitl [Hg]; · iexact Hg
  iexact Ht

/-- info: 'Cert.Proof.KI.region_wp' depends on axioms: [propext, Classical.choice, Quot.sound] -/
#guard_msgs in #print axioms region_wp

end Cert.Proof.KI

end
-- ==== Proof.KI.TileSetup.lean ====
/-
  A vector subcore's task: its resources as the task's own text names them.

  The subcore at grid point L reads fourteen consecutive chunks of 32768 words of the flat argument
  and writes fourteen consecutive chunks of the flat result. The task slices the two arrays at offsets
  it computes from L; here the slices are given names, their index sets are shown to be the chunks of
  the partition the launch deals out, and the subcore's own cells and buffers are split into the four
  transfer cells and the two scratch buffers the task names, and the rest.
-/
import proofs.«212535_g38190849196153_cont_8to1_b_1410_19_alg».proof.Proof.KI.ScOut
import proofs.«212535_g38190849196153_cont_8to1_b_1410_19_alg».proof.Proof.Gen.KernelIdeal.Skeleton
import Idealize.ShloMosaic.Lib.SparseCore.Launch
import Idealize.ShloMosaic.Lib.Tactic
import Idealize.ShloMosaic.Lib.Transfers
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.KernelIdeal.cc0_scratch0 : Memref Cert.KernelIdeal.sig Kind.scVector Space.vmem Cert.KernelIdeal.S32768 EltTy.f32)
local notation "b1" => (Memref.whole Cert.KernelIdeal.cc0_scratch1 : Memref Cert.KernelIdeal.sig Kind.scVector Space.vmem Cert.KernelIdeal.S32768 EltTy.f32)
local notation "xV" => (Memref.whole Cert.KernelIdeal.main_v1_scv : Memref Cert.KernelIdeal.sig Kind.scVector Space.hbm Cert.KernelIdeal.S33554432 EltTy.f32)
local notation "oV" => (Memref.whole Cert.KernelIdeal.main_v2_scv : Memref Cert.KernelIdeal.sig Kind.scVector Space.hbm Cert.KernelIdeal.S14680064 EltTy.f32)

/-! ## The slices, as the task spells them -/

/-- The input slice at the task's offset for the constant `c`, and the output slice likewise. -/
abbrev inSl (L : grid0.Coords) (c : BitVec 32) (h : ∀ a, k0_off1 L c a + S32768.size a ≤ S33554432.size a) :
    Memref sig .scVector .hbm S32768 .f32 :=
  (xV).slice (Rect.unit (s := S33554432) (k0_off1 L c) S32768.size h) (fun _ => rfl)
abbrev outSl (L : grid0.Coords) (c : BitVec 32) (h : ∀ a, k0_off3 L c a + S32768.size a ≤ S14680064.size a) :
    Memref sig .scVector .hbm S32768 .f32 :=
  (oV).slice (Rect.unit (s := S14680064) (k0_off3 L c) S32768.size h) (fun _ => rfl)

/-- Step `g`'s slices. -/
abbrev inS (L : grid0.Coords) (g : Fin 14) : Memref sig .scVector .hbm S32768 .f32 :=
  inSl L (BitVec.ofNat 32 (32768 * g.val)) (k0_off1_inb L g)
abbrev outS (L : grid0.Coords) (g : Fin 14) : Memref sig .scVector .hbm S32768 .f32 :=
  outSl L (BitVec.ofNat 32 (32768 * g.val)) (k0_off3_inb L g)

omit [FloatOps F] in
/-- The task's input rectangle at step `g` is chunk `576 + 14·t + g` of the flat argument. -/
theorem inRect_eq (L : grid0.Coords) (g : Fin 14) :
    Rect.unit (s := S33554432) (k0_off1 L (BitVec.ofNat 32 (32768 * g.val))) S32768.size (k0_off1_inb L g) = inRect (inIx L g) := by
  unfold inRect Rect.part Rect.block
  congr 1 <;> funext a
  · rw [k0_off1_eq]
    match a with
    | 0 => simp [Shape.partIx, Shape.partSize, inIx, tileNo]; omega
  · match a with
    | 0 => simp [Shape.partSize]
omit [FloatOps F] in
/-- The task's output rectangle at step `g` is chunk `14·t + g` of the flat result. -/
theorem outRect_eq (L : grid0.Coords) (g : Fin 14) :
    Rect.unit (s := S14680064) (k0_off3 L (BitVec.ofNat 32 (32768 * g.val))) S32768.size (k0_off3_inb L g) = outRect (outIx L g) := by
  unfold outRect Rect.part Rect.block
  congr 1 <;> funext a
  · rw [k0_off3_eq]
    match a with
    | 0 => simp [Shape.partIx, Shape.partSize, outIx, tileNo]; omega
  · match a with
    | 0 => simp [Shape.partSize]

omit [FloatOps F] in
theorem set_inS (L : grid0.Coords) (g : Fin 14) : (inS L g).view.set = inChunk (inIx L g) := by
  show ((xV).view.slice (Rect.unit (s := S33554432) (k0_off1 L (BitVec.ofNat 32 (32768 * g.val))) S32768.size (k0_off1_inb L g))).set = _
  rw [inRect_eq, View.set_slice]; exact Finset.map_refl
omit [FloatOps F] in
theorem set_outS (L : grid0.Coords) (g : Fin 14) : (outS L g).view.set = outChunk (outIx L g) := by
  show ((oV).view.slice (Rect.unit (s := S14680064) (k0_off3 L (BitVec.ofNat 32 (32768 * g.val))) S32768.size (k0_off3_inb L g))).set = _
  rw [outRect_eq, View.set_slice]; exact Finset.map_refl

omit [FloatOps F] in
theorem pts_inS (d : Dev nD) (L : grid0.Coords) (g : Fin 14) (f : Buf (Elt F) (x1Loc d)) :
    ((inS L g).view.loc (VT d L) ↦[(inS L g).view.set]{fullShare} f : sProp 𝕄) = (x1Loc d ↦[inChunk (inIx L g)]{fullShare} f) := by
  rw [set_inS]
omit [FloatOps F] in
theorem pts_outS (d : Dev nD) (L : grid0.Coords) (g : Fin 14) (f : Buf (Elt F) (o2Loc d)) :
    ((outS L g).view.loc (VT d L) ↦[(outS L g).view.set]{fullShare} f : sProp 𝕄) = (o2Loc d ↦[outChunk (outIx L g)]{fullShare} f) := by
  rw [set_outS]
omit [FloatOps F] in
theorem pts_b0 (d : Dev nD) (L : grid0.Coords) (f : Buf (Elt F) ((VT d L).loc cc0_scratch0)) :
    ((b0).view.loc (VT d L) ↦[(b0).view.set]{fullShare} f : sProp 𝕄) = ((VT d L).loc cc0_scratch0 ↦{fullShare} f) := by
  rw [View.set_whole]
omit [FloatOps F] in
theorem pts_b1 (d : Dev nD) (L : grid0.Coords) (f : Buf (Elt F) ((VT d L).loc cc0_scratch1)) :
    ((b1).view.loc (VT d L) ↦[(b1).view.set]{fullShare} f : sProp 𝕄) = ((VT d L).loc cc0_scratch1 ↦{fullShare} f) := by
  rw [View.set_whole]

/-! ## The subcore's own cells and buffers -/

abbrev csem (k : Nat) (hk : k < 8 := by decide) : DmaSem sig := ⟨k, hk⟩
abbrev dcell (d : Dev nD) (c : Fin τ.nSC) (i : Fin τ.nSub) (k : Fin 4) : GSem nD τ sig := (V d c i, .dma (csem k.val (by have := k.isLt; omega)))
/-- The four transfer cells at zero, in the task's spelling. -/
abbrev cells0 (d : Dev nD) (L : grid0.Coords) : sProp 𝕄 :=
  iprop(semVal (VT d L, SemLoc.dma cc0_scratch2.sem) 0 ∗ semVal (VT d L, SemLoc.dma cc0_scratch3.sem) 0
    ∗ semVal (VT d L, SemLoc.dma cc0_scratch4.sem) 0 ∗ semVal (VT d L, SemLoc.dma cc0_scratch5.sem) 0)

omit [FloatOps F] in
theorem dcell_mem (d : Dev nD) (c : Fin τ.nSC) (i : Fin τ.nSub) (k : Fin 4) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the four the task names, one by one, and the rest. -/
theorem ownSems0_V (d : Dev nD) (L : grid0.Coords) :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide),
    bigSep_singleton]
  rfl

omit [FloatOps F] in
/-- The two scratch buffers are among the subcore's own: they are them, at some contents, and the rest. -/
theorem ownBufs_V (d : Dev nD) (L : grid0.Coords) :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Cert.Proof.KI

end
-- ==== Proof.KI.TripDefs.lean ====
/-
  One trip of the loop that fixes a scratch buffer in place, as a list of stores.

  A trip handles eight rows of 128 words. In each row it loads the sixteen words of columns 0–15, 16–31
  and 32–47, takes their maximum with the matching vector of floors, and stores the result back: 24
  stores at the offsets 128·u + 16·r (u < 8, r < 3) past the trip's base, each payload computed from
  what the buffer held there before the trip. The list below is those 24 stores, the last first,
  over any view of a buffer of 32768 words and any offset function of the two constants; and the
  buffer fixed below a bound, which is what a run of trips leaves.
-/
import proofs.«212535_g38190849196153_cont_8to1_b_1410_19_alg».proof.Proof.KI.ScOut
import Idealize.ShloMosaic.Lib.Writes

noncomputable section

namespace Cert.Proof.KI

open Cert.KernelIdeal Cert.KernelIdeal.Gen
open Idealize.ShloMosaic

variable {F : FTy → Type} [FloatOps F]

/-- The payload of one store: the loaded vector's maximum with a floor vector (the two reshapings to
    the same shape are the body's). -/
def pay (fl : FVec F S16 .f32) (u : Vec F S16 .f32) : FVec F S16 .f32 :=
  shapeCast S16 (maximumf (shapeCast S16 u Facts₀.shapeCasts_S16_S16) fl) Facts₀.shapeCasts_S16_S16

/-- A trip's 24 stores through the view `v`, the last first, from the contents `f` the trip found. -/
def tripList {κ : Kind} {sp : Space} (v : View sig κ sp S32768 .f32) (off : BitVec 32 → BitVec 32 → Fin 1 → Nat)
    (inb : ∀ (r₁ : Fin 8) (r₂ : Fin 3), ∀ a, (off (BitVec.ofNat 32 (128 * r₁.val)) (BitVec.ofNat 32 (16 * r₂.val))) a + S16.size a ≤ S32768.size a)
    (f : v.ty.Contents (Elt F)) : List (View.Piece (Elt F) S32768 .f32) :=
  [
    ⟨Rect.unit (s := S32768) (off 896#32 32#32) S16.size (inb 7 2), pay floorC (v.readAt (Elt F) (Rect.unit (s := S32768) (off 896#32 32#32) S16.size (inb 7 2)).toLoadRect f)⟩,
    ⟨Rect.unit (s := S32768) (off 896#32 16#32) S16.size (inb 7 1), pay floorB (v.readAt (Elt F) (Rect.unit (s := S32768) (off 896#32 16#32) S16.size (inb 7 1)).toLoadRect f)⟩,
    ⟨Rect.unit (s := S32768) (off 896#32 0#32) S16.size (inb 7 0), pay floorA (v.readAt (Elt F) (Rect.unit (s := S32768) (off 896#32 0#32) S16.size (inb 7 0)).toLoadRect f)⟩,
    ⟨Rect.unit (s := S32768) (off 768#32 32#32) S16.size (inb 6 2), pay floorC (v.readAt (Elt F) (Rect.unit (s := S32768) (off 768#32 32#32) S16.size (inb 6 2)).toLoadRect f)⟩,
    ⟨Rect.unit (s := S32768) (off 768#32 16#32) S16.size (inb 6 1), pay floorB (v.readAt (Elt F) (Rect.unit (s := S32768) (off 768#32 16#32) S16.size (inb 6 1)).toLoadRect f)⟩,
    ⟨Rect.unit (s := S32768) (off 768#32 0#32) S16.size (inb 6 0), pay floorA (v.readAt (Elt F) (Rect.unit (s := S32768) (off 768#32 0#32) S16.size (inb 6 0)).toLoadRect f)⟩,
    ⟨Rect.unit (s := S32768) (off 640#32 32#32) S16.size (inb 5 2), pay floorC (v.readAt (Elt F) (Rect.unit (s := S32768) (off 640#32 32#32) S16.size (inb 5 2)).toLoadRect f)⟩,
    ⟨Rect.unit (s := S32768) (off 640#32 16#32) S16.size (inb 5 1), pay floorB (v.readAt (Elt F) (Rect.unit (s := S32768) (off 640#32 16#32) S16.size (inb 5 1)).toLoadRect f)⟩,
    ⟨Rect.unit (s := S32768) (off 640#32 0#32) S16.size (inb 5 0), pay floorA (v.readAt (Elt F) (Rect.unit (s := S32768) (off 640#32 0#32) S16.size (inb 5 0)).toLoadRect f)⟩,
    ⟨Rect.unit (s := S32768) (off 512#32 32#32) S16.size (inb 4 2), pay floorC (v.readAt (Elt F) (Rect.unit (s := S32768) (off 512#32 32#32) S16.size (inb 4 2)).toLoadRect f)⟩,
    ⟨Rect.unit (s := S32768) (off 512#32 16#32) S16.size (inb 4 1), pay floorB (v.readAt (Elt F) (Rect.unit (s := S32768) (off 512#32 16#32) S16.size (inb 4 1)).toLoadRect f)⟩,
    ⟨Rect.unit (s := S32768) (off 512#32 0#32) S16.size (inb 4 0), pay floorA (v.readAt (Elt F) (Rect.unit (s := S32768) (off 512#32 0#32) S16.size (inb 4 0)).toLoadRect f)⟩,
    ⟨Rect.unit (s := S32768) (off 384#32 32#32) S16.size (inb 3 2), pay floorC (v.readAt (Elt F) (Rect.unit (s := S32768) (off 384#32 32#32) S16.size (inb 3 2)).toLoadRect f)⟩,
    ⟨Rect.unit (s := S32768) (off 384#32 16#32) S16.size (inb 3 1), pay floorB (v.readAt (Elt F) (Rect.unit (s := S32768) (off 384#32 16#32) S16.size (inb 3 1)).toLoadRect f)⟩,
    ⟨Rect.unit (s := S32768) (off 384#32 0#32) S16.size (inb 3 0), pay floorA (v.readAt (Elt F) (Rect.unit (s := S32768) (off 384#32 0#32) S16.size (inb 3 0)).toLoadRect f)⟩,
    ⟨Rect.unit (s := S32768) (off 256#32 32#32) S16.size (inb 2 2), pay floorC (v.readAt (Elt F) (Rect.unit (s := S32768) (off 256#32 32#32) S16.size (inb 2 2)).toLoadRect f)⟩,
    ⟨Rect.unit (s := S32768) (off 256#32 16#32) S16.size (inb 2 1), pay floorB (v.readAt (Elt F) (Rect.unit (s := S32768) (off 256#32 16#32) S16.size (inb 2 1)).toLoadRect f)⟩,
    ⟨Rect.unit (s := S32768) (off 256#32 0#32) S16.size (inb 2 0), pay floorA (v.readAt (Elt F) (Rect.unit (s := S32768) (off 256#32 0#32) S16.size (inb 2 0)).toLoadRect f)⟩,
    ⟨Rect.unit (s := S32768) (off 128#32 32#32) S16.size (inb 1 2), pay floorC (v.readAt (Elt F) (Rect.unit (s := S32768) (off 128#32 32#32) S16.size (inb 1 2)).toLoadRect f)⟩,
    ⟨Rect.unit (s := S32768) (off 128#32 16#32) S16.size (inb 1 1), pay floorB (v.readAt (Elt F) (Rect.unit (s := S32768) (off 128#32 16#32) S16.size (inb 1 1)).toLoadRect f)⟩,
    ⟨Rect.unit (s := S32768) (off 128#32 0#32) S16.size (inb 1 0), pay floorA (v.readAt (Elt F) (Rect.unit (s := S32768) (off 128#32 0#32) S16.size (inb 1 0)).toLoadRect f)⟩,
    ⟨Rect.unit (s := S32768) (off 0#32 32#32) S16.size (inb 0 2), pay floorC (v.readAt (Elt F) (Rect.unit (s := S32768) (off 0#32 32#32) S16.size (inb 0 2)).toLoadRect f)⟩,
    ⟨Rect.unit (s := S32768) (off 0#32 16#32) S16.size (inb 0 1), pay floorB (v.readAt (Elt F) (Rect.unit (s := S32768) (off 0#32 16#32) S16.size (inb 0 1)).toLoadRect f)⟩,
    ⟨Rect.unit (s := S32768) (off 0#32 0#32) S16.size (inb 0 0), pay floorA (v.readAt (Elt F) (Rect.unit (s := S32768) (off 0#32 0#32) S16.size (inb 0 0)).toLoadRect f)⟩
  ]

/-- A buffer of 32768 words fixed at every position below `1024 · k` and as it was from there on. -/
def fixUpTo (k : ℕ) (f₀ : FVec F S32768 .f32) : FVec F S32768 .f32 :=
  fun q => if (q 0).val < 1024 * k then fixAt (q 0).val (f₀ q) else f₀ q

theorem fixUpTo_zero (f₀ : FVec F S32768 .f32) : fixUpTo 0 f₀ = f₀ := by
  funext q; simp [fixUpTo]

theorem fixUpTo_all (f₀ : FVec F S32768 .f32) : fixUpTo 32 f₀ = fixChunk f₀ := by
  funext q
  have hq : (q 0).val < 32768 := (q 0).isLt
  simp only [fixUpTo, fixChunk]
  rw [if_pos (by omega)]

end Cert.Proof.KI

end
-- ==== Proof.KI.TripRead.lean ====
/-
  What one trip's 24 stores leave in a buffer of 32768 words, read at a position.

  Trip k works on the 1024 words from 1024 k on: eight rows of 128, and in each row the three groups of
  sixteen columns 0–15, 16–31 and 32–47. The store of row u, group r covers the sixteen positions from
  1024 k + 128 u + 16 r on and writes, at each, the maximum of what the buffer held there with the
  matching lane of the group's floor vector — which is what `fixAt` makes of that position, whose column
  is 16 r + lane. The 24 rectangles are pairwise apart, so a position inside the trip's words whose
  column is below 48 lies in exactly one of them and reads its payload; a position inside the trip's
  words whose column is 48 or more lies in none, keeps its contents, and `fixAt` leaves such a column
  alone; a position outside the trip's words lies in none and keeps its contents.
-/
import proofs.«212535_g38190849196153_cont_8to1_b_1410_19_alg».proof.Proof.KI.TripDefs
import Idealize.ShloMosaic.Lib.Writes
import Idealize.ShloMosaic.Lib.ValueIdx
import Idealize.ShloMosaic.Lib.Pipeline.Value

noncomputable section

namespace Cert.Proof.KI

open Cert.KernelIdeal Cert.KernelIdeal.Gen
open Idealize.ShloMosaic
open Idealize.ShloMosaic.ValueIdx (ix1 eq_ix1)

variable {F : FTy → Type} [FloatOps F]

/-! ## A store's payload at a lane, and `fixAt` on a column of one of the three groups -/

/-- The payload at a lane: the loaded word's maximum with the floor vector's lane. -/
theorem pay_apply (fl : FVec F S16 .f32) (u : Vec F S16 .f32) (x : S16.Idx) :
    pay fl u x = FloatOps.maximumf (u x) (fl x) := by
  unfold pay
  rw [shapeCast_self, shapeCast_self]
  rfl

/-- The floor vector of column group r. -/
def floorOf : Fin 3 → FVec F S16 .f32
  | ⟨0, _⟩ => floorA
  | ⟨1, _⟩ => floorB
  | ⟨2, _⟩ => floorC

/-- At a position whose column is 16 r + l (group r, lane l), `fixAt` takes the maximum with lane l of
    group r's floor vector. -/
theorem fixAt_lane : ∀ (r : Fin 3) (p : ℕ) (val : F .f32) (l : Fin 16), p % 128 = 16 * r.val + l.val →
    fixAt p val = FloatOps.maximumf val (floorOf (F := F) r (ix1 l))
  | ⟨0, _⟩, p, val, l, h => by
    have hl := l.isLt
    have h' : p % 128 = 16 * 0 + l.val := h
    have hA : p % 128 < 16 := by omega
    have e : (⟨p % 128, hA⟩ : Fin 16) = l := Fin.ext (by show p % 128 = l.val; omega)
    unfold fixAt
    rw [dif_pos hA, e]
    rfl
  | ⟨1, _⟩, p, val, l, h => by
    have hl := l.isLt
    have h' : p % 128 = 16 * 1 + l.val := h
    have hA : ¬ p % 128 < 16 := by omega
    have hB : p % 128 < 32 := by omega
    have e : (⟨p % 128 - 16, by omega⟩ : Fin 16) = l := Fin.ext (by show p % 128 - 16 = l.val; omega)
    unfold fixAt
    rw [dif_neg hA, dif_pos hB, e]
    rfl
  | ⟨2, _⟩, p, val, l, h => by
    have hl := l.isLt
    have h' : p % 128 = 16 * 2 + l.val := h
    have hA : ¬ p % 128 < 16 := by omega
    have hB : ¬ p % 128 < 32 := by omega
    have hC : p % 128 < 48 := by omega
    have e : (⟨p % 128 - 32, by omega⟩ : Fin 16) = l := Fin.ext (by show p % 128 - 32 = l.val; omega)
    unfold fixAt
    rw [dif_neg hA, dif_neg hB, dif_pos hC, e]
    rfl

/-- A column from 48 on is left alone. -/
theorem fixAt_high (p : ℕ) (val : F .f32) (h : 48 ≤ p % 128) : fixAt p val = val := by
  unfold fixAt
  rw [dif_neg (by omega), dif_neg (by omega), dif_neg (by omega)]

/-! ## The trip's stores one by one -/

section Pieces
variable {κ : Kind} {sp : Space} (v : View sig κ sp S32768 .f32) (off : BitVec 32 → BitVec 32 → Fin 1 → Nat)
  (inb : ∀ (r₁ : Fin 8) (r₂ : Fin 3), ∀ a, (off (BitVec.ofNat 32 (128 * r₁.val)) (BitVec.ofNat 32 (16 * r₂.val))) a + S16.size a ≤ S32768.size a)
  (f : v.ty.Contents (Elt F))

/-- The store of row u, column group r. -/
def piece (u : Fin 8) (r : Fin 3) : View.Piece (Elt F) S32768 .f32 :=
  ⟨Rect.unit (s := S32768) (off (BitVec.ofNat 32 (128 * u.val)) (BitVec.ofNat 32 (16 * r.val))) S16.size (inb u r),
    pay (floorOf r) (v.readAt (Elt F) (Rect.unit (s := S32768) (off (BitVec.ofNat 32 (128 * u.val)) (BitVec.ofNat 32 (16 * r.val))) S16.size (inb u r)).toLoadRect f)⟩

/-- Every store of the trip is one of these … -/
theorem forall_mem_tripList (P : View.Piece (Elt F) S32768 .f32 → Prop) (h : ∀ u r, P (piece v off inb f u r)) :
    ∀ p ∈ tripList v off inb f, P p := by
  intro p hp
  simp only [tripList, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  exacts [h 7 2, h 7 1, h 7 0, h 6 2, h 6 1, h 6 0, h 5 2, h 5 1, h 5 0, h 4 2, h 4 1, h 4 0, h 3 2, h 3 1, h 3 0, h 2 2, h 2 1, h 2 0, h 1 2, h 1 1, h 1 0, h 0 2, h 0 1, h 0 0]

/-- … and each of these is a store of the trip. -/
theorem piece_mem_tripList : ∀ (u : Fin 8) (r : Fin 3), piece v off inb f u r ∈ tripList v off inb f := by
  intro u r
  unfold tripList
  fin_cases u <;> fin_cases r <;>
    repeat (first | exact List.mem_cons_self | apply List.mem_cons_of_mem)

end Pieces

/-- A store through sixteen positions from `base` on, whose columns are `c₀ + lane`, with a payload that is the
    maximum of the loaded words with a floor vector that `fixAt` uses on those columns: at each lane the payload is
    `fixAt` of what the buffer held at the lane's position. -/
theorem piece_eq {κ : Kind} {sp : Space} (v : View sig κ sp S32768 .f32) (f : v.ty.Contents (Elt F))
    (o : Fin 1 → Nat) (inb : ∀ a, o a + S16.size a ≤ S32768.size a) (base : ℕ) (ho : o = ![base]) (r : Fin 3)
    (hb : ∀ l, l < 16 → (base + l) % 128 = 16 * r.val + l)
    (x : S16.Idx) :
    pay (floorOf r) (v.readAt (Elt F) (Rect.unit (s := S32768) o S16.size inb).toLoadRect f) x
      = fixAt (((Rect.unit (s := S32768) o S16.size inb).emb x) 0).val
          (v.read (Elt F) f ((Rect.unit (s := S32768) o S16.size inb).emb x)) := by
  subst ho
  have hl : (x 0).val < 16 := (x 0).isLt
  have hp : (((Rect.unit (s := S32768) ![base] S16.size inb).emb x) 0).val = base + (x 0).val := by
    rw [Rect.emb_apply]
    show base + 1 * (x 0).val = base + (x 0).val
    omega
  rw [pay_apply, View.readAt_apply, fixAt_lane r _ _ (x 0) (by rw [hp]; exact hb _ hl)]
  exact congrArg (fun z : S16.Idx => FloatOps.maximumf (v.read (Elt F) f ((Rect.unit (s := S32768) ![base] S16.size inb).emb x))
    (floorOf (F := F) r z)) (eq_ix1 x)

/-! ## The buffer after the trip, read at a position -/

theorem trip_read {κ : Kind} {sp : Space} (v : View sig κ sp S32768 .f32) (off : BitVec 32 → BitVec 32 → Fin 1 → Nat)
    (inb : ∀ (r₁ : Fin 8) (r₂ : Fin 3), ∀ a, (off (BitVec.ofNat 32 (128 * r₁.val)) (BitVec.ofNat 32 (16 * r₂.val))) a + S16.size a ≤ S32768.size a)
    (k : ℕ)
    (heq : ∀ (r₁ : Fin 8) (r₂ : Fin 3), off (BitVec.ofNat 32 (128 * r₁.val)) (BitVec.ofNat 32 (16 * r₂.val)) = ![1024 * k + 128 * r₁.val + 16 * r₂.val])
    (f : v.ty.Contents (Elt F)) (y : S32768.Idx) :
    v.read (Elt F) (v.writes (Elt F) f (tripList v off inb f)) y
      = if 1024 * k ≤ (y 0).val ∧ (y 0).val < 1024 * k + 1024 then fixAt (y 0).val (v.read (Elt F) f y)
        else v.read (Elt F) f y := by
  have hy : (y 0).val < 32768 := (y 0).isLt
  by_cases hcov : (1024 * k ≤ (y 0).val ∧ (y 0).val < 1024 * k + 1024) ∧ (y 0).val % 128 < 48
  · -- the position lies in the store of its row and column group
    rw [if_pos hcov.1]
    refine View.read_writes_apply_of_pieces v f (fun y => fixAt (y 0).val (v.read (Elt F) f y)) _ ?_ y ?_
    · refine forall_mem_tripList v off inb f _ fun u r x => ?_
      have hu := u.isLt
      have hr := r.isLt
      exact piece_eq v f _ (inb u r) (1024 * k + 128 * u.val + 16 * r.val) (heq u r) r (fun l hl => by omega) x
    · have hu : ((y 0).val - 1024 * k) / 128 < 8 := by omega
      have hr : (y 0).val % 128 / 16 < 3 := by omega
      refine ⟨piece v off inb f ⟨((y 0).val - 1024 * k) / 128, hu⟩ ⟨(y 0).val % 128 / 16, hr⟩, piece_mem_tripList v off inb f _ _, ?_⟩
      show y ∈ (Rect.unit (s := S32768) (off (BitVec.ofNat 32 (128 * (((y 0).val - 1024 * k) / 128))) (BitVec.ofNat 32 (16 * ((y 0).val % 128 / 16)))) S16.size
        (inb ⟨((y 0).val - 1024 * k) / 128, hu⟩ ⟨(y 0).val % 128 / 16, hr⟩)).set
      rw [Rect.mem_set_unit, heq ⟨((y 0).val - 1024 * k) / 128, hu⟩ ⟨(y 0).val % 128 / 16, hr⟩]
      intro a
      obtain rfl : a = 0 := Subsingleton.elim _ _
      show 1024 * k + 128 * (((y 0).val - 1024 * k) / 128) + 16 * ((y 0).val % 128 / 16) ≤ (y 0).val
        ∧ (y 0).val < 1024 * k + 128 * (((y 0).val - 1024 * k) / 128) + 16 * ((y 0).val % 128 / 16) + 16
      omega
  · -- the position lies in none of the stores
    rw [View.read_writes_apply_of_forall_not_mem v f y _ (forall_mem_tripList v off inb f _ fun u r => ?_)]
    · split_ifs with h
      · rw [fixAt_high _ _ (by omega)]
      · rfl
    · have hu := u.isLt
      have hr := r.isLt
      show y ∉ (Rect.unit (s := S32768) (off (BitVec.ofNat 32 (128 * u.val)) (BitVec.ofNat 32 (16 * r.val))) S16.size (inb u r)).set
      rw [Rect.mem_set_unit, heq u r]
      intro hm
      have h0 : 1024 * k + 128 * u.val + 16 * r.val ≤ (y 0).val ∧ (y 0).val < 1024 * k + 128 * u.val + 16 * r.val + 16 := hm 0
      omega

end Cert.Proof.KI

end
-- ==== Proof.KI.TripStep.lean ====
/-
  A trip's stores, over a scratch buffer fixed below the trip's base, leave it fixed below the next
  trip's base: the step of the loop's invariant, for each of the two scratch buffers.
-/
import proofs.«212535_g38190849196153_cont_8to1_b_1410_19_alg».proof.Proof.KI.TripRead

noncomputable section

namespace Cert.Proof.KI

open Cert.KernelIdeal Cert.KernelIdeal.Gen
open Idealize.ShloMosaic

variable {F : FTy → Type} [FloatOps F]

local notation "b0" => (Memref.whole Cert.KernelIdeal.cc0_scratch0 : Memref Cert.KernelIdeal.sig Kind.scVector Space.vmem Cert.KernelIdeal.S32768 EltTy.f32)
local notation "b1" => (Memref.whole Cert.KernelIdeal.cc0_scratch1 : Memref Cert.KernelIdeal.sig Kind.scVector Space.vmem Cert.KernelIdeal.S32768 EltTy.f32)

/-- The pointwise form: the trip's words fixed, every other word as it was. -/
theorem fixUpTo_succ_apply (k : ℕ) (f₀ : FVec F S32768 .f32) (y : S32768.Idx) :
    (if 1024 * k ≤ (y 0).val ∧ (y 0).val < 1024 * k + 1024 then fixAt (y 0).val (fixUpTo k f₀ y) else fixUpTo k f₀ y)
      = fixUpTo (k + 1) f₀ y := by
  unfold fixUpTo
  by_cases h1 : (y 0).val < 1024 * k
  · rw [if_neg (by omega), if_pos h1, if_pos (by omega)]
  · by_cases h2 : (y 0).val < 1024 * k + 1024
    · rw [if_pos ⟨by omega, h2⟩, if_neg h1, if_pos (by omega)]
    · rw [if_neg (by omega), if_neg h1, if_neg (by omega)]

theorem trip_step_b0 (off : BitVec 32 → BitVec 32 → Fin 1 → Nat)
    (inb : ∀ (r₁ : Fin 8) (r₂ : Fin 3), ∀ a, (off (BitVec.ofNat 32 (128 * r₁.val)) (BitVec.ofNat 32 (16 * r₂.val))) a + S16.size a ≤ S32768.size a)
    (k : ℕ) (heq : ∀ (r₁ : Fin 8) (r₂ : Fin 3), off (BitVec.ofNat 32 (128 * r₁.val)) (BitVec.ofNat 32 (16 * r₂.val)) = ![1024 * k + 128 * r₁.val + 16 * r₂.val])
    (f₀ : FVec F S32768 .f32) :
    (b0).view.writes (Elt F) (fixUpTo k f₀) (tripList (b0).view off inb (fixUpTo k f₀)) = fixUpTo (k + 1) f₀ := by
  funext y
  exact (trip_read (b0).view off inb k heq (fixUpTo k f₀) y).trans (fixUpTo_succ_apply k f₀ y)

theorem trip_step_b1 (off : BitVec 32 → BitVec 32 → Fin 1 → Nat)
    (inb : ∀ (r₁ : Fin 8) (r₂ : Fin 3), ∀ a, (off (BitVec.ofNat 32 (128 * r₁.val)) (BitVec.ofNat 32 (16 * r₂.val))) a + S16.size a ≤ S32768.size a)
    (k : ℕ) (heq : ∀ (r₁ : Fin 8) (r₂ : Fin 3), off (BitVec.ofNat 32 (128 * r₁.val)) (BitVec.ofNat 32 (16 * r₂.val)) = ![1024 * k + 128 * r₁.val + 16 * r₂.val])
    (f₀ : FVec F S32768 .f32) :
    (b1).view.writes (Elt F) (fixUpTo k f₀) (tripList (b1).view off inb (fixUpTo k f₀)) = fixUpTo (k + 1) f₀ := by
  funext y
  exact (trip_read (b1).view off inb k heq (fixUpTo k f₀) y).trans (fixUpTo_succ_apply k f₀ y)

end Cert.Proof.KI

end
-- ==== Proof.KI.LoopInv.lean ====
/-
  The invariant of the loops that fix a scratch buffer in place: before trip k the buffer is fixed at
  every position below 1024·k and holds what the loop found from there on.
-/
import proofs.«212535_g38190849196153_cont_8to1_b_1410_19_alg».proof.Proof.KI.TileSetup
import proofs.«212535_g38190849196153_cont_8to1_b_1410_19_alg».proof.Proof.KI.TripStep
import proofs.«212535_g38190849196153_cont_8to1_b_1410_19_alg».proof.Proof.Gen.KernelIdeal.Skeleton
import Idealize.ShloMosaic.Lib.SparseCore.Launch
import Idealize.ShloMosaic.Lib.Tactic
import Idealize.ShloMosaic.Lib.Transfers
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.KernelIdeal.cc0_scratch0 : Memref Cert.KernelIdeal.sig Kind.scVector Space.vmem Cert.KernelIdeal.S32768 EltTy.f32)
local notation "b1" => (Memref.whole Cert.KernelIdeal.cc0_scratch1 : Memref Cert.KernelIdeal.sig Kind.scVector Space.vmem Cert.KernelIdeal.S32768 EltTy.f32)
local notation "xV" => (Memref.whole Cert.KernelIdeal.main_v1_scv : Memref Cert.KernelIdeal.sig Kind.scVector Space.hbm Cert.KernelIdeal.S33554432 EltTy.f32)
local notation "oV" => (Memref.whole Cert.KernelIdeal.main_v2_scv : Memref Cert.KernelIdeal.sig Kind.scVector Space.hbm Cert.KernelIdeal.S14680064 EltTy.f32)

/-- Before trip `k`: the first scratch buffer fixed below `1024·k`. -/
def invB0 (d : Dev nD) (L : grid0.Coords) (f₀ : FVec F S32768 .f32) (k : ℕ) (_ : Unit) : sProp 𝕄 :=
  iprop((b0).view.loc (VT d L) ↦[(b0).view.set]{fullShare} fixUpTo k f₀)
/-- The same for the second scratch buffer. -/
def invB1 (d : Dev nD) (L : grid0.Coords) (f₀ : FVec F S32768 .f32) (k : ℕ) (_ : Unit) : sProp 𝕄 :=
  iprop((b1).view.loc (VT d L) ↦[(b1).view.set]{fullShare} fixUpTo k f₀)

end Cert.Proof.KI

end
-- ==== Proof.KI.Regions.lean ====
/-
  One trip of each of the fourteen loops that fix a scratch buffer in place. The fourteen regions are
  the same text up to the buffer (the first scratch in the odd loops, the second in the even ones) and
  the names of the trip's offsets; each is run once, at a symbolic trip, from the invariant to the
  invariant: the 24 loads, maxima and stores are the list of stores of one trip, and that list over a
  buffer fixed below the trip's base leaves it fixed below the next.
-/
import proofs.«212535_g38190849196153_cont_8to1_b_1410_19_alg».proof.Proof.KI.LoopInv
import proofs.«212535_g38190849196153_cont_8to1_b_1410_19_alg».proof.Proof.Gen.KernelIdeal.Skeleton
import Idealize.ShloMosaic.Lib.SparseCore.Launch
import Idealize.ShloMosaic.Lib.Tactic
import Idealize.ShloMosaic.Lib.Transfers
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.KernelIdeal.cc0_scratch0 : Memref Cert.KernelIdeal.sig Kind.scVector Space.vmem Cert.KernelIdeal.S32768 EltTy.f32)
local notation "b1" => (Memref.whole Cert.KernelIdeal.cc0_scratch1 : Memref Cert.KernelIdeal.sig Kind.scVector Space.vmem Cert.KernelIdeal.S32768 EltTy.f32)
local notation "xV" => (Memref.whole Cert.KernelIdeal.main_v1_scv : Memref Cert.KernelIdeal.sig Kind.scVector Space.hbm Cert.KernelIdeal.S33554432 EltTy.f32)
local notation "oV" => (Memref.whole Cert.KernelIdeal.main_v2_scv : Memref Cert.KernelIdeal.sig Kind.scVector Space.hbm Cert.KernelIdeal.S14680064 EltTy.f32)

/-- One trip of loop 1: the scratch fixed below the trip's base, the trip's 24 loads, maxima and stores,
    the scratch fixed below the next base. -/
theorem region_1 (d : Dev nD) (L : grid0.Coords) (f₀ : FVec F S32768 .f32) (k : Fin k0_t1_loop.trips) (acc : Unit) :
    (invB0 (F := F) (U := U) d L f₀ k.val acc)
      ⊢ wp frame (wpE (defs₀ (F := F)) 𝒱₀ (VT d L) none) Set.univ
          (k0_t1_body L xV (Memref.isWhole_whole _) oV (Memref.isWhole_whole _) b0 (Memref.isWhole_whole _) b1 (Memref.isWhole_whole _)
            cc0_scratch2 cc0_scratch3 cc0_scratch4 cc0_scratch5 k acc)
          (invB0 (F := F) (U := U) d L f₀ (k.val + 1)) := by
  unfold invB0
  iintro HB
  unfold k0_t1_body
  sl_exec
  sl_step
  rw [← trip_step_b0 (k0_off2 k) (k0_off2_inb k) k.val (k0_off2_eq k) f₀]
  iexact HB

/-- One trip of loop 2: the scratch fixed below the trip's base, the trip's 24 loads, maxima and stores,
    the scratch fixed below the next base. -/
theorem region_2 (d : Dev nD) (L : grid0.Coords) (f₀ : FVec F S32768 .f32) (v2 : BitVec 32) (k : Fin k0_t2_loop.trips) (acc : Unit) :
    (invB1 (F := F) (U := U) d L f₀ k.val acc)
      ⊢ wp frame (wpE (defs₀ (F := F)) 𝒱₀ (VT d L) none) Set.univ
          (k0_t2_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB1 (F := F) (U := U) d L f₀ (k.val + 1)) := by
  unfold invB1
  iintro HB
  unfold k0_t2_body
  sl_exec
  sl_step
  rw [← trip_step_b1 (k0_off4 k) (k0_off4_inb k) k.val (k0_off4_eq k) f₀]
  iexact HB

/-- One trip of loop 3: the scratch fixed below the trip's base, the trip's 24 loads, maxima and stores,
    the scratch fixed below the next base. -/
theorem region_3 (d : Dev nD) (L : grid0.Coords) (f₀ : FVec F S32768 .f32) (v2 : BitVec 32) (c0 c1 : BitVec 32) (k : Fin k0_t3_loop.trips) (acc : Unit) :
    (invB0 (F := F) (U := U) d L f₀ k.val acc)
      ⊢ wp frame (wpE (defs₀ (F := F)) 𝒱₀ (VT d L) none) Set.univ
          (k0_t3_body L xV (Memref.isWhole_whole _) oV (Memref.isWhole_whole _) b0 (Memref.isWhole_whole _) b1 (Memref.isWhole_whole _)
            cc0_scratch2 cc0_scratch3 cc0_scratch4 cc0_scratch5 v2 floorA floorB floorC c0 c1 k acc)
          (invB0 (F := F) (U := U) d L f₀ (k.val + 1)) := by
  unfold invB0
  iintro HB
  unfold k0_t3_body
  sl_exec
  sl_step
  rw [← trip_step_b0 (k0_off5 k) (k0_off5_inb k) k.val (k0_off5_eq k) f₀]
  iexact HB

/-- One trip of loop 4: the scratch fixed below the trip's base, the trip's 24 loads, maxima and stores,
    the scratch fixed below the next base. -/
theorem region_4 (d : Dev nD) (L : grid0.Coords) (f₀ : FVec F S32768 .f32) (v2 : BitVec 32) (c0 c1 : BitVec 32) (k : Fin k0_t4_loop.trips) (acc : Unit) :
    (invB1 (F := F) (U := U) d L f₀ k.val acc)
      ⊢ wp frame (wpE (defs₀ (F := F)) 𝒱₀ (VT d L) none) Set.univ
          (k0_t4_body L xV (Memref.isWhole_whole _) oV (Memref.isWhole_whole _) b0 (Memref.isWhole_whole _) b1 (Memref.isWhole_whole _)
            cc0_scratch2 cc0_scratch3 cc0_scratch4 cc0_scratch5 v2 floorA floorB floorC c0 c1 k acc)
          (invB1 (F := F) (U := U) d L f₀ (k.val + 1)) := by
  unfold invB1
  iintro HB
  unfold k0_t4_body
  sl_exec
  sl_step
  rw [← trip_step_b1 (k0_off6 k) (k0_off6_inb k) k.val (k0_off6_eq k) f₀]
  iexact HB

/-- One trip of loop 5: the scratch fixed below the trip's base, the trip's 24 loads, maxima and stores,
    the scratch fixed below the next base. -/
theorem region_5 (d : Dev nD) (L : grid0.Coords) (f₀ : FVec F S32768 .f32) (v2 : BitVec 32) (c0 c1 : BitVec 32) (k : Fin k0_t5_loop.trips) (acc : Unit) :
    (invB0 (F := F) (U := U) d L f₀ k.val acc)
      ⊢ wp frame (wpE (defs₀ (F := F)) 𝒱₀ (VT d L) none) Set.univ
          (k0_t5_body L xV (Memref.isWhole_whole _) oV (Memref.isWhole_whole _) b0 (Memref.isWhole_whole _) b1 (Memref.isWhole_whole _)
            cc0_scratch2 cc0_scratch3 cc0_scratch4 cc0_scratch5 v2 floorA floorB floorC c0 c1 k acc)
          (invB0 (F := F) (U := U) d L f₀ (k.val + 1)) := by
  unfold invB0
  iintro HB
  unfold k0_t5_body
  sl_exec
  sl_step
  rw [← trip_step_b0 (k0_off7 k) (k0_off7_inb k) k.val (k0_off7_eq k) f₀]
  iexact HB

/-- One trip of loop 6: the scratch fixed below the trip's base, the trip's 24 loads, maxima and stores,
    the scratch fixed below the next base. -/
theorem region_6 (d : Dev nD) (L : grid0.Coords) (f₀ : FVec F S32768 .f32) (v2 : BitVec 32) (c0 c1 : BitVec 32) (k : Fin k0_t6_loop.trips) (acc : Unit) :
    (invB1 (F := F) (U := U) d L f₀ k.val acc)
      ⊢ wp frame (wpE (defs₀ (F := F)) 𝒱₀ (VT d L) none) Set.univ
          (k0_t6_body L xV (Memref.isWhole_whole _) oV (Memref.isWhole_whole _) b0 (Memref.isWhole_whole _) b1 (Memref.isWhole_whole _)
            cc0_scratch2 cc0_scratch3 cc0_scratch4 cc0_scratch5 v2 floorA floorB floorC c0 c1 k acc)
          (invB1 (F := F) (U := U) d L f₀ (k.val + 1)) := by
  unfold invB1
  iintro HB
  unfold k0_t6_body
  sl_exec
  sl_step
  rw [← trip_step_b1 (k0_off8 k) (k0_off8_inb k) k.val (k0_off8_eq k) f₀]
  iexact HB

/-- One trip of loop 7: the scratch fixed below the trip's base, the trip's 24 loads, maxima and stores,
    the scratch fixed below the next base. -/
theorem region_7 (d : Dev nD) (L : grid0.Coords) (f₀ : FVec F S32768 .f32) (v2 : BitVec 32) (k : Fin k0_t7_loop.trips) (acc : Unit) :
    (invB0 (F := F) (U := U) d L f₀ k.val acc)
      ⊢ wp frame (wpE (defs₀ (F := F)) 𝒱₀ (VT d L) none) Set.univ
          (k0_t7_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB0 (F := F) (U := U) d L f₀ (k.val + 1)) := by
  unfold invB0
  iintro HB
  unfold k0_t7_body
  sl_exec
  sl_step
  rw [← trip_step_b0 (k0_off9 k) (k0_off9_inb k) k.val (k0_off9_eq k) f₀]
  iexact HB

/-- One trip of loop 8: the scratch fixed below the trip's base, the trip's 24 loads, maxima and stores,
    the scratch fixed below the next base. -/
theorem region_8 (d : Dev nD) (L : grid0.Coords) (f₀ : FVec F S32768 .f32) (v2 : BitVec 32) (k : Fin k0_t8_loop.trips) (acc : Unit) :
    (invB1 (F := F) (U := U) d L f₀ k.val acc)
      ⊢ wp frame (wpE (defs₀ (F := F)) 𝒱₀ (VT d L) none) Set.univ
          (k0_t8_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB1 (F := F) (U := U) d L f₀ (k.val + 1)) := by
  unfold invB1
  iintro HB
  unfold k0_t8_body
  sl_exec
  sl_step
  rw [← trip_step_b1 (k0_off10 k) (k0_off10_inb k) k.val (k0_off10_eq k) f₀]
  iexact HB

/-- One trip of loop 9: the scratch fixed below the trip's base, the trip's 24 loads, maxima and stores,
    the scratch fixed below the next base. -/
theorem region_9 (d : Dev nD) (L : grid0.Coords) (f₀ : FVec F S32768 .f32) (v2 : BitVec 32) (k : Fin k0_t9_loop.trips) (acc : Unit) :
    (invB0 (F := F) (U := U) d L f₀ k.val acc)
      ⊢ wp frame (wpE (defs₀ (F := F)) 𝒱₀ (VT d L) none) Set.univ
          (k0_t9_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB0 (F := F) (U := U) d L f₀ (k.val + 1)) := by
  unfold invB0
  iintro HB
  unfold k0_t9_body
  sl_exec
  sl_step
  rw [← trip_step_b0 (k0_off11 k) (k0_off11_inb k) k.val (k0_off11_eq k) f₀]
  iexact HB

/-- One trip of loop 10: the scratch fixed below the trip's base, the trip's 24 loads, maxima and stores,
    the scratch fixed below the next base. -/
theorem region_10 (d : Dev nD) (L : grid0.Coords) (f₀ : FVec F S32768 .f32) (v2 : BitVec 32) (k : Fin k0_t10_loop.trips) (acc : Unit) :
    (invB1 (F := F) (U := U) d L f₀ k.val acc)
      ⊢ wp frame (wpE (defs₀ (F := F)) 𝒱₀ (VT d L) none) Set.univ
          (k0_t10_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB1 (F := F) (U := U) d L f₀ (k.val + 1)) := by
  unfold invB1
  iintro HB
  unfold k0_t10_body
  sl_exec
  sl_step
  rw [← trip_step_b1 (k0_off12 k) (k0_off12_inb k) k.val (k0_off12_eq k) f₀]
  iexact HB

/-- One trip of loop 11: the scratch fixed below the trip's base, the trip's 24 loads, maxima and stores,
    the scratch fixed below the next base. -/
theorem region_11 (d : Dev nD) (L : grid0.Coords) (f₀ : FVec F S32768 .f32) (v2 : BitVec 32) (k : Fin k0_t11_loop.trips) (acc : Unit) :
    (invB0 (F := F) (U := U) d L f₀ k.val acc)
      ⊢ wp frame (wpE (defs₀ (F := F)) 𝒱₀ (VT d L) none) Set.univ
          (k0_t11_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB0 (F := F) (U := U) d L f₀ (k.val + 1)) := by
  unfold invB0
  iintro HB
  unfold k0_t11_body
  sl_exec
  sl_step
  rw [← trip_step_b0 (k0_off13 k) (k0_off13_inb k) k.val (k0_off13_eq k) f₀]
  iexact HB

/-- One trip of loop 12: the scratch fixed below the trip's base, the trip's 24 loads, maxima and stores,
    the scratch fixed below the next base. -/
theorem region_12 (d : Dev nD) (L : grid0.Coords) (f₀ : FVec F S32768 .f32) (v2 : BitVec 32) (k : Fin k0_t12_loop.trips) (acc : Unit) :
    (invB1 (F := F) (U := U) d L f₀ k.val acc)
      ⊢ wp frame (wpE (defs₀ (F := F)) 𝒱₀ (VT d L) none) Set.univ
          (k0_t12_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB1 (F := F) (U := U) d L f₀ (k.val + 1)) := by
  unfold invB1
  iintro HB
  unfold k0_t12_body
  sl_exec
  sl_step
  rw [← trip_step_b1 (k0_off14 k) (k0_off14_inb k) k.val (k0_off14_eq k) f₀]
  iexact HB

/-- One trip of loop 13: the scratch fixed below the trip's base, the trip's 24 loads, maxima and stores,
    the scratch fixed below the next base. -/
theorem region_13 (d : Dev nD) (L : grid0.Coords) (f₀ : FVec F S32768 .f32) (k : Fin k0_t13_loop.trips) (acc : Unit) :
    (invB0 (F := F) (U := U) d L f₀ k.val acc)
      ⊢ wp frame (wpE (defs₀ (F := F)) 𝒱₀ (VT d L) none) Set.univ
          (k0_t13_body L xV (Memref.isWhole_whole _) oV (Memref.isWhole_whole _) b0 (Memref.isWhole_whole _) b1 (Memref.isWhole_whole _)
            cc0_scratch2 cc0_scratch3 cc0_scratch4 cc0_scratch5 floorA floorB floorC k acc)
          (invB0 (F := F) (U := U) d L f₀ (k.val + 1)) := by
  unfold invB0
  iintro HB
  unfold k0_t13_body
  sl_exec
  sl_step
  rw [← trip_step_b0 (k0_off15 k) (k0_off15_inb k) k.val (k0_off15_eq k) f₀]
  iexact HB

/-- One trip of loop 14: the scratch fixed below the trip's base, the trip's 24 loads, maxima and stores,
    the scratch fixed below the next base. -/
theorem region_14 (d : Dev nD) (L : grid0.Coords) (f₀ : FVec F S32768 .f32) (k : Fin k0_t14_loop.trips) (acc : Unit) :
    (invB1 (F := F) (U := U) d L f₀ k.val acc)
      ⊢ wp frame (wpE (defs₀ (F := F)) 𝒱₀ (VT d L) none) Set.univ
          (k0_t14_body L xV (Memref.isWhole_whole _) oV (Memref.isWhole_whole _) b0 (Memref.isWhole_whole _) b1 (Memref.isWhole_whole _)
            cc0_scratch2 cc0_scratch3 cc0_scratch4 cc0_scratch5 floorA floorB floorC k acc)
          (invB1 (F := F) (U := U) d L f₀ (k.val + 1)) := by
  unfold invB1
  iintro HB
  unfold k0_t14_body
  sl_exec
  sl_step
  rw [← trip_step_b1 (k0_off16 k) (k0_off16_inb k) k.val (k0_off16_eq k) f₀]
  iexact HB

end Cert.Proof.KI

end
-- ==== Proof.KI.Landed.lean ====
/-
  What a subcore's step leaves in its chunk of the flat result.

  At step g the subcore copies chunk g of its part of the flat argument into a scratch buffer, fixes the
  buffer in place, and copies it out to chunk g of its part of the flat result. Position q of the chunk is
  position off + q of the result, off = 917504 s + 458752 c + 32768 g, and position off + 18874368 + q of
  the argument. The offset off is a multiple of 128, so the column of result position off + q is the
  column of q, and `fixAt` looks at the column only: the word left at result position i = off + q is
  `fixAt` of column i's rule applied to the argument's word at i + 18874368, which is the result function
  of the subcores' kernel at i.
-/
import proofs.«212535_g38190849196153_cont_8to1_b_1410_19_alg».proof.Proof.KI.TileSetup
import proofs.«212535_g38190849196153_cont_8to1_b_1410_19_alg».proof.Proof.KI.TripDefs
import proofs.«212535_g38190849196153_cont_8to1_b_1410_19_alg».proof.Proof.KI.TripRead
import proofs.«212535_g38190849196153_cont_8to1_b_1410_19_alg».proof.Proof.Gen.KernelIdeal.Skeleton
import Idealize.ShloMosaic.Lib.SparseCore.Launch
import Idealize.ShloMosaic.Lib.Tactic
import Idealize.ShloMosaic.Lib.Transfers
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.KernelIdeal.cc0_scratch0 : Memref Cert.KernelIdeal.sig Kind.scVector Space.vmem Cert.KernelIdeal.S32768 EltTy.f32)
local notation "b1" => (Memref.whole Cert.KernelIdeal.cc0_scratch1 : Memref Cert.KernelIdeal.sig Kind.scVector Space.vmem Cert.KernelIdeal.S32768 EltTy.f32)
local notation "xV" => (Memref.whole Cert.KernelIdeal.main_v1_scv : Memref Cert.KernelIdeal.sig Kind.scVector Space.hbm Cert.KernelIdeal.S33554432 EltTy.f32)
local notation "oV" => (Memref.whole Cert.KernelIdeal.main_v2_scv : Memref Cert.KernelIdeal.sig Kind.scVector Space.hbm Cert.KernelIdeal.S14680064 EltTy.f32)

omit [FloatOps F] in
/-- Position q of the output slice of step g is position off + q of the flat result. -/
theorem outS_emb_val (L : grid0.Coords) (g : Fin 14) (q : S32768.Idx) :
    (((outS L g).view.emb q) 0).val = 917504 * (L 1).val + 458752 * (L 0).val + 32768 * g.val + (q 0).val := by
  have h : (((outS L g).view.emb q) 0).val = (k0_off3 L (BitVec.ofNat 32 (32768 * g.val))) 0 + 1 * (q 0).val := rfl
  rw [h, k0_off3_eq]
  show 917504 * (L 1).val + 458752 * (L 0).val + 32768 * g.val + 1 * (q 0).val = _
  omega

omit [FloatOps F] in
/-- Position q of the input slice of step g is position off + 18874368 + q of the flat argument. -/
theorem inS_emb_val (L : grid0.Coords) (g : Fin 14) (q : S32768.Idx) :
    (((inS L g).view.emb q) 0).val = 917504 * (L 1).val + 458752 * (L 0).val + 32768 * g.val + 18874368 + (q 0).val := by
  have h : (((inS L g).view.emb q) 0).val = (k0_off1 L (BitVec.ofNat 32 (32768 * g.val))) 0 + 1 * (q 0).val := rfl
  rw [h, k0_off1_eq]
  show 917504 * (L 1).val + 458752 * (L 0).val + 32768 * g.val + 18874368 + 1 * (q 0).val = _
  omega

omit [FloatOps F] in
/-- The argument's position a result position of the output slice is computed from is the same position of
    the input slice. -/
theorem srcIdx_outS_emb (L : grid0.Coords) (g : Fin 14) (q : S32768.Idx) :
    srcIdx ((outS L g).view.emb q) = (inS L g).view.emb q := by
  funext a
  obtain rfl : a = 0 := Subsingleton.elim _ _
  apply Fin.ext
  show (((outS L g).view.emb q) 0).val + 18874368 = (((inS L g).view.emb q) 0).val
  rw [outS_emb_val, inS_emb_val]
  omega

/-- `fixAt` looks at the position's column only. -/
theorem fixAt_congr (p p' : ℕ) (x : F .f32) (h : p % 128 = p' % 128) : fixAt p x = fixAt p' x := by
  by_cases h48 : p % 128 < 48
  · have hr : p % 128 / 16 < 3 := by omega
    have hl : p % 128 % 16 < 16 := by omega
    rw [fixAt_lane ⟨p % 128 / 16, hr⟩ p x ⟨p % 128 % 16, hl⟩ (by show p % 128 = 16 * (p % 128 / 16) + p % 128 % 16; omega),
      fixAt_lane ⟨p % 128 / 16, hr⟩ p' x ⟨p % 128 % 16, hl⟩ (by show p' % 128 = 16 * (p % 128 / 16) + p % 128 % 16; omega)]
  · rw [fixAt_high p x (by omega), fixAt_high p' x (by omega)]

/-- One write through the whole of a view of 32768 words, read back at a position, is the payload there. -/
theorem read_writes_whole {κ : Kind} {sp : Space} (v : View sig κ sp S32768 .f32) (f : v.ty.Contents (Elt F))
    (W : S32768.Idx → Elt F .f32) (q : S32768.Idx) :
    v.read (Elt F) (v.writes (Elt F) f [⟨Rect.whole S32768, W⟩]) q = W q := by
  have h := View.read_writes_cons_emb v f (Rect.whole S32768) W [] q
  rwa [Rect.emb_whole_apply] at h

/-- One write through the whole of a view of 32768 words: the contents under position q are the payload there. -/
theorem writes_whole_emb {κ : Kind} {sp : Space} (v : View sig κ sp S32768 .f32) (f : v.ty.Contents (Elt F))
    (W : S32768.Idx → Elt F .f32) (q : S32768.Idx) :
    v.writes (Elt F) f [⟨Rect.whole S32768, W⟩] (v.emb q) = _root_.cast (congrArg (Elt F) v.elt_eq.symm) (W q) := by
  rw [View.writes_singleton]
  have h := View.write_emb_of_mem (v := v.slice (Rect.whole S32768)) (Val := Elt F) f W (M := Finset.univ) (x := q) (Finset.mem_univ _)
  have he : (v.slice (Rect.whole S32768)).emb q = v.emb q := by
    show v.emb ((Rect.whole S32768).emb q) = v.emb q
    rw [Rect.emb_whole_apply]
  rw [he] at h
  exact h

theorem landed_b0 (L : grid0.Coords) (g : Fin 14) (x1 : FVec F S33554432 .f32)
    (jo : (outS L g).view.ty.Contents (Elt F)) (jb : (b0).view.ty.Contents (Elt F)) :
    ∀ i ∈ (outS L g).view.set,
      (outS L g).view.writes (Elt F) jo
        [⟨Rect.whole S32768, ReadAs.same.apply (View.read (Elt F) (b0).view
          (fixChunk ((b0).view.writes (Elt F) jb
            [⟨Rect.whole cc0_scratch0.ty.shape, ReadAs.same.apply (View.read (Elt F) (inS L g).view x1)⟩])))⟩] i
        = scOut x1 i := by
  intro i hi
  obtain ⟨q, -, rfl⟩ := Finset.mem_map.mp hi
  -- the copy out covers the chunk: position q holds the fixed scratch buffer's word q
  rw [writes_whole_emb, cast_eq]
  show fixAt (q 0).val (((b0).view.writes (Elt F) jb
      [⟨Rect.whole cc0_scratch0.ty.shape, ReadAs.same.apply (View.read (Elt F) (inS L g).view x1)⟩]) q)
    = fixAt (((outS L g).view.emb q) 0).val (x1 (srcIdx ((outS L g).view.emb q)))
  -- the copy in covers the scratch buffer: its word q is the argument's word under the input slice
  have hin : ((b0).view.writes (Elt F) jb
      [⟨Rect.whole cc0_scratch0.ty.shape, ReadAs.same.apply (View.read (Elt F) (inS L g).view x1)⟩]) q
      = x1 ((inS L g).view.emb q) := by
    have h := writes_whole_emb (b0).view jb (ReadAs.same.apply (View.read (Elt F) (inS L g).view x1)) q
    rw [cast_eq] at h
    have hr : ReadAs.same.apply (View.read (Elt F) (inS L g).view x1) q = x1 ((inS L g).view.emb q) := by
      show View.read (Elt F) (inS L g).view x1 q = _
      rw [View.read_apply, cast_eq]
    exact h.trans hr
  rw [hin, srcIdx_outS_emb]
  exact fixAt_congr _ _ _ (by rw [outS_emb_val]; omega)

theorem landed_b1 (L : grid0.Coords) (g : Fin 14) (x1 : FVec F S33554432 .f32)
    (jo : (outS L g).view.ty.Contents (Elt F)) (jb : (b1).view.ty.Contents (Elt F)) :
    ∀ i ∈ (outS L g).view.set,
      (outS L g).view.writes (Elt F) jo
        [⟨Rect.whole S32768, ReadAs.same.apply (View.read (Elt F) (b1).view
          (fixChunk ((b1).view.writes (Elt F) jb
            [⟨Rect.whole cc0_scratch1.ty.shape, ReadAs.same.apply (View.read (Elt F) (inS L g).view x1)⟩])))⟩] i
        = scOut x1 i := by
  intro i hi
  obtain ⟨q, -, rfl⟩ := Finset.mem_map.mp hi
  -- the copy out covers the chunk: position q holds the fixed scratch buffer's word q
  rw [writes_whole_emb, cast_eq]
  show fixAt (q 0).val (((b1).view.writes (Elt F) jb
      [⟨Rect.whole cc0_scratch1.ty.shape, ReadAs.same.apply (View.read (Elt F) (inS L g).view x1)⟩]) q)
    = fixAt (((outS L g).view.emb q) 0).val (x1 (srcIdx ((outS L g).view.emb q)))
  -- the copy in covers the scratch buffer: its word q is the argument's word under the input slice
  have hin : ((b1).view.writes (Elt F) jb
      [⟨Rect.whole cc0_scratch1.ty.shape, ReadAs.same.apply (View.read (Elt F) (inS L g).view x1)⟩]) q
      = x1 ((inS L g).view.emb q) := by
    have h := writes_whole_emb (b1).view jb (ReadAs.same.apply (View.read (Elt F) (inS L g).view x1)) q
    rw [cast_eq] at h
    have hr : ReadAs.same.apply (View.read (Elt F) (inS L g).view x1) q = x1 ((inS L g).view.emb q) := by
      show View.read (Elt F) (inS L g).view x1 q = _
      rw [View.read_apply, cast_eq]
    exact h.trans hr
  rw [hin, srcIdx_outS_emb]
  exact fixAt_congr _ _ _ (by rw [outS_emb_val]; omega)

end Cert.Proof.KI
end
-- ==== Proof.KI.TileRun.lean ====
/-
  A vector subcore's task, run once at a symbolic device and grid point.

  The task copies chunk g + 1 of its fourteen input chunks into one scratch buffer while it fixes chunk
  g in the other, in place, and copies each fixed chunk out to its place in the result. Its own copies
  and waits are steps of the run: one copy at a time on each of the four cells, and no access to a
  buffer while a copy on it is pending. Each of the fourteen loops is taken by its invariant (the
  buffer fixed below the trip's base), from the chunk the preceding wait landed; each fixed chunk,
  landed in the result, is the result's value there.
-/
import proofs.«212535_g38190849196153_cont_8to1_b_1410_19_alg».proof.Proof.KI.Regions
import proofs.«212535_g38190849196153_cont_8to1_b_1410_19_alg».proof.Proof.KI.Landed
import proofs.«212535_g38190849196153_cont_8to1_b_1410_19_alg».proof.Proof.Gen.KernelIdeal.Skeleton
import Idealize.ShloMosaic.Lib.SparseCore.Launch
import Idealize.ShloMosaic.Lib.Tactic
import Idealize.ShloMosaic.Lib.Transfers
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.KernelIdeal.cc0_scratch0 : Memref Cert.KernelIdeal.sig Kind.scVector Space.vmem Cert.KernelIdeal.S32768 EltTy.f32)
local notation "b1" => (Memref.whole Cert.KernelIdeal.cc0_scratch1 : Memref Cert.KernelIdeal.sig Kind.scVector Space.vmem Cert.KernelIdeal.S32768 EltTy.f32)
local notation "xV" => (Memref.whole Cert.KernelIdeal.main_v1_scv : Memref Cert.KernelIdeal.sig Kind.scVector Space.hbm Cert.KernelIdeal.S33554432 EltTy.f32)
local notation "oV" => (Memref.whole Cert.KernelIdeal.main_v2_scv : Memref Cert.KernelIdeal.sig Kind.scVector Space.hbm Cert.KernelIdeal.S14680064 EltTy.f32)

set_option maxHeartbeats 4000000 in
theorem tile_run (d : Dev nD) (L : grid0.Coords) (x1 : Buf (Elt F) (x1Loc d)) (o0 : Buf (Elt F) (o2Loc d))
    (O : CellTallies nD τ sig (HIx 1)) (W : Waits sig (HIx 1))
    (g0 : Buf (Elt F) ((b0).view.loc (VT d L))) (g1 : Buf (Elt F) ((b1).view.loc (VT d L))) :
    (iprop(Transfers.MayWaits (VT d L) (default : HIx 1) O
        ∗ ((inSl L 0#32 (k0_off1_inb L 0)).view.loc (VT d L) ↦[(inSl L 0#32 (k0_off1_inb L 0)).view.set]{fullShare} x1)
        ∗ ((inSl L 32768#32 (k0_off1_inb L 1)).view.loc (VT d L) ↦[(inSl L 32768#32 (k0_off1_inb L 1)).view.set]{fullShare} x1)
        ∗ ((inSl L 65536#32 (k0_off1_inb L 2)).view.loc (VT d L) ↦[(inSl L 65536#32 (k0_off1_inb L 2)).view.set]{fullShare} x1)
        ∗ ((inSl L 98304#32 (k0_off1_inb L 3)).view.loc (VT d L) ↦[(inSl L 98304#32 (k0_off1_inb L 3)).view.set]{fullShare} x1)
        ∗ ((inSl L 131072#32 (k0_off1_inb L 4)).view.loc (VT d L) ↦[(inSl L 131072#32 (k0_off1_inb L 4)).view.set]{fullShare} x1)
        ∗ ((inSl L 163840#32 (k0_off1_inb L 5)).view.loc (VT d L) ↦[(inSl L 163840#32 (k0_off1_inb L 5)).view.set]{fullShare} x1)
        ∗ ((inSl L 196608#32 (k0_off1_inb L 6)).view.loc (VT d L) ↦[(inSl L 196608#32 (k0_off1_inb L 6)).view.set]{fullShare} x1)
        ∗ ((inSl L 229376#32 (k0_off1_inb L 7)).view.loc (VT d L) ↦[(inSl L 229376#32 (k0_off1_inb L 7)).view.set]{fullShare} x1)
        ∗ ((inSl L 262144#32 (k0_off1_inb L 8)).view.loc (VT d L) ↦[(inSl L 262144#32 (k0_off1_inb L 8)).view.set]{fullShare} x1)
        ∗ ((inSl L 294912#32 (k0_off1_inb L 9)).view.loc (VT d L) ↦[(inSl L 294912#32 (k0_off1_inb L 9)).view.set]{fullShare} x1)
        ∗ ((inSl L 327680#32 (k0_off1_inb L 10)).view.loc (VT d L) ↦[(inSl L 327680#32 (k0_off1_inb L 10)).view.set]{fullShare} x1)
        ∗ ((inSl L 360448#32 (k0_off1_inb L 11)).view.loc (VT d L) ↦[(inSl L 360448#32 (k0_off1_inb L 11)).view.set]{fullShare} x1)
        ∗ ((inSl L 393216#32 (k0_off1_inb L 12)).view.loc (VT d L) ↦[(inSl L 393216#32 (k0_off1_inb L 12)).view.set]{fullShare} x1)
        ∗ ((inSl L 425984#32 (k0_off1_inb L 13)).view.loc (VT d L) ↦[(inSl L 425984#32 (k0_off1_inb L 13)).view.set]{fullShare} x1)
        ∗ ((outSl L 0#32 (k0_off3_inb L 0)).view.loc (VT d L) ↦[(outSl L 0#32 (k0_off3_inb L 0)).view.set]{fullShare} o0)
        ∗ ((outSl L 32768#32 (k0_off3_inb L 1)).view.loc (VT d L) ↦[(outSl L 32768#32 (k0_off3_inb L 1)).view.set]{fullShare} o0)
        ∗ ((outSl L 65536#32 (k0_off3_inb L 2)).view.loc (VT d L) ↦[(outSl L 65536#32 (k0_off3_inb L 2)).view.set]{fullShare} o0)
        ∗ ((outSl L 98304#32 (k0_off3_inb L 3)).view.loc (VT d L) ↦[(outSl L 98304#32 (k0_off3_inb L 3)).view.set]{fullShare} o0)
        ∗ ((outSl L 131072#32 (k0_off3_inb L 4)).view.loc (VT d L) ↦[(outSl L 131072#32 (k0_off3_inb L 4)).view.set]{fullShare} o0)
        ∗ ((outSl L 163840#32 (k0_off3_inb L 5)).view.loc (VT d L) ↦[(outSl L 163840#32 (k0_off3_inb L 5)).view.set]{fullShare} o0)
        ∗ ((outSl L 196608#32 (k0_off3_inb L 6)).view.loc (VT d L) ↦[(outSl L 196608#32 (k0_off3_inb L 6)).view.set]{fullShare} o0)
        ∗ ((outSl L 229376#32 (k0_off3_inb L 7)).view.loc (VT d L) ↦[(outSl L 229376#32 (k0_off3_inb L 7)).view.set]{fullShare} o0)
        ∗ ((outSl L 262144#32 (k0_off3_inb L 8)).view.loc (VT d L) ↦[(outSl L 262144#32 (k0_off3_inb L 8)).view.set]{fullShare} o0)
        ∗ ((outSl L 294912#32 (k0_off3_inb L 9)).view.loc (VT d L) ↦[(outSl L 294912#32 (k0_off3_inb L 9)).view.set]{fullShare} o0)
        ∗ ((outSl L 327680#32 (k0_off3_inb L 10)).view.loc (VT d L) ↦[(outSl L 327680#32 (k0_off3_inb L 10)).view.set]{fullShare} o0)
        ∗ ((outSl L 360448#32 (k0_off3_inb L 11)).view.loc (VT d L) ↦[(outSl L 360448#32 (k0_off3_inb L 11)).view.set]{fullShare} o0)
        ∗ ((outSl L 393216#32 (k0_off3_inb L 12)).view.loc (VT d L) ↦[(outSl L 393216#32 (k0_off3_inb L 12)).view.set]{fullShare} o0)
        ∗ ((outSl L 425984#32 (k0_off3_inb L 13)).view.loc (VT d L) ↦[(outSl L 425984#32 (k0_off3_inb L 13)).view.set]{fullShare} o0)
        ∗ ((b0).view.loc (VT d L) ↦[(b0).view.set]{fullShare} g0)
        ∗ ((b1).view.loc (VT d L) ↦[(b1).view.set]{fullShare} g1)
        ∗ cells0 d L
        ∗ owes (VT d L) O W) : sProp 𝕄)
      ⊢ wp frame (wpE (defs₀ (F := F)) 𝒱₀ (VT d L) none) Set.univ
          (cc0_k L xV (Memref.isWhole_whole _) oV (Memref.isWhole_whole _) b0 (Memref.isWhole_whole _) b1 (Memref.isWhole_whole _)
            cc0_scratch2 cc0_scratch3 cc0_scratch4 cc0_scratch5)
          fun _ => iprop(((inSl L 0#32 (k0_off1_inb L 0)).view.loc (VT d L) ↦[(inSl L 0#32 (k0_off1_inb L 0)).view.set]{fullShare} x1)
            ∗ ((inSl L 32768#32 (k0_off1_inb L 1)).view.loc (VT d L) ↦[(inSl L 32768#32 (k0_off1_inb L 1)).view.set]{fullShare} x1)
            ∗ ((inSl L 65536#32 (k0_off1_inb L 2)).view.loc (VT d L) ↦[(inSl L 65536#32 (k0_off1_inb L 2)).view.set]{fullShare} x1)
            ∗ ((inSl L 98304#32 (k0_off1_inb L 3)).view.loc (VT d L) ↦[(inSl L 98304#32 (k0_off1_inb L 3)).view.set]{fullShare} x1)
            ∗ ((inSl L 131072#32 (k0_off1_inb L 4)).view.loc (VT d L) ↦[(inSl L 131072#32 (k0_off1_inb L 4)).view.set]{fullShare} x1)
            ∗ ((inSl L 163840#32 (k0_off1_inb L 5)).view.loc (VT d L) ↦[(inSl L 163840#32 (k0_off1_inb L 5)).view.set]{fullShare} x1)
            ∗ ((inSl L 196608#32 (k0_off1_inb L 6)).view.loc (VT d L) ↦[(inSl L 196608#32 (k0_off1_inb L 6)).view.set]{fullShare} x1)
            ∗ ((inSl L 229376#32 (k0_off1_inb L 7)).view.loc (VT d L) ↦[(inSl L 229376#32 (k0_off1_inb L 7)).view.set]{fullShare} x1)
            ∗ ((inSl L 262144#32 (k0_off1_inb L 8)).view.loc (VT d L) ↦[(inSl L 262144#32 (k0_off1_inb L 8)).view.set]{fullShare} x1)
            ∗ ((inSl L 294912#32 (k0_off1_inb L 9)).view.loc (VT d L) ↦[(inSl L 294912#32 (k0_off1_inb L 9)).view.set]{fullShare} x1)
            ∗ ((inSl L 327680#32 (k0_off1_inb L 10)).view.loc (VT d L) ↦[(inSl L 327680#32 (k0_off1_inb L 10)).view.set]{fullShare} x1)
            ∗ ((inSl L 360448#32 (k0_off1_inb L 11)).view.loc (VT d L) ↦[(inSl L 360448#32 (k0_off1_inb L 11)).view.set]{fullShare} x1)
            ∗ ((inSl L 393216#32 (k0_off1_inb L 12)).view.loc (VT d L) ↦[(inSl L 393216#32 (k0_off1_inb L 12)).view.set]{fullShare} x1)
            ∗ ((inSl L 425984#32 (k0_off1_inb L 13)).view.loc (VT d L) ↦[(inSl L 425984#32 (k0_off1_inb L 13)).view.set]{fullShare} x1)
            ∗ ((outSl L 0#32 (k0_off3_inb L 0)).view.loc (VT d L) ↦[(outSl L 0#32 (k0_off3_inb L 0)).view.set]{fullShare} scOut (F := F) x1)
            ∗ ((outSl L 32768#32 (k0_off3_inb L 1)).view.loc (VT d L) ↦[(outSl L 32768#32 (k0_off3_inb L 1)).view.set]{fullShare} scOut (F := F) x1)
            ∗ ((outSl L 65536#32 (k0_off3_inb L 2)).view.loc (VT d L) ↦[(outSl L 65536#32 (k0_off3_inb L 2)).view.set]{fullShare} scOut (F := F) x1)
            ∗ ((outSl L 98304#32 (k0_off3_inb L 3)).view.loc (VT d L) ↦[(outSl L 98304#32 (k0_off3_inb L 3)).view.set]{fullShare} scOut (F := F) x1)
            ∗ ((outSl L 131072#32 (k0_off3_inb L 4)).view.loc (VT d L) ↦[(outSl L 131072#32 (k0_off3_inb L 4)).view.set]{fullShare} scOut (F := F) x1)
            ∗ ((outSl L 163840#32 (k0_off3_inb L 5)).view.loc (VT d L) ↦[(outSl L 163840#32 (k0_off3_inb L 5)).view.set]{fullShare} scOut (F := F) x1)
            ∗ ((outSl L 196608#32 (k0_off3_inb L 6)).view.loc (VT d L) ↦[(outSl L 196608#32 (k0_off3_inb L 6)).view.set]{fullShare} scOut (F := F) x1)
            ∗ ((outSl L 229376#32 (k0_off3_inb L 7)).view.loc (VT d L) ↦[(outSl L 229376#32 (k0_off3_inb L 7)).view.set]{fullShare} scOut (F := F) x1)
            ∗ ((outSl L 262144#32 (k0_off3_inb L 8)).view.loc (VT d L) ↦[(outSl L 262144#32 (k0_off3_inb L 8)).view.set]{fullShare} scOut (F := F) x1)
            ∗ ((outSl L 294912#32 (k0_off3_inb L 9)).view.loc (VT d L) ↦[(outSl L 294912#32 (k0_off3_inb L 9)).view.set]{fullShare} scOut (F := F) x1)
            ∗ ((outSl L 327680#32 (k0_off3_inb L 10)).view.loc (VT d L) ↦[(outSl L 327680#32 (k0_off3_inb L 10)).view.set]{fullShare} scOut (F := F) x1)
            ∗ ((outSl L 360448#32 (k0_off3_inb L 11)).view.loc (VT d L) ↦[(outSl L 360448#32 (k0_off3_inb L 11)).view.set]{fullShare} scOut (F := F) x1)
            ∗ ((outSl L 393216#32 (k0_off3_inb L 12)).view.loc (VT d L) ↦[(outSl L 393216#32 (k0_off3_inb L 12)).view.set]{fullShare} scOut (F := F) x1)
            ∗ ((outSl L 425984#32 (k0_off3_inb L 13)).view.loc (VT d L) ↦[(outSl L 425984#32 (k0_off3_inb L 13)).view.set]{fullShare} scOut (F := F) x1)
            ∗ (∃ g, (b0).view.loc (VT d L) ↦[(b0).view.set]{fullShare} g)
            ∗ (∃ g, (b1).view.loc (VT d L) ↦[(b1).view.set]{fullShare} g)
            ∗ cells0 d L
            ∗ ∃ W', owes (VT d L) O W') := by
  iintro ⟨#Hmw, HI0, HI1, HI2, HI3, HI4, HI5, HI6, HI7, HI8, HI9, HI10, HI11, HI12, HI13, HO0, HO1, HO2, HO3, HO4, HO5, HO6, HO7, HO8, HO9, HO10, HO11, HO12, HO13, HB0, HB1, ⟨Hc0, Hc1, Hc2, Hc3⟩, HW⟩
  sl_unfold [cc0_k]
  sl_exec
  -- step 0: the loop that fixes the first scratch, by its invariant from the chunk the wait landed
  generalize hf1 : (Memref.whole Cert.KernelIdeal.cc0_scratch0).view.writes (Elt F) _ _ = f1
  sl_for (invB0 (F := F) (U := U) d L f1) $$ [HB0]
  case region => exact region_1 d L f1
  · unfold invB0; rw [fixUpTo_zero]; iexact HB0
  iintro %_ HB0
  unfold invB0
  rw [show Scf.trips k0_t1_loop.lb k0_t1_loop.ub k0_t1_loop.st = 32 from rfl, fixUpTo_all]
  sl_exec
  -- step 1: the loop that fixes the second scratch, by its invariant from the chunk the wait landed
  generalize hf2 : (Memref.whole Cert.KernelIdeal.cc0_scratch1).view.writes (Elt F) _ _ = f2
  sl_for (invB1 (F := F) (U := U) d L f2) $$ [HB1]
  case region => exact region_2 d L f2 _
  · unfold invB1; rw [fixUpTo_zero]; iexact HB1
  iintro %_ HB1
  unfold invB1
  rw [show Scf.trips k0_t2_loop.lb k0_t2_loop.ub k0_t2_loop.st = 32 from rfl, fixUpTo_all]
  sl_exec
  -- step 2: the loop that fixes the first scratch, by its invariant from the chunk the wait landed
  generalize hf3 : (Memref.whole Cert.KernelIdeal.cc0_scratch0).view.writes (Elt F) _ _ = f3
  sl_for (invB0 (F := F) (U := U) d L f3) $$ [HB0]
  case region => exact region_3 d L f3 _ _ _
  · unfold invB0; rw [fixUpTo_zero]; iexact HB0
  iintro %_ HB0
  unfold invB0
  rw [show Scf.trips k0_t3_loop.lb k0_t3_loop.ub k0_t3_loop.st = 32 from rfl, fixUpTo_all]
  sl_exec
  -- step 3: the loop that fixes the second scratch, by its invariant from the chunk the wait landed
  generalize hf4 : (Memref.whole Cert.KernelIdeal.cc0_scratch1).view.writes (Elt F) _ _ = f4
  sl_for (invB1 (F := F) (U := U) d L f4) $$ [HB1]
  case region => exact region_4 d L f4 _ _ _
  · unfold invB1; rw [fixUpTo_zero]; iexact HB1
  iintro %_ HB1
  unfold invB1
  rw [show Scf.trips k0_t4_loop.lb k0_t4_loop.ub k0_t4_loop.st = 32 from rfl, fixUpTo_all]
  sl_exec
  -- step 4: the loop that fixes the first scratch, by its invariant from the chunk the wait landed
  generalize hf5 : (Memref.whole Cert.KernelIdeal.cc0_scratch0).view.writes (Elt F) _ _ = f5
  sl_for (invB0 (F := F) (U := U) d L f5) $$ [HB0]
  case region => exact region_5 d L f5 _ _ _
  · unfold invB0; rw [fixUpTo_zero]; iexact HB0
  iintro %_ HB0
  unfold invB0
  rw [show Scf.trips k0_t5_loop.lb k0_t5_loop.ub k0_t5_loop.st = 32 from rfl, fixUpTo_all]
  sl_exec
  -- step 5: the loop that fixes the second scratch, by its invariant from the chunk the wait landed
  generalize hf6 : (Memref.whole Cert.KernelIdeal.cc0_scratch1).view.writes (Elt F) _ _ = f6
  sl_for (invB1 (F := F) (U := U) d L f6) $$ [HB1]
  case region => exact region_6 d L f6 _ _ _
  · unfold invB1; rw [fixUpTo_zero]; iexact HB1
  iintro %_ HB1
  unfold invB1
  rw [show Scf.trips k0_t6_loop.lb k0_t6_loop.ub k0_t6_loop.st = 32 from rfl, fixUpTo_all]
  sl_exec
  -- step 6: the loop that fixes the first scratch, by its invariant from the chunk the wait landed
  generalize hf7 : (Memref.whole Cert.KernelIdeal.cc0_scratch0).view.writes (Elt F) _ _ = f7
  sl_for (invB0 (F := F) (U := U) d L f7) $$ [HB0]
  case region => exact region_7 d L f7 _
  · unfold invB0; rw [fixUpTo_zero]; iexact HB0
  iintro %_ HB0
  unfold invB0
  rw [show Scf.trips k0_t7_loop.lb k0_t7_loop.ub k0_t7_loop.st = 32 from rfl, fixUpTo_all]
  sl_exec
  -- step 7: the loop that fixes the second scratch, by its invariant from the chunk the wait landed
  generalize hf8 : (Memref.whole Cert.KernelIdeal.cc0_scratch1).view.writes (Elt F) _ _ = f8
  sl_for (invB1 (F := F) (U := U) d L f8) $$ [HB1]
  case region => exact region_8 d L f8 _
  · unfold invB1; rw [fixUpTo_zero]; iexact HB1
  iintro %_ HB1
  unfold invB1
  rw [show Scf.trips k0_t8_loop.lb k0_t8_loop.ub k0_t8_loop.st = 32 from rfl, fixUpTo_all]
  sl_exec
  -- step 8: the loop that fixes the first scratch, by its invariant from the chunk the wait landed
  generalize hf9 : (Memref.whole Cert.KernelIdeal.cc0_scratch0).view.writes (Elt F) _ _ = f9
  sl_for (invB0 (F := F) (U := U) d L f9) $$ [HB0]
  case region => exact region_9 d L f9 _
  · unfold invB0; rw [fixUpTo_zero]; iexact HB0
  iintro %_ HB0
  unfold invB0
  rw [show Scf.trips k0_t9_loop.lb k0_t9_loop.ub k0_t9_loop.st = 32 from rfl, fixUpTo_all]
  sl_exec
  -- step 9: the loop that fixes the second scratch, by its invariant from the chunk the wait landed
  generalize hf10 : (Memref.whole Cert.KernelIdeal.cc0_scratch1).view.writes (Elt F) _ _ = f10
  sl_for (invB1 (F := F) (U := U) d L f10) $$ [HB1]
  case region => exact region_10 d L f10 _
  · unfold invB1; rw [fixUpTo_zero]; iexact HB1
  iintro %_ HB1
  unfold invB1
  rw [show Scf.trips k0_t10_loop.lb k0_t10_loop.ub k0_t10_loop.st = 32 from rfl, fixUpTo_all]
  sl_exec
  -- step 10: the loop that fixes the first scratch, by its invariant from the chunk the wait landed
  generalize hf11 : (Memref.whole Cert.KernelIdeal.cc0_scratch0).view.writes (Elt F) _ _ = f11
  sl_for (invB0 (F := F) (U := U) d L f11) $$ [HB0]
  case region => exact region_11 d L f11 _
  · unfold invB0; rw [fixUpTo_zero]; iexact HB0
  iintro %_ HB0
  unfold invB0
  rw [show Scf.trips k0_t11_loop.lb k0_t11_loop.ub k0_t11_loop.st = 32 from rfl, fixUpTo_all]
  sl_exec
  -- step 11: the loop that fixes the second scratch, by its invariant from the chunk the wait landed
  generalize hf12 : (Memref.whole Cert.KernelIdeal.cc0_scratch1).view.writes (Elt F) _ _ = f12
  sl_for (invB1 (F := F) (U := U) d L f12) $$ [HB1]
  case region => exact region_12 d L f12 _
  · unfold invB1; rw [fixUpTo_zero]; iexact HB1
  iintro %_ HB1
  unfold invB1
  rw [show Scf.trips k0_t12_loop.lb k0_t12_loop.ub k0_t12_loop.st = 32 from rfl, fixUpTo_all]
  sl_exec
  -- step 12: the loop that fixes the first scratch, by its invariant from the chunk the wait landed
  generalize hf13 : (Memref.whole Cert.KernelIdeal.cc0_scratch0).view.writes (Elt F) _ _ = f13
  sl_for (invB0 (F := F) (U := U) d L f13) $$ [HB0]
  case region => exact region_13 d L f13
  · unfold invB0; rw [fixUpTo_zero]; iexact HB0
  iintro %_ HB0
  unfold invB0
  rw [show Scf.trips k0_t13_loop.lb k0_t13_loop.ub k0_t13_loop.st = 32 from rfl, fixUpTo_all]
  sl_exec
  -- step 13: the loop that fixes the second scratch, by its invariant from the chunk the wait landed
  generalize hf14 : (Memref.whole Cert.KernelIdeal.cc0_scratch1).view.writes (Elt F) _ _ = f14
  sl_for (invB1 (F := F) (U := U) d L f14) $$ [HB1]
  case region => exact region_14 d L f14
  · unfold invB1; rw [fixUpTo_zero]; iexact HB1
  iintro %_ HB1
  unfold invB1
  rw [show Scf.trips k0_t14_loop.lb k0_t14_loop.ub k0_t14_loop.st = 32 from rfl, fixUpTo_all]
  sl_exec
  -- the return; every landed chunk is the result's value on its chunk of positions
  subst hf1
  subst hf2
  subst hf3
  subst hf4
  subst hf5
  subst hf6
  subst hf7
  subst hf8
  subst hf9
  subst hf10
  subst hf11
  subst hf12
  subst hf13
  subst hf14
  ihave HO0 := (Entails.of_eq (pointsTo_congr (landed_b0 L 0 x1 _ _))) $$ HO0
  ihave HO1 := (Entails.of_eq (pointsTo_congr (landed_b1 L 1 x1 _ _))) $$ HO1
  ihave HO2 := (Entails.of_eq (pointsTo_congr (landed_b0 L 2 x1 _ _))) $$ HO2
  ihave HO3 := (Entails.of_eq (pointsTo_congr (landed_b1 L 3 x1 _ _))) $$ HO3
  ihave HO4 := (Entails.of_eq (pointsTo_congr (landed_b0 L 4 x1 _ _))) $$ HO4
  ihave HO5 := (Entails.of_eq (pointsTo_congr (landed_b1 L 5 x1 _ _))) $$ HO5
  ihave HO6 := (Entails.of_eq (pointsTo_congr (landed_b0 L 6 x1 _ _))) $$ HO6
  ihave HO7 := (Entails.of_eq (pointsTo_congr (landed_b1 L 7 x1 _ _))) $$ HO7
  ihave HO8 := (Entails.of_eq (pointsTo_congr (landed_b0 L 8 x1 _ _))) $$ HO8
  ihave HO9 := (Entails.of_eq (pointsTo_congr (landed_b1 L 9 x1 _ _))) $$ HO9
  ihave HO10 := (Entails.of_eq (pointsTo_congr (landed_b0 L 10 x1 _ _))) $$ HO10
  ihave HO11 := (Entails.of_eq (pointsTo_congr (landed_b1 L 11 x1 _ _))) $$ HO11
  ihave HO12 := (Entails.of_eq (pointsTo_congr (landed_b0 L 12 x1 _ _))) $$ HO12
  ihave HO13 := (Entails.of_eq (pointsTo_congr (landed_b1 L 13 x1 _ _))) $$ HO13
  sl_step
  sl_close

end Cert.Proof.KI

end
-- ==== Proof.KI.Tile.lean ====
/-
  A vector subcore's task, from what the launch deals it to what it hands back.

  The launch deals the subcore at grid point L its fourteen chunks of the flat argument and its fourteen
  chunks of the flat result, each a separate piece, together with the subcore's own buffers and cells.
  The task's run is stated over the same pieces under the names the task's text gives them. This module
  unfolds the two fourteen-fold products into their pieces, renames them, runs the task, and folds the
  pieces back: the argument's chunks as they were, the result's chunks at the fixed values.
-/
import proofs.«212535_g38190849196153_cont_8to1_b_1410_19_alg».proof.Proof.KI.TileRun
import Idealize.ShloMosaic.Lib.SparseCore.Launch
import Idealize.ShloMosaic.Lib.Tactic
import Idealize.ShloMosaic.Lib.Transfers
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.KernelIdeal.cc0_scratch0 : Memref Cert.KernelIdeal.sig Kind.scVector Space.vmem Cert.KernelIdeal.S32768 EltTy.f32)
local notation "b1" => (Memref.whole Cert.KernelIdeal.cc0_scratch1 : Memref Cert.KernelIdeal.sig Kind.scVector Space.vmem Cert.KernelIdeal.S32768 EltTy.f32)
local notation "xV" => (Memref.whole Cert.KernelIdeal.main_v1_scv : Memref Cert.KernelIdeal.sig Kind.scVector Space.hbm Cert.KernelIdeal.S33554432 EltTy.f32)
local notation "oV" => (Memref.whole Cert.KernelIdeal.main_v2_scv : Memref Cert.KernelIdeal.sig Kind.scVector Space.hbm Cert.KernelIdeal.S14680064 EltTy.f32)

/-! ## Fourteen pieces, one by one -/

omit [FloatOps F] [CountersIn U] in
/-- A product over the fourteen steps is the product of its fourteen factors, in order. -/
theorem bigSep_fourteen (Φ : Fin 14 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide),
    bigSep_singleton]

omit [FloatOps F] [CountersIn U] in
/-- A product of two factors, each replaced by an equal one. -/
theorem sep_congr {P P' Q Q' : sProp 𝕄} (h1 : P = P') (h2 : Q = Q') : iprop(P ∗ Q) = iprop(P' ∗ Q') := by
  rw [h1, h2]

omit [FloatOps F] in
/-- The subcore's fourteen chunks of the flat argument, each under the name the task's text gives its slice. -/
theorem inChunks_eq (d : Dev nD) (L : grid0.Coords) (f : Buf (Elt F) (x1Loc d)) :
    (bigSep Finset.univ fun g : Fin 14 => (x1Loc d ↦[inChunk (inIx L g)]{fullShare} f : sProp 𝕄))
      = iprop(((inSl L 0#32 (k0_off1_inb L 0)).view.loc (VT d L) ↦[(inSl L 0#32 (k0_off1_inb L 0)).view.set]{fullShare} f)
        ∗ ((inSl L 32768#32 (k0_off1_inb L 1)).view.loc (VT d L) ↦[(inSl L 32768#32 (k0_off1_inb L 1)).view.set]{fullShare} f)
        ∗ ((inSl L 65536#32 (k0_off1_inb L 2)).view.loc (VT d L) ↦[(inSl L 65536#32 (k0_off1_inb L 2)).view.set]{fullShare} f)
        ∗ ((inSl L 98304#32 (k0_off1_inb L 3)).view.loc (VT d L) ↦[(inSl L 98304#32 (k0_off1_inb L 3)).view.set]{fullShare} f)
        ∗ ((inSl L 131072#32 (k0_off1_inb L 4)).view.loc (VT d L) ↦[(inSl L 131072#32 (k0_off1_inb L 4)).view.set]{fullShare} f)
        ∗ ((inSl L 163840#32 (k0_off1_inb L 5)).view.loc (VT d L) ↦[(inSl L 163840#32 (k0_off1_inb L 5)).view.set]{fullShare} f)
        ∗ ((inSl L 196608#32 (k0_off1_inb L 6)).view.loc (VT d L) ↦[(inSl L 196608#32 (k0_off1_inb L 6)).view.set]{fullShare} f)
        ∗ ((inSl L 229376#32 (k0_off1_inb L 7)).view.loc (VT d L) ↦[(inSl L 229376#32 (k0_off1_inb L 7)).view.set]{fullShare} f)
        ∗ ((inSl L 262144#32 (k0_off1_inb L 8)).view.loc (VT d L) ↦[(inSl L 262144#32 (k0_off1_inb L 8)).view.set]{fullShare} f)
        ∗ ((inSl L 294912#32 (k0_off1_inb L 9)).view.loc (VT d L) ↦[(inSl L 294912#32 (k0_off1_inb L 9)).view.set]{fullShare} f)
        ∗ ((inSl L 327680#32 (k0_off1_inb L 10)).view.loc (VT d L) ↦[(inSl L 327680#32 (k0_off1_inb L 10)).view.set]{fullShare} f)
        ∗ ((inSl L 360448#32 (k0_off1_inb L 11)).view.loc (VT d L) ↦[(inSl L 360448#32 (k0_off1_inb L 11)).view.set]{fullShare} f)
        ∗ ((inSl L 393216#32 (k0_off1_inb L 12)).view.loc (VT d L) ↦[(inSl L 393216#32 (k0_off1_inb L 12)).view.set]{fullShare} f)
        ∗ ((inSl L 425984#32 (k0_off1_inb L 13)).view.loc (VT d L) ↦[(inSl L 425984#32 (k0_off1_inb L 13)).view.set]{fullShare} f)) :=
  (bigSep_fourteen _).trans
    (sep_congr (pts_inS (F := F) d L 0 f).symm <|
      sep_congr (pts_inS (F := F) d L 1 f).symm <|
      sep_congr (pts_inS (F := F) d L 2 f).symm <|
      sep_congr (pts_inS (F := F) d L 3 f).symm <|
      sep_congr (pts_inS (F := F) d L 4 f).symm <|
      sep_congr (pts_inS (F := F) d L 5 f).symm <|
      sep_congr (pts_inS (F := F) d L 6 f).symm <|
      sep_congr (pts_inS (F := F) d L 7 f).symm <|
      sep_congr (pts_inS (F := F) d L 8 f).symm <|
      sep_congr (pts_inS (F := F) d L 9 f).symm <|
      sep_congr (pts_inS (F := F) d L 10 f).symm <|
      sep_congr (pts_inS (F := F) d L 11 f).symm <|
      sep_congr (pts_inS (F := F) d L 12 f).symm <|
      (pts_inS (F := F) d L 13 f).symm)

omit [FloatOps F] in
/-- The subcore's fourteen chunks of the flat result, likewise. -/
theorem outChunks_eq (d : Dev nD) (L : grid0.Coords) (f : Buf (Elt F) (o2Loc d)) :
    (bigSep Finset.univ fun g : Fin 14 => (o2Loc d ↦[outChunk (outIx L g)]{fullShare} f : sProp 𝕄))
      = iprop(((outSl L 0#32 (k0_off3_inb L 0)).view.loc (VT d L) ↦[(outSl L 0#32 (k0_off3_inb L 0)).view.set]{fullShare} f)
        ∗ ((outSl L 32768#32 (k0_off3_inb L 1)).view.loc (VT d L) ↦[(outSl L 32768#32 (k0_off3_inb L 1)).view.set]{fullShare} f)
        ∗ ((outSl L 65536#32 (k0_off3_inb L 2)).view.loc (VT d L) ↦[(outSl L 65536#32 (k0_off3_inb L 2)).view.set]{fullShare} f)
        ∗ ((outSl L 98304#32 (k0_off3_inb L 3)).view.loc (VT d L) ↦[(outSl L 98304#32 (k0_off3_inb L 3)).view.set]{fullShare} f)
        ∗ ((outSl L 131072#32 (k0_off3_inb L 4)).view.loc (VT d L) ↦[(outSl L 131072#32 (k0_off3_inb L 4)).view.set]{fullShare} f)
        ∗ ((outSl L 163840#32 (k0_off3_inb L 5)).view.loc (VT d L) ↦[(outSl L 163840#32 (k0_off3_inb L 5)).view.set]{fullShare} f)
        ∗ ((outSl L 196608#32 (k0_off3_inb L 6)).view.loc (VT d L) ↦[(outSl L 196608#32 (k0_off3_inb L 6)).view.set]{fullShare} f)
        ∗ ((outSl L 229376#32 (k0_off3_inb L 7)).view.loc (VT d L) ↦[(outSl L 229376#32 (k0_off3_inb L 7)).view.set]{fullShare} f)
        ∗ ((outSl L 262144#32 (k0_off3_inb L 8)).view.loc (VT d L) ↦[(outSl L 262144#32 (k0_off3_inb L 8)).view.set]{fullShare} f)
        ∗ ((outSl L 294912#32 (k0_off3_inb L 9)).view.loc (VT d L) ↦[(outSl L 294912#32 (k0_off3_inb L 9)).view.set]{fullShare} f)
        ∗ ((outSl L 327680#32 (k0_off3_inb L 10)).view.loc (VT d L) ↦[(outSl L 327680#32 (k0_off3_inb L 10)).view.set]{fullShare} f)
        ∗ ((outSl L 360448#32 (k0_off3_inb L 11)).view.loc (VT d L) ↦[(outSl L 360448#32 (k0_off3_inb L 11)).view.set]{fullShare} f)
        ∗ ((outSl L 393216#32 (k0_off3_inb L 12)).view.loc (VT d L) ↦[(outSl L 393216#32 (k0_off3_inb L 12)).view.set]{fullShare} f)
        ∗ ((outSl L 425984#32 (k0_off3_inb L 13)).view.loc (VT d L) ↦[(outSl L 425984#32 (k0_off3_inb L 13)).view.set]{fullShare} f)) :=
  (bigSep_fourteen _).trans
    (sep_congr (pts_outS (F := F) d L 0 f).symm <|
      sep_congr (pts_outS (F := F) d L 1 f).symm <|
      sep_congr (pts_outS (F := F) d L 2 f).symm <|
      sep_congr (pts_outS (F := F) d L 3 f).symm <|
      sep_congr (pts_outS (F := F) d L 4 f).symm <|
      sep_congr (pts_outS (F := F) d L 5 f).symm <|
      sep_congr (pts_outS (F := F) d L 6 f).symm <|
      sep_congr (pts_outS (F := F) d L 7 f).symm <|
      sep_congr (pts_outS (F := F) d L 8 f).symm <|
      sep_congr (pts_outS (F := F) d L 9 f).symm <|
      sep_congr (pts_outS (F := F) d L 10 f).symm <|
      sep_congr (pts_outS (F := F) d L 11 f).symm <|
      sep_congr (pts_outS (F := F) d L 12 f).symm <|
      (pts_outS (F := F) d L 13 f).symm)

/-! ## The task -/

/-- The task on the vector subcore at grid point `L` of device `d`, from what the launch deals it (its fourteen
    chunks of the flat argument and of the flat result, its own buffers and cells) to what it hands back: the
    argument's chunks unchanged, the result's chunks at the fixed values of the argument. -/
theorem tile_body (hF : (K (F := F)).Facts) (d : Dev nD) (L : grid0.Coords)
    (x1 : Buf (Elt F) (x1Loc d)) (o0 : Buf (Elt F) (o2Loc d))
    (O : CellTallies nD τ sig (HIx 1)) (W : Waits sig (HIx 1)) (hO : ∀ g, O g none = 0) :
    iprop(levAts (K (F := F)).L (K (F := F)).lev ∗ emp
        ∗ ((bigSep Finset.univ fun g : Fin 14 => (x1Loc d ↦[inChunk (inIx L g)]{fullShare} x1 : sProp 𝕄))
           ∗ (bigSep Finset.univ fun g : Fin 14 => (o2Loc d ↦[outChunk (outIx L g)]{fullShare} o0 : sProp 𝕄)))
        ∗ scopedBufs (VT d L) ∗ scopedSems0 (VT d L) ∗ owes (VT d L) O W)
      ⊢ wp frame (wpE (defs₀ (F := F)) 𝒱₀ (VT d L) none) Set.univ
          (cc0_k L (Memref.whole main_v1_scv) (Memref.isWhole_whole _) (Memref.whole main_v2_scv) (Memref.isWhole_whole _)
            (Memref.whole cc0_scratch0) (Memref.isWhole_whole _) (Memref.whole cc0_scratch1) (Memref.isWhole_whole _)
            cc0_scratch2 cc0_scratch3 cc0_scratch4 cc0_scratch5)
          fun _ => (iprop(((bigSep Finset.univ fun g : Fin 14 => (x1Loc d ↦[inChunk (inIx L g)]{fullShare} x1 : sProp 𝕄))
              ∗ (bigSep Finset.univ fun g : Fin 14 => (o2Loc d ↦[outChunk (outIx L g)]{fullShare} scOut x1 : sProp 𝕄)))
            ∗ scopedBufs (VT d L) ∗ scopedSems0 (VT d L)
            ∗ ∃ W', ⌜∀ p ∈ W', p ∈ W ∨ p.2 = none ∨ p.2 = some (0 : Fin 1)⌝ ∗ owes (VT d L) O W') : sProp 𝕄) := by
  rw [(K (F := F)).scopedBufs_V hF d (cV L) (jV L), SparseCore.Cfg.scopedSems0_V (Val := Elt F) d (cV L) (jV L), ownSems0_V, ownBufs_V,
    inChunks_eq d L x1, outChunks_eq d L o0, outChunks_eq d L (scOut x1)]
  iintro ⟨#Hlv, -, ⟨⟨Hi0, Hi1, Hi2, Hi3, Hi4, Hi5, Hi6, Hi7, Hi8, Hi9, Hi10, Hi11, Hi12, Hi13⟩, ⟨Ho0, Ho1, Ho2, Ho3, Ho4, Ho5, Ho6, Ho7, Ho8, Ho9, Ho10, Ho11, Ho12, Ho13⟩⟩, ⟨⟨%g0, HG⟩, ⟨%g1, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HG' := (Entails.of_eq (pts_b0 (F := F) d L _).symm) $$ HG
  ihave HT' := (Entails.of_eq (pts_b1 (F := F) d L _).symm) $$ HT
  iapply (wp_wand_r Idealize.ShloMosaic.frame (wpE (defs₀ (F := F)) 𝒱₀ (VT d L) none) Set.univ)
  isplitl [Hi0 Hi1 Hi2 Hi3 Hi4 Hi5 Hi6 Hi7 Hi8 Hi9 Hi10 Hi11 Hi12 Hi13 Ho0 Ho1 Ho2 Ho3 Ho4 Ho5 Ho6 Ho7 Ho8 Ho9 Ho10 Ho11 Ho12 Ho13 HG' HT' HC HO]
  · iapply (tile_run d L x1 o0 O W g0 g1)
    isplitr; · iexact Hmw
    isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    isplitl [Hi8]; · iexact Hi8
    isplitl [Hi9]; · iexact Hi9
    isplitl [Hi10]; · iexact Hi10
    isplitl [Hi11]; · iexact Hi11
    isplitl [Hi12]; · iexact Hi12
    isplitl [Hi13]; · iexact Hi13
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [HG']; · iexact HG'
    isplitl [HT']; · iexact HT'
    isplitl [HC]; · iexact HC
    iexact HO
  iintro %_ ⟨Hi0, Hi1, Hi2, Hi3, Hi4, Hi5, Hi6, Hi7, Hi8, Hi9, Hi10, Hi11, Hi12, Hi13, Ho0, Ho1, Ho2, Ho3, Ho4, Ho5, Ho6, Ho7, Ho8, Ho9, Ho10, Ho11, Ho12, Ho13, ⟨%g, HG'⟩, ⟨%t, HT'⟩, HC, ⟨%W', HO⟩⟩
  isplitl [Hi0 Hi1 Hi2 Hi3 Hi4 Hi5 Hi6 Hi7 Hi8 Hi9 Hi10 Hi11 Hi12 Hi13 Ho0 Ho1 Ho2 Ho3 Ho4 Ho5 Ho6 Ho7 Ho8 Ho9 Ho10 Ho11 Ho12 Ho13]
  · isplitl [Hi0 Hi1 Hi2 Hi3 Hi4 Hi5 Hi6 Hi7 Hi8 Hi9 Hi10 Hi11 Hi12 Hi13]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hi8]; · iexact Hi8
      isplitl [Hi9]; · iexact Hi9
      isplitl [Hi10]; · iexact Hi10
      isplitl [Hi11]; · iexact Hi11
      isplitl [Hi12]; · iexact Hi12
      iexact Hi13
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      iexact Ho13
  isplitl [HG' HT' Hbufs]
  · isplitl [HG']; · iexists _; iapply (Entails.of_eq (pts_b0 (F := F) d L _)); iexact HG'
    isplitl [HT']; · iexists _; iapply (Entails.of_eq (pts_b1 (F := F) d L _)); iexact HT'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Cert.Proof.KI

end
-- ==== Proof.KI.Main.lean ====
/-
  The idealized kernel's program, run: @main on the TensorCore reshapes the argument to rows and to a flat
  array, hands the flat array's tail and the result array to the 2 · 16 vector subcores and waits for them,
  runs the row kernel's region over the first 147456 rows, reshapes the subcores' result to rows, joins the
  two and reshapes to the argument's shape. Every weakly fair execution of all threads ends, nothing faults,
  the argument is unchanged and the result is the assembly of the two kernels' result functions.
-/
import proofs.«212535_g38190849196153_cont_8to1_b_1410_19_alg».proof.Proof.KI.Host
import proofs.«212535_g38190849196153_cont_8to1_b_1410_19_alg».proof.Proof.KI.Region
import proofs.«212535_g38190849196153_cont_8to1_b_1410_19_alg».proof.Proof.KI.Tile

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open TcCoe

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element: the handshakes' rounds, the pipeline's staging cells, the copies' counters -/

def u₀ : UU := (initOf (K (F := F)).hsCells (K (F := F)).hsToks, (pipeU₀, 1))

omit [FloatOps F] in
theorem bigSep_emp' {I : Type} (s : Finset I) : (bigSep s fun _ => iprop(emp)) = (iprop(emp) : sProp 𝕄) := bigSep_emp_const s

/-- The pipeline's half of the right factor, in the spelling of its embedding. -/
theorem own_EP : (BI.own (((Emb.inl : Emb UP (UP × Counters)).trans (embR : Emb (UP × Counters) 𝕄)) pipeU₀) : sProp 𝕄)
    ⊢ BI.own (EP (F := F) pipeU₀) := Entails.of_eq rfl

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((pipeU₀, (1 : Counters)) : UP × Counters)) $$ Hu
  icases H with ⟨HH, HR⟩
  ihave H2 := (own_pair_emb (embR : Emb (UP × Counters) 𝕄) pipeU₀ (1 : Counters)) $$ HR
  icases H2 with ⟨HP, -⟩
  ihave HQ := (own_EP (F := F)) $$ HP
  imod (pipe_fund (F := F)) $$ HQ with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What @main leaves the claim: the argument where it was, the result at the assembly of the kernels' results. -/
abbrev FIN (d : Dev nD) : sProp 𝕄 :=
  iprop((aLoc d ↦{fullShare} m (aLoc d)) ∗ (o6Loc d ↦{fullShare} resultOf tcOut scOut (m (aLoc d))))

theorem unscoped_held (d : Dev nD) : (unscopedBufs d (fun b => m ((SparseCore.T d).loc b)) : sProp 𝕄) = held (T d) S8 (V0 m d) := by
  rw [unscopedBufs_eq, held_S8]

/-- After the two reshapes, array by array. -/
theorem held_V2 (d : Dev nD) :
    (held (T d) S8 (V2 m d) : sProp 𝕄)
      = iprop((aLoc d ↦{fullShare} m (aLoc d)) ∗ (x0Loc d ↦{fullShare} x0of m d) ∗ (x1Loc d ↦{fullShare} x1of m d) ∗ (o2Loc d ↦{fullShare} m (o2Loc d))
          ∗ (o3Loc d ↦{fullShare} m (o3Loc d)) ∗ (o4Loc d ↦{fullShare} V2 m d o4') ∗ (o5Loc d ↦{fullShare} V2 m d o5') ∗ (o6Loc d ↦{fullShare} V2 m d o6')) := by
  rw [held_S8, V2_a, V2_x0, V2_x1, V2_o2, V2_o3]

/-- After the two kernels, array by array. -/
theorem held_V3 (d : Dev nD) :
    (held (T d) S8 (V3 m d) : sProp 𝕄)
      = iprop((aLoc d ↦{fullShare} m (aLoc d)) ∗ (x0Loc d ↦{fullShare} x0of m d) ∗ (x1Loc d ↦{fullShare} x1of m d) ∗ (o2Loc d ↦{fullShare} scOut (x1of m d))
          ∗ (o3Loc d ↦{fullShare} tcOut (x0of m d)) ∗ (o4Loc d ↦{fullShare} V2 m d o4') ∗ (o5Loc d ↦{fullShare} V2 m d o5') ∗ (o6Loc d ↦{fullShare} V2 m d o6')) := by
  rw [held_S8, V3_a, V3_x0, V3_x1, V3_o2, V3_o3, V3_o4, V3_o5, V3_o6]

/-- At the end: the argument and the result. -/
theorem held_V6 (d : Dev nD) : (held (T d) S8 (V6 m d) : sProp 𝕄) ⊢ FIN m d := by
  rw [held_S8, V6_a, V6_o6]
  iintro ⟨Ha, -, -, -, -, -, -, Ho6⟩
  isplitl [Ha]; · iexact Ha
  iexact Ho6

/-- The TensorCore's state after the call holds what it owes (nothing more), to be taken out and put back. -/
theorem tcSt_open (d : Dev nD) :
    ((K (F := F)).tcSt EH d 1 : sProp 𝕄)
      ⊢ iprop(∃ W, ⌜(K (F := F)).WBelow (T d) W (8 * 1)⌝ ∗ owes (T d) ((K (F := F)).Otc d 1) W
          ∗ (∀ W', ⌜(K (F := F)).WBelow (T d) W' (8 * 1)⌝ -∗ owes (T d) ((K (F := F)).Otc d 1) W' -∗ (K (F := F)).tcSt EH d 1)) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr
    · ipureintro; exact hW'
    · iexact HO'
  iexact Hrest

theorem tcSt_after (d : Dev nD) : ((K (F := F)).tcSt EH d ((0 : Fin 1).val + 1) : sProp 𝕄) ⊢ (K (F := F)).tcSt EH d 1 := Entails.of_eq rfl

theorem Otc_one_none (d : Dev nD) : ∀ g, (K (F := F)).Otc d 1 g none = 0 := by
  intro g; rw [(K (F := F)).Otc_end d (le_refl 1)]; rfl

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave Hlev := ((K (F := F)).ctx_levAts κ) $$ Hctx
  -- the two reshapes
  iapply (wp_hlo_within 𝒱 (SparseCore.T d) none Set.univ (op := op0) (S := S8) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S8) h1 (V := V1 m d)) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha, Hx0, Hx1, Ho2, Ho3, Ho4, Ho5, Ho6⟩
  -- the subcores' call: the flat argument's tail and the result array out, and back
  ihave Hx1' := (x1_split (F := F) d (x1of m d)).1 $$ Hx1
  icases Hx1' with ⟨Hx1t, Hx1r⟩
  iapply ((K (F := F)).wp_run (D (F := F)) 𝒱 (EH := EH) (P := P m) κ d 0) $$ [Hst Hx1t Ho2 Hb Ha Hx0 Hx1r Ho3 Ho4 Ho5 Ho6 HG Hlev]
  isplitr; · iexact Hctx
  isplitl [Hst]; · iexact Hst
  isplitl [Hx1t Ho2]
  · rw [st0_eq]
    isplitl [Hx1t]; · iexact Hx1t
    iexact Ho2
  iintro ⟨Hst, Hdn⟩
  ihave Hdn' := (Entails.of_eq (dn0_eq (F := F) m d)) $$ Hdn
  icases Hdn' with ⟨Hx1t, Ho2⟩
  ihave Hx1 := (x1_split (F := F) d (x1of m d)).2 $$ [Hx1t Hx1r]
  · isplitl [Hx1t]; · iexact Hx1t
    iexact Hx1r
  -- the row kernel's region
  ihave Hst1 := (tcSt_after (F := F) d) $$ Hst
  ihave Hst' := (tcSt_open (F := F) d) $$ Hst1
  icases Hst' with ⟨%W, %hW, HO, Hback⟩
  iapply ((K (F := F)).wp_liftProg (D (F := F)) 𝒱 (SparseCore.T d) Set.univ none (Prog.lift (.customCall (Pipeline.entry (0 : Fin 1)) ())) _)
  iapply (wp_wand_r Idealize.ShloMosaic.frame (wpE (D (F := F)) 𝒱 (SparseCore.T d) none) Set.univ)
  isplitl [Hlev HG Hb Hx0 Ho3 HO]
  · iapply (region_wp (F := F) d (x0of m d) (m (o3Loc d)) ((K (F := F)).Otc d 1) W (Otc_one_none d))
    isplitl [Hlev]; · iexact Hlev
    isplitl [HG]; · iexact HG
    isplitl [Hb]; · iexact Hb
    isplitl [Hx0]; · iexact Hx0
    isplitl [Ho3]; · iexact Ho3
    iexact HO
  iintro %_ ⟨Hb, Hx0, Ho3, ⟨%W', %hW', HO⟩⟩
  ihave Hst := Hback $$ %W' %(fun p hp => by
      rcases hW' p hp with h | h
      · exact hW p h
      · rw [h, (K (F := F)).lev_none]; exact Nat.zero_le _) HO
  -- the three operations after the kernels
  ihave Hheld := (Entails.of_eq (held_V3 (F := F) m d).symm) $$ [Ha Hx0 Hx1 Ho2 Ho3 Ho4 Ho5 Ho6]
  · isplitl [Ha]; · iexact Ha
    isplitl [Hx0]; · iexact Hx0
    isplitl [Hx1]; · iexact Hx1
    isplitl [Ho2]; · iexact Ho2
    isplitl [Ho3]; · iexact Ho3
    isplitl [Ho4]; · iexact Ho4
    isplitl [Ho5]; · iexact Ho5
    iexact Ho6
  iapply (wp_hlo_within 𝒱 (SparseCore.T d) none Set.univ (op := op4) (S := S8) h4 (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S8) h5 (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S8) h6 (V := V5 m d)) $$ [Hb Hheld]
  · isplitl [Hb]; · iexact Hb
    iexact Hheld
  iintro ⟨Hb, Hheld⟩
  rw [wp_ret]; imodintro; imodintro
  isplitl [Hst]; · iexact Hst
  iapply (held_V6 (F := F) m d); iexact Hheld

/-! ## The subcores' obligation -/

theorem defs₀_vector (c : Fin τ.nSC) (s : Fin τ.nSub) :
    defs₀ (F := F) (.scVector c s) 0 ()
      = SparseCore.onTile hcore0 hsub0 (fun c s => cc0_k (coordsV c s)
          (Memref.whole main_v1_scv) (Memref.isWhole_whole _) (Memref.whole main_v2_scv) (Memref.isWhole_whole _)
          (Memref.whole cc0_scratch0) (Memref.isWhole_whole _) (Memref.whole cc0_scratch1) (Memref.isWhole_whole _)
          cc0_scratch2 cc0_scratch3 cc0_scratch4 cc0_scratch5) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body hF d (coordsV ⟨_, hci.1⟩ ⟨_, hci.2⟩) (x1of m d) (m (o2Loc d)) O W hO

/-! ## Reading the claim off the final memory -/

def fq (d : Dev nD) (s' : Phys nD τ sig (Elt F)) : Prop :=
  s'.mem.mem (o6Loc d) = resultOf tcOut scOut (m (aLoc d)) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := o6Loc d) (I := Finset.univ) (q := fullShare) (f := resultOf tcOut scOut (m (aLoc d)))) $$ [HSI Ho]
  · isplitl [HSI] <;> iassumption
  icases H with %h2
  ipureintro
  have e1 : s'.mem.mem (aLoc d) = m (aLoc d) := funext fun (i : Idx (aLoc d)) => h1 i (by simp)
  have e2 : s'.mem.mem (o6Loc d) = resultOf tcOut scOut (m (aLoc d)) := funext fun (i : Idx (o6Loc d)) => h2 i (by simp)
  exact ⟨e2, e1⟩

/-! ## The program's run -/

/-- On every device the result array ends at the assembly of the two kernels' results of the argument, and the argument
    array where it was. -/
def QC : PUnit × MemSt nD τ sig (Elt F) → Prop := fun r => ∀ c : Dev nD,
  r.2.mem (o6Loc c) = resultOf tcOut scOut (m (aLoc c)) ∧ r.2.mem (aLoc c) = m (aLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => pipeGhost d) (FIN m) (u₀ (F := F)) (sep_elim_left.trans (hu₀ m)) (hmain m ρ) (fq m) (hfin m) (QC m) (fun _ h => h)

end Cert.Proof.KI

end
-- ==== Proof.Spec.lean ====
/-
  What both programs compute, as one function of the argument array.

  The array has shape [1, 2, 131072, 128]; its last axis is a row of 128 columns. Three columns carry a
  lower bound: column 3 is bounded below by the number whose f32 word is 0xBED55555 (about -5/12),
  columns 17 and 42 by zero. Every other column is left as it is, which on the extended reals is a
  bound of -∞. So the result at an index is the maximum of the argument there and the bound of the
  index's column.
-/
import Idealize.ShloMosaic.PureOps.Ideal
import Idealize.ShloMosaic.Lib.ValueIdx

noncomputable section

namespace Cert.Spec

open Idealize.ShloMosaic

/-- The argument's and the result's shape. -/
abbrev S4 : Shape := ⟨4, ![1, 2, 131072, 128]⟩

/-- The lower bound of column `c`: the number with word 0xBED55555 in column 3, zero in columns 17 and 42, and
    -∞ (no bound) in every other column. The words are kept as words: the same word stands on both sides. -/
def fl (c : ℕ) : EReal :=
  if c = 3 then Ideal.ofBits .f32 0xBED55555#32
  else if c = 17 ∨ c = 42 then Ideal.ofBits .f32 0x00000000#32
  else Ideal.ofBits .f32 0xFF800000#32

/-- The result: every entry bounded below by its column's bound. -/
def G (x : FVec Ideal S4 .f32) : FVec Ideal S4 .f32 := fun i => max (x i) (fl (i 3).val)

theorem fl_three : fl 3 = Ideal.ofBits .f32 0xBED55555#32 := if_pos rfl
theorem fl_seventeen : fl 17 = Ideal.ofBits .f32 0x00000000#32 := by unfold fl; simp
theorem fl_fortytwo : fl 42 = Ideal.ofBits .f32 0x00000000#32 := by unfold fl; simp
theorem fl_other {c : ℕ} (h3 : c ≠ 3) (h17 : c ≠ 17) (h42 : c ≠ 42) : fl c = Ideal.ofBits .f32 0xFF800000#32 := by
  unfold fl; simp [h3, h17, h42]

/-- The word 0xFF800000 denotes -∞, the bottom of the extended reals. -/
theorem ofBits_ninf : Ideal.ofBits .f32 0xFF800000#32 = (⊥ : EReal) := by
  simp [Ideal.ofBits, Ideal.ieee]

/-- A maximum against -∞ is the other argument. -/
theorem max_ninf (x : EReal) : max x (Ideal.ofBits .f32 0xFF800000#32) = x := by
  rw [ofBits_ninf]; exact max_bot_right x

end Cert.Spec

end
-- ==== Proof.KI.AssembleIdeal.lean ====
/-
  The assembled result is the specification's function of the argument.

  The result at index (0, b, r, c) is row R = 131072 b + r, column c of the joined rows. For R < 147456 that
  is the row kernel's entry (R, c): the maximum of the argument's row R, column c, and the bound of column c.
  For R ≥ 147456 it is row R - 147456 of the tail rows, the flat position j = 128 (R - 147456) + c of the
  subcores' result: the maximum of the flat argument at j + 18874368 = 128 R + c and the bound of column
  j mod 128 = c. Either way the argument's entry is the one at (0, b, r, c) itself: a reshape keeps the
  row-major position, and 128 R + c is that position in all three shapes.
-/
import proofs.«212535_g38190849196153_cont_8to1_b_1410_19_alg».proof.Proof.KI.Assemble
import proofs.«212535_g38190849196153_cont_8to1_b_1410_19_alg».proof.Proof.Spec
import Idealize.ShloMosaic.Lib.ValueIdx
import Idealize.ShloMosaic.Lib.Pipeline.Value

noncomputable section

namespace Cert.Proof.KI

open Cert.KernelIdeal Cert.KernelIdeal.Gen
open Idealize.ShloMosaic Idealize.ShloMosaic.ValueIdx

/-! ## Each layout step read at an index (any float instance) -/

section AnyInstance
variable {F : FTy → Type} [FloatOps F]

/-- Row R = 131072 b + r, column c of the rows is the argument at (0, b, r, c). -/
theorem rowsOf_apply (x : FVec F S1x2x131072x128 .f32) (u : Fin 1) (b : Fin 2) (r : Fin 131072) (c : Fin 128)
    (R : Fin 262144) (hR : R.val = 131072 * b.val + r.val) :
    rowsOf x (ix2 R c) = x (ix4 u b r c) := by
  unfold rowsOf
  refine shapeCast_apply _ _ _ _ ?_
  have hu : u.val = 0 := by omega
  rw [Shape.rowMajor_val_four, Shape.rowMajor_val_two]
  show ((u.val * 2 + b.val) * 131072 + r.val) * 128 + c.val = R.val * 128 + c.val
  omega

/-- Flat position p = 128 R + c is row R, column c. -/
theorem flatOf_apply (x0 : FVec F S262144x128 .f32) (R : Fin 262144) (c : Fin 128)
    (p : Fin 33554432) (hp : p.val = 128 * R.val + c.val) :
    flatOf x0 (ix1 p) = x0 (ix2 R c) := by
  unfold flatOf
  refine shapeCast_apply _ _ _ _ ?_
  rw [Shape.rowMajor_val_two, Shape.rowMajor_val_one]
  show R.val * 128 + c.val = p.val
  omega

/-- Row R', column c of the tail rows is flat position 128 R' + c of the subcores' result. -/
theorem tailRows_apply (o2 : FVec F S14680064 .f32) (R' : Fin 114688) (c : Fin 128)
    (j : Fin 14680064) (hj : j.val = 128 * R'.val + c.val) :
    tailRows o2 (ix2 R' c) = o2 (ix1 j) := by
  unfold tailRows
  refine shapeCast_apply _ _ _ _ ?_
  rw [Shape.rowMajor_val_one, Shape.rowMajor_val_two]
  show j.val = R'.val * 128 + c.val
  omega

/-- A row below 147456 of the joined rows is that row of the first stack. -/
theorem joined_apply_left (o3 : FVec F S147456x128 .f32) (o4 : FVec F S114688x128 .f32) (R : Fin 262144) (c : Fin 128)
    (R₁ : Fin 147456) (h : R₁.val = R.val) :
    joined o3 o4 (ix2 R c) = o3 (ix2 R₁ c) := by
  unfold joined
  refine concatenate_pair_apply_left (t := S262144x128) (s₁ := S147456x128) (s₂ := S114688x128) 0 o3 o4 _
    (ix2 R c) rfl (ix2 R₁ c) ?_
  intro b
  match b with
  | ⟨0, _⟩ => exact h
  | ⟨1, _⟩ => rfl

/-- A row from 147456 on of the joined rows is row R - 147456 of the second stack. -/
theorem joined_apply_right (o3 : FVec F S147456x128 .f32) (o4 : FVec F S114688x128 .f32) (R : Fin 262144) (c : Fin 128)
    (R₂ : Fin 114688) (h : R₂.val + 147456 = R.val) :
    joined o3 o4 (ix2 R c) = o4 (ix2 R₂ c) := by
  unfold joined
  refine concatenate_pair_apply_right (t := S262144x128) (s₁ := S147456x128) (s₂ := S114688x128) 0 o3 o4 _
    (ix2 R c) rfl rfl (ix2 R₂ c) ?_ ?_
  · intro b hb
    match b, hb with
    | ⟨0, _⟩, hb => exact absurd rfl hb
    | ⟨1, _⟩, _ => rfl
  · exact h

/-- The rows read at (0, b, r, c): row 131072 b + r, column c. -/
theorem unrows_apply (o5 : FVec F S262144x128 .f32) (u : Fin 1) (b : Fin 2) (r : Fin 131072) (c : Fin 128)
    (R : Fin 262144) (hR : R.val = 131072 * b.val + r.val) :
    unrows o5 (ix4 u b r c) = o5 (ix2 R c) := by
  unfold unrows
  refine shapeCast_apply _ _ _ _ ?_
  have hu : u.val = 0 := by omega
  rw [Shape.rowMajor_val_four, Shape.rowMajor_val_two]
  show R.val * 128 + c.val = ((u.val * 2 + b.val) * 131072 + r.val) * 128 + c.val
  omega

end AnyInstance

/-! ## The assembled result on the extended reals -/

/-- If the row kernel bounds each of its 147456 rows' entries below by the column's bound, and the subcores'
    kernel does so for the flat tail from position 18874368 on, the assembled result is the specification. -/
theorem resultOf_ideal
    (tcf : FVec Ideal S262144x128 .f32 → FVec Ideal S147456x128 .f32) (scf : FVec Ideal S33554432 .f32 → FVec Ideal S14680064 .f32)
    (htc : ∀ (x0 : FVec Ideal S262144x128 .f32) (r : Fin 147456) (c : Fin 128),
        tcf x0 (ValueIdx.ix2 r c) = max (x0 (ValueIdx.ix2 (⟨r.val, by omega⟩ : Fin 262144) c)) (Cert.Spec.fl c.val))
    (hsc : ∀ (x1 : FVec Ideal S33554432 .f32) (j : Fin 14680064),
        scf x1 (ValueIdx.ix1 j) = max (x1 (ValueIdx.ix1 (⟨j.val + 18874368, by omega⟩ : Fin 33554432))) (Cert.Spec.fl (j.val % 128)))
    (x : FVec Ideal Cert.Spec.S4 .f32) :
    resultOf (F := Ideal) tcf scf x = Cert.Spec.G x := by
  funext i
  obtain ⟨u, b, r, c, rfl⟩ : ∃ (u : Fin 1) (b : Fin 2) (r : Fin 131072) (c : Fin 128), i = ix4 u b r c :=
    ⟨i 0, i 1, i 2, i 3, eq_ix4 i⟩
  show resultOf (F := Ideal) tcf scf x (ix4 u b r c) = max (x (ix4 u b r c)) (Cert.Spec.fl c.val)
  obtain ⟨R, hR⟩ : ∃ R : Fin 262144, R.val = 131072 * b.val + r.val :=
    ⟨⟨131072 * b.val + r.val, by omega⟩, rfl⟩
  unfold resultOf
  rw [unrows_apply _ u b r c R hR]
  by_cases hlt : R.val < 147456
  · -- the row kernel's part
    obtain ⟨R₁, h₁⟩ : ∃ R₁ : Fin 147456, R₁.val = R.val := ⟨⟨R.val, hlt⟩, rfl⟩
    rw [joined_apply_left _ _ R c R₁ h₁, htc,
      rowsOf_apply x u b r c _ (by show R₁.val = 131072 * b.val + r.val; omega)]
  · -- the subcores' part
    have hRlt := R.isLt
    obtain ⟨R₂, h₂⟩ : ∃ R₂ : Fin 114688, R₂.val + 147456 = R.val :=
      ⟨⟨R.val - 147456, by omega⟩, by show R.val - 147456 + 147456 = R.val; omega⟩
    obtain ⟨j, hj⟩ : ∃ j : Fin 14680064, j.val = 128 * R₂.val + c.val :=
      ⟨⟨128 * R₂.val + c.val, by omega⟩, rfl⟩
    rw [joined_apply_right _ _ R c R₂ h₂, tailRows_apply _ R₂ c j hj, hsc,
      flatOf_apply _ R c _ (by show j.val + 18874368 = 128 * R.val + c.val; omega),
      rowsOf_apply x u b r c R hR]
    have hc : j.val % 128 = c.val := by omega
    rw [hc]

end Cert.Proof.KI

end
-- ==== Proof.KI.ScOutIdeal.lean ====
/-
  The vector subcores' result on the extended reals: at every position it is the maximum of the
  argument there and the bound of the position's column.

  The three floor vectors hold a bound in one lane each (lane 3 of the first: column 3; lane 1 of the
  second: column 17; lane 10 of the third: column 42) and -∞ in every other lane; -∞ is also the bound
  of every column the subcores do not touch, and a maximum against it changes nothing.
-/
import proofs.«212535_g38190849196153_cont_8to1_b_1410_19_alg».proof.Proof.KI.ScOut
import proofs.«212535_g38190849196153_cont_8to1_b_1410_19_alg».proof.Proof.Spec

noncomputable section

namespace Cert.Proof.KI

open Cert.KernelIdeal Cert.KernelIdeal.Gen
open Idealize.ShloMosaic
open Idealize.ShloMosaic.ValueIdx (ix1)

variable {F : FTy → Type} [FloatOps F]

/-! ## The floor vectors, lane by lane (at any float instance) -/

theorem floorA_apply (l : Fin 16) :
    floorA (F := F) (ix1 l) = if l.val = 3 then FloatOps.ofBits .f32 0xBED55555#32 else FloatOps.ofBits .f32 0xFF800000#32 := by
  fin_cases l <;> rfl
theorem floorB_apply (l : Fin 16) :
    floorB (F := F) (ix1 l) = if l.val = 1 then FloatOps.ofBits .f32 0x00000000#32 else FloatOps.ofBits .f32 0xFF800000#32 := by
  fin_cases l <;> rfl
theorem floorC_apply (l : Fin 16) :
    floorC (F := F) (ix1 l) = if l.val = 10 then FloatOps.ofBits .f32 0x00000000#32 else FloatOps.ofBits .f32 0xFF800000#32 := by
  fin_cases l <;> rfl

/-! ## On the extended reals -/

/-- The value left at a position is the maximum with the bound of its column. -/
theorem fixAt_ideal (p : ℕ) (x : Ideal .f32) : fixAt (F := Ideal) p x = max x (Cert.Spec.fl (p % 128)) := by
  unfold fixAt
  have hc : p % 128 < 128 := Nat.mod_lt _ (by norm_num)
  split_ifs with hA hB hC
  · -- columns 0–15: the first vector, its one bound in lane 3
    rw [floorA_apply]
    show max x (if p % 128 = 3 then Ideal.ofBits .f32 0xBED55555#32 else Ideal.ofBits .f32 0xFF800000#32) = _
    by_cases h3 : p % 128 = 3
    · rw [if_pos h3, h3, Cert.Spec.fl_three]
    · rw [if_neg h3, Cert.Spec.fl_other h3 (by omega) (by omega)]
  · -- columns 16–31: the second vector, its one bound in lane 1, column 17
    rw [floorB_apply]
    show max x (if p % 128 - 16 = 1 then Ideal.ofBits .f32 0x00000000#32 else Ideal.ofBits .f32 0xFF800000#32) = _
    by_cases h17 : p % 128 = 17
    · rw [if_pos (by omega), h17, Cert.Spec.fl_seventeen]
    · rw [if_neg (by omega), Cert.Spec.fl_other (by omega) h17 (by omega)]
  · -- columns 32–47: the third vector, its one bound in lane 10, column 42
    rw [floorC_apply]
    show max x (if p % 128 - 32 = 10 then Ideal.ofBits .f32 0x00000000#32 else Ideal.ofBits .f32 0xFF800000#32) = _
    by_cases h42 : p % 128 = 42
    · rw [if_pos (by omega), h42, Cert.Spec.fl_fortytwo]
    · rw [if_neg (by omega), Cert.Spec.fl_other (by omega) (by omega) h42]
  · -- columns 48–127: untouched, and their bound is -∞
    rw [Cert.Spec.fl_other (by omega) (by omega) (by omega), Cert.Spec.max_ninf]

/-- The subcores' result at position `j`: the argument at `j + 18874368` bounded below by the bound of column `j % 128`. -/
theorem scOut_ideal (x1 : FVec Ideal S33554432 .f32) (j : S14680064.Idx) :
    scOut (F := Ideal) x1 j = max (x1 (srcIdx j)) (Cert.Spec.fl ((j 0).val % 128)) :=
  fixAt_ideal _ _

/-- The same at a position given by its one coordinate. -/
theorem scOut_ideal' (x1 : FVec Ideal S33554432 .f32) (j : Fin 14680064) :
    scOut (F := Ideal) x1 (ValueIdx.ix1 j)
      = max (x1 (ValueIdx.ix1 (⟨j.val + 18874368, by omega⟩ : Fin 33554432))) (Cert.Spec.fl (j.val % 128)) :=
  scOut_ideal x1 (ValueIdx.ix1 j)

end Cert.Proof.KI

end
-- ==== Proof.KI.TcOutIdeal.lean ====
/-
  The row kernel's result on the extended reals: at row r and column c it is the maximum of the
  argument's entry there and the bound of column c.

  The row of bounds is built by three selects on the column number: the zero word in column 42, else the
  zero word in column 17, else the word 0xBED55555 in column 3, else the word 0xFF800000 (-∞). A column
  number below 128 equals 42, 17 or 3 as a 32-bit word exactly when it does as a number, so the row of
  bounds read at column c is the specification's bound of column c.
-/
import proofs.«212535_g38190849196153_cont_8to1_b_1410_19_alg».proof.Proof.KI.TcOut
import proofs.«212535_g38190849196153_cont_8to1_b_1410_19_alg».proof.Proof.Spec
import Idealize.ShloMosaic.Lib.ValueIdx
import Idealize.ShloMosaic.Lib.Pipeline.Value

noncomputable section

namespace Cert.Proof.KI

open Cert.KernelIdeal Cert.KernelIdeal.Gen
open Idealize.ShloMosaic Idealize.ShloMosaic.ValueIdx

/-! ## The row of bounds read at a column (any float instance) -/

/-- A select on "the column number is k", both numbers below 128, is the `if` on the numbers. -/
theorem select_col_eq {α : Type} (c k : ℕ) (hc : c < 128) (hk : k < 128) (A B : α) :
    Scalar.select (IntOp.cmpi .eq (BitVec.ofNat 32 c) (BitVec.ofNat 32 k)) A B = if c = k then A else B := by
  by_cases h : c = k
  · subst h
    rw [if_pos rfl]
    simp [Scalar.select, IntOp.cmpi]
  · rw [if_neg h]
    have hne : BitVec.ofNat 32 c ≠ BitVec.ofNat 32 k := by
      intro he
      have h2 := congrArg BitVec.toNat he
      simp only [BitVec.toNat_ofNat] at h2
      omega
    have hb : (BitVec.ofNat 32 c == BitVec.ofNat 32 k) = false := beq_eq_false_iff_ne.mpr hne
    show (if BitVec.ofBool (BitVec.ofNat 32 c == BitVec.ofNat 32 k) = 1#1 then A else B) = B
    rw [hb]
    exact if_neg (by decide)

section AnyInstance
variable {F : FTy → Type} [FloatOps F]

/-- The column numbers' row read at column c is c. -/
theorem colRow_apply (u : Fin 1) (c : Fin 128) : colRow (ix2 u c) = BitVec.ofNat 32 c.val :=
  iota_single_apply _ _ _ _ _ _

/-- The row of bounds read at column c. -/
theorem floorRow_apply (u : Fin 1) (c : Fin 128) :
    floorRow (F := F) (ix2 u c) =
      if c.val = 42 then FloatOps.ofBits .f32 0x00000000#32
      else if c.val = 17 then FloatOps.ofBits .f32 0x00000000#32
      else if c.val = 3 then FloatOps.ofBits .f32 0xBED55555#32
      else FloatOps.ofBits .f32 0xFF800000#32 := by
  unfold floorRow
  simp only [select_apply, broadcast_apply]
  show Scalar.select (IntOp.cmpi .eq (colRow (ix2 u c)) (BitVec.ofNat 32 42)) _
    (Scalar.select (IntOp.cmpi .eq (colRow (ix2 u c)) (BitVec.ofNat 32 17)) _
      (Scalar.select (IntOp.cmpi .eq (colRow (ix2 u c)) (BitVec.ofNat 32 3)) _ _)) = _
  rw [colRow_apply, select_col_eq _ 42 c.isLt (by norm_num), select_col_eq _ 17 c.isLt (by norm_num),
    select_col_eq _ 3 c.isLt (by norm_num)]

end AnyInstance

/-! ## On the extended reals -/

/-- The three selects' value at column c is the specification's bound of column c. -/
theorem floor_eq_fl (c : ℕ) :
    (if c = 42 then Ideal.ofBits .f32 0x00000000#32
      else if c = 17 then Ideal.ofBits .f32 0x00000000#32
      else if c = 3 then Ideal.ofBits .f32 0xBED55555#32
      else Ideal.ofBits .f32 0xFF800000#32) = Cert.Spec.fl c := by
  by_cases h42 : c = 42
  · subst h42; rw [if_pos rfl, Cert.Spec.fl_fortytwo]
  · by_cases h17 : c = 17
    · subst h17; rw [if_neg h42, if_pos rfl, Cert.Spec.fl_seventeen]
    · by_cases h3 : c = 3
      · subst h3; rw [if_neg h42, if_neg h17, if_pos rfl, Cert.Spec.fl_three]
      · rw [if_neg h42, if_neg h17, if_neg h3, Cert.Spec.fl_other h3 h17 h42]

/-- The row kernel's result at row r, column c: the argument there bounded below by the bound of column c. -/
theorem tcOut_ideal (x0 : FVec Ideal S262144x128 .f32) (r : Fin 147456) (c : Fin 128) :
    tcOut (F := Ideal) x0 (ValueIdx.ix2 r c)
      = max (x0 (ValueIdx.ix2 (⟨r.val, by omega⟩ : Fin 262144) c)) (Cert.Spec.fl c.val) := by
  show max (x0 (ValueIdx.ix2 (⟨r.val, _⟩ : Fin 262144) c)) (floorRow (F := Ideal) (ix2 (0 : Fin 1) c)) = _
  rw [floorRow_apply]
  exact congrArg (max _) (floor_eq_fl c.val)

end Cert.Proof.KI

end
-- ==== Proof.KI.ResultIdeal.lean ====
/-
  The assembled result of the two kernels' result functions is the specification's function of the
  argument: the row kernel bounds each of the first 147456 rows' entries below by its column's bound,
  the subcores' kernel does so for the flat tail, and the two join into the whole array.
-/
import proofs.«212535_g38190849196153_cont_8to1_b_1410_19_alg».proof.Proof.KI.AssembleIdeal
import proofs.«212535_g38190849196153_cont_8to1_b_1410_19_alg».proof.Proof.KI.ScOutIdeal
import proofs.«212535_g38190849196153_cont_8to1_b_1410_19_alg».proof.Proof.KI.TcOutIdeal

noncomputable section

namespace Cert.Proof.KI

open Cert.KernelIdeal Cert.KernelIdeal.Gen
open Idealize.ShloMosaic

/-- On the extended reals the assembled result is every entry bounded below by its column's bound. -/
theorem result_ideal (x : FVec Ideal Cert.Spec.S4 .f32) :
    resultOf (F := Ideal) tcOut scOut x = Cert.Spec.G x :=
  resultOf_ideal tcOut scOut tcOut_ideal scOut_ideal' x

end Cert.Proof.KI

end
-- ==== Proof.KB.Common.lean ====
/-
  The idealized kernel's program as the launch theorem reads it, and the ghost state every module of
  its proof shares: the handshakes between the TensorCore, the sequencers and the vector subcores; the
  TensorCore pipeline's staging cells; and the counters of the vector subcores' own copies.
-/
import proofs.«212535_g38190849196153_cont_8to1_b_1410_19_alg».proof.Kernel
import proofs.«212535_g38190849196153_cont_8to1_b_1410_19_alg».proof.Proof.Gen.Kernel
import Idealize.ShloMosaic.Lib.SparseCore.Launch
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, the pipeline's staging cells, the copies' counters -/

abbrev UH : Type := URounds (GSem nD τ sig) ℕ
abbrev UP : Type := UR sig nD τ
abbrev UU : Type := UH × (UP × Counters)

/-- The handshakes' rounds library: the left factor. -/
abbrev EH : Emb UH (MT nD τ sig (HIx 1) (Elt F) ℕ UU ℕ) := embL
/-- The pipeline's rounds library: the left of the right factor. The counters are found by instance in what is left. -/
def EP : Emb UP (MT nD τ sig (HIx 1) (Elt F) ℕ UU ℕ) :=
  (Emb.inl : Emb UP (UP × Counters)).trans embR

/-! ## The arrays, as locations of device `d` -/

/-- the argument; its two reshapes (rows of 128, then flat); the vector subcores' result (flat); the
    TensorCore kernel's result (rows); the subcores' result as rows; both joined; the result. -/
abbrev aLoc (d : Dev nD) : Loc nD τ sig := (SparseCore.T d).loc main_arg0
abbrev x0Loc (d : Dev nD) : Loc nD τ sig := (SparseCore.T d).loc main_v0
abbrev x1Loc (d : Dev nD) : Loc nD τ sig := (SparseCore.T d).loc main_v1
abbrev o2Loc (d : Dev nD) : Loc nD τ sig := (SparseCore.T d).loc main_v2
abbrev o3Loc (d : Dev nD) : Loc nD τ sig := (SparseCore.T d).loc main_v3
abbrev o4Loc (d : Dev nD) : Loc nD τ sig := (SparseCore.T d).loc main_v4
abbrev o5Loc (d : Dev nD) : Loc nD τ sig := (SparseCore.T d).loc main_v5
abbrev o6Loc (d : Dev nD) : Loc nD τ sig := (SparseCore.T d).loc main_v6

end Cert.Proof.KB

end
-- ==== Proof.KB.Chunks.lean ====
/-
  The chunks. The flat argument has 33554432 = 1024 · 32768 words and the vector subcores' result
  14680064 = 448 · 32768. Vector subcore number t = 2·s + c (subcore s of SparseCore c; 32 of them)
  works on 14 consecutive chunks: it reads chunks 576 + 14·t + g of the flat argument (576 chunks are
  the 147456 rows the TensorCore kernel handles) and writes chunks 14·t + g of the result, g < 14.
-/
import proofs.«212535_g38190849196153_cont_8to1_b_1410_19_alg».proof.Proof.KB.Common

noncomputable section

namespace Cert.Proof.KB

open Cert.Kernel Cert.Kernel.Gen
open Idealize.ShloMosaic

theorem hdivI : 1024 ∣ S33554432.size 0 := ⟨32768, rfl⟩
theorem hdivO : 448 ∣ S14680064.size 0 := ⟨32768, rfl⟩

/-- Chunk `n` of the flat argument, and of the subcores' result, as rectangles. -/
abbrev inRect (n : Fin 1024) : Rect S33554432 := Rect.part (s := S33554432) (a₀ := 0) hdivI n
abbrev outRect (n : Fin 448) : Rect S14680064 := Rect.part (s := S14680064) (a₀ := 0) hdivO n

/-- The same as sets of positions. -/
abbrev inChunk (n : Fin 1024) : Finset S33554432.Idx := (inRect n).set
abbrev outChunk (n : Fin 448) : Finset S14680064.Idx := (outRect n).set

theorem bound_zero : grid0.bound 0 = 2 := rfl
theorem bound_one : grid0.bound 1 = 16 := rfl

/-- A grid point's vector subcore number: subcore-major, two SparseCores. -/
def tileNo (L : grid0.Coords) : ℕ := 2 * (L 1).val + (L 0).val

theorem tileNo_lt (L : grid0.Coords) : tileNo L < 32 := by
  have h0 : (L 0).val < 2 := (L 0).isLt
  have h1 : (L 1).val < 16 := (L 1).isLt
  unfold tileNo; omega

/-- The chunks subcore `L` reads and writes at its step `g`. -/
def inIx (L : grid0.Coords) (g : Fin 14) : Fin 1024 := ⟨576 + 14 * tileNo L + g.val, by have := tileNo_lt L; have := g.isLt; omega⟩
def outIx (L : grid0.Coords) (g : Fin 14) : Fin 448 := ⟨14 * tileNo L + g.val, by have := tileNo_lt L; have := g.isLt; omega⟩

end Cert.Proof.KB

end
-- ==== Proof.KB.Split.lean ====
/-
  How the flat argument and the subcores' result split among the 2 · 16 subcores and their 14 steps.
  A triple (c, s, g) — SparseCore, subcore, step — names chunk 14·(2·s + c) + g of the result and chunk
  576 + 14·(2·s + c) + g of the flat argument. The map onto the 448 result chunks is a bijection, so the
  result array is the disjoint union of its triples' chunks; the argument's chunks of the triples are
  pairwise disjoint and the rest of the argument (the first 576 chunks) is set aside.
-/
import proofs.«212535_g38190849196153_cont_8to1_b_1410_19_alg».proof.Proof.KB.Chunks

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- SparseCore, subcore, step. -/
abbrev TI : Type := Fin 2 × Fin 16 × Fin 14

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem tileNo_coordsV (c : Fin (grid0.bound 0)) (s : Fin (grid0.bound 1)) : tileNo (coordsV c s) = 2 * s.val + c.val := rfl

def coordsT (t : TI) : grid0.Coords := coordsV (Fin.cast bound_zero.symm t.1) (Fin.cast bound_one.symm t.2.1)
def inOf (t : TI) : Fin 1024 := inIx (coordsT t) t.2.2
def outOf (t : TI) : Fin 448 := outIx (coordsT t) t.2.2

theorem outOf_val (t : TI) : (outOf t).val = 14 * (2 * t.2.1.val + t.1.val) + t.2.2.val := rfl
theorem inOf_val (t : TI) : (inOf t).val = 576 + 14 * (2 * t.2.1.val + t.1.val) + t.2.2.val := rfl

theorem outOf_injective : Function.Injective outOf := by
  rintro ⟨c, s, g⟩ ⟨c', s', g'⟩ h
  have h' := congrArg Fin.val h
  simp only [outOf_val] at h'
  have := c.isLt; have := c'.isLt; have := s.isLt; have := s'.isLt; have := g.isLt; have := g'.isLt
  have hc : c.val = c'.val := by omega
  have hs : s.val = s'.val := by omega
  have hg : g.val = g'.val := by omega
  exact Prod.ext (Fin.ext hc) (Prod.ext (Fin.ext hs) (Fin.ext hg))

theorem inOf_injective : Function.Injective inOf := by
  rintro ⟨c, s, g⟩ ⟨c', s', g'⟩ h
  have h' := congrArg Fin.val h
  simp only [inOf_val] at h'
  have := c.isLt; have := c'.isLt; have := s.isLt; have := s'.isLt; have := g.isLt; have := g'.isLt
  have hc : c.val = c'.val := by omega
  have hs : s.val = s'.val := by omega
  have hg : g.val = g'.val := by omega
  exact Prod.ext (Fin.ext hc) (Prod.ext (Fin.ext hs) (Fin.ext hg))

theorem outOf_surjective : Function.Surjective outOf := fun n => by
  have hn := n.isLt
  refine ⟨(⟨(n.val / 14) % 2, by omega⟩, ⟨(n.val / 14) / 2, by omega⟩, ⟨n.val % 14, by omega⟩), Fin.ext ?_⟩
  rw [outOf_val]
  show 14 * (2 * ((n.val / 14) / 2) + (n.val / 14) % 2) + n.val % 14 = n.val
  omega

theorem out_disjoint : ∀ t ∈ (Finset.univ : Finset TI), ∀ t' ∈ (Finset.univ : Finset TI), t ≠ t' → Disjoint (outChunk (outOf t)) (outChunk (outOf t')) :=
  fun t _ t' _ h => Rect.part_disjoint hdivO fun e => h (outOf_injective e)

theorem in_disjoint : ∀ t ∈ (Finset.univ : Finset TI), ∀ t' ∈ (Finset.univ : Finset TI), t ≠ t' → Disjoint (inChunk (inOf t)) (inChunk (inOf t')) :=
  fun t _ t' _ h => Rect.part_disjoint hdivI fun e => h (inOf_injective e)

theorem out_cover : (Finset.univ : Finset TI).biUnion (fun t => outChunk (outOf t)) = Finset.univ :=
  calc (Finset.univ : Finset TI).biUnion (fun t => outChunk (outOf t))
      = ((Finset.univ : Finset TI).image outOf).biUnion outChunk := Finset.image_biUnion.symm
    _ = (Finset.univ : Finset (Fin 448)).biUnion outChunk := by rw [Finset.image_univ_of_surjective outOf_surjective]
    _ = Finset.univ := Rect.biUnion_part hdivO

/-- The argument's positions the subcores read. -/
def tailSet : Finset S33554432.Idx := (Finset.univ : Finset TI).biUnion fun t => inChunk (inOf t)

/-- The subcores' result whole is its triples' chunks. -/
theorem o2_split (d : Dev nD) (f : Buf (Elt F) (o2Loc d)) :
    (o2Loc d ↦{fullShare} f : sProp 𝕄) = bigSep Finset.univ fun t : TI => o2Loc d ↦[outChunk (outOf t)]{fullShare} f := by
  rw [← pointsTo_biUnion Finset.univ (ℓ := o2Loc d) (fun t : TI => outChunk (outOf t)) out_disjoint, out_cover]; try rfl

/-- The part of the flat argument the subcores read is its triples' chunks. -/
theorem x1_tail (d : Dev nD) (f : Buf (Elt F) (x1Loc d)) :
    (x1Loc d ↦[tailSet]{fullShare} f : sProp 𝕄) = bigSep Finset.univ fun t : TI => x1Loc d ↦[inChunk (inOf t)]{fullShare} f :=
  pointsTo_biUnion Finset.univ (ℓ := x1Loc d) (fun t : TI => inChunk (inOf t)) in_disjoint

/-- The flat argument whole is that part and the rest. -/
theorem x1_split (d : Dev nD) (f : Buf (Elt F) (x1Loc d)) :
    (x1Loc d ↦{fullShare} f : sProp 𝕄) ⊣⊢ iprop((x1Loc d ↦[tailSet]{fullShare} f) ∗ x1Loc d ↦[Finset.univ \ tailSet]{fullShare} f) :=
  pointsTo_split_subset (Finset.subset_univ _)

/-- A family over the triples, grouped by SparseCore, then subcore, then step. -/
theorem bigSep_triples (Φ : TI → sProp 𝕄) :
    (bigSep Finset.univ fun c : Fin 2 => bigSep Finset.univ fun s : Fin 16 => bigSep Finset.univ fun g : Fin 14 => Φ (c, s, g))
      = bigSep Finset.univ Φ := by
  refine Eq.symm ?_
  rw [BI.bigSep_univ_prod]
  refine bigSep_congr fun c _ => ?_
  rw [BI.bigSep_univ_prod]

end Cert.Proof.KB

end
-- ==== Proof.KB.ScOut.lean ====
/-
  What the vector subcores leave in their result, as one function of the flat argument.

  A subcore handles the flat array in rows of 128 words. In each row it replaces the words of columns
  0–15, 16–31 and 32–47 by their maximum with a vector of sixteen floors: the first vector carries the
  number whose f32 word is 0xBED55555 in lane 3, the second zero in lane 1 (column 17), the third zero in lane 10
  (column 42), and every other lane carries -∞. Columns 48–127 are not touched. The result position
  j holds the value so obtained from the flat argument's position j + 18874368 (the first 18874368
  words, 147456 rows, are the other kernel's).
-/
import proofs.«212535_g38190849196153_cont_8to1_b_1410_19_alg».proof.Proof.KB.Chunks
import Idealize.ShloMosaic.Lib.ValueIdx

noncomputable section

namespace Cert.Proof.KB

open Cert.Kernel Cert.Kernel.Gen
open Idealize.ShloMosaic
open Idealize.ShloMosaic.SparseCore (S V T)
open Idealize.ShloMosaic.ValueIdx (ix1)

variable {F : FTy → Type}

/-! ## The place a grid point runs at -/

abbrev cV (L : grid0.Coords) : Fin τ.nSC := (L 0).castLE Facts₀.hcore0
abbrev jV (L : grid0.Coords) : Fin τ.nSub := (L 1).castLE Facts₀.hsub0
abbrev VT (d : Dev nD) (L : grid0.Coords) : Thread nD τ := V d (cV L) (jV L)

/-! ## The three vectors of floors, as the body builds them -/

/-- The sixteen lane numbers. -/
def lanes : IVec S16 32 := iota .scVector S16 32 [0] Facts₀.iota_S16_d0_w32_scVector

/-- Columns 0–15: the number with word 0xBED55555 in lane 3, -∞ elsewhere. -/
def floorA [FloatOps F] : FVec F S16 .f32 :=
  select (cmpi .eq lanes (broadcast S16 3#32)) (broadcast S16 (Scalar.ofBits .f32 0xBED55555#32)) (broadcast S16 (Scalar.ofBits .f32 0xFF800000#32))
/-- Columns 16–31: zero in lane 1, -∞ elsewhere. -/
def floorB [FloatOps F] : FVec F S16 .f32 :=
  select (cmpi .eq lanes (broadcast S16 1#32)) (broadcast S16 (Scalar.ofBits .f32 0x00000000#32)) (broadcast S16 (Scalar.ofBits .f32 0xFF800000#32))
/-- Columns 32–47: zero in lane 10, -∞ elsewhere. -/
def floorC [FloatOps F] : FVec F S16 .f32 :=
  select (cmpi .eq lanes (broadcast S16 10#32)) (broadcast S16 (Scalar.ofBits .f32 0x00000000#32)) (broadcast S16 (Scalar.ofBits .f32 0xFF800000#32))

/-! ## The value left at a position -/

/-- What a subcore leaves at a flat position `p` (column `p % 128`) where it found `x`. -/
def fixAt [FloatOps F] (p : ℕ) (x : F .f32) : F .f32 :=
  if hA : p % 128 < 16 then FloatOps.maximumf x (floorA (ix1 ⟨p % 128, hA⟩))
  else if hB : p % 128 < 32 then FloatOps.maximumf x (floorB (ix1 ⟨p % 128 - 16, by omega⟩))
  else if hC : p % 128 < 48 then FloatOps.maximumf x (floorC (ix1 ⟨p % 128 - 32, by omega⟩))
  else x

/-- A chunk of 32768 words (256 rows) after a subcore has fixed it in place. -/
def fixChunk [FloatOps F] (f : FVec F S32768 .f32) : FVec F S32768 .f32 := fun q => fixAt (q 0).val (f q)

/-- The flat argument's position that the result's position `j` is computed from. -/
def srcIdx (j : S14680064.Idx) : S33554432.Idx := ix1 ⟨(j 0).val + 18874368, by have := (j 0).isLt; show _ < 33554432; simp at this; omega⟩

/-- The vector subcores' result: position `j` holds the fixed value of the flat argument at `j + 18874368`. -/
def scOut [FloatOps F] (x1 : FVec F S33554432 .f32) : FVec F S14680064 .f32 := fun j => fixAt (j 0).val (x1 (srcIdx j))

end Cert.Proof.KB

end
-- ==== Proof.KB.Assemble.lean ====
/-
  The result array as one function of the argument array, given the two kernels' results as functions
  of their operands: the argument is read as rows of 128 and flat; the first 147456 rows go through
  the row kernel, the flat tail through the subcores' kernel; the flat result is read as rows again,
  the two stacks of rows are joined along the row axis and the whole is read at the argument's shape.
-/
import proofs.«212535_g38190849196153_cont_8to1_b_1410_19_alg».proof.Proof.KB.Common

noncomputable section

namespace Cert.Proof.KB

open Cert.Kernel Cert.Kernel.Gen
open Idealize.ShloMosaic

variable {F : FTy → Type} [FloatOps F]

/-- The argument as rows of 128. -/
def rowsOf (x : FVec F S1x2x131072x128 .f32) : FVec F S262144x128 .f32 :=
  fun i => shapeCast S262144x128 x shapeCasts_S1x2x131072x128_S262144x128 i
/-- The rows, flat. -/
def flatOf (x0 : FVec F S262144x128 .f32) : FVec F S33554432 .f32 :=
  fun i => shapeCast S33554432 x0 shapeCasts_S262144x128_S33554432 i
/-- The subcores' flat result as rows. -/
def tailRows (o2 : FVec F S14680064 .f32) : FVec F S114688x128 .f32 :=
  fun i => shapeCast S114688x128 o2 shapeCasts_S14680064_S114688x128 i
/-- The two stacks of rows joined. -/
def joined (o3 : FVec F S147456x128 .f32) (o4 : FVec F S114688x128 .f32) : FVec F S262144x128 .f32 :=
  concatenate S262144x128 0 [⟨S147456x128, o3⟩, ⟨S114688x128, o4⟩] concatenates_S147456x128_S114688x128_S262144x128_d0
/-- Rows read at the argument's shape. -/
def unrows (o5 : FVec F S262144x128 .f32) : FVec F S1x2x131072x128 .f32 :=
  fun i => shapeCast S1x2x131072x128 o5 shapeCasts_S262144x128_S1x2x131072x128 i

/-- The whole result, over the two kernels' result functions. -/
def resultOf (tcf : FVec F S262144x128 .f32 → FVec F S147456x128 .f32) (scf : FVec F S33554432 .f32 → FVec F S14680064 .f32)
    (x : FVec F S1x2x131072x128 .f32) : FVec F S1x2x131072x128 .f32 :=
  unrows (joined (tcf (rowsOf x)) (tailRows (scf (flatOf (rowsOf x)))))

end Cert.Proof.KB

end
-- ==== Proof.KB.Pay.lean ====
/-
  What the handshakes of the one SparseCore call carry. The call takes, for each of its 2 · 16 subcores,
  the subcore's 14 chunks of the flat argument and its 14 chunks of the result array (at whatever the
  result array held), and brings them back with the result chunks at the subcores' result function of
  the flat argument. A SparseCore's share is its sixteen subcores' shares, so the split among the
  subcores is the identity.
-/
import proofs.«212535_g38190849196153_cont_8to1_b_1410_19_alg».proof.Proof.KB.Split
import proofs.«212535_g38190849196153_cont_8to1_b_1410_19_alg».proof.Proof.KB.ScOut
import proofs.«212535_g38190849196153_cont_8to1_b_1410_19_alg».proof.Proof.KB.Assemble

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-- The argument as rows, and flat, on device `d`: what the two reshapes leave. -/
def x0of (d : Dev nD) : Buf (Elt F) (x0Loc d) := rowsOf (m (aLoc d))
def x1of (d : Dev nD) : Buf (Elt F) (x1Loc d) := flatOf (x0of m d)

/-- A subcore's chunks: of the flat argument at `x1`, of the result array at `o`. -/
def chunksOf (d : Dev nD) (L : grid0.Coords) (x1 : Buf (Elt F) (x1Loc d)) (o : Buf (Elt F) (o2Loc d)) : sProp 𝕄 :=
  iprop((bigSep Finset.univ fun g : Fin 14 => (x1Loc d ↦[inChunk (inIx L g)]{fullShare} x1 : sProp 𝕄))
    ∗ (bigSep Finset.univ fun g : Fin 14 => (o2Loc d ↦[outChunk (outIx L g)]{fullShare} o : sProp 𝕄)))

/-- The grid point of the call's SparseCore `c`, subcore `i`. -/
def coordsP (c : Fin ((K (F := F)).nCore 0)) (i : Fin ((K (F := F)).nSub 0)) : grid0.Coords :=
  coordsV (Fin.cast rfl c) (Fin.cast rfl i)

def P : (K (F := F)).Pay (nD := nD) (Val := Elt F) (Name := ℕ) (U := UU) where
  st := fun q d c => match q with
    | 0 => bigSep Finset.univ fun i : Fin ((K (F := F)).nSub 0) => chunksOf d (coordsP c i) (x1of m d) (m (o2Loc d))
  dn := fun q d c => match q with
    | 0 => bigSep Finset.univ fun i : Fin ((K (F := F)).nSub 0) => chunksOf d (coordsP c i) (x1of m d) (scOut (x1of m d))
  go := fun q d c i => match q with
    | 0 => chunksOf d (coordsP c i) (x1of m d) (m (o2Loc d))
  td := fun q d c i => match q with
    | 0 => chunksOf d (coordsP c i) (x1of m d) (scOut (x1of m d))
  x := fun _ _ => iprop(emp)

instance chunksOf_storable (d : Dev nD) (L : grid0.Coords) (x1 : Buf (Elt F) (x1Loc d)) (o : Buf (Elt F) (o2Loc d)) :
    BI.Storable (upEmb : UEmb _ 𝕄) (chunksOf d L x1 o) := by
  unfold chunksOf; infer_instance

instance P_storable : (P (F := F) m).IsStorable where
  st q d c := match q with
    | 0 => (inferInstance : BI.Storable (upEmb : UEmb _ 𝕄)
        (bigSep Finset.univ fun i : Fin ((K (F := F)).nSub 0) => chunksOf d (coordsP c i) (x1of m d) (m (o2Loc d))))
  dn q d c := match q with
    | 0 => (inferInstance : BI.Storable (upEmb : UEmb _ 𝕄)
        (bigSep Finset.univ fun i : Fin ((K (F := F)).nSub 0) => chunksOf d (coordsP c i) (x1of m d) (scOut (x1of m d))))
  go q d c i := match q with
    | 0 => (inferInstance : BI.Storable (upEmb : UEmb _ 𝕄) (chunksOf d (coordsP c i) (x1of m d) (m (o2Loc d))))
  td q d c i := match q with
    | 0 => (inferInstance : BI.Storable (upEmb : UEmb _ 𝕄) (chunksOf d (coordsP c i) (x1of m d) (scOut (x1of m d))))

/-- A SparseCore's share is its subcores' shares: nothing to split. -/
theorem vecSplit : (K (F := F)).VecSplit' (P m) 0 := by
  intro d c
  show (bigSep Finset.univ fun i : Fin ((K (F := F)).nSub 0) => chunksOf d (coordsP c i) (x1of m d) (m (o2Loc d)))
    ⊢ |={Set.univ}=> iprop((bigSep Finset.univ fun i : Fin ((K (F := F)).nSub 0) => chunksOf d (coordsP c i) (x1of m d) (m (o2Loc d)))
      ∗ ((bigSep Finset.univ fun i : Fin ((K (F := F)).nSub 0) => chunksOf d (coordsP c i) (x1of m d) (scOut (x1of m d)))
          -∗ bigSep Finset.univ fun i : Fin ((K (F := F)).nSub 0) => chunksOf d (coordsP c i) (x1of m d) (scOut (x1of m d))))
  iintro H; imodintro
  isplitl [H]; · iexact H
  iintro H; iexact H

/-- All the subcores' chunks at once are the part of the flat argument they read and the result array whole. -/
theorem allChunks_eq (d : Dev nD) (x1 : Buf (Elt F) (x1Loc d)) (o : Buf (Elt F) (o2Loc d)) :
    (bigSep Finset.univ fun c : Fin ((K (F := F)).nCore 0) => bigSep Finset.univ fun i : Fin ((K (F := F)).nSub 0) => chunksOf d (coordsP c i) x1 o)
      = (iprop((x1Loc d ↦[tailSet]{fullShare} x1) ∗ (o2Loc d ↦{fullShare} o)) : sProp 𝕄) := by
  show (bigSep (Finset.univ : Finset (Fin 2)) fun c => bigSep (Finset.univ : Finset (Fin 16)) fun s =>
      iprop((bigSep Finset.univ fun g : Fin 14 => (x1Loc d ↦[inChunk (inOf (c, s, g))]{fullShare} x1 : sProp 𝕄))
        ∗ (bigSep Finset.univ fun g : Fin 14 => (o2Loc d ↦[outChunk (outOf (c, s, g))]{fullShare} o : sProp 𝕄)))) = _
  simp only [bigSep_sep']
  rw [bigSep_triples (fun t : TI => (x1Loc d ↦[inChunk (inOf t)]{fullShare} x1 : sProp 𝕄)),
    bigSep_triples (fun t : TI => (o2Loc d ↦[outChunk (outOf t)]{fullShare} o : sProp 𝕄)), ← x1_tail, ← o2_split]

theorem st0_eq (d : Dev nD) :
    (bigSep Finset.univ fun c : Fin ((K (F := F)).nCore 0) => (P m).st 0 d c)
      = (iprop((x1Loc d ↦[tailSet]{fullShare} x1of m d) ∗ (o2Loc d ↦{fullShare} m (o2Loc d))) : sProp 𝕄) :=
  allChunks_eq d (x1of m d) (m (o2Loc d))
theorem dn0_eq (d : Dev nD) :
    (bigSep Finset.univ fun c : Fin ((K (F := F)).nCore 0) => (P m).dn 0 d c)
      = (iprop((x1Loc d ↦[tailSet]{fullShare} x1of m d) ∗ (o2Loc d ↦{fullShare} scOut (x1of m d))) : sProp 𝕄) :=
  allChunks_eq d (x1of m d) (scOut (x1of m d))

end Cert.Proof.KB

end
-- ==== Proof.KB.TcOut.lean ====
/-
  The TensorCore kernel's result, as one function of its argument array.

  The kernel works on rows of 128 columns. It builds one row of lower bounds — column 3 is bounded below
  by the f32 number written 0xBED55555, columns 17 and 42 by zero, every other column by -∞ (the word
  0xFF800000), chosen by three selects on the column number — and replaces every entry of a block of
  16384 rows by the maximum of the entry and its column's bound. Nine blocks make the first 147456 rows
  of the argument; so the result at row r and column c is the maximum of the argument there and the
  bound of column c.
-/
import proofs.«212535_g38190849196153_cont_8to1_b_1410_19_alg».proof.Proof.Gen.Kernel
import Idealize.ShloMosaic.Lib.ValueIdx

noncomputable section

namespace Cert.Proof.KB

open Cert.Kernel Cert.Kernel.Gen
open Idealize.ShloMosaic Idealize.ShloMosaic.ValueIdx

variable {F : FTy → Type} [FloatOps F]

/-- The column numbers 0 … 127, as a row. -/
def colRow : IVec S1x128 32 := iota .tc S1x128 32 [1] Facts₀.iota_S1x128_d1_w32

/-- The row of lower bounds: -∞ everywhere, then the number written 0xBED55555 in column 3, then zero in
    columns 17 and 42, each put in by a select on the column number. -/
def floorRow : FVec F S1x128 .f32 :=
  select (cmpi .eq colRow (broadcast S1x128 (42#32 : BitVec 32))) (broadcast S1x128 (Scalar.ofBits (F := F) .f32 0x00000000#32))
    (select (cmpi .eq colRow (broadcast S1x128 (17#32 : BitVec 32))) (broadcast S1x128 (Scalar.ofBits (F := F) .f32 0x00000000#32))
      (select (cmpi .eq colRow (broadcast S1x128 (3#32 : BitVec 32))) (broadcast S1x128 (Scalar.ofBits (F := F) .f32 0xBED55555#32))
        (broadcast S1x128 (Scalar.ofBits (F := F) .f32 0xFF800000#32))))

/-- What the kernel makes of one block of 16384 rows: every entry bounded below by its column's bound. -/
def tcBlock (b : FVec F S16384x128 .f32) : FVec F S16384x128 .f32 :=
  maximumf (shapeCast S16384x128 b Facts₀.shapeCasts_S16384x128_S16384x128) (broadcastTo S16384x128 (floorRow (F := F)) Facts₀.broadcasts_S1x128_S16384x128)

/-- A row of the result is the same row of the argument: the result has the argument's first 147456 rows. -/
theorem row_lt (i : S147456x128.Idx) : (i 0).val < 262144 := by
  have h : (i 0).val < 147456 := idx2_lt0 i
  omega

/-- The result: at row r and column c, the maximum of the argument's entry there and column c's bound. -/
def tcOut (x0 : FVec F S262144x128 .f32) : FVec F S147456x128 .f32 :=
  fun i => FloatOps.maximumf (x0 (ix2 ⟨(i 0).val, row_lt i⟩ (i 1))) (floorRow (F := F) (ix2 0 (i 1)))

end Cert.Proof.KB

end
-- ==== Proof.KB.Host.lean ====
/-
  The TensorCore's arrays of @main as one held set, the five host operations of @main (two reshapes
  before the kernels; a reshape, the join along rows and a reshape after them), and the contents of
  the arrays after each stage as functions of the launch memory.
-/
import proofs.«212535_g38190849196153_cont_8to1_b_1410_19_alg».proof.Proof.KB.Pay
import proofs.«212535_g38190849196153_cont_8to1_b_1410_19_alg».proof.Proof.KB.TcOut
import Idealize.ShloMosaic.Lib.StableHlo.Run

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)
open TcCoe

variable {F : FTy → Type}

local notation "𝕄" => MT nD τ sig (HIx 1) (Elt F) ℕ UU ℕ

/-! ## The arrays -/

abbrev a' : DevRef τ sig := Proc.devRef .tc (main_arg0 : Ref sig .tc)
abbrev x0' : DevRef τ sig := Proc.devRef .tc (main_v0 : Ref sig .tc)
abbrev x1' : DevRef τ sig := Proc.devRef .tc (main_v1 : Ref sig .tc)
abbrev o2' : DevRef τ sig := Proc.devRef .tc (main_v2 : Ref sig .tc)
abbrev o3' : DevRef τ sig := Proc.devRef .tc (main_v3 : Ref sig .tc)
abbrev o4' : DevRef τ sig := Proc.devRef .tc (main_v4 : Ref sig .tc)
abbrev o5' : DevRef τ sig := Proc.devRef .tc (main_v5 : Ref sig .tc)
abbrev o6' : DevRef τ sig := Proc.devRef .tc (main_v6 : Ref sig .tc)

/-- The TensorCore's unscoped arrays: the argument and the seven tensor values of @main. -/
abbrev S8 : Finset (DevRef τ sig) := {a', x0', x1', o2', o3', o4', o5', o6'}

theorem held_S8 (d : Dev nD) (W : Valuation τ sig (Elt F)) :
    (held (T d) S8 W : sProp 𝕄)
      = iprop((aLoc d ↦{fullShare} W a') ∗ (x0Loc d ↦{fullShare} W x0') ∗ (x1Loc d ↦{fullShare} W x1') ∗ (o2Loc d ↦{fullShare} W o2')
          ∗ (o3Loc d ↦{fullShare} W o3') ∗ (o4Loc d ↦{fullShare} W o4') ∗ (o5Loc d ↦{fullShare} W o5') ∗ (o6Loc d ↦{fullShare} W o6')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (x0Loc d ↦{fullShare} W main_v0) ∗ (x1Loc d ↦{fullShare} W main_v1) ∗ (o2Loc d ↦{fullShare} W main_v2)
          ∗ (o3Loc d ↦{fullShare} W main_v3) ∗ (o4Loc d ↦{fullShare} W main_v4) ∗ (o5Loc d ↦{fullShare} W main_v5) ∗ (o6Loc d ↦{fullShare} W main_v6)) := by
  unfold unscopedBufs
  rw [show (Finset.univ.filter fun b : Ref sig .tc => ¬ b.isScoped) = {main_arg0, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The host operations -/

variable [FloatOps F]

abbrev op0 : HloOp τ sig (Elt F) := StableHlo.reshape main_arg0 main_v0 rfl shapeCasts_S1x2x131072x128_S262144x128
abbrev op1 : HloOp τ sig (Elt F) := StableHlo.reshape main_v0 main_v1 rfl shapeCasts_S262144x128_S33554432
abbrev op4 : HloOp τ sig (Elt F) := StableHlo.reshape main_v2 main_v4 rfl shapeCasts_S14680064_S114688x128
abbrev op5 : HloOp τ sig (Elt F) :=
  StableHlo.binary main_v3 main_v4 main_v5 ((fun a b => concatenate S262144x128 0 [⟨S147456x128, a⟩, ⟨S114688x128, b⟩] concatenates_S147456x128_S114688x128_S262144x128_d0) : (⟨S147456x128, .f32⟩ : BufTy).Contents (Elt F) → (⟨S114688x128, .f32⟩ : BufTy).Contents (Elt F) → (⟨S262144x128, .f32⟩ : BufTy).Contents (Elt F))
abbrev op6 : HloOp τ sig (Elt F) := StableHlo.reshape main_v5 main_v6 rfl shapeCasts_S262144x128_S1x2x131072x128

theorem h0 : (op0 (F := F)).bufs ⊆ S8 := show ({a', x0'} : Finset (DevRef τ sig)) ⊆ S8 by decide
theorem h1 : (op1 (F := F)).bufs ⊆ S8 := show ({x0', x1'} : Finset (DevRef τ sig)) ⊆ S8 by decide
theorem h4 : (op4 (F := F)).bufs ⊆ S8 := show ({o2', o4'} : Finset (DevRef τ sig)) ⊆ S8 by decide
theorem h5 : (op5 (F := F)).bufs ⊆ S8 := show ({o3', o4', o5'} : Finset (DevRef τ sig)) ⊆ S8 by decide
theorem h6 : (op6 (F := F)).bufs ⊆ S8 := show ({o5', o6'} : Finset (DevRef τ sig)) ⊆ S8 by decide

/-! ## The contents, stage by stage -/

variable (m : (ℓ : Loc nD τ sig) → Buf (Elt F) ℓ)

/-- At launch; after the two reshapes; after the two kernels; after each of the last three operations. -/
abbrev V0 (d : Dev nD) : Valuation τ sig (Elt F) := fun b => m (d, b)
abbrev V1 (d : Dev nD) : Valuation τ sig (Elt F) := (op0 (F := F)).result (V0 m d)
abbrev V2 (d : Dev nD) : Valuation τ sig (Elt F) := (op1 (F := F)).result (V1 m d)
abbrev V3 (d : Dev nD) : Valuation τ sig (Elt F) :=
  Function.update (Function.update (V2 m d) o2' (scOut (x1of m d))) o3' (tcOut (x0of m d))
abbrev V4 (d : Dev nD) : Valuation τ sig (Elt F) := (op4 (F := F)).result (V3 m d)
abbrev V5 (d : Dev nD) : Valuation τ sig (Elt F) := (op5 (F := F)).result (V4 m d)
abbrev V6 (d : Dev nD) : Valuation τ sig (Elt F) := (op6 (F := F)).result (V5 m d)

theorem V1_x0 (d : Dev nD) : V1 m d x0' = x0of m d := by
  unfold V1 op0; rw [StableHlo.reshape_result]; rfl
theorem V1_a (d : Dev nD) : V1 m d a' = m (aLoc d) :=
  (op0 (F := F)).result_of_not_mem (V0 m d) (b := a') (show a' ∉ ({x0'} : Finset (DevRef τ sig)) by decide)

theorem V2_a (d : Dev nD) : V2 m d a' = m (aLoc d) :=
  ((op1 (F := F)).result_of_not_mem (V1 m d) (b := a') (show a' ∉ ({x1'} : Finset (DevRef τ sig)) by decide)).trans (V1_a m d)
theorem V2_x0 (d : Dev nD) : V2 m d x0' = x0of m d :=
  ((op1 (F := F)).result_of_not_mem (V1 m d) (b := x0') (show x0' ∉ ({x1'} : Finset (DevRef τ sig)) by decide)).trans (V1_x0 m d)
theorem V2_x1 (d : Dev nD) : V2 m d x1' = x1of m d := by
  unfold V2 op1; rw [StableHlo.reshape_result, V1_x0]; rfl

theorem V2_o2 (d : Dev nD) : V2 m d o2' = m (o2Loc d) :=
  ((op1 (F := F)).result_of_not_mem (V1 m d) (b := o2') (show o2' ∉ ({x1'} : Finset (DevRef τ sig)) by decide)).trans
    ((op0 (F := F)).result_of_not_mem (V0 m d) (b := o2') (show o2' ∉ ({x0'} : Finset (DevRef τ sig)) by decide))
theorem V2_o3 (d : Dev nD) : V2 m d o3' = m (o3Loc d) :=
  ((op1 (F := F)).result_of_not_mem (V1 m d) (b := o3') (show o3' ∉ ({x1'} : Finset (DevRef τ sig)) by decide)).trans
    ((op0 (F := F)).result_of_not_mem (V0 m d) (b := o3') (show o3' ∉ ({x0'} : Finset (DevRef τ sig)) by decide))

theorem V3_a (d : Dev nD) : V3 m d a' = m (aLoc d) := by
  unfold V3; rw [Function.update_of_ne (show a' ≠ o3' by decide), Function.update_of_ne (show a' ≠ o2' by decide), V2_a]
theorem V3_x0 (d : Dev nD) : V3 m d x0' = x0of m d := by
  unfold V3; rw [Function.update_of_ne (show x0' ≠ o3' by decide), Function.update_of_ne (show x0' ≠ o2' by decide), V2_x0]
theorem V3_x1 (d : Dev nD) : V3 m d x1' = x1of m d := by
  unfold V3; rw [Function.update_of_ne (show x1' ≠ o3' by decide), Function.update_of_ne (show x1' ≠ o2' by decide), V2_x1]
theorem V3_o2 (d : Dev nD) : V3 m d o2' = scOut (x1of m d) := by
  unfold V3; rw [Function.update_of_ne (show o2' ≠ o3' by decide), Function.update_self]
theorem V3_o3 (d : Dev nD) : V3 m d o3' = tcOut (x0of m d) := by
  unfold V3; rw [Function.update_self]
theorem V3_o4 (d : Dev nD) : V3 m d o4' = V2 m d o4' := by
  unfold V3; rw [Function.update_of_ne (show o4' ≠ o3' by decide), Function.update_of_ne (show o4' ≠ o2' by decide)]
theorem V3_o5 (d : Dev nD) : V3 m d o5' = V2 m d o5' := by
  unfold V3; rw [Function.update_of_ne (show o5' ≠ o3' by decide), Function.update_of_ne (show o5' ≠ o2' by decide)]
theorem V3_o6 (d : Dev nD) : V3 m d o6' = V2 m d o6' := by
  unfold V3; rw [Function.update_of_ne (show o6' ≠ o3' by decide), Function.update_of_ne (show o6' ≠ o2' by decide)]

theorem V4_o4 (d : Dev nD) : V4 m d o4' = tailRows (scOut (x1of m d)) := by
  unfold V4 op4; rw [StableHlo.reshape_result, V3_o2]; rfl
theorem V4_o3 (d : Dev nD) : V4 m d o3' = tcOut (x0of m d) :=
  ((op4 (F := F)).result_of_not_mem (V3 m d) (b := o3') (show o3' ∉ ({o4'} : Finset (DevRef τ sig)) by decide)).trans (V3_o3 m d)
theorem V4_a (d : Dev nD) : V4 m d a' = m (aLoc d) :=
  ((op4 (F := F)).result_of_not_mem (V3 m d) (b := a') (show a' ∉ ({o4'} : Finset (DevRef τ sig)) by decide)).trans (V3_a m d)

theorem V5_o5 (d : Dev nD) : V5 m d o5' = joined (tcOut (x0of m d)) (tailRows (scOut (x1of m d))) := by
  unfold V5 op5; rw [StableHlo.binary_result, V4_o3, V4_o4]; rfl
theorem V5_a (d : Dev nD) : V5 m d a' = m (aLoc d) :=
  ((op5 (F := F)).result_of_not_mem (V4 m d) (b := a') (show a' ∉ ({o5'} : Finset (DevRef τ sig)) by decide)).trans (V4_a m d)

/-- The argument is where it was, -/
theorem V6_a (d : Dev nD) : V6 m d a' = m (aLoc d) :=
  ((op6 (F := F)).result_of_not_mem (V5 m d) (b := a') (show a' ∉ ({o6'} : Finset (DevRef τ sig)) by decide)).trans (V5_a m d)
/-- and the result is the assembly of the two kernels' results. -/
theorem V6_o6 (d : Dev nD) : V6 m d o6' = resultOf tcOut scOut (m (aLoc d)) := by
  unfold V6 op6; rw [StableHlo.reshape_result, V5_o5]; rfl

end Cert.Proof.KB

end
-- ==== Proof.KB.RegionBody.lean ====
import proofs.«212535_g38190849196153_cont_8to1_b_1410_19_alg».proof.Proof.KB.Common
import proofs.«212535_g38190849196153_cont_8to1_b_1410_19_alg».proof.Proof.KB.TcOut
import proofs.«212535_g38190849196153_cont_8to1_b_1410_19_alg».proof.Proof.Gen.Kernel.Launch
import proofs.«212535_g38190849196153_cont_8to1_b_1410_19_alg».proof.Proof.Gen.Kernel.Points
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The blocks and the proof data

The region runs the kernel body at nine points. At point t the pipeline hands the body block t of the
argument rows (rows 16384·t … 16384·t + 16383) and takes back block t of the result. -/

section Data

variable (x0 : FVec F S262144x128 .f32) (f3 : FVec F S147456x128 .f32)
  (O : CellTallies nD τ sig (HIx 1)) (W : Waits sig (HIx 1))

/-- Block t of the argument rows, read off the array as the region finds it. -/
def iblk (c : Dev nD) (t : Fin cfg1.N) : ((cfg1.win 0).xblock (cfg1.grid.coords t)).Idx → Elt F (cfg1.win 0).elt :=
  ((cfg1.win 0).blk t).view.read (Elt F) (x0 : Buf (Elt F) ((cfg1.win 0).arr.view.loc (c.tc : Thread nD τ)))

/-- The proof data of the pipeline on core c: the argument rows at x0 and the result rows at f3 on entry;
    after the body at point t the input's buffer still at its block and the output's at the block bounded
    below; nothing kept between points; what the core owes (O) and the pairs its waits recorded (W)
    pass through untouched. -/
def dats (_ : Fin 1) (c : Dev nD) : Dat τ (Elt F) (HIx 1) ℕ UU ℕ cfg1 c where
  A w := match w with
    | ⟨0, _⟩ => x0
    | ⟨1, _⟩ => f3
  after w t := match w with
    | ⟨0, _⟩ => iblk x0 c t
    | ⟨1, _⟩ => tcBlock (iblk x0 c t)
  Φ _ := BI.emp
  q _ := fullShare
  owed _ := O
  recorded _ := (↑W : Set (SemLoc sig × HIx 1))

theorem A_0 (c : Dev nD) : (dats x0 f3 O W 0 c).A 0 = x0 := by dsimp only [dats]
theorem A_1 (c : Dev nD) : (dats x0 f3 O W 0 c).A 1 = f3 := by dsimp only [dats]
theorem after_0 (c : Dev nD) (t : Fin cfg1.N) : (dats x0 f3 O W 0 c).after 0 t = iblk x0 c t := by dsimp only [dats]
theorem after_1 (c : Dev nD) (t : Fin cfg1.N) : (dats x0 f3 O W 0 c).after 1 t = tcBlock (iblk x0 c t) := by dsimp only [dats]

/-- The input's current staging buffer holds its block at every point: it is fetched at every point. -/
theorem before_0 (c : Dev nD) (t : Fin cfg1.N) (d) : (dats x0 f3 O W 0 c).before 0 t d = iblk x0 c t :=
  ((dats x0 f3 O W 0 c).before_in_eq_fetched 0 rfl (fun _ => rfl) (fun _ _ _ => rfl)
      (fun t => by rw [after_0]; unfold Dat.blockOf iblk; rw [A_0]; try rfl) t d).trans
    (by unfold Dat.fetched Dat.blockOf iblk; rw [A_0]; try rfl)

end Data

/-! ## The body's triple -/

abbrev rAll : Rect S16384x128 := Rect.unit (s := S16384x128) ![0, 0] S16384x128.size Facts₀.inb_S16384x128_S16384x128_0_0

theorem hz : (![0, 0] : Fin 2 → Nat) = fun _ => 0 := funext fun a => by fin_cases a <;> rfl

/-- One store through the whole buffer covers it. -/
theorem cover_all (p0 : Vec F S16384x128 .f32) (y : S16384x128.Idx) :
    ∃ pc ∈ ([⟨rAll, p0⟩] : List (View.Piece (Elt F) S16384x128 .f32)), y ∈ pc.1.set :=
  View.cover_of_tiled [⟨rAll, p0⟩] S16384x128.size (by rfl) y

set_option maxHeartbeats 1000000 in
/-- The kernel body on whole staging buffers, the input's at contents x and the output's at anything, leaves
    the input's as it was and the output's at the block bounded below. -/
theorem sound_kernel (c : Dev nD) (E : Set ℕ) (i : grid1.Coords) (arg1 : Memref sig .tc .vmem S16384x128 .f32) (harg1 : arg1.IsWhole)
    (arg2 : Memref sig .tc .vmem S16384x128 .f32) (harg2 : arg2.IsWhole)
    (x : Vec F S16384x128 .f32) (Kp : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (tcBlock x)) -∗ Kp ⟨⟩))
      ⊢ wp frame (wpE (defs₀ (F := F)) Variants.none c none) E (cc1__bound_kernel i arg1 harg1 arg2 harg2) Kp := by
  unfold owns
  iintro ⟨⟨%f0, %hf0, H0⟩, ⟨%d2, %f2, -, H2⟩, Hk⟩
  subst hf0
  sl_unfold [cc1__bound_kernel]
  sl_exec
  sl_step
  iapply Hk
  isplitl [H0]
  · iexists f0; isplitr; · ipureintro; rfl
    iexact H0
  iexists _; isplitr
  swap; · iexact H2
  ipureintro
  rw [View.read_writes_eq_canon _ _ _ (cover_all _), View.canon_unit_zero hz]
  sl_unfold_words
  simp only [View.readAt_eq_ld, View.ld_unit_zero (S := S16384x128) hz]
  rfl

/-! ## The body obligation, at a generic point -/

section Obligation

variable (x0 : FVec F S262144x128 .f32) (f3 : FVec F S147456x128 .f32)
  (O : CellTallies nD τ sig (HIx 1)) (W : Waits sig (HIx 1))

/-- What the body is called with at point t: the invariant, what the core owes, and each window's current
    staging buffer at what it then holds, -/
def bodyPre (c : Dev nD) (t : Fin cfg1.N) : sProp 𝕄 :=
  iprop((dats x0 f3 O W 0 c).Φ t.castSucc ∗ (dats x0 f3 O W 0 c).owesAt none t.castSucc
    ∗ (∃ d, owns (c : Thread nD τ) (st1_0 t) fullShare ((dats x0 f3 O W 0 c).before 0 t d))
    ∗ (∃ d, owns (c : Thread nD τ) (st1_1 t) fullShare ((dats x0 f3 O W 0 c).before 1 t d)))

/-- and what it returns. -/
def bodyPost (c : Dev nD) (t : Fin cfg1.N) : sProp 𝕄 :=
  iprop((dats x0 f3 O W 0 c).Φ t.succ ∗ (dats x0 f3 O W 0 c).owesAt none t.succ
    ∗ owns (c : Thread nD τ) (st1_0 t) fullShare ((dats x0 f3 O W 0 c).after 0 t)
    ∗ owns (c : Thread nD τ) (st1_1 t) fullShare ((dats x0 f3 O W 0 c).after 1 t))

/-- The body at any point: the input's buffer holds its block, so the body's triple applies; the invariant
    and what the core owes pass through unread. -/
theorem sound_body (c : Dev nD) (t : Fin cfg1.N) :
    bodyPre x0 f3 O W c t ⊢ wp frame (wpE (defs₀ (F := F)) Variants.none c none) Set.univ (bodyAt1 t) (fun _ => bodyPost x0 f3 O W c t) := by
  unfold bodyPre bodyPost bodyAt1
  simp only [before_0]
  rw [show (dats x0 f3 O W 0 c).Φ t.succ = (dats x0 f3 O W 0 c).Φ t.castSucc from rfl,
    show (dats x0 f3 O W 0 c).owesAt none t.succ = (dats x0 f3 O W 0 c).owesAt none t.castSucc from rfl,
    after_0, after_1]
  iintro ⟨HΦ, Ho, ⟨%d0, H0⟩, ⟨%d1, H1⟩⟩
  iapply (sound_kernel c Set.univ (grid1.coords t) _ _ _ _ (iblk x0 c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dats x0 f3 O W 0 c) (defs₀ (F := F)) Variants.none none Set.univ := fun t => by
  rw [bigSep_W1, bigSep_W1]
  exact sound_body x0 f3 O W c t

end Obligation

end Cert.Proof.KB

end
-- ==== Proof.KB.RegionValue.lean ====
import proofs.«212535_g38190849196153_cont_8to1_b_1410_19_alg».proof.Proof.KB.Common
import proofs.«212535_g38190849196153_cont_8to1_b_1410_19_alg».proof.Proof.KB.TcOut
import proofs.«212535_g38190849196153_cont_8to1_b_1410_19_alg».proof.Proof.Gen.Kernel.Launch
import proofs.«212535_g38190849196153_cont_8to1_b_1410_19_alg».proof.Proof.Gen.Kernel.Points
import Idealize.ShloMosaic.Lib.Pipeline.Regions
import Idealize.ShloMosaic.Lib.Pipeline.FrameBody
import Idealize.ShloMosaic.Lib.Pipeline.Value
import Idealize.ShloMosaic.Lib.Tactic
import proofs.«212535_g38190849196153_cont_8to1_b_1410_19_alg».proof.Proof.KB.RegionBody

set_option maxRecDepth 16384

noncomputable section

namespace Cert.Proof.KB

open Cert.Kernel Cert.Kernel.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## From the blocks to the arrays

Point t writes back block t of the result; the nine blocks are the result's 147456 rows. So after the
region the result array is the one function tcOut of the argument rows, and the argument rows, which
are only read, are as they were. -/

section Value

variable (x0 : FVec F S262144x128 .f32) (f3 : FVec F S147456x128 .f32)
  (O : CellTallies nD τ sig (HIx 1)) (W : Waits sig (HIx 1))

/-- The index maps over the grid: at point t both windows sit at block (t, 0). -/
theorem idx_facts : ∀ t : Fin cfg1.N, win1_0.index t (0 : Fin 2) = win1_1.index t (0 : Fin 2)
    ∧ win1_0.index t (1 : Fin 2) = win1_1.index t (1 : Fin 2)
    ∧ win1_1.index t (0 : Fin 2) ≤ 8 ∧ win1_1.index t (1 : Fin 2) = 0 :=
  (by decide +kernel : ∀ t : Fin grid1.N, _)

/-- Every one of the nine row blocks is some point's. -/
theorem idx_onto : ∀ q : Fin 9, ∃ t : Fin cfg1.N, win1_1.index t = ![q.val, 0] :=
  (by decide +kernel : ∀ q : Fin 9, ∃ t : Fin grid1.N, win1_1.index t = ![q.val, 0])

/-- What point t writes back is block t of tcOut of the argument rows. -/
theorem flushed_eq (c : Dev nD) (t : Fin cfg1.N) :
    (dats x0 f3 O W 0 c).flushed 1 t
      = ((cfg1.win 1).blk t).view.read (Elt F) (tcOut x0 : Buf (Elt F) ((cfg1.win 1).arr.view.loc (c.tc : Thread nD τ))) := by
  show (cfg1.win 1).cut (grid1.coords t) ((dats x0 f3 O W 0 c).after 1 t) = _
  rw [after_1]
  obtain ⟨e0, e1, e2, e3⟩ := idx_facts t
  funext j
  have hj0 : (j 0).val < 16384 := (j 0).isLt
  have hj1 : (j 1).val < 128 := (j 1).isLt
  have hA : ((cfg1.win 0).blk t).view.emb j
      = (ix2 ⟨((((cfg1.win 1).blk t).view.emb j) 0).val, row_lt _⟩ ((((cfg1.win 1).blk t).view.emb j) 1) : S262144x128.Idx) := by
    funext a; apply Fin.ext
    match a with
    | ⟨0, _⟩ => show win1_0.index t (0 : Fin 2) * 16384 + 1 * (j 0).val = win1_1.index t (0 : Fin 2) * 16384 + 1 * (j 0).val; omega
    | ⟨1, _⟩ => show win1_0.index t (1 : Fin 2) * 128 + 1 * (j 1).val = win1_1.index t (1 : Fin 2) * 128 + 1 * (j 1).val; omega
  have hB : broadcastTo S16384x128 (floorRow (F := F)) Facts₀.broadcasts_S1x128_S16384x128 j
      = floorRow (F := F) (ix2 0 ((((cfg1.win 1).blk t).view.emb j) 1)) := by
    refine broadcastTo_apply _ _ j _ ?_
    intro a
    match a with
    | ⟨0, _⟩ => rfl
    | ⟨1, _⟩ => show win1_1.index t (1 : Fin 2) * 128 + 1 * (j 1).val = (j 1).val; omega
  have h1 : shapeCast S16384x128 (iblk x0 c t) Facts₀.shapeCasts_S16384x128_S16384x128 j
      = x0 (ix2 ⟨((((cfg1.win 1).blk t).view.emb j) 0).val, row_lt _⟩ ((((cfg1.win 1).blk t).view.emb j) 1)) :=
    (congrFun (shapeCast_self (iblk x0 c t) Facts₀.shapeCasts_S16384x128_S16384x128) j).trans (congrArg x0 hA)
  exact congrArg₂ FloatOps.maximumf h1 hB

/-- A row and column are in point t's block iff each is in the block's range. -/
theorem mem_blk (t : Fin cfg1.N) (i : S147456x128.Idx) :
    i ∈ ((cfg1.win 1).blk t).view.set ↔ ∀ a : Fin 2, win1_1.index t a * S16384x128.size a ≤ (i a).val ∧ (i a).val < win1_1.index t a * S16384x128.size a + S16384x128.size a := by
  show i ∈ ((View.whole main_v3).slice (win1_1.rect t)).set ↔ _
  rw [View.set_slice_whole, Rect.mem_set_unit]
  exact Iff.rfl

/-- The blocks cover the result: row r is in block r / 16384. -/
theorem cover (i : S147456x128.Idx) : ∃ t : Fin cfg1.N, (cfg1.win 1).flush t = true ∧ i ∈ ((cfg1.win 1).blk t).view.set := by
  have hi0 : (i 0).val < 147456 := idx2_lt0 i
  have hi1 : (i 1).val < 128 := idx2_lt1 i
  obtain ⟨t, ht⟩ := idx_onto ⟨(i 0).val / 16384, by omega⟩
  have q0 : win1_1.index t (0 : Fin 2) = (i 0).val / 16384 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 16384 ≤ (i 0).val ∧ (i 0).val < win1_1.index t (0 : Fin 2) * 16384 + 16384; omega
  | ⟨1, _⟩ => show win1_1.index t (1 : Fin 2) * 128 ≤ (i 1).val ∧ (i 1).val < win1_1.index t (1 : Fin 2) * 128 + 128; omega

/-- After the nine points the result array is tcOut of the argument rows, -/
theorem final_out (c : Dev nD) : (dats x0 f3 O W 0 c).arrAt 1 cfg1.N = tcOut x0 :=
  (dats x0 f3 O W 0 c).arrAt_eq_of_cover 1 (tcOut x0) (fun t _ => flushed_eq x0 f3 O W c t) cover

/-- and the argument rows are as the region found them. -/
theorem final_in (c : Dev nD) : (dats x0 f3 O W 0 c).arrAt 0 cfg1.N = x0 :=
  ((dats x0 f3 O W 0 c).arrAt_in 0 rfl _).trans (A_0 x0 f3 O W c)

end Value

end Cert.Proof.KB

end
-- ==== Proof.KB.Region.lean ====
import proofs.«212535_g38190849196153_cont_8to1_b_1410_19_alg».proof.Proof.KB.Common
import proofs.«212535_g38190849196153_cont_8to1_b_1410_19_alg».proof.Proof.KB.TcOut
import proofs.«212535_g38190849196153_cont_8to1_b_1410_19_alg».proof.Proof.Gen.Kernel.Launch
import proofs.«212535_g38190849196153_cont_8to1_b_1410_19_alg».proof.Proof.Gen.Kernel.Points
import Idealize.ShloMosaic.Lib.Pipeline.Regions
import Idealize.ShloMosaic.Lib.Pipeline.FrameBody
import Idealize.ShloMosaic.Lib.Pipeline.Value
import Idealize.ShloMosaic.Lib.Tactic
import proofs.«212535_g38190849196153_cont_8to1_b_1410_19_alg».proof.Proof.KB.RegionBody
import proofs.«212535_g38190849196153_cont_8to1_b_1410_19_alg».proof.Proof.KB.RegionValue

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline's ghost state at launch -/

instance EP_landsIn : (EP : Emb UP 𝕄).LandsIn (upEmb : UEmb _ 𝕄) := by unfold EP; infer_instance

/-- The one admissible contents of each pipeline: none prefetches a table. -/
abbrev adm : (p : Fin 1) → (pcfgs (F := F) p).Adm := fun p => (cfgs p).toPCfg_adm

/-- The launch element of the pipeline's staging cells: every cell at its launch state, every transfer's
    duty token. -/
def pipeU₀ : UP := initOf (Pipeline.cells (nD := nD) (τ := τ) cfgs cellOf_inj) (Pipeline.launchToks (nD := nD) (τ := τ) cfgs cellOf_inj)

/-- What the launch deals core d for the region: its staging cells' ghost state and duty tokens. -/
def pipeGhost (d : Dev nD) : sProp 𝕄 := iprop(Pipeline.cellsGhost cfgs EP 0 d ∗ Pipeline.toksInit cfgs EP 0 d)

/-- A conjunction over the one pipeline is its one summand. -/
theorem bigSep_one {M : Type} [URA M] (Φ : Fin 1 → sProp M) : bigSep Finset.univ Φ = Φ 0 := by
  rw [show (Finset.univ : Finset (Fin 1)) = {0} from by decide, bigSep_singleton]

/-- The launch element yields every core's share. -/
theorem pipe_fund : BI.own (EP (F := F) pipeU₀) ⊢ iprop(|==> bigSep Finset.univ fun d : Dev nD => pipeGhost (F := F) d) := by
  have h := Pipeline.fund_ghost (nD := nD) (τ := τ) (Ix := HIx 1) (Val := Elt F) (Name := ℕ) (U := UU) (Lvl := ℕ) cfgs (EP (F := F)) cellOf_inj
  unfold pipeU₀
  refine h.trans (bupd_mono ?_)
  unfold pipeGhost
  rw [bigSep_sep']
  refine sep_mono (bigSep_mono fun d _ => ?_) (bigSep_mono fun d _ => ?_)
  · exact Entails.of_eq (bigSep_one _)
  · exact Entails.of_eq (bigSep_one _)

/-! ## The region -/

section Region

variable (x0 : FVec F S262144x128 .f32) (f3 : FVec F S147456x128 .f32)
  (O : CellTallies nD τ sig (HIx 1)) (W : Waits sig (HIx 1))

/-- The staging cells are pairwise distinct, at the pipelines read at their one admissible contents. -/
theorem cellOf_inj' : Function.Injective (Pipeline.cellOf (nD := nD) (τ := τ) (Pipeline.pin (pcfgs (F := F)) adm)) := cellOf_inj

/-- The pipeline prefetches no table. -/
theorem prefHeld_emp (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld
  show bigSep (Finset.univ : Finset (Fin 0)) _ = _
  rw [Finset.univ_eq_empty, BI.bigSep_empty]

/-- The windows' arrays, whole at the full share, are the two arrays' points-tos. -/
theorem arrays_two (c : Dev nD) (Fa : (w : Fin cfg1.W) → Buf (Elt F) (((cfg1).spec w).arr.view.loc (c.tc : Thread nD τ))) :
    ((dats x0 f3 O W 0 c).arrays Fa : sProp 𝕄) = iprop((x0Loc c ↦{fullShare} Fa 0) ∗ (o3Loc c ↦{fullShare} Fa 1)) := by
  rw [Pipeline.arrays_eq cfgs (dats x0 f3 O W) 0 c arr_whole1 ((dats x0 f3 O W 0 c).share_full fun _ => rfl) Fa, bigSep_W1]

/-- The kernel region as the library's record: entered from the two arrays and what the core owes, left
    with the argument rows as they were, the result rows at tcOut of them, and the core owing the same,
    its recorded pairs grown only by the pipeline's own waits (at index none). -/
def reg (hO : ∀ g, O g none = 0) :
    Pipeline.RegionSeg (pcfgs (F := F)) adm (dats x0 f3 O W) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation x0 f3 O W c).loose
  hwaits c := Pipeline.cellsWaits_intro _ _ _ 0 c fun w s t => (K (F := F)).mayWait_none _ hO
  pre c := iprop((x0Loc c ↦{fullShare} x0) ∗ (o3Loc c ↦{fullShare} f3) ∗ owes (T c) O W)
  post c := iprop((x0Loc c ↦{fullShare} x0) ∗ (o3Loc c ↦{fullShare} tcOut x0)
    ∗ ∃ W', ⌜∀ p ∈ W', p ∈ W ∨ p.2 = none⌝ ∗ owes (T c) O W')
  X _ := BI.emp
  Y _ := BI.emp
  Z _ := BI.emp
  hentry c := by
    rw [arrays_two, prefHeld_emp]
    iintro ⟨⟨Hx, Hf, HO⟩, -, -⟩
    imodintro
    isplitl [Hx Hf]
    · isplitl [Hx]; · iexact Hx
      iexact Hf
    isplitr; · iempintro
    isplitl [HO]
    · unfold Pipeline.Dat.owesAt Pipeline.owesWithin
      iexists W; isplitr; · ipureintro; exact fun p hp => Or.inl hp
      iexact HO
    isplitr <;> iempintro
  hin c := by iintro -; iempintro
  hout c := by
    rw [Pipeline.ownSems0_none, scopedRest1_eq]
    iintro -
    isplitr; · iempintro
    isplitr <;> iempintro
  hexit c := by
    rw [arrays_two]
    iintro ⟨⟨Hx, Hf⟩, HO, -, -⟩
    imodintro
    isplitl [Hx]
    · rw [show (dats x0 f3 O W 0 c).arrAt 0 cfg1.N = x0 from final_in x0 f3 O W c]; iexact Hx
    isplitl [Hf]
    · rw [show (dats x0 f3 O W 0 c).arrAt 1 cfg1.N = tcOut x0 from final_out x0 f3 O W c]; iexact Hf
    unfold Pipeline.Dat.owesAt Pipeline.owesWithin
    icases HO with ⟨%W', %hW', HO⟩
    iexists W'; isplitr
    · ipureintro
      intro p hp
      rcases hW' hp with h | ⟨w, s, rfl⟩
      · exact Or.inl h
      · exact Or.inr rfl
    iexact HO

end Region

/-! ## The region's triple -/

set_option backward.isDefEq.respectTransparency.types false in
/-- The kernel region on core d: from the level facts, the pipeline's ghost state, the region boundary, the
    argument rows at x0, the result rows at anything and the core owing O (nothing at index none), the call
    runs to the boundary, the argument rows as they were, the result rows at tcOut x0, and the core owing
    O still, its recorded pairs grown only at index none. -/
theorem region_wp (d : Dev nD) (x0 : Buf (Elt F) (x0Loc d)) (f3 : Buf (Elt F) (o3Loc d))
    (O : CellTallies nD τ sig (HIx 1)) (W : Waits sig (HIx 1)) (hO : ∀ g, O g none = 0) :
    iprop(levAts (K (F := F)).L (K (F := F)).lev ∗ pipeGhost d ∗ boundary (T d)
        ∗ (x0Loc d ↦{fullShare} x0) ∗ (o3Loc d ↦{fullShare} f3) ∗ owes (T d) O W)
      ⊢ wp frame (wpE (D (F := F)) 𝒱 (T d) none) Set.univ (Prog.lift (.customCall (Pipeline.entry (0 : Fin 1)) ()))
          fun _ => (iprop(boundary (T d) ∗ (x0Loc d ↦{fullShare} x0) ∗ (o3Loc d ↦{fullShare} tcOut x0)
            ∗ ∃ W', ⌜∀ p ∈ W', p ∈ W ∨ p.2 = none⌝ ∗ owes (T d) O W') : sProp 𝕄) := by
  have h : iprop((iprop(boundary (T d) ∗ ((x0Loc d ↦{fullShare} x0) ∗ (o3Loc d ↦{fullShare} tcOut x0)
              ∗ ∃ W', ⌜∀ p ∈ W', p ∈ W ∨ p.2 = none⌝ ∗ owes (T d) O W'))
            -∗ wp frame (wpE (D (F := F)) 𝒱 (T d) none) Set.univ (Prog.ret PUnit.unit)
                fun _ => (iprop(boundary (T d) ∗ (x0Loc d ↦{fullShare} x0) ∗ (o3Loc d ↦{fullShare} tcOut x0)
                  ∗ ∃ W', ⌜∀ p ∈ W', p ∈ W ∨ p.2 = none⌝ ∗ owes (T d) O W') : sProp 𝕄))
          ∗ boundary (T d) ∗ ((x0Loc d ↦{fullShare} x0) ∗ (o3Loc d ↦{fullShare} f3) ∗ owes (T d) O W)
          ∗ levAts (K (F := F)).L (K (F := F)).lev
          ∗ Pipeline.cellsGhost cfgs (EP (F := F)) 0 d ∗ Pipeline.toksInit cfgs (EP (F := F)) 0 d)
      ⊢ wp frame (wpE (D (F := F)) 𝒱 (T d) none) Set.univ (Prog.lift (.customCall (Pipeline.entry (0 : Fin 1)) ()))
          fun _ => (iprop(boundary (T d) ∗ (x0Loc d ↦{fullShare} x0) ∗ (o3Loc d ↦{fullShare} tcOut x0)
            ∗ ∃ W', ⌜∀ p ∈ W', p ∈ W ∨ p.2 = none⌝ ∗ owes (T d) O W') : sProp 𝕄) :=
    Pipeline.RegionSeg.wp (pcfgs (F := F)) adm (dats x0 f3 O W) none cellOf_inj' (EP (F := F)) defs₀ 𝒱₀
      (K (F := F)).L (K (F := F)).lev (reg x0 f3 O W hO) d none (fun u hu => nomatch hu)
      (fun x => Prog.ret x) _
  unfold pipeGhost
  iintro ⟨Hla, ⟨Hg, Ht⟩, Hbd, Hx, Hf, HO⟩
  iapply h
  isplitr
  · iintro ⟨Hbd, Hpost⟩
    iapply (le_wp_ret _ _)
    isplitl [Hbd]; · iexact Hbd
    iexact Hpost
  isplitl [Hbd]; · iexact Hbd
  isplitl [Hx Hf HO]
  · isplitl [Hx]; · iexact Hx
    isplitl [Hf]; · iexact Hf
    iexact HO
  isplitl [Hla]; · iexact Hla
  isplitl [Hg]; · iexact Hg
  iexact Ht

/-- info: 'Cert.Proof.KB.region_wp' depends on axioms: [propext, Classical.choice, Quot.sound] -/
#guard_msgs in #print axioms region_wp

end Cert.Proof.KB

end
-- ==== Proof.KB.TileSetup.lean ====
/-
  A vector subcore's task: its resources as the task's own text names them.

  The subcore at grid point L reads fourteen consecutive chunks of 32768 words of the flat argument
  and writes fourteen consecutive chunks of the flat result. The task slices the two arrays at offsets
  it computes from L; here the slices are given names, their index sets are shown to be the chunks of
  the partition the launch deals out, and the subcore's own cells and buffers are split into the four
  transfer cells and the two scratch buffers the task names, and the rest.
-/
import proofs.«212535_g38190849196153_cont_8to1_b_1410_19_alg».proof.Proof.KB.ScOut
import proofs.«212535_g38190849196153_cont_8to1_b_1410_19_alg».proof.Proof.Gen.Kernel.Skeleton
import Idealize.ShloMosaic.Lib.SparseCore.Launch
import Idealize.ShloMosaic.Lib.Tactic
import Idealize.ShloMosaic.Lib.Transfers
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.Kernel.cc0_scratch0 : Memref Cert.Kernel.sig Kind.scVector Space.vmem Cert.Kernel.S32768 EltTy.f32)
local notation "b1" => (Memref.whole Cert.Kernel.cc0_scratch1 : Memref Cert.Kernel.sig Kind.scVector Space.vmem Cert.Kernel.S32768 EltTy.f32)
local notation "xV" => (Memref.whole Cert.Kernel.main_v1_scv : Memref Cert.Kernel.sig Kind.scVector Space.hbm Cert.Kernel.S33554432 EltTy.f32)
local notation "oV" => (Memref.whole Cert.Kernel.main_v2_scv : Memref Cert.Kernel.sig Kind.scVector Space.hbm Cert.Kernel.S14680064 EltTy.f32)

/-! ## The slices, as the task spells them -/

/-- The input slice at the task's offset for the constant `c`, and the output slice likewise. -/
abbrev inSl (L : grid0.Coords) (c : BitVec 32) (h : ∀ a, k0_off1 L c a + S32768.size a ≤ S33554432.size a) :
    Memref sig .scVector .hbm S32768 .f32 :=
  (xV).slice (Rect.unit (s := S33554432) (k0_off1 L c) S32768.size h) (fun _ => rfl)
abbrev outSl (L : grid0.Coords) (c : BitVec 32) (h : ∀ a, k0_off3 L c a + S32768.size a ≤ S14680064.size a) :
    Memref sig .scVector .hbm S32768 .f32 :=
  (oV).slice (Rect.unit (s := S14680064) (k0_off3 L c) S32768.size h) (fun _ => rfl)

/-- Step `g`'s slices. -/
abbrev inS (L : grid0.Coords) (g : Fin 14) : Memref sig .scVector .hbm S32768 .f32 :=
  inSl L (BitVec.ofNat 32 (32768 * g.val)) (k0_off1_inb L g)
abbrev outS (L : grid0.Coords) (g : Fin 14) : Memref sig .scVector .hbm S32768 .f32 :=
  outSl L (BitVec.ofNat 32 (32768 * g.val)) (k0_off3_inb L g)

omit [FloatOps F] in
/-- The task's input rectangle at step `g` is chunk `576 + 14·t + g` of the flat argument. -/
theorem inRect_eq (L : grid0.Coords) (g : Fin 14) :
    Rect.unit (s := S33554432) (k0_off1 L (BitVec.ofNat 32 (32768 * g.val))) S32768.size (k0_off1_inb L g) = inRect (inIx L g) := by
  unfold inRect Rect.part Rect.block
  congr 1 <;> funext a
  · rw [k0_off1_eq]
    match a with
    | 0 => simp [Shape.partIx, Shape.partSize, inIx, tileNo]; omega
  · match a with
    | 0 => simp [Shape.partSize]
omit [FloatOps F] in
/-- The task's output rectangle at step `g` is chunk `14·t + g` of the flat result. -/
theorem outRect_eq (L : grid0.Coords) (g : Fin 14) :
    Rect.unit (s := S14680064) (k0_off3 L (BitVec.ofNat 32 (32768 * g.val))) S32768.size (k0_off3_inb L g) = outRect (outIx L g) := by
  unfold outRect Rect.part Rect.block
  congr 1 <;> funext a
  · rw [k0_off3_eq]
    match a with
    | 0 => simp [Shape.partIx, Shape.partSize, outIx, tileNo]; omega
  · match a with
    | 0 => simp [Shape.partSize]

omit [FloatOps F] in
theorem set_inS (L : grid0.Coords) (g : Fin 14) : (inS L g).view.set = inChunk (inIx L g) := by
  show ((xV).view.slice (Rect.unit (s := S33554432) (k0_off1 L (BitVec.ofNat 32 (32768 * g.val))) S32768.size (k0_off1_inb L g))).set = _
  rw [inRect_eq, View.set_slice]; exact Finset.map_refl
omit [FloatOps F] in
theorem set_outS (L : grid0.Coords) (g : Fin 14) : (outS L g).view.set = outChunk (outIx L g) := by
  show ((oV).view.slice (Rect.unit (s := S14680064) (k0_off3 L (BitVec.ofNat 32 (32768 * g.val))) S32768.size (k0_off3_inb L g))).set = _
  rw [outRect_eq, View.set_slice]; exact Finset.map_refl

omit [FloatOps F] in
theorem pts_inS (d : Dev nD) (L : grid0.Coords) (g : Fin 14) (f : Buf (Elt F) (x1Loc d)) :
    ((inS L g).view.loc (VT d L) ↦[(inS L g).view.set]{fullShare} f : sProp 𝕄) = (x1Loc d ↦[inChunk (inIx L g)]{fullShare} f) := by
  rw [set_inS]
omit [FloatOps F] in
theorem pts_outS (d : Dev nD) (L : grid0.Coords) (g : Fin 14) (f : Buf (Elt F) (o2Loc d)) :
    ((outS L g).view.loc (VT d L) ↦[(outS L g).view.set]{fullShare} f : sProp 𝕄) = (o2Loc d ↦[outChunk (outIx L g)]{fullShare} f) := by
  rw [set_outS]
omit [FloatOps F] in
theorem pts_b0 (d : Dev nD) (L : grid0.Coords) (f : Buf (Elt F) ((VT d L).loc cc0_scratch0)) :
    ((b0).view.loc (VT d L) ↦[(b0).view.set]{fullShare} f : sProp 𝕄) = ((VT d L).loc cc0_scratch0 ↦{fullShare} f) := by
  rw [View.set_whole]
omit [FloatOps F] in
theorem pts_b1 (d : Dev nD) (L : grid0.Coords) (f : Buf (Elt F) ((VT d L).loc cc0_scratch1)) :
    ((b1).view.loc (VT d L) ↦[(b1).view.set]{fullShare} f : sProp 𝕄) = ((VT d L).loc cc0_scratch1 ↦{fullShare} f) := by
  rw [View.set_whole]

/-! ## The subcore's own cells and buffers -/

abbrev csem (k : Nat) (hk : k < 8 := by decide) : DmaSem sig := ⟨k, hk⟩
abbrev dcell (d : Dev nD) (c : Fin τ.nSC) (i : Fin τ.nSub) (k : Fin 4) : GSem nD τ sig := (V d c i, .dma (csem k.val (by have := k.isLt; omega)))
/-- The four transfer cells at zero, in the task's spelling. -/
abbrev cells0 (d : Dev nD) (L : grid0.Coords) : sProp 𝕄 :=
  iprop(semVal (VT d L, SemLoc.dma cc0_scratch2.sem) 0 ∗ semVal (VT d L, SemLoc.dma cc0_scratch3.sem) 0
    ∗ semVal (VT d L, SemLoc.dma cc0_scratch4.sem) 0 ∗ semVal (VT d L, SemLoc.dma cc0_scratch5.sem) 0)

omit [FloatOps F] in
theorem dcell_mem (d : Dev nD) (c : Fin τ.nSC) (i : Fin τ.nSub) (k : Fin 4) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the four the task names, one by one, and the rest. -/
theorem ownSems0_V (d : Dev nD) (L : grid0.Coords) :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide),
    bigSep_singleton]
  rfl

omit [FloatOps F] in
/-- The two scratch buffers are among the subcore's own: they are them, at some contents, and the rest. -/
theorem ownBufs_V (d : Dev nD) (L : grid0.Coords) :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Cert.Proof.KB

end
-- ==== Proof.KB.TripDefs.lean ====
/-
  One trip of the loop that fixes a scratch buffer in place, as a list of stores.

  A trip handles eight rows of 128 words. In each row it loads the sixteen words of columns 0–15, 16–31
  and 32–47, takes their maximum with the matching vector of floors, and stores the result back: 24
  stores at the offsets 128·u + 16·r (u < 8, r < 3) past the trip's base, each payload computed from
  what the buffer held there before the trip. The list below is those 24 stores, the last first,
  over any view of a buffer of 32768 words and any offset function of the two constants; and the
  buffer fixed below a bound, which is what a run of trips leaves.
-/
import proofs.«212535_g38190849196153_cont_8to1_b_1410_19_alg».proof.Proof.KB.ScOut
import Idealize.ShloMosaic.Lib.Writes

noncomputable section

namespace Cert.Proof.KB

open Cert.Kernel Cert.Kernel.Gen
open Idealize.ShloMosaic

variable {F : FTy → Type} [FloatOps F]

/-- The payload of one store: the loaded vector's maximum with a floor vector (the two reshapings to
    the same shape are the body's). -/
def pay (fl : FVec F S16 .f32) (u : Vec F S16 .f32) : FVec F S16 .f32 :=
  shapeCast S16 (maximumf (shapeCast S16 u Facts₀.shapeCasts_S16_S16) fl) Facts₀.shapeCasts_S16_S16

/-- A trip's 24 stores through the view `v`, the last first, from the contents `f` the trip found. -/
def tripList {κ : Kind} {sp : Space} (v : View sig κ sp S32768 .f32) (off : BitVec 32 → BitVec 32 → Fin 1 → Nat)
    (inb : ∀ (r₁ : Fin 8) (r₂ : Fin 3), ∀ a, (off (BitVec.ofNat 32 (128 * r₁.val)) (BitVec.ofNat 32 (16 * r₂.val))) a + S16.size a ≤ S32768.size a)
    (f : v.ty.Contents (Elt F)) : List (View.Piece (Elt F) S32768 .f32) :=
  [
    ⟨Rect.unit (s := S32768) (off 896#32 32#32) S16.size (inb 7 2), pay floorC (v.readAt (Elt F) (Rect.unit (s := S32768) (off 896#32 32#32) S16.size (inb 7 2)).toLoadRect f)⟩,
    ⟨Rect.unit (s := S32768) (off 896#32 16#32) S16.size (inb 7 1), pay floorB (v.readAt (Elt F) (Rect.unit (s := S32768) (off 896#32 16#32) S16.size (inb 7 1)).toLoadRect f)⟩,
    ⟨Rect.unit (s := S32768) (off 896#32 0#32) S16.size (inb 7 0), pay floorA (v.readAt (Elt F) (Rect.unit (s := S32768) (off 896#32 0#32) S16.size (inb 7 0)).toLoadRect f)⟩,
    ⟨Rect.unit (s := S32768) (off 768#32 32#32) S16.size (inb 6 2), pay floorC (v.readAt (Elt F) (Rect.unit (s := S32768) (off 768#32 32#32) S16.size (inb 6 2)).toLoadRect f)⟩,
    ⟨Rect.unit (s := S32768) (off 768#32 16#32) S16.size (inb 6 1), pay floorB (v.readAt (Elt F) (Rect.unit (s := S32768) (off 768#32 16#32) S16.size (inb 6 1)).toLoadRect f)⟩,
    ⟨Rect.unit (s := S32768) (off 768#32 0#32) S16.size (inb 6 0), pay floorA (v.readAt (Elt F) (Rect.unit (s := S32768) (off 768#32 0#32) S16.size (inb 6 0)).toLoadRect f)⟩,
    ⟨Rect.unit (s := S32768) (off 640#32 32#32) S16.size (inb 5 2), pay floorC (v.readAt (Elt F) (Rect.unit (s := S32768) (off 640#32 32#32) S16.size (inb 5 2)).toLoadRect f)⟩,
    ⟨Rect.unit (s := S32768) (off 640#32 16#32) S16.size (inb 5 1), pay floorB (v.readAt (Elt F) (Rect.unit (s := S32768) (off 640#32 16#32) S16.size (inb 5 1)).toLoadRect f)⟩,
    ⟨Rect.unit (s := S32768) (off 640#32 0#32) S16.size (inb 5 0), pay floorA (v.readAt (Elt F) (Rect.unit (s := S32768) (off 640#32 0#32) S16.size (inb 5 0)).toLoadRect f)⟩,
    ⟨Rect.unit (s := S32768) (off 512#32 32#32) S16.size (inb 4 2), pay floorC (v.readAt (Elt F) (Rect.unit (s := S32768) (off 512#32 32#32) S16.size (inb 4 2)).toLoadRect f)⟩,
    ⟨Rect.unit (s := S32768) (off 512#32 16#32) S16.size (inb 4 1), pay floorB (v.readAt (Elt F) (Rect.unit (s := S32768) (off 512#32 16#32) S16.size (inb 4 1)).toLoadRect f)⟩,
    ⟨Rect.unit (s := S32768) (off 512#32 0#32) S16.size (inb 4 0), pay floorA (v.readAt (Elt F) (Rect.unit (s := S32768) (off 512#32 0#32) S16.size (inb 4 0)).toLoadRect f)⟩,
    ⟨Rect.unit (s := S32768) (off 384#32 32#32) S16.size (inb 3 2), pay floorC (v.readAt (Elt F) (Rect.unit (s := S32768) (off 384#32 32#32) S16.size (inb 3 2)).toLoadRect f)⟩,
    ⟨Rect.unit (s := S32768) (off 384#32 16#32) S16.size (inb 3 1), pay floorB (v.readAt (Elt F) (Rect.unit (s := S32768) (off 384#32 16#32) S16.size (inb 3 1)).toLoadRect f)⟩,
    ⟨Rect.unit (s := S32768) (off 384#32 0#32) S16.size (inb 3 0), pay floorA (v.readAt (Elt F) (Rect.unit (s := S32768) (off 384#32 0#32) S16.size (inb 3 0)).toLoadRect f)⟩,
    ⟨Rect.unit (s := S32768) (off 256#32 32#32) S16.size (inb 2 2), pay floorC (v.readAt (Elt F) (Rect.unit (s := S32768) (off 256#32 32#32) S16.size (inb 2 2)).toLoadRect f)⟩,
    ⟨Rect.unit (s := S32768) (off 256#32 16#32) S16.size (inb 2 1), pay floorB (v.readAt (Elt F) (Rect.unit (s := S32768) (off 256#32 16#32) S16.size (inb 2 1)).toLoadRect f)⟩,
    ⟨Rect.unit (s := S32768) (off 256#32 0#32) S16.size (inb 2 0), pay floorA (v.readAt (Elt F) (Rect.unit (s := S32768) (off 256#32 0#32) S16.size (inb 2 0)).toLoadRect f)⟩,
    ⟨Rect.unit (s := S32768) (off 128#32 32#32) S16.size (inb 1 2), pay floorC (v.readAt (Elt F) (Rect.unit (s := S32768) (off 128#32 32#32) S16.size (inb 1 2)).toLoadRect f)⟩,
    ⟨Rect.unit (s := S32768) (off 128#32 16#32) S16.size (inb 1 1), pay floorB (v.readAt (Elt F) (Rect.unit (s := S32768) (off 128#32 16#32) S16.size (inb 1 1)).toLoadRect f)⟩,
    ⟨Rect.unit (s := S32768) (off 128#32 0#32) S16.size (inb 1 0), pay floorA (v.readAt (Elt F) (Rect.unit (s := S32768) (off 128#32 0#32) S16.size (inb 1 0)).toLoadRect f)⟩,
    ⟨Rect.unit (s := S32768) (off 0#32 32#32) S16.size (inb 0 2), pay floorC (v.readAt (Elt F) (Rect.unit (s := S32768) (off 0#32 32#32) S16.size (inb 0 2)).toLoadRect f)⟩,
    ⟨Rect.unit (s := S32768) (off 0#32 16#32) S16.size (inb 0 1), pay floorB (v.readAt (Elt F) (Rect.unit (s := S32768) (off 0#32 16#32) S16.size (inb 0 1)).toLoadRect f)⟩,
    ⟨Rect.unit (s := S32768) (off 0#32 0#32) S16.size (inb 0 0), pay floorA (v.readAt (Elt F) (Rect.unit (s := S32768) (off 0#32 0#32) S16.size (inb 0 0)).toLoadRect f)⟩
  ]

/-- A buffer of 32768 words fixed at every position below `1024 · k` and as it was from there on. -/
def fixUpTo (k : ℕ) (f₀ : FVec F S32768 .f32) : FVec F S32768 .f32 :=
  fun q => if (q 0).val < 1024 * k then fixAt (q 0).val (f₀ q) else f₀ q

theorem fixUpTo_zero (f₀ : FVec F S32768 .f32) : fixUpTo 0 f₀ = f₀ := by
  funext q; simp [fixUpTo]

theorem fixUpTo_all (f₀ : FVec F S32768 .f32) : fixUpTo 32 f₀ = fixChunk f₀ := by
  funext q
  have hq : (q 0).val < 32768 := (q 0).isLt
  simp only [fixUpTo, fixChunk]
  rw [if_pos (by omega)]

end Cert.Proof.KB

end
-- ==== Proof.KB.TripRead.lean ====
/-
  What one trip's 24 stores leave in a buffer of 32768 words, read at a position.

  Trip k works on the 1024 words from 1024 k on: eight rows of 128, and in each row the three groups of
  sixteen columns 0–15, 16–31 and 32–47. The store of row u, group r covers the sixteen positions from
  1024 k + 128 u + 16 r on and writes, at each, the maximum of what the buffer held there with the
  matching lane of the group's floor vector — which is what `fixAt` makes of that position, whose column
  is 16 r + lane. The 24 rectangles are pairwise apart, so a position inside the trip's words whose
  column is below 48 lies in exactly one of them and reads its payload; a position inside the trip's
  words whose column is 48 or more lies in none, keeps its contents, and `fixAt` leaves such a column
  alone; a position outside the trip's words lies in none and keeps its contents.
-/
import proofs.«212535_g38190849196153_cont_8to1_b_1410_19_alg».proof.Proof.KB.TripDefs
import Idealize.ShloMosaic.Lib.Writes
import Idealize.ShloMosaic.Lib.ValueIdx
import Idealize.ShloMosaic.Lib.Pipeline.Value

noncomputable section

namespace Cert.Proof.KB

open Cert.Kernel Cert.Kernel.Gen
open Idealize.ShloMosaic
open Idealize.ShloMosaic.ValueIdx (ix1 eq_ix1)

variable {F : FTy → Type} [FloatOps F]

/-! ## A store's payload at a lane, and `fixAt` on a column of one of the three groups -/

/-- The payload at a lane: the loaded word's maximum with the floor vector's lane. -/
theorem pay_apply (fl : FVec F S16 .f32) (u : Vec F S16 .f32) (x : S16.Idx) :
    pay fl u x = FloatOps.maximumf (u x) (fl x) := by
  unfold pay
  rw [shapeCast_self, shapeCast_self]
  rfl

/-- The floor vector of column group r. -/
def floorOf : Fin 3 → FVec F S16 .f32
  | ⟨0, _⟩ => floorA
  | ⟨1, _⟩ => floorB
  | ⟨2, _⟩ => floorC

/-- At a position whose column is 16 r + l (group r, lane l), `fixAt` takes the maximum with lane l of
    group r's floor vector. -/
theorem fixAt_lane : ∀ (r : Fin 3) (p : ℕ) (val : F .f32) (l : Fin 16), p % 128 = 16 * r.val + l.val →
    fixAt p val = FloatOps.maximumf val (floorOf (F := F) r (ix1 l))
  | ⟨0, _⟩, p, val, l, h => by
    have hl := l.isLt
    have h' : p % 128 = 16 * 0 + l.val := h
    have hA : p % 128 < 16 := by omega
    have e : (⟨p % 128, hA⟩ : Fin 16) = l := Fin.ext (by show p % 128 = l.val; omega)
    unfold fixAt
    rw [dif_pos hA, e]
    rfl
  | ⟨1, _⟩, p, val, l, h => by
    have hl := l.isLt
    have h' : p % 128 = 16 * 1 + l.val := h
    have hA : ¬ p % 128 < 16 := by omega
    have hB : p % 128 < 32 := by omega
    have e : (⟨p % 128 - 16, by omega⟩ : Fin 16) = l := Fin.ext (by show p % 128 - 16 = l.val; omega)
    unfold fixAt
    rw [dif_neg hA, dif_pos hB, e]
    rfl
  | ⟨2, _⟩, p, val, l, h => by
    have hl := l.isLt
    have h' : p % 128 = 16 * 2 + l.val := h
    have hA : ¬ p % 128 < 16 := by omega
    have hB : ¬ p % 128 < 32 := by omega
    have hC : p % 128 < 48 := by omega
    have e : (⟨p % 128 - 32, by omega⟩ : Fin 16) = l := Fin.ext (by show p % 128 - 32 = l.val; omega)
    unfold fixAt
    rw [dif_neg hA, dif_neg hB, dif_pos hC, e]
    rfl

/-- A column from 48 on is left alone. -/
theorem fixAt_high (p : ℕ) (val : F .f32) (h : 48 ≤ p % 128) : fixAt p val = val := by
  unfold fixAt
  rw [dif_neg (by omega), dif_neg (by omega), dif_neg (by omega)]

/-! ## The trip's stores one by one -/

section Pieces
variable {κ : Kind} {sp : Space} (v : View sig κ sp S32768 .f32) (off : BitVec 32 → BitVec 32 → Fin 1 → Nat)
  (inb : ∀ (r₁ : Fin 8) (r₂ : Fin 3), ∀ a, (off (BitVec.ofNat 32 (128 * r₁.val)) (BitVec.ofNat 32 (16 * r₂.val))) a + S16.size a ≤ S32768.size a)
  (f : v.ty.Contents (Elt F))

/-- The store of row u, column group r. -/
def piece (u : Fin 8) (r : Fin 3) : View.Piece (Elt F) S32768 .f32 :=
  ⟨Rect.unit (s := S32768) (off (BitVec.ofNat 32 (128 * u.val)) (BitVec.ofNat 32 (16 * r.val))) S16.size (inb u r),
    pay (floorOf r) (v.readAt (Elt F) (Rect.unit (s := S32768) (off (BitVec.ofNat 32 (128 * u.val)) (BitVec.ofNat 32 (16 * r.val))) S16.size (inb u r)).toLoadRect f)⟩

/-- Every store of the trip is one of these … -/
theorem forall_mem_tripList (P : View.Piece (Elt F) S32768 .f32 → Prop) (h : ∀ u r, P (piece v off inb f u r)) :
    ∀ p ∈ tripList v off inb f, P p := by
  intro p hp
  simp only [tripList, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  exacts [h 7 2, h 7 1, h 7 0, h 6 2, h 6 1, h 6 0, h 5 2, h 5 1, h 5 0, h 4 2, h 4 1, h 4 0, h 3 2, h 3 1, h 3 0, h 2 2, h 2 1, h 2 0, h 1 2, h 1 1, h 1 0, h 0 2, h 0 1, h 0 0]

/-- … and each of these is a store of the trip. -/
theorem piece_mem_tripList : ∀ (u : Fin 8) (r : Fin 3), piece v off inb f u r ∈ tripList v off inb f := by
  intro u r
  unfold tripList
  fin_cases u <;> fin_cases r <;>
    repeat (first | exact List.mem_cons_self | apply List.mem_cons_of_mem)

end Pieces

/-- A store through sixteen positions from `base` on, whose columns are `c₀ + lane`, with a payload that is the
    maximum of the loaded words with a floor vector that `fixAt` uses on those columns: at each lane the payload is
    `fixAt` of what the buffer held at the lane's position. -/
theorem piece_eq {κ : Kind} {sp : Space} (v : View sig κ sp S32768 .f32) (f : v.ty.Contents (Elt F))
    (o : Fin 1 → Nat) (inb : ∀ a, o a + S16.size a ≤ S32768.size a) (base : ℕ) (ho : o = ![base]) (r : Fin 3)
    (hb : ∀ l, l < 16 → (base + l) % 128 = 16 * r.val + l)
    (x : S16.Idx) :
    pay (floorOf r) (v.readAt (Elt F) (Rect.unit (s := S32768) o S16.size inb).toLoadRect f) x
      = fixAt (((Rect.unit (s := S32768) o S16.size inb).emb x) 0).val
          (v.read (Elt F) f ((Rect.unit (s := S32768) o S16.size inb).emb x)) := by
  subst ho
  have hl : (x 0).val < 16 := (x 0).isLt
  have hp : (((Rect.unit (s := S32768) ![base] S16.size inb).emb x) 0).val = base + (x 0).val := by
    rw [Rect.emb_apply]
    show base + 1 * (x 0).val = base + (x 0).val
    omega
  rw [pay_apply, View.readAt_apply, fixAt_lane r _ _ (x 0) (by rw [hp]; exact hb _ hl)]
  exact congrArg (fun z : S16.Idx => FloatOps.maximumf (v.read (Elt F) f ((Rect.unit (s := S32768) ![base] S16.size inb).emb x))
    (floorOf (F := F) r z)) (eq_ix1 x)

/-! ## The buffer after the trip, read at a position -/

theorem trip_read {κ : Kind} {sp : Space} (v : View sig κ sp S32768 .f32) (off : BitVec 32 → BitVec 32 → Fin 1 → Nat)
    (inb : ∀ (r₁ : Fin 8) (r₂ : Fin 3), ∀ a, (off (BitVec.ofNat 32 (128 * r₁.val)) (BitVec.ofNat 32 (16 * r₂.val))) a + S16.size a ≤ S32768.size a)
    (k : ℕ)
    (heq : ∀ (r₁ : Fin 8) (r₂ : Fin 3), off (BitVec.ofNat 32 (128 * r₁.val)) (BitVec.ofNat 32 (16 * r₂.val)) = ![1024 * k + 128 * r₁.val + 16 * r₂.val])
    (f : v.ty.Contents (Elt F)) (y : S32768.Idx) :
    v.read (Elt F) (v.writes (Elt F) f (tripList v off inb f)) y
      = if 1024 * k ≤ (y 0).val ∧ (y 0).val < 1024 * k + 1024 then fixAt (y 0).val (v.read (Elt F) f y)
        else v.read (Elt F) f y := by
  have hy : (y 0).val < 32768 := (y 0).isLt
  by_cases hcov : (1024 * k ≤ (y 0).val ∧ (y 0).val < 1024 * k + 1024) ∧ (y 0).val % 128 < 48
  · -- the position lies in the store of its row and column group
    rw [if_pos hcov.1]
    refine View.read_writes_apply_of_pieces v f (fun y => fixAt (y 0).val (v.read (Elt F) f y)) _ ?_ y ?_
    · refine forall_mem_tripList v off inb f _ fun u r x => ?_
      have hu := u.isLt
      have hr := r.isLt
      exact piece_eq v f _ (inb u r) (1024 * k + 128 * u.val + 16 * r.val) (heq u r) r (fun l hl => by omega) x
    · have hu : ((y 0).val - 1024 * k) / 128 < 8 := by omega
      have hr : (y 0).val % 128 / 16 < 3 := by omega
      refine ⟨piece v off inb f ⟨((y 0).val - 1024 * k) / 128, hu⟩ ⟨(y 0).val % 128 / 16, hr⟩, piece_mem_tripList v off inb f _ _, ?_⟩
      show y ∈ (Rect.unit (s := S32768) (off (BitVec.ofNat 32 (128 * (((y 0).val - 1024 * k) / 128))) (BitVec.ofNat 32 (16 * ((y 0).val % 128 / 16)))) S16.size
        (inb ⟨((y 0).val - 1024 * k) / 128, hu⟩ ⟨(y 0).val % 128 / 16, hr⟩)).set
      rw [Rect.mem_set_unit, heq ⟨((y 0).val - 1024 * k) / 128, hu⟩ ⟨(y 0).val % 128 / 16, hr⟩]
      intro a
      obtain rfl : a = 0 := Subsingleton.elim _ _
      show 1024 * k + 128 * (((y 0).val - 1024 * k) / 128) + 16 * ((y 0).val % 128 / 16) ≤ (y 0).val
        ∧ (y 0).val < 1024 * k + 128 * (((y 0).val - 1024 * k) / 128) + 16 * ((y 0).val % 128 / 16) + 16
      omega
  · -- the position lies in none of the stores
    rw [View.read_writes_apply_of_forall_not_mem v f y _ (forall_mem_tripList v off inb f _ fun u r => ?_)]
    · split_ifs with h
      · rw [fixAt_high _ _ (by omega)]
      · rfl
    · have hu := u.isLt
      have hr := r.isLt
      show y ∉ (Rect.unit (s := S32768) (off (BitVec.ofNat 32 (128 * u.val)) (BitVec.ofNat 32 (16 * r.val))) S16.size (inb u r)).set
      rw [Rect.mem_set_unit, heq u r]
      intro hm
      have h0 : 1024 * k + 128 * u.val + 16 * r.val ≤ (y 0).val ∧ (y 0).val < 1024 * k + 128 * u.val + 16 * r.val + 16 := hm 0
      omega

end Cert.Proof.KB

end
-- ==== Proof.KB.TripStep.lean ====
/-
  A trip's stores, over a scratch buffer fixed below the trip's base, leave it fixed below the next
  trip's base: the step of the loop's invariant, for each of the two scratch buffers.
-/
import proofs.«212535_g38190849196153_cont_8to1_b_1410_19_alg».proof.Proof.KB.TripRead

noncomputable section

namespace Cert.Proof.KB

open Cert.Kernel Cert.Kernel.Gen
open Idealize.ShloMosaic

variable {F : FTy → Type} [FloatOps F]

local notation "b0" => (Memref.whole Cert.Kernel.cc0_scratch0 : Memref Cert.Kernel.sig Kind.scVector Space.vmem Cert.Kernel.S32768 EltTy.f32)
local notation "b1" => (Memref.whole Cert.Kernel.cc0_scratch1 : Memref Cert.Kernel.sig Kind.scVector Space.vmem Cert.Kernel.S32768 EltTy.f32)

/-- The pointwise form: the trip's words fixed, every other word as it was. -/
theorem fixUpTo_succ_apply (k : ℕ) (f₀ : FVec F S32768 .f32) (y : S32768.Idx) :
    (if 1024 * k ≤ (y 0).val ∧ (y 0).val < 1024 * k + 1024 then fixAt (y 0).val (fixUpTo k f₀ y) else fixUpTo k f₀ y)
      = fixUpTo (k + 1) f₀ y := by
  unfold fixUpTo
  by_cases h1 : (y 0).val < 1024 * k
  · rw [if_neg (by omega), if_pos h1, if_pos (by omega)]
  · by_cases h2 : (y 0).val < 1024 * k + 1024
    · rw [if_pos ⟨by omega, h2⟩, if_neg h1, if_pos (by omega)]
    · rw [if_neg (by omega), if_neg h1, if_neg (by omega)]

theorem trip_step_b0 (off : BitVec 32 → BitVec 32 → Fin 1 → Nat)
    (inb : ∀ (r₁ : Fin 8) (r₂ : Fin 3), ∀ a, (off (BitVec.ofNat 32 (128 * r₁.val)) (BitVec.ofNat 32 (16 * r₂.val))) a + S16.size a ≤ S32768.size a)
    (k : ℕ) (heq : ∀ (r₁ : Fin 8) (r₂ : Fin 3), off (BitVec.ofNat 32 (128 * r₁.val)) (BitVec.ofNat 32 (16 * r₂.val)) = ![1024 * k + 128 * r₁.val + 16 * r₂.val])
    (f₀ : FVec F S32768 .f32) :
    (b0).view.writes (Elt F) (fixUpTo k f₀) (tripList (b0).view off inb (fixUpTo k f₀)) = fixUpTo (k + 1) f₀ := by
  funext y
  exact (trip_read (b0).view off inb k heq (fixUpTo k f₀) y).trans (fixUpTo_succ_apply k f₀ y)

theorem trip_step_b1 (off : BitVec 32 → BitVec 32 → Fin 1 → Nat)
    (inb : ∀ (r₁ : Fin 8) (r₂ : Fin 3), ∀ a, (off (BitVec.ofNat 32 (128 * r₁.val)) (BitVec.ofNat 32 (16 * r₂.val))) a + S16.size a ≤ S32768.size a)
    (k : ℕ) (heq : ∀ (r₁ : Fin 8) (r₂ : Fin 3), off (BitVec.ofNat 32 (128 * r₁.val)) (BitVec.ofNat 32 (16 * r₂.val)) = ![1024 * k + 128 * r₁.val + 16 * r₂.val])
    (f₀ : FVec F S32768 .f32) :
    (b1).view.writes (Elt F) (fixUpTo k f₀) (tripList (b1).view off inb (fixUpTo k f₀)) = fixUpTo (k + 1) f₀ := by
  funext y
  exact (trip_read (b1).view off inb k heq (fixUpTo k f₀) y).trans (fixUpTo_succ_apply k f₀ y)

end Cert.Proof.KB

end
-- ==== Proof.KB.LoopInv.lean ====
/-
  The invariant of the loops that fix a scratch buffer in place: before trip k the buffer is fixed at
  every position below 1024·k and holds what the loop found from there on.
-/
import proofs.«212535_g38190849196153_cont_8to1_b_1410_19_alg».proof.Proof.KB.TileSetup
import proofs.«212535_g38190849196153_cont_8to1_b_1410_19_alg».proof.Proof.KB.TripStep
import proofs.«212535_g38190849196153_cont_8to1_b_1410_19_alg».proof.Proof.Gen.Kernel.Skeleton
import Idealize.ShloMosaic.Lib.SparseCore.Launch
import Idealize.ShloMosaic.Lib.Tactic
import Idealize.ShloMosaic.Lib.Transfers
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.Kernel.cc0_scratch0 : Memref Cert.Kernel.sig Kind.scVector Space.vmem Cert.Kernel.S32768 EltTy.f32)
local notation "b1" => (Memref.whole Cert.Kernel.cc0_scratch1 : Memref Cert.Kernel.sig Kind.scVector Space.vmem Cert.Kernel.S32768 EltTy.f32)
local notation "xV" => (Memref.whole Cert.Kernel.main_v1_scv : Memref Cert.Kernel.sig Kind.scVector Space.hbm Cert.Kernel.S33554432 EltTy.f32)
local notation "oV" => (Memref.whole Cert.Kernel.main_v2_scv : Memref Cert.Kernel.sig Kind.scVector Space.hbm Cert.Kernel.S14680064 EltTy.f32)

/-- Before trip `k`: the first scratch buffer fixed below `1024·k`. -/
def invB0 (d : Dev nD) (L : grid0.Coords) (f₀ : FVec F S32768 .f32) (k : ℕ) (_ : Unit) : sProp 𝕄 :=
  iprop((b0).view.loc (VT d L) ↦[(b0).view.set]{fullShare} fixUpTo k f₀)
/-- The same for the second scratch buffer. -/
def invB1 (d : Dev nD) (L : grid0.Coords) (f₀ : FVec F S32768 .f32) (k : ℕ) (_ : Unit) : sProp 𝕄 :=
  iprop((b1).view.loc (VT d L) ↦[(b1).view.set]{fullShare} fixUpTo k f₀)

end Cert.Proof.KB

end
-- ==== Proof.KB.Regions.lean ====
/-
  One trip of each of the fourteen loops that fix a scratch buffer in place. The fourteen regions are
  the same text up to the buffer (the first scratch in the odd loops, the second in the even ones) and
  the names of the trip's offsets; each is run once, at a symbolic trip, from the invariant to the
  invariant: the 24 loads, maxima and stores are the list of stores of one trip, and that list over a
  buffer fixed below the trip's base leaves it fixed below the next.
-/
import proofs.«212535_g38190849196153_cont_8to1_b_1410_19_alg».proof.Proof.KB.LoopInv
import proofs.«212535_g38190849196153_cont_8to1_b_1410_19_alg».proof.Proof.Gen.Kernel.Skeleton
import Idealize.ShloMosaic.Lib.SparseCore.Launch
import Idealize.ShloMosaic.Lib.Tactic
import Idealize.ShloMosaic.Lib.Transfers
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.Kernel.cc0_scratch0 : Memref Cert.Kernel.sig Kind.scVector Space.vmem Cert.Kernel.S32768 EltTy.f32)
local notation "b1" => (Memref.whole Cert.Kernel.cc0_scratch1 : Memref Cert.Kernel.sig Kind.scVector Space.vmem Cert.Kernel.S32768 EltTy.f32)
local notation "xV" => (Memref.whole Cert.Kernel.main_v1_scv : Memref Cert.Kernel.sig Kind.scVector Space.hbm Cert.Kernel.S33554432 EltTy.f32)
local notation "oV" => (Memref.whole Cert.Kernel.main_v2_scv : Memref Cert.Kernel.sig Kind.scVector Space.hbm Cert.Kernel.S14680064 EltTy.f32)

/-- One trip of loop 1: the scratch fixed below the trip's base, the trip's 24 loads, maxima and stores,
    the scratch fixed below the next base. -/
theorem region_1 (d : Dev nD) (L : grid0.Coords) (f₀ : FVec F S32768 .f32) (k : Fin k0_t1_loop.trips) (acc : Unit) :
    (invB0 (F := F) (U := U) d L f₀ k.val acc)
      ⊢ wp frame (wpE (defs₀ (F := F)) 𝒱₀ (VT d L) none) Set.univ
          (k0_t1_body L xV (Memref.isWhole_whole _) oV (Memref.isWhole_whole _) b0 (Memref.isWhole_whole _) b1 (Memref.isWhole_whole _)
            cc0_scratch2 cc0_scratch3 cc0_scratch4 cc0_scratch5 k acc)
          (invB0 (F := F) (U := U) d L f₀ (k.val + 1)) := by
  unfold invB0
  iintro HB
  unfold k0_t1_body
  sl_exec
  sl_step
  rw [← trip_step_b0 (k0_off2 k) (k0_off2_inb k) k.val (k0_off2_eq k) f₀]
  iexact HB

/-- One trip of loop 2: the scratch fixed below the trip's base, the trip's 24 loads, maxima and stores,
    the scratch fixed below the next base. -/
theorem region_2 (d : Dev nD) (L : grid0.Coords) (f₀ : FVec F S32768 .f32) (v2 : BitVec 32) (k : Fin k0_t2_loop.trips) (acc : Unit) :
    (invB1 (F := F) (U := U) d L f₀ k.val acc)
      ⊢ wp frame (wpE (defs₀ (F := F)) 𝒱₀ (VT d L) none) Set.univ
          (k0_t2_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB1 (F := F) (U := U) d L f₀ (k.val + 1)) := by
  unfold invB1
  iintro HB
  unfold k0_t2_body
  sl_exec
  sl_step
  rw [← trip_step_b1 (k0_off4 k) (k0_off4_inb k) k.val (k0_off4_eq k) f₀]
  iexact HB

/-- One trip of loop 3: the scratch fixed below the trip's base, the trip's 24 loads, maxima and stores,
    the scratch fixed below the next base. -/
theorem region_3 (d : Dev nD) (L : grid0.Coords) (f₀ : FVec F S32768 .f32) (v2 : BitVec 32) (c0 c1 : BitVec 32) (k : Fin k0_t3_loop.trips) (acc : Unit) :
    (invB0 (F := F) (U := U) d L f₀ k.val acc)
      ⊢ wp frame (wpE (defs₀ (F := F)) 𝒱₀ (VT d L) none) Set.univ
          (k0_t3_body L xV (Memref.isWhole_whole _) oV (Memref.isWhole_whole _) b0 (Memref.isWhole_whole _) b1 (Memref.isWhole_whole _)
            cc0_scratch2 cc0_scratch3 cc0_scratch4 cc0_scratch5 v2 floorA floorB floorC c0 c1 k acc)
          (invB0 (F := F) (U := U) d L f₀ (k.val + 1)) := by
  unfold invB0
  iintro HB
  unfold k0_t3_body
  sl_exec
  sl_step
  rw [← trip_step_b0 (k0_off5 k) (k0_off5_inb k) k.val (k0_off5_eq k) f₀]
  iexact HB

/-- One trip of loop 4: the scratch fixed below the trip's base, the trip's 24 loads, maxima and stores,
    the scratch fixed below the next base. -/
theorem region_4 (d : Dev nD) (L : grid0.Coords) (f₀ : FVec F S32768 .f32) (v2 : BitVec 32) (c0 c1 : BitVec 32) (k : Fin k0_t4_loop.trips) (acc : Unit) :
    (invB1 (F := F) (U := U) d L f₀ k.val acc)
      ⊢ wp frame (wpE (defs₀ (F := F)) 𝒱₀ (VT d L) none) Set.univ
          (k0_t4_body L xV (Memref.isWhole_whole _) oV (Memref.isWhole_whole _) b0 (Memref.isWhole_whole _) b1 (Memref.isWhole_whole _)
            cc0_scratch2 cc0_scratch3 cc0_scratch4 cc0_scratch5 v2 floorA floorB floorC c0 c1 k acc)
          (invB1 (F := F) (U := U) d L f₀ (k.val + 1)) := by
  unfold invB1
  iintro HB
  unfold k0_t4_body
  sl_exec
  sl_step
  rw [← trip_step_b1 (k0_off6 k) (k0_off6_inb k) k.val (k0_off6_eq k) f₀]
  iexact HB

/-- One trip of loop 5: the scratch fixed below the trip's base, the trip's 24 loads, maxima and stores,
    the scratch fixed below the next base. -/
theorem region_5 (d : Dev nD) (L : grid0.Coords) (f₀ : FVec F S32768 .f32) (v2 : BitVec 32) (c0 c1 : BitVec 32) (k : Fin k0_t5_loop.trips) (acc : Unit) :
    (invB0 (F := F) (U := U) d L f₀ k.val acc)
      ⊢ wp frame (wpE (defs₀ (F := F)) 𝒱₀ (VT d L) none) Set.univ
          (k0_t5_body L xV (Memref.isWhole_whole _) oV (Memref.isWhole_whole _) b0 (Memref.isWhole_whole _) b1 (Memref.isWhole_whole _)
            cc0_scratch2 cc0_scratch3 cc0_scratch4 cc0_scratch5 v2 floorA floorB floorC c0 c1 k acc)
          (invB0 (F := F) (U := U) d L f₀ (k.val + 1)) := by
  unfold invB0
  iintro HB
  unfold k0_t5_body
  sl_exec
  sl_step
  rw [← trip_step_b0 (k0_off7 k) (k0_off7_inb k) k.val (k0_off7_eq k) f₀]
  iexact HB

/-- One trip of loop 6: the scratch fixed below the trip's base, the trip's 24 loads, maxima and stores,
    the scratch fixed below the next base. -/
theorem region_6 (d : Dev nD) (L : grid0.Coords) (f₀ : FVec F S32768 .f32) (v2 : BitVec 32) (c0 c1 : BitVec 32) (k : Fin k0_t6_loop.trips) (acc : Unit) :
    (invB1 (F := F) (U := U) d L f₀ k.val acc)
      ⊢ wp frame (wpE (defs₀ (F := F)) 𝒱₀ (VT d L) none) Set.univ
          (k0_t6_body L xV (Memref.isWhole_whole _) oV (Memref.isWhole_whole _) b0 (Memref.isWhole_whole _) b1 (Memref.isWhole_whole _)
            cc0_scratch2 cc0_scratch3 cc0_scratch4 cc0_scratch5 v2 floorA floorB floorC c0 c1 k acc)
          (invB1 (F := F) (U := U) d L f₀ (k.val + 1)) := by
  unfold invB1
  iintro HB
  unfold k0_t6_body
  sl_exec
  sl_step
  rw [← trip_step_b1 (k0_off8 k) (k0_off8_inb k) k.val (k0_off8_eq k) f₀]
  iexact HB

/-- One trip of loop 7: the scratch fixed below the trip's base, the trip's 24 loads, maxima and stores,
    the scratch fixed below the next base. -/
theorem region_7 (d : Dev nD) (L : grid0.Coords) (f₀ : FVec F S32768 .f32) (v2 : BitVec 32) (k : Fin k0_t7_loop.trips) (acc : Unit) :
    (invB0 (F := F) (U := U) d L f₀ k.val acc)
      ⊢ wp frame (wpE (defs₀ (F := F)) 𝒱₀ (VT d L) none) Set.univ
          (k0_t7_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB0 (F := F) (U := U) d L f₀ (k.val + 1)) := by
  unfold invB0
  iintro HB
  unfold k0_t7_body
  sl_exec
  sl_step
  rw [← trip_step_b0 (k0_off9 k) (k0_off9_inb k) k.val (k0_off9_eq k) f₀]
  iexact HB

/-- One trip of loop 8: the scratch fixed below the trip's base, the trip's 24 loads, maxima and stores,
    the scratch fixed below the next base. -/
theorem region_8 (d : Dev nD) (L : grid0.Coords) (f₀ : FVec F S32768 .f32) (v2 : BitVec 32) (k : Fin k0_t8_loop.trips) (acc : Unit) :
    (invB1 (F := F) (U := U) d L f₀ k.val acc)
      ⊢ wp frame (wpE (defs₀ (F := F)) 𝒱₀ (VT d L) none) Set.univ
          (k0_t8_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB1 (F := F) (U := U) d L f₀ (k.val + 1)) := by
  unfold invB1
  iintro HB
  unfold k0_t8_body
  sl_exec
  sl_step
  rw [← trip_step_b1 (k0_off10 k) (k0_off10_inb k) k.val (k0_off10_eq k) f₀]
  iexact HB

/-- One trip of loop 9: the scratch fixed below the trip's base, the trip's 24 loads, maxima and stores,
    the scratch fixed below the next base. -/
theorem region_9 (d : Dev nD) (L : grid0.Coords) (f₀ : FVec F S32768 .f32) (v2 : BitVec 32) (k : Fin k0_t9_loop.trips) (acc : Unit) :
    (invB0 (F := F) (U := U) d L f₀ k.val acc)
      ⊢ wp frame (wpE (defs₀ (F := F)) 𝒱₀ (VT d L) none) Set.univ
          (k0_t9_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB0 (F := F) (U := U) d L f₀ (k.val + 1)) := by
  unfold invB0
  iintro HB
  unfold k0_t9_body
  sl_exec
  sl_step
  rw [← trip_step_b0 (k0_off11 k) (k0_off11_inb k) k.val (k0_off11_eq k) f₀]
  iexact HB

/-- One trip of loop 10: the scratch fixed below the trip's base, the trip's 24 loads, maxima and stores,
    the scratch fixed below the next base. -/
theorem region_10 (d : Dev nD) (L : grid0.Coords) (f₀ : FVec F S32768 .f32) (v2 : BitVec 32) (k : Fin k0_t10_loop.trips) (acc : Unit) :
    (invB1 (F := F) (U := U) d L f₀ k.val acc)
      ⊢ wp frame (wpE (defs₀ (F := F)) 𝒱₀ (VT d L) none) Set.univ
          (k0_t10_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB1 (F := F) (U := U) d L f₀ (k.val + 1)) := by
  unfold invB1
  iintro HB
  unfold k0_t10_body
  sl_exec
  sl_step
  rw [← trip_step_b1 (k0_off12 k) (k0_off12_inb k) k.val (k0_off12_eq k) f₀]
  iexact HB

/-- One trip of loop 11: the scratch fixed below the trip's base, the trip's 24 loads, maxima and stores,
    the scratch fixed below the next base. -/
theorem region_11 (d : Dev nD) (L : grid0.Coords) (f₀ : FVec F S32768 .f32) (v2 : BitVec 32) (k : Fin k0_t11_loop.trips) (acc : Unit) :
    (invB0 (F := F) (U := U) d L f₀ k.val acc)
      ⊢ wp frame (wpE (defs₀ (F := F)) 𝒱₀ (VT d L) none) Set.univ
          (k0_t11_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB0 (F := F) (U := U) d L f₀ (k.val + 1)) := by
  unfold invB0
  iintro HB
  unfold k0_t11_body
  sl_exec
  sl_step
  rw [← trip_step_b0 (k0_off13 k) (k0_off13_inb k) k.val (k0_off13_eq k) f₀]
  iexact HB

/-- One trip of loop 12: the scratch fixed below the trip's base, the trip's 24 loads, maxima and stores,
    the scratch fixed below the next base. -/
theorem region_12 (d : Dev nD) (L : grid0.Coords) (f₀ : FVec F S32768 .f32) (v2 : BitVec 32) (k : Fin k0_t12_loop.trips) (acc : Unit) :
    (invB1 (F := F) (U := U) d L f₀ k.val acc)
      ⊢ wp frame (wpE (defs₀ (F := F)) 𝒱₀ (VT d L) none) Set.univ
          (k0_t12_body L xV (Memref.isWhole_whole _) oV (Memref.isWhole_whole _) b0 (Memref.isWhole_whole _) b1 (Memref.isWhole_whole _)
            cc0_scratch2 cc0_scratch3 cc0_scratch4 cc0_scratch5 v2 floorA floorB floorC k acc)
          (invB1 (F := F) (U := U) d L f₀ (k.val + 1)) := by
  unfold invB1
  iintro HB
  unfold k0_t12_body
  sl_exec
  sl_step
  rw [← trip_step_b1 (k0_off14 k) (k0_off14_inb k) k.val (k0_off14_eq k) f₀]
  iexact HB

/-- One trip of loop 13: the scratch fixed below the trip's base, the trip's 24 loads, maxima and stores,
    the scratch fixed below the next base. -/
theorem region_13 (d : Dev nD) (L : grid0.Coords) (f₀ : FVec F S32768 .f32) (k : Fin k0_t13_loop.trips) (acc : Unit) :
    (invB0 (F := F) (U := U) d L f₀ k.val acc)
      ⊢ wp frame (wpE (defs₀ (F := F)) 𝒱₀ (VT d L) none) Set.univ
          (k0_t13_body L xV (Memref.isWhole_whole _) oV (Memref.isWhole_whole _) b0 (Memref.isWhole_whole _) b1 (Memref.isWhole_whole _)
            cc0_scratch2 cc0_scratch3 cc0_scratch4 cc0_scratch5 floorA floorB floorC k acc)
          (invB0 (F := F) (U := U) d L f₀ (k.val + 1)) := by
  unfold invB0
  iintro HB
  unfold k0_t13_body
  sl_exec
  sl_step
  rw [← trip_step_b0 (k0_off15 k) (k0_off15_inb k) k.val (k0_off15_eq k) f₀]
  iexact HB

/-- One trip of loop 14: the scratch fixed below the trip's base, the trip's 24 loads, maxima and stores,
    the scratch fixed below the next base. -/
theorem region_14 (d : Dev nD) (L : grid0.Coords) (f₀ : FVec F S32768 .f32) (k : Fin k0_t14_loop.trips) (acc : Unit) :
    (invB1 (F := F) (U := U) d L f₀ k.val acc)
      ⊢ wp frame (wpE (defs₀ (F := F)) 𝒱₀ (VT d L) none) Set.univ
          (k0_t14_body L xV (Memref.isWhole_whole _) oV (Memref.isWhole_whole _) b0 (Memref.isWhole_whole _) b1 (Memref.isWhole_whole _)
            cc0_scratch2 cc0_scratch3 cc0_scratch4 cc0_scratch5 floorA floorB floorC k acc)
          (invB1 (F := F) (U := U) d L f₀ (k.val + 1)) := by
  unfold invB1
  iintro HB
  unfold k0_t14_body
  sl_exec
  sl_step
  rw [← trip_step_b1 (k0_off16 k) (k0_off16_inb k) k.val (k0_off16_eq k) f₀]
  iexact HB

end Cert.Proof.KB

end
-- ==== Proof.KB.Landed.lean ====
/-
  What a subcore's step leaves in its chunk of the flat result.

  At step g the subcore copies chunk g of its part of the flat argument into a scratch buffer, fixes the
  buffer in place, and copies it out to chunk g of its part of the flat result. Position q of the chunk is
  position off + q of the result, off = 917504 s + 458752 c + 32768 g, and position off + 18874368 + q of
  the argument. The offset off is a multiple of 128, so the column of result position off + q is the
  column of q, and `fixAt` looks at the column only: the word left at result position i = off + q is
  `fixAt` of column i's rule applied to the argument's word at i + 18874368, which is the result function
  of the subcores' kernel at i.
-/
import proofs.«212535_g38190849196153_cont_8to1_b_1410_19_alg».proof.Proof.KB.TileSetup
import proofs.«212535_g38190849196153_cont_8to1_b_1410_19_alg».proof.Proof.KB.TripDefs
import proofs.«212535_g38190849196153_cont_8to1_b_1410_19_alg».proof.Proof.KB.TripRead
import proofs.«212535_g38190849196153_cont_8to1_b_1410_19_alg».proof.Proof.Gen.Kernel.Skeleton
import Idealize.ShloMosaic.Lib.SparseCore.Launch
import Idealize.ShloMosaic.Lib.Tactic
import Idealize.ShloMosaic.Lib.Transfers
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.Kernel.cc0_scratch0 : Memref Cert.Kernel.sig Kind.scVector Space.vmem Cert.Kernel.S32768 EltTy.f32)
local notation "b1" => (Memref.whole Cert.Kernel.cc0_scratch1 : Memref Cert.Kernel.sig Kind.scVector Space.vmem Cert.Kernel.S32768 EltTy.f32)
local notation "xV" => (Memref.whole Cert.Kernel.main_v1_scv : Memref Cert.Kernel.sig Kind.scVector Space.hbm Cert.Kernel.S33554432 EltTy.f32)
local notation "oV" => (Memref.whole Cert.Kernel.main_v2_scv : Memref Cert.Kernel.sig Kind.scVector Space.hbm Cert.Kernel.S14680064 EltTy.f32)

omit [FloatOps F] in
/-- Position q of the output slice of step g is position off + q of the flat result. -/
theorem outS_emb_val (L : grid0.Coords) (g : Fin 14) (q : S32768.Idx) :
    (((outS L g).view.emb q) 0).val = 917504 * (L 1).val + 458752 * (L 0).val + 32768 * g.val + (q 0).val := by
  have h : (((outS L g).view.emb q) 0).val = (k0_off3 L (BitVec.ofNat 32 (32768 * g.val))) 0 + 1 * (q 0).val := rfl
  rw [h, k0_off3_eq]
  show 917504 * (L 1).val + 458752 * (L 0).val + 32768 * g.val + 1 * (q 0).val = _
  omega

omit [FloatOps F] in
/-- Position q of the input slice of step g is position off + 18874368 + q of the flat argument. -/
theorem inS_emb_val (L : grid0.Coords) (g : Fin 14) (q : S32768.Idx) :
    (((inS L g).view.emb q) 0).val = 917504 * (L 1).val + 458752 * (L 0).val + 32768 * g.val + 18874368 + (q 0).val := by
  have h : (((inS L g).view.emb q) 0).val = (k0_off1 L (BitVec.ofNat 32 (32768 * g.val))) 0 + 1 * (q 0).val := rfl
  rw [h, k0_off1_eq]
  show 917504 * (L 1).val + 458752 * (L 0).val + 32768 * g.val + 18874368 + 1 * (q 0).val = _
  omega

omit [FloatOps F] in
/-- The argument's position a result position of the output slice is computed from is the same position of
    the input slice. -/
theorem srcIdx_outS_emb (L : grid0.Coords) (g : Fin 14) (q : S32768.Idx) :
    srcIdx ((outS L g).view.emb q) = (inS L g).view.emb q := by
  funext a
  obtain rfl : a = 0 := Subsingleton.elim _ _
  apply Fin.ext
  show (((outS L g).view.emb q) 0).val + 18874368 = (((inS L g).view.emb q) 0).val
  rw [outS_emb_val, inS_emb_val]
  omega

/-- `fixAt` looks at the position's column only. -/
theorem fixAt_congr (p p' : ℕ) (x : F .f32) (h : p % 128 = p' % 128) : fixAt p x = fixAt p' x := by
  by_cases h48 : p % 128 < 48
  · have hr : p % 128 / 16 < 3 := by omega
    have hl : p % 128 % 16 < 16 := by omega
    rw [fixAt_lane ⟨p % 128 / 16, hr⟩ p x ⟨p % 128 % 16, hl⟩ (by show p % 128 = 16 * (p % 128 / 16) + p % 128 % 16; omega),
      fixAt_lane ⟨p % 128 / 16, hr⟩ p' x ⟨p % 128 % 16, hl⟩ (by show p' % 128 = 16 * (p % 128 / 16) + p % 128 % 16; omega)]
  · rw [fixAt_high p x (by omega), fixAt_high p' x (by omega)]

/-- One write through the whole of a view of 32768 words, read back at a position, is the payload there. -/
theorem read_writes_whole {κ : Kind} {sp : Space} (v : View sig κ sp S32768 .f32) (f : v.ty.Contents (Elt F))
    (W : S32768.Idx → Elt F .f32) (q : S32768.Idx) :
    v.read (Elt F) (v.writes (Elt F) f [⟨Rect.whole S32768, W⟩]) q = W q := by
  have h := View.read_writes_cons_emb v f (Rect.whole S32768) W [] q
  rwa [Rect.emb_whole_apply] at h

/-- One write through the whole of a view of 32768 words: the contents under position q are the payload there. -/
theorem writes_whole_emb {κ : Kind} {sp : Space} (v : View sig κ sp S32768 .f32) (f : v.ty.Contents (Elt F))
    (W : S32768.Idx → Elt F .f32) (q : S32768.Idx) :
    v.writes (Elt F) f [⟨Rect.whole S32768, W⟩] (v.emb q) = _root_.cast (congrArg (Elt F) v.elt_eq.symm) (W q) := by
  rw [View.writes_singleton]
  have h := View.write_emb_of_mem (v := v.slice (Rect.whole S32768)) (Val := Elt F) f W (M := Finset.univ) (x := q) (Finset.mem_univ _)
  have he : (v.slice (Rect.whole S32768)).emb q = v.emb q := by
    show v.emb ((Rect.whole S32768).emb q) = v.emb q
    rw [Rect.emb_whole_apply]
  rw [he] at h
  exact h

theorem landed_b0 (L : grid0.Coords) (g : Fin 14) (x1 : FVec F S33554432 .f32)
    (jo : (outS L g).view.ty.Contents (Elt F)) (jb : (b0).view.ty.Contents (Elt F)) :
    ∀ i ∈ (outS L g).view.set,
      (outS L g).view.writes (Elt F) jo
        [⟨Rect.whole S32768, ReadAs.same.apply (View.read (Elt F) (b0).view
          (fixChunk ((b0).view.writes (Elt F) jb
            [⟨Rect.whole cc0_scratch0.ty.shape, ReadAs.same.apply (View.read (Elt F) (inS L g).view x1)⟩])))⟩] i
        = scOut x1 i := by
  intro i hi
  obtain ⟨q, -, rfl⟩ := Finset.mem_map.mp hi
  -- the copy out covers the chunk: position q holds the fixed scratch buffer's word q
  rw [writes_whole_emb, cast_eq]
  show fixAt (q 0).val (((b0).view.writes (Elt F) jb
      [⟨Rect.whole cc0_scratch0.ty.shape, ReadAs.same.apply (View.read (Elt F) (inS L g).view x1)⟩]) q)
    = fixAt (((outS L g).view.emb q) 0).val (x1 (srcIdx ((outS L g).view.emb q)))
  -- the copy in covers the scratch buffer: its word q is the argument's word under the input slice
  have hin : ((b0).view.writes (Elt F) jb
      [⟨Rect.whole cc0_scratch0.ty.shape, ReadAs.same.apply (View.read (Elt F) (inS L g).view x1)⟩]) q
      = x1 ((inS L g).view.emb q) := by
    have h := writes_whole_emb (b0).view jb (ReadAs.same.apply (View.read (Elt F) (inS L g).view x1)) q
    rw [cast_eq] at h
    have hr : ReadAs.same.apply (View.read (Elt F) (inS L g).view x1) q = x1 ((inS L g).view.emb q) := by
      show View.read (Elt F) (inS L g).view x1 q = _
      rw [View.read_apply, cast_eq]
    exact h.trans hr
  rw [hin, srcIdx_outS_emb]
  exact fixAt_congr _ _ _ (by rw [outS_emb_val]; omega)

theorem landed_b1 (L : grid0.Coords) (g : Fin 14) (x1 : FVec F S33554432 .f32)
    (jo : (outS L g).view.ty.Contents (Elt F)) (jb : (b1).view.ty.Contents (Elt F)) :
    ∀ i ∈ (outS L g).view.set,
      (outS L g).view.writes (Elt F) jo
        [⟨Rect.whole S32768, ReadAs.same.apply (View.read (Elt F) (b1).view
          (fixChunk ((b1).view.writes (Elt F) jb
            [⟨Rect.whole cc0_scratch1.ty.shape, ReadAs.same.apply (View.read (Elt F) (inS L g).view x1)⟩])))⟩] i
        = scOut x1 i := by
  intro i hi
  obtain ⟨q, -, rfl⟩ := Finset.mem_map.mp hi
  -- the copy out covers the chunk: position q holds the fixed scratch buffer's word q
  rw [writes_whole_emb, cast_eq]
  show fixAt (q 0).val (((b1).view.writes (Elt F) jb
      [⟨Rect.whole cc0_scratch1.ty.shape, ReadAs.same.apply (View.read (Elt F) (inS L g).view x1)⟩]) q)
    = fixAt (((outS L g).view.emb q) 0).val (x1 (srcIdx ((outS L g).view.emb q)))
  -- the copy in covers the scratch buffer: its word q is the argument's word under the input slice
  have hin : ((b1).view.writes (Elt F) jb
      [⟨Rect.whole cc0_scratch1.ty.shape, ReadAs.same.apply (View.read (Elt F) (inS L g).view x1)⟩]) q
      = x1 ((inS L g).view.emb q) := by
    have h := writes_whole_emb (b1).view jb (ReadAs.same.apply (View.read (Elt F) (inS L g).view x1)) q
    rw [cast_eq] at h
    have hr : ReadAs.same.apply (View.read (Elt F) (inS L g).view x1) q = x1 ((inS L g).view.emb q) := by
      show View.read (Elt F) (inS L g).view x1 q = _
      rw [View.read_apply, cast_eq]
    exact h.trans hr
  rw [hin, srcIdx_outS_emb]
  exact fixAt_congr _ _ _ (by rw [outS_emb_val]; omega)

end Cert.Proof.KB
end
-- ==== Proof.KB.TileRun.lean ====
/-
  A vector subcore's task, run once at a symbolic device and grid point.

  The task copies chunk g + 1 of its fourteen input chunks into one scratch buffer while it fixes chunk
  g in the other, in place, and copies each fixed chunk out to its place in the result. Its own copies
  and waits are steps of the run: one copy at a time on each of the four cells, and no access to a
  buffer while a copy on it is pending. Each of the fourteen loops is taken by its invariant (the
  buffer fixed below the trip's base), from the chunk the preceding wait landed; each fixed chunk,
  landed in the result, is the result's value there.
-/
import proofs.«212535_g38190849196153_cont_8to1_b_1410_19_alg».proof.Proof.KB.Regions
import proofs.«212535_g38190849196153_cont_8to1_b_1410_19_alg».proof.Proof.KB.Landed
import proofs.«212535_g38190849196153_cont_8to1_b_1410_19_alg».proof.Proof.Gen.Kernel.Skeleton
import Idealize.ShloMosaic.Lib.SparseCore.Launch
import Idealize.ShloMosaic.Lib.Tactic
import Idealize.ShloMosaic.Lib.Transfers
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.Kernel.cc0_scratch0 : Memref Cert.Kernel.sig Kind.scVector Space.vmem Cert.Kernel.S32768 EltTy.f32)
local notation "b1" => (Memref.whole Cert.Kernel.cc0_scratch1 : Memref Cert.Kernel.sig Kind.scVector Space.vmem Cert.Kernel.S32768 EltTy.f32)
local notation "xV" => (Memref.whole Cert.Kernel.main_v1_scv : Memref Cert.Kernel.sig Kind.scVector Space.hbm Cert.Kernel.S33554432 EltTy.f32)
local notation "oV" => (Memref.whole Cert.Kernel.main_v2_scv : Memref Cert.Kernel.sig Kind.scVector Space.hbm Cert.Kernel.S14680064 EltTy.f32)

set_option maxHeartbeats 4000000 in
theorem tile_run (d : Dev nD) (L : grid0.Coords) (x1 : Buf (Elt F) (x1Loc d)) (o0 : Buf (Elt F) (o2Loc d))
    (O : CellTallies nD τ sig (HIx 1)) (W : Waits sig (HIx 1))
    (g0 : Buf (Elt F) ((b0).view.loc (VT d L))) (g1 : Buf (Elt F) ((b1).view.loc (VT d L))) :
    (iprop(Transfers.MayWaits (VT d L) (default : HIx 1) O
        ∗ ((inSl L 0#32 (k0_off1_inb L 0)).view.loc (VT d L) ↦[(inSl L 0#32 (k0_off1_inb L 0)).view.set]{fullShare} x1)
        ∗ ((inSl L 32768#32 (k0_off1_inb L 1)).view.loc (VT d L) ↦[(inSl L 32768#32 (k0_off1_inb L 1)).view.set]{fullShare} x1)
        ∗ ((inSl L 65536#32 (k0_off1_inb L 2)).view.loc (VT d L) ↦[(inSl L 65536#32 (k0_off1_inb L 2)).view.set]{fullShare} x1)
        ∗ ((inSl L 98304#32 (k0_off1_inb L 3)).view.loc (VT d L) ↦[(inSl L 98304#32 (k0_off1_inb L 3)).view.set]{fullShare} x1)
        ∗ ((inSl L 131072#32 (k0_off1_inb L 4)).view.loc (VT d L) ↦[(inSl L 131072#32 (k0_off1_inb L 4)).view.set]{fullShare} x1)
        ∗ ((inSl L 163840#32 (k0_off1_inb L 5)).view.loc (VT d L) ↦[(inSl L 163840#32 (k0_off1_inb L 5)).view.set]{fullShare} x1)
        ∗ ((inSl L 196608#32 (k0_off1_inb L 6)).view.loc (VT d L) ↦[(inSl L 196608#32 (k0_off1_inb L 6)).view.set]{fullShare} x1)
        ∗ ((inSl L 229376#32 (k0_off1_inb L 7)).view.loc (VT d L) ↦[(inSl L 229376#32 (k0_off1_inb L 7)).view.set]{fullShare} x1)
        ∗ ((inSl L 262144#32 (k0_off1_inb L 8)).view.loc (VT d L) ↦[(inSl L 262144#32 (k0_off1_inb L 8)).view.set]{fullShare} x1)
        ∗ ((inSl L 294912#32 (k0_off1_inb L 9)).view.loc (VT d L) ↦[(inSl L 294912#32 (k0_off1_inb L 9)).view.set]{fullShare} x1)
        ∗ ((inSl L 327680#32 (k0_off1_inb L 10)).view.loc (VT d L) ↦[(inSl L 327680#32 (k0_off1_inb L 10)).view.set]{fullShare} x1)
        ∗ ((inSl L 360448#32 (k0_off1_inb L 11)).view.loc (VT d L) ↦[(inSl L 360448#32 (k0_off1_inb L 11)).view.set]{fullShare} x1)
        ∗ ((inSl L 393216#32 (k0_off1_inb L 12)).view.loc (VT d L) ↦[(inSl L 393216#32 (k0_off1_inb L 12)).view.set]{fullShare} x1)
        ∗ ((inSl L 425984#32 (k0_off1_inb L 13)).view.loc (VT d L) ↦[(inSl L 425984#32 (k0_off1_inb L 13)).view.set]{fullShare} x1)
        ∗ ((outSl L 0#32 (k0_off3_inb L 0)).view.loc (VT d L) ↦[(outSl L 0#32 (k0_off3_inb L 0)).view.set]{fullShare} o0)
        ∗ ((outSl L 32768#32 (k0_off3_inb L 1)).view.loc (VT d L) ↦[(outSl L 32768#32 (k0_off3_inb L 1)).view.set]{fullShare} o0)
        ∗ ((outSl L 65536#32 (k0_off3_inb L 2)).view.loc (VT d L) ↦[(outSl L 65536#32 (k0_off3_inb L 2)).view.set]{fullShare} o0)
        ∗ ((outSl L 98304#32 (k0_off3_inb L 3)).view.loc (VT d L) ↦[(outSl L 98304#32 (k0_off3_inb L 3)).view.set]{fullShare} o0)
        ∗ ((outSl L 131072#32 (k0_off3_inb L 4)).view.loc (VT d L) ↦[(outSl L 131072#32 (k0_off3_inb L 4)).view.set]{fullShare} o0)
        ∗ ((outSl L 163840#32 (k0_off3_inb L 5)).view.loc (VT d L) ↦[(outSl L 163840#32 (k0_off3_inb L 5)).view.set]{fullShare} o0)
        ∗ ((outSl L 196608#32 (k0_off3_inb L 6)).view.loc (VT d L) ↦[(outSl L 196608#32 (k0_off3_inb L 6)).view.set]{fullShare} o0)
        ∗ ((outSl L 229376#32 (k0_off3_inb L 7)).view.loc (VT d L) ↦[(outSl L 229376#32 (k0_off3_inb L 7)).view.set]{fullShare} o0)
        ∗ ((outSl L 262144#32 (k0_off3_inb L 8)).view.loc (VT d L) ↦[(outSl L 262144#32 (k0_off3_inb L 8)).view.set]{fullShare} o0)
        ∗ ((outSl L 294912#32 (k0_off3_inb L 9)).view.loc (VT d L) ↦[(outSl L 294912#32 (k0_off3_inb L 9)).view.set]{fullShare} o0)
        ∗ ((outSl L 327680#32 (k0_off3_inb L 10)).view.loc (VT d L) ↦[(outSl L 327680#32 (k0_off3_inb L 10)).view.set]{fullShare} o0)
        ∗ ((outSl L 360448#32 (k0_off3_inb L 11)).view.loc (VT d L) ↦[(outSl L 360448#32 (k0_off3_inb L 11)).view.set]{fullShare} o0)
        ∗ ((outSl L 393216#32 (k0_off3_inb L 12)).view.loc (VT d L) ↦[(outSl L 393216#32 (k0_off3_inb L 12)).view.set]{fullShare} o0)
        ∗ ((outSl L 425984#32 (k0_off3_inb L 13)).view.loc (VT d L) ↦[(outSl L 425984#32 (k0_off3_inb L 13)).view.set]{fullShare} o0)
        ∗ ((b0).view.loc (VT d L) ↦[(b0).view.set]{fullShare} g0)
        ∗ ((b1).view.loc (VT d L) ↦[(b1).view.set]{fullShare} g1)
        ∗ cells0 d L
        ∗ owes (VT d L) O W) : sProp 𝕄)
      ⊢ wp frame (wpE (defs₀ (F := F)) 𝒱₀ (VT d L) none) Set.univ
          (cc0_k L xV (Memref.isWhole_whole _) oV (Memref.isWhole_whole _) b0 (Memref.isWhole_whole _) b1 (Memref.isWhole_whole _)
            cc0_scratch2 cc0_scratch3 cc0_scratch4 cc0_scratch5)
          fun _ => iprop(((inSl L 0#32 (k0_off1_inb L 0)).view.loc (VT d L) ↦[(inSl L 0#32 (k0_off1_inb L 0)).view.set]{fullShare} x1)
            ∗ ((inSl L 32768#32 (k0_off1_inb L 1)).view.loc (VT d L) ↦[(inSl L 32768#32 (k0_off1_inb L 1)).view.set]{fullShare} x1)
            ∗ ((inSl L 65536#32 (k0_off1_inb L 2)).view.loc (VT d L) ↦[(inSl L 65536#32 (k0_off1_inb L 2)).view.set]{fullShare} x1)
            ∗ ((inSl L 98304#32 (k0_off1_inb L 3)).view.loc (VT d L) ↦[(inSl L 98304#32 (k0_off1_inb L 3)).view.set]{fullShare} x1)
            ∗ ((inSl L 131072#32 (k0_off1_inb L 4)).view.loc (VT d L) ↦[(inSl L 131072#32 (k0_off1_inb L 4)).view.set]{fullShare} x1)
            ∗ ((inSl L 163840#32 (k0_off1_inb L 5)).view.loc (VT d L) ↦[(inSl L 163840#32 (k0_off1_inb L 5)).view.set]{fullShare} x1)
            ∗ ((inSl L 196608#32 (k0_off1_inb L 6)).view.loc (VT d L) ↦[(inSl L 196608#32 (k0_off1_inb L 6)).view.set]{fullShare} x1)
            ∗ ((inSl L 229376#32 (k0_off1_inb L 7)).view.loc (VT d L) ↦[(inSl L 229376#32 (k0_off1_inb L 7)).view.set]{fullShare} x1)
            ∗ ((inSl L 262144#32 (k0_off1_inb L 8)).view.loc (VT d L) ↦[(inSl L 262144#32 (k0_off1_inb L 8)).view.set]{fullShare} x1)
            ∗ ((inSl L 294912#32 (k0_off1_inb L 9)).view.loc (VT d L) ↦[(inSl L 294912#32 (k0_off1_inb L 9)).view.set]{fullShare} x1)
            ∗ ((inSl L 327680#32 (k0_off1_inb L 10)).view.loc (VT d L) ↦[(inSl L 327680#32 (k0_off1_inb L 10)).view.set]{fullShare} x1)
            ∗ ((inSl L 360448#32 (k0_off1_inb L 11)).view.loc (VT d L) ↦[(inSl L 360448#32 (k0_off1_inb L 11)).view.set]{fullShare} x1)
            ∗ ((inSl L 393216#32 (k0_off1_inb L 12)).view.loc (VT d L) ↦[(inSl L 393216#32 (k0_off1_inb L 12)).view.set]{fullShare} x1)
            ∗ ((inSl L 425984#32 (k0_off1_inb L 13)).view.loc (VT d L) ↦[(inSl L 425984#32 (k0_off1_inb L 13)).view.set]{fullShare} x1)
            ∗ ((outSl L 0#32 (k0_off3_inb L 0)).view.loc (VT d L) ↦[(outSl L 0#32 (k0_off3_inb L 0)).view.set]{fullShare} scOut (F := F) x1)
            ∗ ((outSl L 32768#32 (k0_off3_inb L 1)).view.loc (VT d L) ↦[(outSl L 32768#32 (k0_off3_inb L 1)).view.set]{fullShare} scOut (F := F) x1)
            ∗ ((outSl L 65536#32 (k0_off3_inb L 2)).view.loc (VT d L) ↦[(outSl L 65536#32 (k0_off3_inb L 2)).view.set]{fullShare} scOut (F := F) x1)
            ∗ ((outSl L 98304#32 (k0_off3_inb L 3)).view.loc (VT d L) ↦[(outSl L 98304#32 (k0_off3_inb L 3)).view.set]{fullShare} scOut (F := F) x1)
            ∗ ((outSl L 131072#32 (k0_off3_inb L 4)).view.loc (VT d L) ↦[(outSl L 131072#32 (k0_off3_inb L 4)).view.set]{fullShare} scOut (F := F) x1)
            ∗ ((outSl L 163840#32 (k0_off3_inb L 5)).view.loc (VT d L) ↦[(outSl L 163840#32 (k0_off3_inb L 5)).view.set]{fullShare} scOut (F := F) x1)
            ∗ ((outSl L 196608#32 (k0_off3_inb L 6)).view.loc (VT d L) ↦[(outSl L 196608#32 (k0_off3_inb L 6)).view.set]{fullShare} scOut (F := F) x1)
            ∗ ((outSl L 229376#32 (k0_off3_inb L 7)).view.loc (VT d L) ↦[(outSl L 229376#32 (k0_off3_inb L 7)).view.set]{fullShare} scOut (F := F) x1)
            ∗ ((outSl L 262144#32 (k0_off3_inb L 8)).view.loc (VT d L) ↦[(outSl L 262144#32 (k0_off3_inb L 8)).view.set]{fullShare} scOut (F := F) x1)
            ∗ ((outSl L 294912#32 (k0_off3_inb L 9)).view.loc (VT d L) ↦[(outSl L 294912#32 (k0_off3_inb L 9)).view.set]{fullShare} scOut (F := F) x1)
            ∗ ((outSl L 327680#32 (k0_off3_inb L 10)).view.loc (VT d L) ↦[(outSl L 327680#32 (k0_off3_inb L 10)).view.set]{fullShare} scOut (F := F) x1)
            ∗ ((outSl L 360448#32 (k0_off3_inb L 11)).view.loc (VT d L) ↦[(outSl L 360448#32 (k0_off3_inb L 11)).view.set]{fullShare} scOut (F := F) x1)
            ∗ ((outSl L 393216#32 (k0_off3_inb L 12)).view.loc (VT d L) ↦[(outSl L 393216#32 (k0_off3_inb L 12)).view.set]{fullShare} scOut (F := F) x1)
            ∗ ((outSl L 425984#32 (k0_off3_inb L 13)).view.loc (VT d L) ↦[(outSl L 425984#32 (k0_off3_inb L 13)).view.set]{fullShare} scOut (F := F) x1)
            ∗ (∃ g, (b0).view.loc (VT d L) ↦[(b0).view.set]{fullShare} g)
            ∗ (∃ g, (b1).view.loc (VT d L) ↦[(b1).view.set]{fullShare} g)
            ∗ cells0 d L
            ∗ ∃ W', owes (VT d L) O W') := by
  iintro ⟨#Hmw, HI0, HI1, HI2, HI3, HI4, HI5, HI6, HI7, HI8, HI9, HI10, HI11, HI12, HI13, HO0, HO1, HO2, HO3, HO4, HO5, HO6, HO7, HO8, HO9, HO10, HO11, HO12, HO13, HB0, HB1, ⟨Hc0, Hc1, Hc2, Hc3⟩, HW⟩
  sl_unfold [cc0_k]
  sl_exec
  -- step 0: the loop that fixes the first scratch, by its invariant from the chunk the wait landed
  generalize hf1 : (Memref.whole Cert.Kernel.cc0_scratch0).view.writes (Elt F) _ _ = f1
  sl_for (invB0 (F := F) (U := U) d L f1) $$ [HB0]
  case region => exact region_1 d L f1
  · unfold invB0; rw [fixUpTo_zero]; iexact HB0
  iintro %_ HB0
  unfold invB0
  rw [show Scf.trips k0_t1_loop.lb k0_t1_loop.ub k0_t1_loop.st = 32 from rfl, fixUpTo_all]
  sl_exec
  -- step 1: the loop that fixes the second scratch, by its invariant from the chunk the wait landed
  generalize hf2 : (Memref.whole Cert.Kernel.cc0_scratch1).view.writes (Elt F) _ _ = f2
  sl_for (invB1 (F := F) (U := U) d L f2) $$ [HB1]
  case region => exact region_2 d L f2 _
  · unfold invB1; rw [fixUpTo_zero]; iexact HB1
  iintro %_ HB1
  unfold invB1
  rw [show Scf.trips k0_t2_loop.lb k0_t2_loop.ub k0_t2_loop.st = 32 from rfl, fixUpTo_all]
  sl_exec
  -- step 2: the loop that fixes the first scratch, by its invariant from the chunk the wait landed
  generalize hf3 : (Memref.whole Cert.Kernel.cc0_scratch0).view.writes (Elt F) _ _ = f3
  sl_for (invB0 (F := F) (U := U) d L f3) $$ [HB0]
  case region => exact region_3 d L f3 _ _ _
  · unfold invB0; rw [fixUpTo_zero]; iexact HB0
  iintro %_ HB0
  unfold invB0
  rw [show Scf.trips k0_t3_loop.lb k0_t3_loop.ub k0_t3_loop.st = 32 from rfl, fixUpTo_all]
  sl_exec
  -- step 3: the loop that fixes the second scratch, by its invariant from the chunk the wait landed
  generalize hf4 : (Memref.whole Cert.Kernel.cc0_scratch1).view.writes (Elt F) _ _ = f4
  sl_for (invB1 (F := F) (U := U) d L f4) $$ [HB1]
  case region => exact region_4 d L f4 _ _ _
  · unfold invB1; rw [fixUpTo_zero]; iexact HB1
  iintro %_ HB1
  unfold invB1
  rw [show Scf.trips k0_t4_loop.lb k0_t4_loop.ub k0_t4_loop.st = 32 from rfl, fixUpTo_all]
  sl_exec
  -- step 4: the loop that fixes the first scratch, by its invariant from the chunk the wait landed
  generalize hf5 : (Memref.whole Cert.Kernel.cc0_scratch0).view.writes (Elt F) _ _ = f5
  sl_for (invB0 (F := F) (U := U) d L f5) $$ [HB0]
  case region => exact region_5 d L f5 _ _ _
  · unfold invB0; rw [fixUpTo_zero]; iexact HB0
  iintro %_ HB0
  unfold invB0
  rw [show Scf.trips k0_t5_loop.lb k0_t5_loop.ub k0_t5_loop.st = 32 from rfl, fixUpTo_all]
  sl_exec
  -- step 5: the loop that fixes the second scratch, by its invariant from the chunk the wait landed
  generalize hf6 : (Memref.whole Cert.Kernel.cc0_scratch1).view.writes (Elt F) _ _ = f6
  sl_for (invB1 (F := F) (U := U) d L f6) $$ [HB1]
  case region => exact region_6 d L f6 _ _ _
  · unfold invB1; rw [fixUpTo_zero]; iexact HB1
  iintro %_ HB1
  unfold invB1
  rw [show Scf.trips k0_t6_loop.lb k0_t6_loop.ub k0_t6_loop.st = 32 from rfl, fixUpTo_all]
  sl_exec
  -- step 6: the loop that fixes the first scratch, by its invariant from the chunk the wait landed
  generalize hf7 : (Memref.whole Cert.Kernel.cc0_scratch0).view.writes (Elt F) _ _ = f7
  sl_for (invB0 (F := F) (U := U) d L f7) $$ [HB0]
  case region => exact region_7 d L f7 _
  · unfold invB0; rw [fixUpTo_zero]; iexact HB0
  iintro %_ HB0
  unfold invB0
  rw [show Scf.trips k0_t7_loop.lb k0_t7_loop.ub k0_t7_loop.st = 32 from rfl, fixUpTo_all]
  sl_exec
  -- step 7: the loop that fixes the second scratch, by its invariant from the chunk the wait landed
  generalize hf8 : (Memref.whole Cert.Kernel.cc0_scratch1).view.writes (Elt F) _ _ = f8
  sl_for (invB1 (F := F) (U := U) d L f8) $$ [HB1]
  case region => exact region_8 d L f8 _
  · unfold invB1; rw [fixUpTo_zero]; iexact HB1
  iintro %_ HB1
  unfold invB1
  rw [show Scf.trips k0_t8_loop.lb k0_t8_loop.ub k0_t8_loop.st = 32 from rfl, fixUpTo_all]
  sl_exec
  -- step 8: the loop that fixes the first scratch, by its invariant from the chunk the wait landed
  generalize hf9 : (Memref.whole Cert.Kernel.cc0_scratch0).view.writes (Elt F) _ _ = f9
  sl_for (invB0 (F := F) (U := U) d L f9) $$ [HB0]
  case region => exact region_9 d L f9 _
  · unfold invB0; rw [fixUpTo_zero]; iexact HB0
  iintro %_ HB0
  unfold invB0
  rw [show Scf.trips k0_t9_loop.lb k0_t9_loop.ub k0_t9_loop.st = 32 from rfl, fixUpTo_all]
  sl_exec
  -- step 9: the loop that fixes the second scratch, by its invariant from the chunk the wait landed
  generalize hf10 : (Memref.whole Cert.Kernel.cc0_scratch1).view.writes (Elt F) _ _ = f10
  sl_for (invB1 (F := F) (U := U) d L f10) $$ [HB1]
  case region => exact region_10 d L f10 _
  · unfold invB1; rw [fixUpTo_zero]; iexact HB1
  iintro %_ HB1
  unfold invB1
  rw [show Scf.trips k0_t10_loop.lb k0_t10_loop.ub k0_t10_loop.st = 32 from rfl, fixUpTo_all]
  sl_exec
  -- step 10: the loop that fixes the first scratch, by its invariant from the chunk the wait landed
  generalize hf11 : (Memref.whole Cert.Kernel.cc0_scratch0).view.writes (Elt F) _ _ = f11
  sl_for (invB0 (F := F) (U := U) d L f11) $$ [HB0]
  case region => exact region_11 d L f11 _
  · unfold invB0; rw [fixUpTo_zero]; iexact HB0
  iintro %_ HB0
  unfold invB0
  rw [show Scf.trips k0_t11_loop.lb k0_t11_loop.ub k0_t11_loop.st = 32 from rfl, fixUpTo_all]
  sl_exec
  -- step 11: the loop that fixes the second scratch, by its invariant from the chunk the wait landed
  generalize hf12 : (Memref.whole Cert.Kernel.cc0_scratch1).view.writes (Elt F) _ _ = f12
  sl_for (invB1 (F := F) (U := U) d L f12) $$ [HB1]
  case region => exact region_12 d L f12 _
  · unfold invB1; rw [fixUpTo_zero]; iexact HB1
  iintro %_ HB1
  unfold invB1
  rw [show Scf.trips k0_t12_loop.lb k0_t12_loop.ub k0_t12_loop.st = 32 from rfl, fixUpTo_all]
  sl_exec
  -- step 12: the loop that fixes the first scratch, by its invariant from the chunk the wait landed
  generalize hf13 : (Memref.whole Cert.Kernel.cc0_scratch0).view.writes (Elt F) _ _ = f13
  sl_for (invB0 (F := F) (U := U) d L f13) $$ [HB0]
  case region => exact region_13 d L f13
  · unfold invB0; rw [fixUpTo_zero]; iexact HB0
  iintro %_ HB0
  unfold invB0
  rw [show Scf.trips k0_t13_loop.lb k0_t13_loop.ub k0_t13_loop.st = 32 from rfl, fixUpTo_all]
  sl_exec
  -- step 13: the loop that fixes the second scratch, by its invariant from the chunk the wait landed
  generalize hf14 : (Memref.whole Cert.Kernel.cc0_scratch1).view.writes (Elt F) _ _ = f14
  sl_for (invB1 (F := F) (U := U) d L f14) $$ [HB1]
  case region => exact region_14 d L f14
  · unfold invB1; rw [fixUpTo_zero]; iexact HB1
  iintro %_ HB1
  unfold invB1
  rw [show Scf.trips k0_t14_loop.lb k0_t14_loop.ub k0_t14_loop.st = 32 from rfl, fixUpTo_all]
  sl_exec
  -- the return; every landed chunk is the result's value on its chunk of positions
  subst hf1
  subst hf2
  subst hf3
  subst hf4
  subst hf5
  subst hf6
  subst hf7
  subst hf8
  subst hf9
  subst hf10
  subst hf11
  subst hf12
  subst hf13
  subst hf14
  ihave HO0 := (Entails.of_eq (pointsTo_congr (landed_b0 L 0 x1 _ _))) $$ HO0
  ihave HO1 := (Entails.of_eq (pointsTo_congr (landed_b1 L 1 x1 _ _))) $$ HO1
  ihave HO2 := (Entails.of_eq (pointsTo_congr (landed_b0 L 2 x1 _ _))) $$ HO2
  ihave HO3 := (Entails.of_eq (pointsTo_congr (landed_b1 L 3 x1 _ _))) $$ HO3
  ihave HO4 := (Entails.of_eq (pointsTo_congr (landed_b0 L 4 x1 _ _))) $$ HO4
  ihave HO5 := (Entails.of_eq (pointsTo_congr (landed_b1 L 5 x1 _ _))) $$ HO5
  ihave HO6 := (Entails.of_eq (pointsTo_congr (landed_b0 L 6 x1 _ _))) $$ HO6
  ihave HO7 := (Entails.of_eq (pointsTo_congr (landed_b1 L 7 x1 _ _))) $$ HO7
  ihave HO8 := (Entails.of_eq (pointsTo_congr (landed_b0 L 8 x1 _ _))) $$ HO8
  ihave HO9 := (Entails.of_eq (pointsTo_congr (landed_b1 L 9 x1 _ _))) $$ HO9
  ihave HO10 := (Entails.of_eq (pointsTo_congr (landed_b0 L 10 x1 _ _))) $$ HO10
  ihave HO11 := (Entails.of_eq (pointsTo_congr (landed_b1 L 11 x1 _ _))) $$ HO11
  ihave HO12 := (Entails.of_eq (pointsTo_congr (landed_b0 L 12 x1 _ _))) $$ HO12
  ihave HO13 := (Entails.of_eq (pointsTo_congr (landed_b1 L 13 x1 _ _))) $$ HO13
  sl_step
  sl_close

end Cert.Proof.KB

end
-- ==== Proof.KB.Tile.lean ====
/-
  A vector subcore's task, from what the launch deals it to what it hands back.

  The launch deals the subcore at grid point L its fourteen chunks of the flat argument and its fourteen
  chunks of the flat result, each a separate piece, together with the subcore's own buffers and cells.
  The task's run is stated over the same pieces under the names the task's text gives them. This module
  unfolds the two fourteen-fold products into their pieces, renames them, runs the task, and folds the
  pieces back: the argument's chunks as they were, the result's chunks at the fixed values.
-/
import proofs.«212535_g38190849196153_cont_8to1_b_1410_19_alg».proof.Proof.KB.TileRun
import Idealize.ShloMosaic.Lib.SparseCore.Launch
import Idealize.ShloMosaic.Lib.Tactic
import Idealize.ShloMosaic.Lib.Transfers
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "b0" => (Memref.whole Cert.Kernel.cc0_scratch0 : Memref Cert.Kernel.sig Kind.scVector Space.vmem Cert.Kernel.S32768 EltTy.f32)
local notation "b1" => (Memref.whole Cert.Kernel.cc0_scratch1 : Memref Cert.Kernel.sig Kind.scVector Space.vmem Cert.Kernel.S32768 EltTy.f32)
local notation "xV" => (Memref.whole Cert.Kernel.main_v1_scv : Memref Cert.Kernel.sig Kind.scVector Space.hbm Cert.Kernel.S33554432 EltTy.f32)
local notation "oV" => (Memref.whole Cert.Kernel.main_v2_scv : Memref Cert.Kernel.sig Kind.scVector Space.hbm Cert.Kernel.S14680064 EltTy.f32)

/-! ## Fourteen pieces, one by one -/

omit [FloatOps F] [CountersIn U] in
/-- A product over the fourteen steps is the product of its fourteen factors, in order. -/
theorem bigSep_fourteen (Φ : Fin 14 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide),
    bigSep_singleton]

omit [FloatOps F] [CountersIn U] in
/-- A product of two factors, each replaced by an equal one. -/
theorem sep_congr {P P' Q Q' : sProp 𝕄} (h1 : P = P') (h2 : Q = Q') : iprop(P ∗ Q) = iprop(P' ∗ Q') := by
  rw [h1, h2]

omit [FloatOps F] in
/-- The subcore's fourteen chunks of the flat argument, each under the name the task's text gives its slice. -/
theorem inChunks_eq (d : Dev nD) (L : grid0.Coords) (f : Buf (Elt F) (x1Loc d)) :
    (bigSep Finset.univ fun g : Fin 14 => (x1Loc d ↦[inChunk (inIx L g)]{fullShare} f : sProp 𝕄))
      = iprop(((inSl L 0#32 (k0_off1_inb L 0)).view.loc (VT d L) ↦[(inSl L 0#32 (k0_off1_inb L 0)).view.set]{fullShare} f)
        ∗ ((inSl L 32768#32 (k0_off1_inb L 1)).view.loc (VT d L) ↦[(inSl L 32768#32 (k0_off1_inb L 1)).view.set]{fullShare} f)
        ∗ ((inSl L 65536#32 (k0_off1_inb L 2)).view.loc (VT d L) ↦[(inSl L 65536#32 (k0_off1_inb L 2)).view.set]{fullShare} f)
        ∗ ((inSl L 98304#32 (k0_off1_inb L 3)).view.loc (VT d L) ↦[(inSl L 98304#32 (k0_off1_inb L 3)).view.set]{fullShare} f)
        ∗ ((inSl L 131072#32 (k0_off1_inb L 4)).view.loc (VT d L) ↦[(inSl L 131072#32 (k0_off1_inb L 4)).view.set]{fullShare} f)
        ∗ ((inSl L 163840#32 (k0_off1_inb L 5)).view.loc (VT d L) ↦[(inSl L 163840#32 (k0_off1_inb L 5)).view.set]{fullShare} f)
        ∗ ((inSl L 196608#32 (k0_off1_inb L 6)).view.loc (VT d L) ↦[(inSl L 196608#32 (k0_off1_inb L 6)).view.set]{fullShare} f)
        ∗ ((inSl L 229376#32 (k0_off1_inb L 7)).view.loc (VT d L) ↦[(inSl L 229376#32 (k0_off1_inb L 7)).view.set]{fullShare} f)
        ∗ ((inSl L 262144#32 (k0_off1_inb L 8)).view.loc (VT d L) ↦[(inSl L 262144#32 (k0_off1_inb L 8)).view.set]{fullShare} f)
        ∗ ((inSl L 294912#32 (k0_off1_inb L 9)).view.loc (VT d L) ↦[(inSl L 294912#32 (k0_off1_inb L 9)).view.set]{fullShare} f)
        ∗ ((inSl L 327680#32 (k0_off1_inb L 10)).view.loc (VT d L) ↦[(inSl L 327680#32 (k0_off1_inb L 10)).view.set]{fullShare} f)
        ∗ ((inSl L 360448#32 (k0_off1_inb L 11)).view.loc (VT d L) ↦[(inSl L 360448#32 (k0_off1_inb L 11)).view.set]{fullShare} f)
        ∗ ((inSl L 393216#32 (k0_off1_inb L 12)).view.loc (VT d L) ↦[(inSl L 393216#32 (k0_off1_inb L 12)).view.set]{fullShare} f)
        ∗ ((inSl L 425984#32 (k0_off1_inb L 13)).view.loc (VT d L) ↦[(inSl L 425984#32 (k0_off1_inb L 13)).view.set]{fullShare} f)) :=
  (bigSep_fourteen _).trans
    (sep_congr (pts_inS (F := F) d L 0 f).symm <|
      sep_congr (pts_inS (F := F) d L 1 f).symm <|
      sep_congr (pts_inS (F := F) d L 2 f).symm <|
      sep_congr (pts_inS (F := F) d L 3 f).symm <|
      sep_congr (pts_inS (F := F) d L 4 f).symm <|
      sep_congr (pts_inS (F := F) d L 5 f).symm <|
      sep_congr (pts_inS (F := F) d L 6 f).symm <|
      sep_congr (pts_inS (F := F) d L 7 f).symm <|
      sep_congr (pts_inS (F := F) d L 8 f).symm <|
      sep_congr (pts_inS (F := F) d L 9 f).symm <|
      sep_congr (pts_inS (F := F) d L 10 f).symm <|
      sep_congr (pts_inS (F := F) d L 11 f).symm <|
      sep_congr (pts_inS (F := F) d L 12 f).symm <|
      (pts_inS (F := F) d L 13 f).symm)

omit [FloatOps F] in
/-- The subcore's fourteen chunks of the flat result, likewise. -/
theorem outChunks_eq (d : Dev nD) (L : grid0.Coords) (f : Buf (Elt F) (o2Loc d)) :
    (bigSep Finset.univ fun g : Fin 14 => (o2Loc d ↦[outChunk (outIx L g)]{fullShare} f : sProp 𝕄))
      = iprop(((outSl L 0#32 (k0_off3_inb L 0)).view.loc (VT d L) ↦[(outSl L 0#32 (k0_off3_inb L 0)).view.set]{fullShare} f)
        ∗ ((outSl L 32768#32 (k0_off3_inb L 1)).view.loc (VT d L) ↦[(outSl L 32768#32 (k0_off3_inb L 1)).view.set]{fullShare} f)
        ∗ ((outSl L 65536#32 (k0_off3_inb L 2)).view.loc (VT d L) ↦[(outSl L 65536#32 (k0_off3_inb L 2)).view.set]{fullShare} f)
        ∗ ((outSl L 98304#32 (k0_off3_inb L 3)).view.loc (VT d L) ↦[(outSl L 98304#32 (k0_off3_inb L 3)).view.set]{fullShare} f)
        ∗ ((outSl L 131072#32 (k0_off3_inb L 4)).view.loc (VT d L) ↦[(outSl L 131072#32 (k0_off3_inb L 4)).view.set]{fullShare} f)
        ∗ ((outSl L 163840#32 (k0_off3_inb L 5)).view.loc (VT d L) ↦[(outSl L 163840#32 (k0_off3_inb L 5)).view.set]{fullShare} f)
        ∗ ((outSl L 196608#32 (k0_off3_inb L 6)).view.loc (VT d L) ↦[(outSl L 196608#32 (k0_off3_inb L 6)).view.set]{fullShare} f)
        ∗ ((outSl L 229376#32 (k0_off3_inb L 7)).view.loc (VT d L) ↦[(outSl L 229376#32 (k0_off3_inb L 7)).view.set]{fullShare} f)
        ∗ ((outSl L 262144#32 (k0_off3_inb L 8)).view.loc (VT d L) ↦[(outSl L 262144#32 (k0_off3_inb L 8)).view.set]{fullShare} f)
        ∗ ((outSl L 294912#32 (k0_off3_inb L 9)).view.loc (VT d L) ↦[(outSl L 294912#32 (k0_off3_inb L 9)).view.set]{fullShare} f)
        ∗ ((outSl L 327680#32 (k0_off3_inb L 10)).view.loc (VT d L) ↦[(outSl L 327680#32 (k0_off3_inb L 10)).view.set]{fullShare} f)
        ∗ ((outSl L 360448#32 (k0_off3_inb L 11)).view.loc (VT d L) ↦[(outSl L 360448#32 (k0_off3_inb L 11)).view.set]{fullShare} f)
        ∗ ((outSl L 393216#32 (k0_off3_inb L 12)).view.loc (VT d L) ↦[(outSl L 393216#32 (k0_off3_inb L 12)).view.set]{fullShare} f)
        ∗ ((outSl L 425984#32 (k0_off3_inb L 13)).view.loc (VT d L) ↦[(outSl L 425984#32 (k0_off3_inb L 13)).view.set]{fullShare} f)) :=
  (bigSep_fourteen _).trans
    (sep_congr (pts_outS (F := F) d L 0 f).symm <|
      sep_congr (pts_outS (F := F) d L 1 f).symm <|
      sep_congr (pts_outS (F := F) d L 2 f).symm <|
      sep_congr (pts_outS (F := F) d L 3 f).symm <|
      sep_congr (pts_outS (F := F) d L 4 f).symm <|
      sep_congr (pts_outS (F := F) d L 5 f).symm <|
      sep_congr (pts_outS (F := F) d L 6 f).symm <|
      sep_congr (pts_outS (F := F) d L 7 f).symm <|
      sep_congr (pts_outS (F := F) d L 8 f).symm <|
      sep_congr (pts_outS (F := F) d L 9 f).symm <|
      sep_congr (pts_outS (F := F) d L 10 f).symm <|
      sep_congr (pts_outS (F := F) d L 11 f).symm <|
      sep_congr (pts_outS (F := F) d L 12 f).symm <|
      (pts_outS (F := F) d L 13 f).symm)

/-! ## The task -/

/-- The task on the vector subcore at grid point `L` of device `d`, from what the launch deals it (its fourteen
    chunks of the flat argument and of the flat result, its own buffers and cells) to what it hands back: the
    argument's chunks unchanged, the result's chunks at the fixed values of the argument. -/
theorem tile_body (hF : (K (F := F)).Facts) (d : Dev nD) (L : grid0.Coords)
    (x1 : Buf (Elt F) (x1Loc d)) (o0 : Buf (Elt F) (o2Loc d))
    (O : CellTallies nD τ sig (HIx 1)) (W : Waits sig (HIx 1)) (hO : ∀ g, O g none = 0) :
    iprop(levAts (K (F := F)).L (K (F := F)).lev ∗ emp
        ∗ ((bigSep Finset.univ fun g : Fin 14 => (x1Loc d ↦[inChunk (inIx L g)]{fullShare} x1 : sProp 𝕄))
           ∗ (bigSep Finset.univ fun g : Fin 14 => (o2Loc d ↦[outChunk (outIx L g)]{fullShare} o0 : sProp 𝕄)))
        ∗ scopedBufs (VT d L) ∗ scopedSems0 (VT d L) ∗ owes (VT d L) O W)
      ⊢ wp frame (wpE (defs₀ (F := F)) 𝒱₀ (VT d L) none) Set.univ
          (cc0_k L (Memref.whole main_v1_scv) (Memref.isWhole_whole _) (Memref.whole main_v2_scv) (Memref.isWhole_whole _)
            (Memref.whole cc0_scratch0) (Memref.isWhole_whole _) (Memref.whole cc0_scratch1) (Memref.isWhole_whole _)
            cc0_scratch2 cc0_scratch3 cc0_scratch4 cc0_scratch5)
          fun _ => (iprop(((bigSep Finset.univ fun g : Fin 14 => (x1Loc d ↦[inChunk (inIx L g)]{fullShare} x1 : sProp 𝕄))
              ∗ (bigSep Finset.univ fun g : Fin 14 => (o2Loc d ↦[outChunk (outIx L g)]{fullShare} scOut x1 : sProp 𝕄)))
            ∗ scopedBufs (VT d L) ∗ scopedSems0 (VT d L)
            ∗ ∃ W', ⌜∀ p ∈ W', p ∈ W ∨ p.2 = none ∨ p.2 = some (0 : Fin 1)⌝ ∗ owes (VT d L) O W') : sProp 𝕄) := by
  rw [(K (F := F)).scopedBufs_V hF d (cV L) (jV L), SparseCore.Cfg.scopedSems0_V (Val := Elt F) d (cV L) (jV L), ownSems0_V, ownBufs_V,
    inChunks_eq d L x1, outChunks_eq d L o0, outChunks_eq d L (scOut x1)]
  iintro ⟨#Hlv, -, ⟨⟨Hi0, Hi1, Hi2, Hi3, Hi4, Hi5, Hi6, Hi7, Hi8, Hi9, Hi10, Hi11, Hi12, Hi13⟩, ⟨Ho0, Ho1, Ho2, Ho3, Ho4, Ho5, Ho6, Ho7, Ho8, Ho9, Ho10, Ho11, Ho12, Ho13⟩⟩, ⟨⟨%g0, HG⟩, ⟨%g1, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HG' := (Entails.of_eq (pts_b0 (F := F) d L _).symm) $$ HG
  ihave HT' := (Entails.of_eq (pts_b1 (F := F) d L _).symm) $$ HT
  iapply (wp_wand_r Idealize.ShloMosaic.frame (wpE (defs₀ (F := F)) 𝒱₀ (VT d L) none) Set.univ)
  isplitl [Hi0 Hi1 Hi2 Hi3 Hi4 Hi5 Hi6 Hi7 Hi8 Hi9 Hi10 Hi11 Hi12 Hi13 Ho0 Ho1 Ho2 Ho3 Ho4 Ho5 Ho6 Ho7 Ho8 Ho9 Ho10 Ho11 Ho12 Ho13 HG' HT' HC HO]
  · iapply (tile_run d L x1 o0 O W g0 g1)
    isplitr; · iexact Hmw
    isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    isplitl [Hi8]; · iexact Hi8
    isplitl [Hi9]; · iexact Hi9
    isplitl [Hi10]; · iexact Hi10
    isplitl [Hi11]; · iexact Hi11
    isplitl [Hi12]; · iexact Hi12
    isplitl [Hi13]; · iexact Hi13
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [HG']; · iexact HG'
    isplitl [HT']; · iexact HT'
    isplitl [HC]; · iexact HC
    iexact HO
  iintro %_ ⟨Hi0, Hi1, Hi2, Hi3, Hi4, Hi5, Hi6, Hi7, Hi8, Hi9, Hi10, Hi11, Hi12, Hi13, Ho0, Ho1, Ho2, Ho3, Ho4, Ho5, Ho6, Ho7, Ho8, Ho9, Ho10, Ho11, Ho12, Ho13, ⟨%g, HG'⟩, ⟨%t, HT'⟩, HC, ⟨%W', HO⟩⟩
  isplitl [Hi0 Hi1 Hi2 Hi3 Hi4 Hi5 Hi6 Hi7 Hi8 Hi9 Hi10 Hi11 Hi12 Hi13 Ho0 Ho1 Ho2 Ho3 Ho4 Ho5 Ho6 Ho7 Ho8 Ho9 Ho10 Ho11 Ho12 Ho13]
  · isplitl [Hi0 Hi1 Hi2 Hi3 Hi4 Hi5 Hi6 Hi7 Hi8 Hi9 Hi10 Hi11 Hi12 Hi13]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hi8]; · iexact Hi8
      isplitl [Hi9]; · iexact Hi9
      isplitl [Hi10]; · iexact Hi10
      isplitl [Hi11]; · iexact Hi11
      isplitl [Hi12]; · iexact Hi12
      iexact Hi13
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      iexact Ho13
  isplitl [HG' HT' Hbufs]
  · isplitl [HG']; · iexists _; iapply (Entails.of_eq (pts_b0 (F := F) d L _)); iexact HG'
    isplitl [HT']; · iexists _; iapply (Entails.of_eq (pts_b1 (F := F) d L _)); iexact HT'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Cert.Proof.KB

end
-- ==== Proof.KB.Main.lean ====
/-
  The idealized kernel's program, run: @main on the TensorCore reshapes the argument to rows and to a flat
  array, hands the flat array's tail and the result array to the 2 · 16 vector subcores and waits for them,
  runs the row kernel's region over the first 147456 rows, reshapes the subcores' result to rows, joins the
  two and reshapes to the argument's shape. Every weakly fair execution of all threads ends, nothing faults,
  the argument is unchanged and the result is the assembly of the two kernels' result functions.
-/
import proofs.«212535_g38190849196153_cont_8to1_b_1410_19_alg».proof.Proof.KB.Host
import proofs.«212535_g38190849196153_cont_8to1_b_1410_19_alg».proof.Proof.KB.Region
import proofs.«212535_g38190849196153_cont_8to1_b_1410_19_alg».proof.Proof.KB.Tile

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open TcCoe

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element: the handshakes' rounds, the pipeline's staging cells, the copies' counters -/

def u₀ : UU := (initOf (K (F := F)).hsCells (K (F := F)).hsToks, (pipeU₀, 1))

omit [FloatOps F] in
theorem bigSep_emp' {I : Type} (s : Finset I) : (bigSep s fun _ => iprop(emp)) = (iprop(emp) : sProp 𝕄) := bigSep_emp_const s

/-- The pipeline's half of the right factor, in the spelling of its embedding. -/
theorem own_EP : (BI.own (((Emb.inl : Emb UP (UP × Counters)).trans (embR : Emb (UP × Counters) 𝕄)) pipeU₀) : sProp 𝕄)
    ⊢ BI.own (EP (F := F) pipeU₀) := Entails.of_eq rfl

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((pipeU₀, (1 : Counters)) : UP × Counters)) $$ Hu
  icases H with ⟨HH, HR⟩
  ihave H2 := (own_pair_emb (embR : Emb (UP × Counters) 𝕄) pipeU₀ (1 : Counters)) $$ HR
  icases H2 with ⟨HP, -⟩
  ihave HQ := (own_EP (F := F)) $$ HP
  imod (pipe_fund (F := F)) $$ HQ with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What @main leaves the claim: the argument where it was, the result at the assembly of the kernels' results. -/
abbrev FIN (d : Dev nD) : sProp 𝕄 :=
  iprop((aLoc d ↦{fullShare} m (aLoc d)) ∗ (o6Loc d ↦{fullShare} resultOf tcOut scOut (m (aLoc d))))

theorem unscoped_held (d : Dev nD) : (unscopedBufs d (fun b => m ((SparseCore.T d).loc b)) : sProp 𝕄) = held (T d) S8 (V0 m d) := by
  rw [unscopedBufs_eq, held_S8]

/-- After the two reshapes, array by array. -/
theorem held_V2 (d : Dev nD) :
    (held (T d) S8 (V2 m d) : sProp 𝕄)
      = iprop((aLoc d ↦{fullShare} m (aLoc d)) ∗ (x0Loc d ↦{fullShare} x0of m d) ∗ (x1Loc d ↦{fullShare} x1of m d) ∗ (o2Loc d ↦{fullShare} m (o2Loc d))
          ∗ (o3Loc d ↦{fullShare} m (o3Loc d)) ∗ (o4Loc d ↦{fullShare} V2 m d o4') ∗ (o5Loc d ↦{fullShare} V2 m d o5') ∗ (o6Loc d ↦{fullShare} V2 m d o6')) := by
  rw [held_S8, V2_a, V2_x0, V2_x1, V2_o2, V2_o3]

/-- After the two kernels, array by array. -/
theorem held_V3 (d : Dev nD) :
    (held (T d) S8 (V3 m d) : sProp 𝕄)
      = iprop((aLoc d ↦{fullShare} m (aLoc d)) ∗ (x0Loc d ↦{fullShare} x0of m d) ∗ (x1Loc d ↦{fullShare} x1of m d) ∗ (o2Loc d ↦{fullShare} scOut (x1of m d))
          ∗ (o3Loc d ↦{fullShare} tcOut (x0of m d)) ∗ (o4Loc d ↦{fullShare} V2 m d o4') ∗ (o5Loc d ↦{fullShare} V2 m d o5') ∗ (o6Loc d ↦{fullShare} V2 m d o6')) := by
  rw [held_S8, V3_a, V3_x0, V3_x1, V3_o2, V3_o3, V3_o4, V3_o5, V3_o6]

/-- At the end: the argument and the result. -/
theorem held_V6 (d : Dev nD) : (held (T d) S8 (V6 m d) : sProp 𝕄) ⊢ FIN m d := by
  rw [held_S8, V6_a, V6_o6]
  iintro ⟨Ha, -, -, -, -, -, -, Ho6⟩
  isplitl [Ha]; · iexact Ha
  iexact Ho6

/-- The TensorCore's state after the call holds what it owes (nothing more), to be taken out and put back. -/
theorem tcSt_open (d : Dev nD) :
    ((K (F := F)).tcSt EH d 1 : sProp 𝕄)
      ⊢ iprop(∃ W, ⌜(K (F := F)).WBelow (T d) W (8 * 1)⌝ ∗ owes (T d) ((K (F := F)).Otc d 1) W
          ∗ (∀ W', ⌜(K (F := F)).WBelow (T d) W' (8 * 1)⌝ -∗ owes (T d) ((K (F := F)).Otc d 1) W' -∗ (K (F := F)).tcSt EH d 1)) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr
    · ipureintro; exact hW'
    · iexact HO'
  iexact Hrest

theorem tcSt_after (d : Dev nD) : ((K (F := F)).tcSt EH d ((0 : Fin 1).val + 1) : sProp 𝕄) ⊢ (K (F := F)).tcSt EH d 1 := Entails.of_eq rfl

theorem Otc_one_none (d : Dev nD) : ∀ g, (K (F := F)).Otc d 1 g none = 0 := by
  intro g; rw [(K (F := F)).Otc_end d (le_refl 1)]; rfl

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave Hlev := ((K (F := F)).ctx_levAts κ) $$ Hctx
  -- the two reshapes
  iapply (wp_hlo_within 𝒱 (SparseCore.T d) none Set.univ (op := op0) (S := S8) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S8) h1 (V := V1 m d)) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha, Hx0, Hx1, Ho2, Ho3, Ho4, Ho5, Ho6⟩
  -- the subcores' call: the flat argument's tail and the result array out, and back
  ihave Hx1' := (x1_split (F := F) d (x1of m d)).1 $$ Hx1
  icases Hx1' with ⟨Hx1t, Hx1r⟩
  iapply ((K (F := F)).wp_run (D (F := F)) 𝒱 (EH := EH) (P := P m) κ d 0) $$ [Hst Hx1t Ho2 Hb Ha Hx0 Hx1r Ho3 Ho4 Ho5 Ho6 HG Hlev]
  isplitr; · iexact Hctx
  isplitl [Hst]; · iexact Hst
  isplitl [Hx1t Ho2]
  · rw [st0_eq]
    isplitl [Hx1t]; · iexact Hx1t
    iexact Ho2
  iintro ⟨Hst, Hdn⟩
  ihave Hdn' := (Entails.of_eq (dn0_eq (F := F) m d)) $$ Hdn
  icases Hdn' with ⟨Hx1t, Ho2⟩
  ihave Hx1 := (x1_split (F := F) d (x1of m d)).2 $$ [Hx1t Hx1r]
  · isplitl [Hx1t]; · iexact Hx1t
    iexact Hx1r
  -- the row kernel's region
  ihave Hst1 := (tcSt_after (F := F) d) $$ Hst
  ihave Hst' := (tcSt_open (F := F) d) $$ Hst1
  icases Hst' with ⟨%W, %hW, HO, Hback⟩
  iapply ((K (F := F)).wp_liftProg (D (F := F)) 𝒱 (SparseCore.T d) Set.univ none (Prog.lift (.customCall (Pipeline.entry (0 : Fin 1)) ())) _)
  iapply (wp_wand_r Idealize.ShloMosaic.frame (wpE (D (F := F)) 𝒱 (SparseCore.T d) none) Set.univ)
  isplitl [Hlev HG Hb Hx0 Ho3 HO]
  · iapply (region_wp (F := F) d (x0of m d) (m (o3Loc d)) ((K (F := F)).Otc d 1) W (Otc_one_none d))
    isplitl [Hlev]; · iexact Hlev
    isplitl [HG]; · iexact HG
    isplitl [Hb]; · iexact Hb
    isplitl [Hx0]; · iexact Hx0
    isplitl [Ho3]; · iexact Ho3
    iexact HO
  iintro %_ ⟨Hb, Hx0, Ho3, ⟨%W', %hW', HO⟩⟩
  ihave Hst := Hback $$ %W' %(fun p hp => by
      rcases hW' p hp with h | h
      · exact hW p h
      · rw [h, (K (F := F)).lev_none]; exact Nat.zero_le _) HO
  -- the three operations after the kernels
  ihave Hheld := (Entails.of_eq (held_V3 (F := F) m d).symm) $$ [Ha Hx0 Hx1 Ho2 Ho3 Ho4 Ho5 Ho6]
  · isplitl [Ha]; · iexact Ha
    isplitl [Hx0]; · iexact Hx0
    isplitl [Hx1]; · iexact Hx1
    isplitl [Ho2]; · iexact Ho2
    isplitl [Ho3]; · iexact Ho3
    isplitl [Ho4]; · iexact Ho4
    isplitl [Ho5]; · iexact Ho5
    iexact Ho6
  iapply (wp_hlo_within 𝒱 (SparseCore.T d) none Set.univ (op := op4) (S := S8) h4 (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S8) h5 (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S8) h6 (V := V5 m d)) $$ [Hb Hheld]
  · isplitl [Hb]; · iexact Hb
    iexact Hheld
  iintro ⟨Hb, Hheld⟩
  rw [wp_ret]; imodintro; imodintro
  isplitl [Hst]; · iexact Hst
  iapply (held_V6 (F := F) m d); iexact Hheld

/-! ## The subcores' obligation -/

theorem defs₀_vector (c : Fin τ.nSC) (s : Fin τ.nSub) :
    defs₀ (F := F) (.scVector c s) 0 ()
      = SparseCore.onTile hcore0 hsub0 (fun c s => cc0_k (coordsV c s)
          (Memref.whole main_v1_scv) (Memref.isWhole_whole _) (Memref.whole main_v2_scv) (Memref.isWhole_whole _)
          (Memref.whole cc0_scratch0) (Memref.isWhole_whole _) (Memref.whole cc0_scratch1) (Memref.isWhole_whole _)
          cc0_scratch2 cc0_scratch3 cc0_scratch4 cc0_scratch5) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body hF d (coordsV ⟨_, hci.1⟩ ⟨_, hci.2⟩) (x1of m d) (m (o2Loc d)) O W hO

/-! ## Reading the claim off the final memory -/

def fq (d : Dev nD) (s' : Phys nD τ sig (Elt F)) : Prop :=
  s'.mem.mem (o6Loc d) = resultOf tcOut scOut (m (aLoc d)) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := o6Loc d) (I := Finset.univ) (q := fullShare) (f := resultOf tcOut scOut (m (aLoc d)))) $$ [HSI Ho]
  · isplitl [HSI] <;> iassumption
  icases H with %h2
  ipureintro
  have e1 : s'.mem.mem (aLoc d) = m (aLoc d) := funext fun (i : Idx (aLoc d)) => h1 i (by simp)
  have e2 : s'.mem.mem (o6Loc d) = resultOf tcOut scOut (m (aLoc d)) := funext fun (i : Idx (o6Loc d)) => h2 i (by simp)
  exact ⟨e2, e1⟩

/-! ## The program's run -/

/-- On every device the result array ends at the assembly of the two kernels' results of the argument, and the argument
    array where it was. -/
def QC : PUnit × MemSt nD τ sig (Elt F) → Prop := fun r => ∀ c : Dev nD,
  r.2.mem (o6Loc c) = resultOf tcOut scOut (m (aLoc c)) ∧ r.2.mem (aLoc c) = m (aLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => pipeGhost d) (FIN m) (u₀ (F := F)) (sep_elim_left.trans (hu₀ m)) (hmain m ρ) (fq m) (hfin m) (QC m) (fun _ h => h)

end Cert.Proof.KB

end
-- ==== Proof.RefRun.lean ====
/-
  The reference program's run, read back.

  The reference's entry function is a straight line of forty-three host operations once its three helper
  functions (the index normalisation's select, the take, the rectifier) are unfolded at their calls: each
  operation writes one buffer with a pure function of buffers written before it. So every weakly fair
  execution terminates, and each buffer ends at the fold of those functions over the launch contents.
  This module lists the operations, names the composed term at the result buffer (`out`, a function of
  the argument array alone) and states the run with the result at `out` of the argument and the
  argument unchanged.
-/
import proofs.«212535_g38190849196153_cont_8to1_b_1410_19_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The entry function's forty-three operations, in order: its two literal tables; the take's twenty-three
    (the index normalisation, the in-range mask, the gather, the masked select); the bound's broadcast, the
    subtraction; the rectifier's three; the bound's broadcast again, the addition; the index normalisation
    once more; the scatter. -/
abbrev ops : List (HloOp τ sig (Elt F)) :=
  [ StableHlo.nullary main_c (fun i => lit0 (S3.rowMajor i)),
    StableHlo.nullary main_cst (fun i => FloatOps.ofBits .f32 (lit1 (S3.rowMajor i))),
    StableHlo.TRef.nullary main_call0.c (constantI S_ 32 0#32),
    StableHlo.TRef.unary main_call0.c main_call0.v0 (broadcastInDim S3 ![] bcast_S_S3),
    StableHlo.TRef.binary (.of main_c) main_call0.v0 main_call0.v1 (cmpi .slt),
    StableHlo.TRef.nullary main_call0.c_0 (constantI S_ 32 128#32),
    StableHlo.TRef.unary main_call0.c_0 main_call0.v2 (broadcastInDim S3 ![] bcast_S_S3),
    StableHlo.TRef.binary (.of main_c) main_call0.v2 main_call0.v3 addi,
    StableHlo.TRef.ternary main_call0.v1 main_call0.v3 (.of main_c) main_call0.call0.v0 select,
    StableHlo.TRef.unary main_call0.call0.v0 main_call0.v5 (broadcastInDim S3x1 ![0] bcast_S3_S3x1_0),
    StableHlo.TRef.nullary main_call0.c_1 (constantI S1 32 127#32),
    StableHlo.TRef.nullary main_call0.c_2 (constantI S_ 32 0#32),
    StableHlo.TRef.unary main_call0.c_2 main_call0.v6 (broadcastInDim S3x1 ![] bcast_S_S3x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S3x1 ![0, 1] bcast_S1x1_S3x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S3x1_S3_d1 h_S_),
    StableHlo.TRef.binary (.of main_arg0) main_call0.v5 main_call0.v13 (fun x i => Host.gather gather_S1x2x131072x128_S3x1_S1x2x131072x3_012_3_n_n_3_1_121310721 x i),
    StableHlo.TRef.unary main_call0.v12 main_call0.v14 (broadcastInDim S1x2x131072x3 ![3] bcast_S3_S1x2x131072x3_3),
    StableHlo.TRef.nullary main_call0.cst (constant S_ .f32 0x7FC00000#32),
    StableHlo.TRef.unary main_call0.cst main_call0.v15 (broadcastInDim S1x2x131072x3 ![] bcast_S_S1x2x131072x3),
    StableHlo.TRef.ternary main_call0.v14 main_call0.v13 main_call0.v15 main_call0.v16 select,
    StableHlo.unary main_cst main_v1 (broadcastInDim S1x1x1x3 ![3] bcast_S3_S1x1x1x3_3 : (⟨S3, .f32⟩ : BufTy).Contents (Elt F) → (⟨S1x1x1x3, .f32⟩ : BufTy).Contents (Elt F)),
    StableHlo.unary main_v1 main_v2 (broadcastInDim S1x2x131072x3 ![0, 1, 2, 3] bcast_S1x1x1x3_S1x2x131072x3_0_1_2_3 : (⟨S1x1x1x3, .f32⟩ : BufTy).Contents (Elt F) → (⟨S1x2x131072x3, .f32⟩ : BufTy).Contents (Elt F)),
    StableHlo.binary main_v0 main_v2 main_v3 (subf : (⟨S1x2x131072x3, .f32⟩ : BufTy).Contents (Elt F) → (⟨S1x2x131072x3, .f32⟩ : BufTy).Contents (Elt F) → (⟨S1x2x131072x3, .f32⟩ : BufTy).Contents (Elt F)),
    StableHlo.TRef.nullary main_call1.cst (constant S_ .f32 0x00000000#32),
    StableHlo.TRef.unary main_call1.cst main_call1.v0 (broadcastInDim S1x2x131072x3 ![] bcast_S_S1x2x131072x3),
    StableHlo.TRef.binary (.of main_v3) main_call1.v0 main_call1.v1 maximumf,
    StableHlo.unary main_cst main_v5 (broadcastInDim S1x1x1x3 ![3] bcast_S3_S1x1x1x3_3 : (⟨S3, .f32⟩ : BufTy).Contents (Elt F) → (⟨S1x1x1x3, .f32⟩ : BufTy).Contents (Elt F)),
    StableHlo.unary main_v5 main_v6 (broadcastInDim S1x2x131072x3 ![0, 1, 2, 3] bcast_S1x1x1x3_S1x2x131072x3_0_1_2_3 : (⟨S1x1x1x3, .f32⟩ : BufTy).Contents (Elt F) → (⟨S1x2x131072x3, .f32⟩ : BufTy).Contents (Elt F)),
    StableHlo.binary main_v4 main_v6 main_v7 (addf : (⟨S1x2x131072x3, .f32⟩ : BufTy).Contents (Elt F) → (⟨S1x2x131072x3, .f32⟩ : BufTy).Contents (Elt F) → (⟨S1x2x131072x3, .f32⟩ : BufTy).Contents (Elt F)),
    StableHlo.nullary main_c_0 (constantI S_ 32 0#32),
    StableHlo.unary main_c_0 main_v8 (broadcastInDim S3 ![] bcast_S_S3 : (⟨S_, .i32⟩ : BufTy).Contents (Elt F) → (⟨S3, .i32⟩ : BufTy).Contents (Elt F)),
    StableHlo.binary main_c main_v8 main_v9 (cmpi .slt : (⟨S3, .i32⟩ : BufTy).Contents (Elt F) → (⟨S3, .i32⟩ : BufTy).Contents (Elt F) → (⟨S3, .i1⟩ : BufTy).Contents (Elt F)),
    StableHlo.nullary main_c_1 (constantI S_ 32 128#32),
    StableHlo.unary main_c_1 main_v10 (broadcastInDim S3 ![] bcast_S_S3 : (⟨S_, .i32⟩ : BufTy).Contents (Elt F) → (⟨S3, .i32⟩ : BufTy).Contents (Elt F)),
    StableHlo.binary main_c main_v10 main_v11 (addi : (⟨S3, .i32⟩ : BufTy).Contents (Elt F) → (⟨S3, .i32⟩ : BufTy).Contents (Elt F) → (⟨S3, .i32⟩ : BufTy).Contents (Elt F)),
    StableHlo.ternary main_v9 main_v11 main_c main_v12 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v12 main_v13 (broadcastInDim S3x1 ![0] bcast_S3_S3x1_0 : (⟨S3, .i32⟩ : BufTy).Contents (Elt F) → (⟨S3x1, .i32⟩ : BufTy).Contents (Elt F)),
    StableHlo.ternary main_arg0 main_v13 main_v7 main_v14 ((fun x i u => Host.scatter scatter_S1x2x131072x128_S3x1_S1x2x131072x3_012_3_3_1 (fun _ b => b) x i u) : (⟨S1x2x131072x128, .f32⟩ : BufTy).Contents (Elt F) → (⟨S3x1, .i32⟩ : BufTy).Contents (Elt F) → (⟨S1x2x131072x3, .f32⟩ : BufTy).Contents (Elt F) → (⟨S1x2x131072x128, .f32⟩ : BufTy).Contents (Elt F)) ]

-- forty-three binds re-associated
set_option maxRecDepth 2048 in
/-- The entry function is that straight line: the helper functions' definitions unfolded at their calls,
    both sides are one chain of steps once sequencing is re-associated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩

/-! ## The composed term at the result -/

/-- The column table `[3, 17, 42]`. -/
def cols : IVec S3 32 := fun i => lit0 (S3.rowMajor i)

/-- The bounds table: the three columns' lower bounds as float words. -/
def bnds : FVec F S3 .f32 := fun i => FloatOps.ofBits .f32 (lit1 (S3.rowMajor i))

/-- The column table with negative entries moved up by the row length 128. -/
def colsN : IVec S3 32 :=
  select (cmpi .slt cols (broadcastInDim S3 ![] bcast_S_S3 (constantI S_ 32 0#32)))
    (addi cols (broadcastInDim S3 ![] bcast_S_S3 (constantI S_ 32 128#32))) cols

/-- That table as a column of one-component start indices. -/
def colsIx : IVec S3x1 32 := broadcastInDim S3x1 ![0] bcast_S3_S3x1_0 colsN

/-- The in-range mask of the take: per table entry, `0 ≤ column ≤ 127`. -/
def inRange : IVec S3 1 :=
  Host.reduce IntOp.andi
    (andi (cmpi .sge colsIx (broadcastInDim S3x1 ![] bcast_S_S3x1 (constantI S_ 32 0#32)))
      (cmpi .sle colsIx (broadcastInDim S3x1 ![0, 1] bcast_S1x1_S3x1_0_1
        (broadcastInDim S1x1 ![1] bcast_S1_S1x1_1 (constantI S1 32 127#32)))))
    (constantI S_ 1 1#1) reducesTo_S3x1_S3_d1 h_S_

/-- The take: the three columns gathered, entries out of range replaced by the fill word. -/
def taken (x : FVec F S1x2x131072x128 .f32) : FVec F S1x2x131072x3 .f32 :=
  select (broadcastInDim S1x2x131072x3 ![3] bcast_S3_S1x2x131072x3_3 inRange)
    (Host.gather gather_S1x2x131072x128_S3x1_S1x2x131072x3_012_3_n_n_3_1_121310721 x colsIx)
    (broadcastInDim S1x2x131072x3 ![] bcast_S_S1x2x131072x3 (constant S_ .f32 0x7FC00000#32))

/-- The bounds broadcast along the three leading axes. -/
def bndsB : FVec F S1x2x131072x3 .f32 :=
  broadcastInDim S1x2x131072x3 ![0, 1, 2, 3] bcast_S1x1x1x3_S1x2x131072x3_0_1_2_3
    (broadcastInDim S1x1x1x3 ![3] bcast_S3_S1x1x1x3_3 bnds)

/-- The three columns bounded: subtract the bound, rectify, add the bound back. -/
def bounded (x : FVec F S1x2x131072x128 .f32) : FVec F S1x2x131072x3 .f32 :=
  addf (maximumf (subf (taken x) bndsB)
      (broadcastInDim S1x2x131072x3 ![] bcast_S_S1x2x131072x3 (constant S_ .f32 0x00000000#32)))
    bndsB

/-- The result: the bounded columns written back over the argument at the table's columns. -/
def out (x : FVec F S1x2x131072x128 .f32) : FVec F S1x2x131072x128 .f32 :=
  Host.scatter scatter_S1x2x131072x128_S3x1_S1x2x131072x3_012_3_3_1 (fun _ b => b) x colsIx (bounded x)

attribute [local irreducible] Host.reduce Host.gather Host.scatter broadcastInDim select cmpi addi andi subf addf maximumf constant constantI in
set_option maxRecDepth 8192 in
/-- The fold at the result buffer is `out` of the argument's contents: each operation's result at the buffer
    it writes, read through the chain. The gather, the scatter and the reduction stay folded. -/
theorem out_eq (V : Valuation τ sig (Elt F)) :
    after ops V (main_v14 : DevRef τ sig) = out (V (main_arg0 : DevRef τ sig)) := by
  after_results_simp
  rfl

set_option maxRecDepth 8192 in
/-- No operation writes the argument's buffer. -/
theorem arg0_eq (V : Valuation τ sig (Elt F)) :
    after ops V (main_arg0 : DevRef τ sig) = V (main_arg0 : DevRef τ sig) := by
  after_results_simp

/-- From any memory with zero counters: every weakly fair execution of the entry function terminates with the
    result buffer at `out` of the argument's launch contents and the argument unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = out (m ((c.tc : Thread nD τ).loc main_arg0))
      ∧ r.2.mem ((c.tc : Thread nD τ).loc main_arg0) = m ((c.tc : Thread nD τ).loc main_arg0) :=
  (θ_run defs _ _).mono (fun _ h c => ⟨(h c main_v14).trans (out_eq _), (h c main_arg0).trans (arg0_eq _)⟩)
    (run_seq scopedRefs_eq scopedSems_eq defs main (fun _ => ops) main_eq (fun _ => ops_sub) m ρ)

end Cert.Proof.Ref

end
-- ==== Proof.RefValue.lean ====
/-
  The reference's result is the bound function of the argument.

  The run leaves the result at `out x`: the argument `x` with its columns 3, 17 and 42 overwritten by
  `max (x − c) 0 + c`, `c` the column's bound. This module reads `out x` at an index and shows it is
  `max (x i) (bound of i's column)`, the specification's `G`.
-/
import proofs.«212535_g38190849196153_cont_8to1_b_1410_19_alg».proof.Proof.RefRun
import proofs.«212535_g38190849196153_cont_8to1_b_1410_19_alg».proof.Proof.Spec
import Idealize.ShloMosaic.Lib.ValueIdx
import Idealize.ShloMosaic.PureOps.Ideal.Laws

noncomputable section

namespace Cert.Proof.Ref

open Cert.ReferenceIdeal Cert.ReferenceIdeal.Gen Idealize.ShloMosaic Idealize.ShloMosaic.ValueIdx Idealize.ShloMosaic.TcCoe Idealize.SL.Sem

/-! ## A left fold of overwrites, read at one index -/

section Fold
variable {ι κ α : Type}

/-- A fold of steps that each change the function only at the index `g n` names leaves an index no step names
    as it was. -/
theorem foldl_miss (step : (ι → α) → κ → ι → α) (g : κ → Option ι)
    (hmiss : ∀ r n i, g n ≠ some i → step r n i = r i)
    (L : List κ) (r : ι → α) (i : ι) (h : ∀ n ∈ L, g n ≠ some i) :
    L.foldl step r i = r i := by
  induction L generalizing r with
  | nil => rfl
  | cons n L ih =>
    rw [List.foldl_cons, ih _ (fun m hm => h m (List.mem_cons_of_mem _ hm))]
    exact hmiss r n i (h n List.mem_cons_self)

/-- If exactly one step of the list names the index, and a step that names an index puts `upd n` there, the
    fold holds that step's value at the index. -/
theorem foldl_hit (step : (ι → α) → κ → ι → α) (g : κ → Option ι) (upd : κ → α)
    (hmiss : ∀ r n i, g n ≠ some i → step r n i = r i)
    (hhit : ∀ r n i, g n = some i → step r n i = upd n)
    (L : List κ) (hL : L.Nodup) (r : ι → α) (i : ι) (n₀ : κ) (hn₀ : n₀ ∈ L) (hg : g n₀ = some i)
    (huniq : ∀ n ∈ L, g n = some i → n = n₀) :
    L.foldl step r i = upd n₀ := by
  induction L generalizing r with
  | nil => exact absurd hn₀ List.not_mem_nil
  | cons n L ih =>
    rw [List.foldl_cons]
    have hnd := List.nodup_cons.mp hL
    rcases List.mem_cons.mp hn₀ with rfl | hmem
    · rw [foldl_miss step g hmiss L _ i (fun m hm hgm => hnd.1 (huniq m (List.mem_cons_of_mem _ hm) hgm ▸ hm))]
      exact hhit r n₀ i hg
    · exact ih hnd.2 _ hmem (fun m hm => huniq m (List.mem_cons_of_mem _ hm))

end Fold

/-! ## An overwriting scatter, read at one index -/

section Scatter
variable {s si u : Shape} {w : Nat} {α : Type}

/-- An index no update lands at keeps the operand's element. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  refine foldl_miss _ (fun n => d.resultIdx? (u.rowMajor.symm n) idx) ?_ _ x i (fun n _ => h _)
  intro r n i' hne
  replace hne : d.resultIdx? (u.rowMajor.symm n) idx ≠ some i' := hne
  beta_reduce
  cases hg' : d.resultIdx? (u.rowMajor.symm n) idx with
  | none => rfl
  | some i₀ => exact if_neg (fun e => hne (by rw [hg', e]))

/-- An index exactly one update lands at holds that update. -/
theorem scatter_set_hit (d : ScatterDims s si u) (x : s.Idx → α) (idx : IVec si w) (upd : u.Idx → α) (i : s.Idx)
    (j₀ : u.Idx) (hg : d.resultIdx? j₀ idx = some i) (huniq : ∀ j, d.resultIdx? j idx = some i → j = j₀) :
    Host.scatter d (fun _ b => b) x idx upd i = upd j₀ := by
  unfold Host.scatter
  refine (foldl_hit _ (fun n => d.resultIdx? (u.rowMajor.symm n) idx) (fun n => upd (u.rowMajor.symm n)) ?_ ?_
    (List.finRange u.numel) (List.nodup_finRange _) x i (u.rowMajor j₀) (List.mem_finRange _) ?_ ?_).trans ?_
  · intro r n i' hne
    replace hne : d.resultIdx? (u.rowMajor.symm n) idx ≠ some i' := hne
    beta_reduce
    cases hg' : d.resultIdx? (u.rowMajor.symm n) idx with
    | none => rfl
    | some i₀ => exact if_neg (fun e => hne (by rw [hg', e]))
  · intro r n i' hgn
    replace hgn : d.resultIdx? (u.rowMajor.symm n) idx = some i' := hgn
    beta_reduce
    cases hg' : d.resultIdx? (u.rowMajor.symm n) idx with
    | none => exact absurd (hgn.symm.trans hg') (Option.some_ne_none _)
    | some i₀ =>
      have e : i₀ = i' := Option.some.inj (hg'.symm.trans hgn)
      subst e
      exact if_pos rfl
  · show d.resultIdx? (u.rowMajor.symm (u.rowMajor j₀)) idx = some i
    rw [Equiv.symm_apply_apply]; exact hg
  · intro n _ hn
    have e := huniq _ hn
    rw [← e, Equiv.apply_symm_apply]
  · show upd (u.rowMajor.symm (u.rowMajor j₀)) = upd j₀
    rw [Equiv.symm_apply_apply]

end Scatter

/-! ## The column table -/

/-- The table's entries as naturals: 3, 17, 42. -/
def colN (k : ℕ) : ℕ := if k = 0 then 3 else if k = 1 then 17 else 42

theorem colN_lt (k : ℕ) : colN k < 128 := by unfold colN; split_ifs <;> omega

/-- The table's entries as columns of the 128-wide row. -/
def colF (k : Fin 3) : Fin 128 := ⟨colN k.val, colN_lt _⟩

theorem colF_injective : Function.Injective colF := by decide

/-- The normalised table read at a start index: no entry is negative, so the entries stand as they are; read
    signed, entry `k` is `colN k`. -/
theorem colsIx_toInt : ∀ q : S3x1.Idx, (colsIx q).toInt = (colN (q 0).val : ℤ) := by decide

/-- Every entry of the table is a column of the row: the take's mask is all ones. -/
theorem inRange_eq : ∀ i : S3.Idx, inRange i = 1#1 := by decide

/-! ## Where the scatter's updates land, and what the gather reads -/

/-- The scatter's dimension numbers. -/
abbrev dS : ScatterDims S1x2x131072x128 S3x1 S1x2x131072x3 := scatter_S1x2x131072x128_S3x1_S1x2x131072x3_012_3_3_1
/-- The gather's dimension numbers. -/
abbrev dG : GatherDims S1x2x131072x128 S3x1 S1x2x131072x3 := gather_S1x2x131072x128_S3x1_S1x2x131072x3_012_3_n_n_3_1_121310721

section Land
variable (a : Fin 1) (b : Fin 2) (c : Fin 131072) (k : Fin 3)

theorem sc_start0 : dS.start (ix4 a b c k) colsIx 0 = 0 := rfl
theorem sc_start1 : dS.start (ix4 a b c k) colsIx 1 = 0 := rfl
theorem sc_start2 : dS.start (ix4 a b c k) colsIx 2 = 0 := rfl
theorem sc_window0 : dS.window (ix4 a b c k) 0 = a.val := rfl
theorem sc_window1 : dS.window (ix4 a b c k) 1 = b.val := rfl
theorem sc_window2 : dS.window (ix4 a b c k) 2 = c.val := rfl
theorem sc_window3 : dS.window (ix4 a b c k) 3 = 0 := rfl

theorem sc_start3 : dS.start (ix4 a b c k) colsIx 3 = (colN k.val : ℤ) := by
  unfold ScatterDims.start
  rw [dif_pos (by decide : (3 : Fin S1x2x131072x128.rank) ∈ dS.scatterDimsToOperandDims), colsIx_toInt]
  rfl

end Land

section Land2
variable (a : Fin 1) (b : Fin 2) (c : Fin 131072) (k : Fin 3)

/-- Start plus window coordinate, axis by axis: the update at `(a, b, c, k)` lands at `(a, b, c, colF k)`. -/
theorem sc_coord (e : Fin 4) :
    dS.start (ix4 a b c k) colsIx e + (dS.window (ix4 a b c k) e : ℤ)
      = (((ix4 a b c (colF k) : S1x2x131072x128.Idx) e).val : ℤ) :=
  match e with
  | ⟨0, _⟩ => by
    show dS.start (ix4 a b c k) colsIx 0 + ((dS.window (ix4 a b c k) 0 : ℕ) : ℤ) = ((a.val : ℕ) : ℤ)
    rw [sc_start0, sc_window0, zero_add]
  | ⟨1, _⟩ => by
    show dS.start (ix4 a b c k) colsIx 1 + ((dS.window (ix4 a b c k) 1 : ℕ) : ℤ) = ((b.val : ℕ) : ℤ)
    rw [sc_start1, sc_window1, zero_add]
  | ⟨2, _⟩ => by
    show dS.start (ix4 a b c k) colsIx 2 + ((dS.window (ix4 a b c k) 2 : ℕ) : ℤ) = ((c.val : ℕ) : ℤ)
    rw [sc_start2, sc_window2, zero_add]
  | ⟨3, _⟩ => by
    show dS.start (ix4 a b c k) colsIx 3 + ((dS.window (ix4 a b c k) 3 : ℕ) : ℤ) = ((colN k.val : ℕ) : ℤ)
    rw [sc_start3, sc_window3, Nat.cast_zero, add_zero]

theorem sc_land : dS.resultIdx? (ix4 a b c k) colsIx = some (ix4 a b c (colF k)) := by
  have hb : ∀ e : Fin 4, 0 ≤ dS.start (ix4 a b c k) colsIx e + (dS.window (ix4 a b c k) e : ℤ)
      ∧ dS.start (ix4 a b c k) colsIx e + (dS.window (ix4 a b c k) e : ℤ) < (S1x2x131072x128.size e : ℤ) := by
    intro e
    rw [sc_coord a b c k e]
    exact ⟨Int.natCast_nonneg _, Int.ofNat_lt.mpr ((ix4 a b c (colF k) : S1x2x131072x128.Idx) e).isLt⟩
  unfold ScatterDims.resultIdx?
  split
  · refine congrArg some (funext fun e => Fin.ext ?_)
    show (dS.start (ix4 a b c k) colsIx e + (dS.window (ix4 a b c k) e : ℤ)).toNat = _
    rw [sc_coord a b c k e]
    exact Int.toNat_natCast _
  · next h => exact absurd hb h

end Land2

/-! ## The gather, the take, the bounds and the bounded columns, read at an index -/

section Read
variable (a : Fin 1) (b : Fin 2) (c : Fin 131072) (k : Fin 3)

theorem g_start0 : dG.start (ix4 a b c k) colsIx 0 = 0 := rfl
theorem g_start1 : dG.start (ix4 a b c k) colsIx 1 = 0 := rfl
theorem g_start2 : dG.start (ix4 a b c k) colsIx 2 = 0 := rfl
theorem g_batch (e : Fin 4) : dG.batchCoord (ix4 a b c k) e = 0 :=
  GatherDims.batchCoord_eq_zero _ _ _ List.not_mem_nil
theorem g_off0 : dG.offCoord (ix4 a b c k) 0 = a.val := rfl
theorem g_off1 : dG.offCoord (ix4 a b c k) 1 = b.val := rfl
theorem g_off2 : dG.offCoord (ix4 a b c k) 2 = c.val := rfl
theorem g_off3 : dG.offCoord (ix4 a b c k) 3 = 0 := rfl

/-- On the column axis the gather starts at the table's entry: it is at most 127, so the clamp leaves it. -/
theorem g_start3 : dG.start (ix4 a b c k) colsIx 3 = colN k.val := by
  unfold GatherDims.start
  rw [dif_pos (by decide : (3 : Fin S1x2x131072x128.rank) ∈ dG.startIndexMap), colsIx_toInt]
  show min (Int.toNat ((colN k.val : ℕ) : ℤ)) 127 = colN k.val
  rw [Int.toNat_natCast]
  exact Nat.min_eq_left (by have := colN_lt k.val; omega)

/-- The gather at `(a, b, c, k)` reads the operand at `(a, b, c, colF k)`. -/
theorem gather_read {α : Type} (x : S1x2x131072x128.Idx → α) :
    Host.gather dG x colsIx (ix4 a b c k) = x (ix4 a b c (colF k)) := by
  unfold Host.gather
  refine congrArg x (funext fun e => Fin.ext ?_)
  show dG.start (ix4 a b c k) colsIx e + dG.batchCoord (ix4 a b c k) e + dG.offCoord (ix4 a b c k) e = _
  rw [g_batch, Nat.add_zero]
  match e with
  | ⟨0, _⟩ =>
    show dG.start (ix4 a b c k) colsIx 0 + dG.offCoord (ix4 a b c k) 0 = a.val
    rw [g_start0, g_off0, Nat.zero_add]
  | ⟨1, _⟩ =>
    show dG.start (ix4 a b c k) colsIx 1 + dG.offCoord (ix4 a b c k) 1 = b.val
    rw [g_start1, g_off1, Nat.zero_add]
  | ⟨2, _⟩ =>
    show dG.start (ix4 a b c k) colsIx 2 + dG.offCoord (ix4 a b c k) 2 = c.val
    rw [g_start2, g_off2, Nat.zero_add]
  | ⟨3, _⟩ =>
    show dG.start (ix4 a b c k) colsIx 3 + dG.offCoord (ix4 a b c k) 3 = colN k.val
    rw [g_start3, g_off3, Nat.add_zero]

variable {F : FTy → Type} [FloatOps F]

/-- The take at `(a, b, c, k)` is the argument at `(a, b, c, colF k)`: the mask is set everywhere. -/
theorem taken_read (x : FVec F S1x2x131072x128 .f32) :
    taken x (ix4 a b c k) = x (ix4 a b c (colF k)) := by
  unfold taken
  rw [select_apply]
  have hm : broadcastInDim S1x2x131072x3 ![3] bcast_S3_S1x2x131072x3_3 inRange (ix4 a b c k) = 1#1 := inRange_eq _
  rw [hm, select_one]
  exact gather_read a b c k x

/-- The broadcast bounds at `(a, b, c, k)` are the table's entry `k`. -/
theorem bndsB_read : bndsB (F := F) (ix4 a b c k) = FloatOps.ofBits .f32 (lit1 k) := by
  fin_cases k <;> rfl

end Read

/-! ## The arithmetic: subtract the bound, rectify, add it back -/

/-- For a real bound `r` and any extended real `s`: `max (s − r) 0 + r = max s r`. At `s = −∞` both sides
    are `r`, at `s = +∞` both are `+∞`, and on the reals it is the shift of a maximum. -/
theorem relu_shift (s : EReal) (r : ℝ) : max (s - (r : EReal)) 0 + (r : EReal) = max s (r : EReal) := by
  induction s using EReal.rec with
  | bot => simp
  | coe t =>
    have hm : Monotone Real.toEReal := EReal.coe_strictMono.monotone
    rw [← EReal.coe_sub, ← EReal.coe_zero, ← hm.map_max, ← EReal.coe_add, ← hm.map_max]
    congr 1
    rw [← max_add_add_right, sub_add_cancel, zero_add]
  | top => simp

/-- The first bound's word has an exponent field that is neither all ones nor zero: it denotes a real. -/
theorem bnd0_real : ∃ r : ℝ, Ideal.ofBits .f32 0xBED55555#32 = (r : EReal) := by
  have h1 : ¬ ((0xBED55555#32 : BitVec 32).extractLsb' 23 8).toNat = 2 ^ 8 - 1 := by decide
  have h2 : ¬ ((0xBED55555#32 : BitVec 32).extractLsb' 23 8).toNat = 0 := by decide
  show ∃ r : ℝ, Ideal.ieee 8 23 (0xBED55555#32 : BitVec 32) = (r : EReal)
  unfold Ideal.ieee
  dsimp only
  rw [if_neg h1, if_neg h2]
  exact ⟨_, rfl⟩

/-- A maximum against a bound's word, through the shift: the bound a real. -/
theorem relu_shift_real (s : EReal) (w : EReal) (hw : ∃ r : ℝ, w = (r : EReal)) : max (s - w) 0 + w = max s w := by
  obtain ⟨r, rfl⟩ := hw
  exact relu_shift s r

theorem zero_real : ∃ r : ℝ, Ideal.ofBits .f32 0x00000000#32 = (r : EReal) :=
  ⟨0, by rw [Ideal.ofBits_zero_f32, EReal.coe_zero]⟩

section ReadIdeal
variable (a : Fin 1) (b : Fin 2) (c : Fin 131072) (k : Fin 3) (x : FVec Ideal S1x2x131072x128 .f32)

/-- The bounded columns at `(a, b, c, k)`: the argument at column `colF k`, less the bound, rectified, plus the bound. -/
theorem bounded_read :
    bounded x (ix4 a b c k)
      = max (x (ix4 a b c (colF k)) - Ideal.ofBits .f32 (lit1 k)) 0 + Ideal.ofBits .f32 (lit1 k) := by
  unfold bounded
  rw [addf_apply, maximumf_apply, subf_apply, taken_read, bndsB_read]
  have hz : broadcastInDim S1x2x131072x3 ![] bcast_S_S1x2x131072x3 (constant (F := Ideal) S_ .f32 0x00000000#32) (ix4 a b c k)
      = (0 : EReal) := Ideal.ofBits_zero_f32
  rw [hz]
  rfl

/-- The result at a table column is the bounded column. -/
theorem out_read_hit : out x (ix4 a b c (colF k)) = bounded x (ix4 a b c k) := by
  unfold out
  refine scatter_set_hit dS x colsIx (bounded x) _ (ix4 a b c k) (sc_land a b c k) ?_
  intro j hj
  obtain ⟨a', b', c', k', rfl⟩ : ∃ (a' : Fin 1) (b' : Fin 2) (c' : Fin 131072) (k' : Fin 3), j = ix4 a' b' c' k' :=
    ⟨j 0, j 1, j 2, j 3, eq_ix4 j⟩
  rw [sc_land] at hj
  have e := Option.some.inj hj
  have e0 : a' = a := congrFun e 0
  have e1 : b' = b := congrFun e 1
  have e2 : c' = c := congrFun e 2
  have e3 : colF k' = colF k := congrFun e 3
  rw [e0, e1, e2, colF_injective e3]

/-- The result at any other column is the argument. -/
theorem out_read_miss (q : Fin 128) (hq : ∀ k, colF k ≠ q) : out x (ix4 a b c q) = x (ix4 a b c q) := by
  unfold out
  refine scatter_set_miss dS x colsIx (bounded x) _ ?_
  intro j hj
  obtain ⟨a', b', c', k', rfl⟩ : ∃ (a' : Fin 1) (b' : Fin 2) (c' : Fin 131072) (k' : Fin 3), j = ix4 a' b' c' k' :=
    ⟨j 0, j 1, j 2, j 3, eq_ix4 j⟩
  rw [sc_land] at hj
  exact hq k' (congrFun (Option.some.inj hj) 3)

end ReadIdeal

/-! ## The result is the bound function -/

/-- The reference's result is every entry bounded below by its column's bound. -/
theorem out_eq_G (x : FVec Ideal Cert.Spec.S4 .f32) : out (F := Ideal) x = Cert.Spec.G x := by
  funext i
  obtain ⟨a, b, c, q, rfl⟩ : ∃ (a : Fin 1) (b : Fin 2) (c : Fin 131072) (q : Fin 128), i = ix4 a b c q :=
    ⟨i 0, i 1, i 2, i 3, eq_ix4 i⟩
  show out x (ix4 a b c q) = max (x (ix4 a b c q)) (Cert.Spec.fl q.val)
  by_cases h3 : q.val = 3
  · obtain rfl : q = colF 0 := Fin.ext h3
    rw [out_read_hit, bounded_read]
    show max (x _ - Ideal.ofBits .f32 0xBED55555#32) 0 + Ideal.ofBits .f32 0xBED55555#32 = max (x _) (Cert.Spec.fl 3)
    rw [Cert.Spec.fl_three]
    exact relu_shift_real _ _ bnd0_real
  · by_cases h17 : q.val = 17
    · obtain rfl : q = colF 1 := Fin.ext h17
      rw [out_read_hit, bounded_read]
      show max (x _ - Ideal.ofBits .f32 0x00000000#32) 0 + Ideal.ofBits .f32 0x00000000#32 = max (x _) (Cert.Spec.fl 17)
      rw [Cert.Spec.fl_seventeen]
      exact relu_shift_real _ _ zero_real
    · by_cases h42 : q.val = 42
      · obtain rfl : q = colF 2 := Fin.ext h42
        rw [out_read_hit, bounded_read]
        show max (x _ - Ideal.ofBits .f32 0x00000000#32) 0 + Ideal.ofBits .f32 0x00000000#32 = max (x _) (Cert.Spec.fl 42)
        rw [Cert.Spec.fl_fortytwo]
        exact relu_shift_real _ _ zero_real
      · rw [out_read_miss a b c x q (fun k hk => by
            have hv : colN k.val = q.val := congrArg Fin.val hk
            unfold colN at hv
            split_ifs at hv <;> omega),
          Cert.Spec.fl_other h3 h17 h42, Cert.Spec.max_ninf]

/-! ## The run, with the result named -/

/-- From any memory with zero counters: every weakly fair execution of the reference's entry function terminates
    with the result buffer at the bound function of the argument's launch contents and the argument unchanged. -/
theorem run
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v14)
            = Cert.Spec.G (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run _ _ _).mono (fun _ h c => ⟨(h c).1.trans (out_eq_G _), (h c).2⟩) (run_out m ρ)

end Cert.Proof.Ref

end
-- ==== Proof.lean ====
/-
  The certificate's claim, assembled.

  The three programs. The kernel, in two readings (its words as printed, and over the extended reals),
  reshapes the argument [1, 2, 131072, 128] to 262144 rows of 128, bounds columns 3, 17 and 42 of every row
  below — rows 0 … 147455 in one TensorCore kernel over nine blocks of rows, rows 147456 … 262143 on the
  2 · 16 vector subcores, each moving 14 chunks of 32768 words through two buffers and fixing three
  sixteen-lane slices of every row in place — and joins the two parts. The reference takes the three
  columns out, subtracts the bound, takes the maximum with zero, adds the bound back and writes the
  columns in again.

  The frames: every weakly fair execution of all the threads of a program ends, nothing faulting, with
  the argument array unchanged — for the kernel's two readings the run of `run_main` (the launch of the
  subcores, the region of the row kernel and the host operations around them), for the reference its
  run. Nothing was rewritten between the two readings of the kernel, so that claim is `True`. Over the
  extended reals both results are, entry by entry, the maximum of the argument's entry and its column's
  bound (-∞ off the three columns): the kernel's by the two kernels' result functions joined row-wise,
  the reference's because max (s - c) 0 + c = max s c for a real c.
-/
import proofs.«212535_g38190849196153_cont_8to1_b_1410_19_alg».proof.Defs
import proofs.«212535_g38190849196153_cont_8to1_b_1410_19_alg».proof.Proof.KI.Main
import proofs.«212535_g38190849196153_cont_8to1_b_1410_19_alg».proof.Proof.KI.ResultIdeal
import proofs.«212535_g38190849196153_cont_8to1_b_1410_19_alg».proof.Proof.KB.Main
import proofs.«212535_g38190849196153_cont_8to1_b_1410_19_alg».proof.Proof.RefValue
import proofs.«212535_g38190849196153_cont_8to1_b_1410_19_alg».proof.Proof.Gen.Kernel
import proofs.«212535_g38190849196153_cont_8to1_b_1410_19_alg».proof.Proof.Gen.KernelIdeal
import proofs.«212535_g38190849196153_cont_8to1_b_1410_19_alg».proof.Proof.Gen.ReferenceIdeal
import proofs.«212535_g38190849196153_cont_8to1_b_1410_19_alg».proof.Proof.Gen.Pre_finite_inputs
import Idealize.ShloMosaic.Adequacy
import Idealize.ShloMosaic.Init

noncomputable section

namespace Cert.Proof

open Idealize.ShloMosaic Idealize.SL.Sem

/-- The kernel as printed: it runs to the end and leaves its argument unchanged. -/
theorem frame_kernel : Cert.frame_Kernel (hKernel := Cert.Kernel.Gen.facts) (hPre_finite_inputs := Cert.Pre_finite_inputs.Gen.facts) :=
  fun m ρ _ => (θ_run Cert.Kernel.defs _ _).mono (fun _ h c => (h c).2) (Cert.Proof.KB.run_main (F := Bits) m ρ)

/-- The kernel over the extended reals: likewise. -/
theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.Proof.KI.run_main (F := Ideal) m ρ)

/-- The reference: likewise. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Proof.Ref.run m ρ)

/-- Over the extended reals the two programs end with the same result: the argument bounded below column by column. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.Proof.KI.result_ideal _), (h c).2⟩) (Cert.Proof.KI.run_main (F := Ideal) m ρ)
  · refine (θ_run Cert.ReferenceIdeal.defs _ _).mono (fun _ h c => ⟨?_, (h c).2⟩) (Cert.Proof.Ref.run m' ρ')
    rw [(h c).1, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
